-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v104)) (v1 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_v105) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v165) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S3x64x64 : Shape := ⟨3, ![3, 64, 64]⟩
abbrev S3x64 : Shape := ⟨2, ![3, 64]⟩
abbrev S2000000 : Shape := ⟨1, ![2000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg4 : FVec F S3x64x64 .f32) (main_arg5 : FVec F S3x64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64x64 .f32 := Host.absf main_arg4
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg5
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  main_v28

def fn {F : FTy → Type} [FloatOps F] (main_arg0 : FVec F S100000x64 .f32) (main_arg1 : FVec F S50000x64 .f32) (main_arg2 : FVec F S3x64x64 .f32) (main_arg3 : FVec F S3x64 .f32) (main_arg4 : FVec F S3x64x64 .f32) (main_arg5 : FVec F S3x64 .f32) (main_arg6 : IVec S2000000 32) (main_arg7 : IVec S2000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S3x64x64 .f32 := Host.absf main_arg2
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg3
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg4 main_arg5 main_v13 main_v16
-- ==== Kernel.lean ====
abbrev S100000x64 : Shape := ⟨2, ![100000, 64]⟩
abbrev S50000x64 : Shape := ⟨2, ![50000, 64]⟩
abbrev S3x64x64 : Shape := ⟨3, ![3, 64, 64]⟩
abbrev S3x64 : Shape := ⟨2, ![3, 64]⟩
abbrev S2000000 : Shape := ⟨1, ![2000000]⟩
abbrev S150000 : Shape := ⟨1, ![150000]⟩
abbrev S_ : Shape := ⟨0, ![]⟩
abbrev S4150000 : Shape := ⟨1, ![4150000]⟩
abbrev S4150000x1 : Shape := ⟨2, ![4150000, 1]⟩
abbrev S150000x64 : Shape := ⟨2, ![150000, 64]⟩
abbrev S3x1x64 : Shape := ⟨3, ![3, 1, 64]⟩
abbrev S4150000x64 : Shape := ⟨2, ![4150000, 64]⟩
abbrev S1x64x64 : Shape := ⟨3, ![1, 64, 64]⟩
abbrev S64x64 : Shape := ⟨2, ![64, 64]⟩
abbrev S1x1x64 : Shape := ⟨3, ![1, 1, 64]⟩
abbrev S1x64 : Shape := ⟨2, ![1, 64]⟩
abbrev S3000x64 : Shape := ⟨2, ![3000, 64]⟩
abbrev S3000 : Shape := ⟨1, ![3000]⟩
abbrev S3000x1 : Shape := ⟨2, ![3000, 1]⟩

abbrev nBuf : Space → Nat
  | .hbm => 136
  | .vmem => 42
  | .smem => 0
  | _ => 0

abbrev hbmTy0_0 (i : Nat) : BufTy := match i % 128 with
  | 0 => ⟨S100000x64, .f32⟩
  | 1 => ⟨S50000x64, .f32⟩
  | 2 => ⟨S3x64x64, .f32⟩
  | 3 => ⟨S3x64, .f32⟩
  | 4 => ⟨S3x64x64, .f32⟩
  | 5 => ⟨S3x64, .f32⟩
  | 6 => ⟨S2000000, .i32⟩
  | 7 => ⟨S2000000, .i32⟩
  | 8 => ⟨S150000, .i32⟩
  | 9 => ⟨S_, .i32⟩
  | 10 => ⟨S2000000, .i32⟩
  | 11 => ⟨S2000000, .i32⟩
  | 12 => ⟨S4150000, .i32⟩
  | 13 => ⟨S_, .i32⟩
  | 14 => ⟨S2000000, .i32⟩
  | 15 => ⟨S2000000, .i32⟩
  | 16 => ⟨S4150000, .i32⟩
  | 17 => ⟨S_, .f32⟩
  | 18 => ⟨S4150000, .f32⟩
  | 19 => ⟨S_, .f32⟩
  | 20 => ⟨S150000, .f32⟩
  | 21 => ⟨S4150000x1, .i32⟩
  | 22 => ⟨S150000, .f32⟩
  | 23 => ⟨S_, .f32⟩
  | 24 => ⟨S150000, .f32⟩
  | 25 => ⟨S150000, .f32⟩
  | 26 => ⟨S150000, .f32⟩
  | 27 => ⟨S_, .i32⟩
  | 28 => ⟨S4150000, .i32⟩
  | 29 => ⟨S4150000, .i1⟩
  | 30 => ⟨S_, .i32⟩
  | 31 => ⟨S4150000, .i32⟩
  | 32 => ⟨S4150000, .i32⟩
  | 33 => ⟨S4150000, .i32⟩
  | 34 => ⟨S4150000x1, .i32⟩
  | 35 => ⟨S4150000, .f32⟩
  | 36 => ⟨S_, .i32⟩
  | 37 => ⟨S4150000, .i32⟩
  | 38 => ⟨S4150000, .i1⟩
  | 39 => ⟨S_, .i32⟩
  | 40 => ⟨S4150000, .i32⟩
  | 41 => ⟨S4150000, .i32⟩
  | 42 => ⟨S4150000, .i32⟩
  | 43 => ⟨S4150000x1, .i32⟩
  | 44 => ⟨S4150000, .f32⟩
  | 45 => ⟨S4150000, .f32⟩
  | 46 => ⟨S150000x64, .f32⟩
  | 47 => ⟨S3x64x64, .f32⟩
  | 48 => ⟨S3x64x64, .bf16⟩
  | 49 => ⟨S3x64x64, .f32⟩
  | 50 => ⟨S3x64x64, .bf16⟩
  | 51 => ⟨S3x1x64, .f32⟩
  | 52 => ⟨S3x1x64, .f32⟩
  | 53 => ⟨S4150000x1, .f32⟩
  | 54 => ⟨S_, .i32⟩
  | 55 => ⟨S4150000, .i32⟩
  | 56 => ⟨S4150000, .i1⟩
  | 57 => ⟨S_, .i32⟩
  | 58 => ⟨S4150000, .i32⟩
  | 59 => ⟨S4150000, .i32⟩
  | 60 => ⟨S4150000, .i32⟩
  | 61 => ⟨S4150000x1, .i32⟩
  | 62 => ⟨S4150000x64, .f32⟩
  | 63 => ⟨S4150000x64, .f32⟩
  | 64 => ⟨S4150000x64, .f32⟩
  | 65 => ⟨S_, .f32⟩
  | 66 => ⟨S150000x64, .f32⟩
  | 67 => ⟨S4150000x1, .i32⟩
  | 68 => ⟨S150000x64, .f32⟩
  | 69 => ⟨S1x64x64, .bf16⟩
  | 70 => ⟨S64x64, .bf16⟩
  | 71 => ⟨S1x1x64, .f32⟩
  | 72 => ⟨S1x64, .f32⟩
  | 73 => ⟨S1x64x64, .bf16⟩
  | 74 => ⟨S64x64, .bf16⟩
  | 75 => ⟨S1x1x64, .f32⟩
  | 76 => ⟨S1x64, .f32⟩
  | 77 => ⟨S150000x64, .f32⟩
  | 78 => ⟨S150000x64, .f32⟩
  | 79 => ⟨S4150000x1, .f32⟩
  | 80 => ⟨S_, .i32⟩
  | 81 => ⟨S4150000, .i32⟩
  | 82 => ⟨S4150000, .i1⟩
  | 83 => ⟨S_, .i32⟩
  | 84 => ⟨S4150000, .i32⟩
  | 85 => ⟨S4150000, .i32⟩
  | 86 => ⟨S4150000, .i32⟩
  | 87 => ⟨S4150000x1, .i32⟩
  | 88 => ⟨S4150000x64, .f32⟩
  | 89 => ⟨S4150000x64, .f32⟩
  | 90 => ⟨S4150000x64, .f32⟩
  | 91 => ⟨S_, .f32⟩
  | 92 => ⟨S150000x64, .f32⟩
  | 93 => ⟨S4150000x1, .i32⟩
  | 94 => ⟨S150000x64, .f32⟩
  | 95 => ⟨S1x64x64, .bf16⟩
  | 96 => ⟨S64x64, .bf16⟩
  | 97 => ⟨S1x1x64, .f32⟩
  | 98 => ⟨S1x64, .f32⟩
  | 99 => ⟨S1x64x64, .bf16⟩
  | 100 => ⟨S64x64, .bf16⟩
  | 101 => ⟨S1x1x64, .f32⟩
  | 102 => ⟨S1x64, .f32⟩
  | 103 => ⟨S150000x64, .f32⟩
  | 104 => ⟨S150000x64, .f32⟩
  | 105 => ⟨S4150000x1, .f32⟩
  | 106 => ⟨S_, .i32⟩
  | 107 => ⟨S4150000, .i32⟩
  | 108 => ⟨S4150000, .i1⟩
  | 109 => ⟨S_, .i32⟩
  | 110 => ⟨S4150000, .i32⟩
  | 111 => ⟨S4150000, .i32⟩
  | 112 => ⟨S4150000, .i32⟩
  | 113 => ⟨S4150000x1, .i32⟩
  | 114 => ⟨S4150000x64, .f32⟩
  | 115 => ⟨S4150000x64, .f32⟩
  | 116 => ⟨S4150000x64, .f32⟩
  | 117 => ⟨S_, .f32⟩
  | 118 => ⟨S150000x64, .f32⟩
  | 119 => ⟨S4150000x1, .i32⟩
  | 120 => ⟨S150000x64, .f32⟩
  | 121 => ⟨S1x64x64, .bf16⟩
  | 122 => ⟨S64x64, .bf16⟩
  | 123 => ⟨S1x1x64, .f32⟩
  | 124 => ⟨S1x64, .f32⟩
  | 125 => ⟨S1x64x64, .bf16⟩
  | 126 => ⟨S64x64, .bf16⟩
  | 127 => ⟨S1x1x64, .f32⟩
  | _ => ⟨S100000x64, .f32⟩

abbrev hbmTy0_1 (i : Nat) : BufTy := match i % 128 with
  | 0 => ⟨S1x64, .f32⟩
  | 1 => ⟨S150000x64, .f32⟩
  | 2 => ⟨S150000x64, .f32⟩
  | 3 => ⟨S_, .f32⟩
  | 4 => ⟨S150000x64, .f32⟩
  | 5 => ⟨S150000x64, .f32⟩
  | 6 => ⟨S100000x64, .f32⟩
  | 7 => ⟨S50000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S3000x64, .f32⟩
  | .local _ .vmem, ⟨1, _⟩ => ⟨S3000x64, .f32⟩
  | .local _ .vmem, ⟨2, _⟩ => ⟨S3000x64, .f32⟩
  | .local _ .vmem, ⟨3, _⟩ => ⟨S3000x64, .f32⟩
  | .local _ .vmem, ⟨4, _⟩ => ⟨S3000x64, .f32⟩
  | .local _ .vmem, ⟨5, _⟩ => ⟨S3000x64, .f32⟩
  | .local _ .vmem, ⟨6, _⟩ => ⟨S64x64, .bf16⟩
  | .local _ .vmem, ⟨7, _⟩ => ⟨S1x64, .f32⟩
  | .local _ .vmem, ⟨8, _⟩ => ⟨S64x64, .bf16⟩
  | .local _ .vmem, ⟨9, _⟩ => ⟨S1x64, .f32⟩
  | .local _ .vmem, ⟨10, _⟩ => ⟨S3000x64, .f32⟩
  | .local _ .vmem, ⟨11, _⟩ => ⟨S3000x64, .f32⟩
  | .local _ .vmem, ⟨12, _⟩ => ⟨S3000x64, .f32⟩
  | .local _ .vmem, ⟨13, _⟩ => ⟨S3000x64, .f32⟩
  | .local _ .vmem, ⟨14, _⟩ => ⟨S3000x64, .f32⟩
  | .local _ .vmem, ⟨15, _⟩ => ⟨S3000x64, .f32⟩
  | .local _ .vmem, ⟨16, _⟩ => ⟨S3000x64, .f32⟩
  | .local _ .vmem, ⟨17, _⟩ => ⟨S3000x64, .f32⟩
  | .local _ .vmem, ⟨18, _⟩ => ⟨S3000x64, .f32⟩
  | .local _ .vmem, ⟨19, _⟩ => ⟨S3000x64, .f32⟩
  | .local _ .vmem, ⟨20, _⟩ => ⟨S64x64, .bf16⟩
  | .local _ .vmem, ⟨21, _⟩ => ⟨S1x64, .f32⟩
  | .local _ .vmem, ⟨22, _⟩ => ⟨S64x64, .bf16⟩
  | .local _ .vmem, ⟨23, _⟩ => ⟨S1x64, .f32⟩
  | .local _ .vmem, ⟨24, _⟩ => ⟨S3000x64, .f32⟩
  | .local _ .vmem, ⟨25, _⟩ => ⟨S3000x64, .f32⟩
  | .local _ .vmem, ⟨26, _⟩ => ⟨S3000x64, .f32⟩
  | .local _ .vmem, ⟨27, _⟩ => ⟨S3000x64, .f32⟩
  | .local _ .vmem, ⟨28, _⟩ => ⟨S3000x64, .f32⟩
  | .local _ .vmem, ⟨29, _⟩ => ⟨S3000x64, .f32⟩
  | .local _ .vmem, ⟨30, _⟩ => ⟨S3000x64, .f32⟩
  | .local _ .vmem, ⟨31, _⟩ => ⟨S3000x64, .f32⟩
  | .local _ .vmem, ⟨32, _⟩ => ⟨S3000x64, .f32⟩
  | .local _ .vmem, ⟨33, _⟩ => ⟨S3000x64, .f32⟩
  | .local _ .vmem, ⟨34, _⟩ => ⟨S64x64, .bf16⟩
  | .local _ .vmem, ⟨35, _⟩ => ⟨S1x64, .f32⟩
  | .local _ .vmem, ⟨36, _⟩ => ⟨S64x64, .bf16⟩
  | .local _ .vmem, ⟨37, _⟩ => ⟨S1x64, .f32⟩
  | .local _ .vmem, ⟨38, _⟩ => ⟨S3000x64, .f32⟩
  | .local _ .vmem, ⟨39, _⟩ => ⟨S3000x64, .f32⟩
  | .local _ .vmem, ⟨40, _⟩ => ⟨S3000x64, .f32⟩
  | .local _ .vmem, ⟨41, _⟩ => ⟨S3000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57_0 : Ref sig .tc := ⟨.hbm, 77, rfl⟩
abbrev main_v57_1 : Ref sig .tc := ⟨.hbm, 78, rfl⟩
abbrev main_v58 : Ref sig .tc := ⟨.hbm, 79, rfl⟩
abbrev main_c_10 : Ref sig .tc := ⟨.hbm, 80, rfl⟩
abbrev main_v59 : Ref sig .tc := ⟨.hbm, 81, rfl⟩
abbrev main_v60 : Ref sig .tc := ⟨.hbm, 82, rfl⟩
abbrev main_c_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79_0 : Ref sig .tc := ⟨.hbm, 103, rfl⟩
abbrev main_v79_1 : Ref sig .tc := ⟨.hbm, 104, rfl⟩
abbrev main_v80 : Ref sig .tc := ⟨.hbm, 105, rfl⟩
abbrev main_c_13 : Ref sig .tc := ⟨.hbm, 106, rfl⟩
abbrev main_v81 : Ref sig .tc := ⟨.hbm, 107, rfl⟩
abbrev main_v82 : Ref sig .tc := ⟨.hbm, 108, rfl⟩
abbrev main_c_14 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_15 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101_0 : Ref sig .tc := ⟨.hbm, 129, rfl⟩
abbrev main_v101_1 : Ref sig .tc := ⟨.hbm, 130, rfl⟩
abbrev main_cst_16 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg7_1 : Ref sig .tc := ⟨.vmem, 39, rfl⟩
abbrev cc2_stg8_0 : Ref sig .tc := ⟨.vmem, 40, rfl⟩
abbrev cc2_stg8_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc1_sem8_0 : DmaSem sig := 26
abbrev cc1_sem8_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem7_1 : DmaSem sig := 39
abbrev cc2_sem8_0 : DmaSem sig := 40
abbrev cc2_sem8_1 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S3000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S3000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S3000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S3000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bcast_S_S2000000 : S_.BroadcastsInDim S2000000 (![] : Fin 0 → Fin S2000000.rank)
  concatenates_S2000000_S2000000_S150000_S4150000_d0 : Shape.Concatenates [S2000000, S2000000, S150000] S4150000 0
  bcast_S_S4150000 : S_.BroadcastsInDim S4150000 (![] : Fin 0 → Fin S4150000.rank)
  bcast_S_S150000 : S_.BroadcastsInDim S150000 (![] : Fin 0 → Fin S150000.rank)
  bcast_S4150000_S4150000x1_0 : S4150000.BroadcastsInDim S4150000x1 (![0] : Fin 1 → Fin S4150000x1.rank)
  concatenates_S100000x64_S50000x64_S150000x64_d0 : Shape.Concatenates [S100000x64, S50000x64] S150000x64 0
  transposes_S3x64x64_S3x64x64_0_2_1 : S3x64x64.Transposes [0, 2, 1] S3x64x64
  bitsLt_bf16_f32 : FTy.bits .bf16 < FTy.bits .f32
  shapeCasts_S3x64_S3x1x64 : S3x64.ShapeCasts S3x1x64
  bcast_S4150000x1_S4150000x64_0_1 : S4150000x1.BroadcastsInDim S4150000x64 (![0, 1] : Fin 2 → Fin S4150000x64.rank)
  bcast_S_S150000x64 : S_.BroadcastsInDim S150000x64 (![] : Fin 0 → Fin S150000x64.rank)
  slices_S3x64x64_S1x64x64_0_0_0 : S3x64x64.Slices ![0, 0, 0] S1x64x64
  shapeCasts_S1x64x64_S64x64 : S1x64x64.ShapeCasts S64x64
  slices_S3x1x64_S1x1x64_0_0_0 : S3x1x64.Slices ![0, 0, 0] S1x1x64
  shapeCasts_S1x1x64_S1x64 : S1x1x64.ShapeCasts S1x64
  inb_S3000x64_S3000x64_0_0 : ∀ a, (![0, 0] : Fin 2 → Nat) a + S3000x64.size a ≤ S3000x64.size a
  h_S3000x64 : 0 < S3000x64.numel
  shapeCasts_S3000x64_S3000x64 : S3000x64.ShapeCasts S3000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3000x64 : S1x64.Broadcasts S3000x64
  reduces_S3000x64_S3000 : S3000x64.Reduces [1] S3000
  shapeCasts_S3000_S3000x1 : S3000.ShapeCasts S3000x1
  broadcasts_S3000x1_S3000x64 : S3000x1.Broadcasts S3000x64
  slices_S3x64x64_S1x64x64_1_0_0 : S3x64x64.Slices ![1, 0, 0] S1x64x64
  slices_S3x1x64_S1x1x64_1_0_0 : S3x1x64.Slices ![1, 0, 0] S1x1x64
  slices_S3x64x64_S1x64x64_2_0_0 : S3x64x64.Slices ![2, 0, 0] S1x64x64
  slices_S3x1x64_S1x1x64_2_0_0 : S3x1x64.Slices ![2, 0, 0] S1x1x64
  slices_S150000x64_S100000x64_0_0 : S150000x64.Slices ![0, 0] S100000x64
  slices_S150000x64_S50000x64_100000_0 : S150000x64.Slices ![100000, 0] S50000x64
  scatter_S150000_S4150000x1_S4150000_n_0_0_1_wf : ScatterDims.WF S150000 S4150000x1 S4150000 [] [0] [0] 1
  gather_S150000_S4150000x1_S4150000_n_0_n_n_0_1_1_wf : GatherDims.WF S150000 S4150000x1 S4150000 [] [0] [] [0] [] 1 ![1]
  gather_S150000x64_S4150000x1_S4150000x64_1_0_n_n_0_1_164_wf : GatherDims.WF S150000x64 S4150000x1 S4150000x64 [1] [0] [] [0] [] 1 ![1, 64]
  scatter_S150000x64_S4150000x1_S4150000x64_1_0_0_1_wf : ScatterDims.WF S150000x64 S4150000x1 S4150000x64 [1] [0] [0] 1
  dot_S3000x64_S64x64_S3000x64_1_0_0_1_n_n_wf : DotDims.WF S3000x64 S64x64 S3000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x64.size a ≤ S150000x64.size a
  hwx0_0 : ∀ i : grid0.Coords, EltTy.bits .f32 = 32 ∨ (Rect.block (s := S150000x64) S3000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x64.size a ≤ S150000x64.size a
  hwx0_1 : ∀ i : grid0.Coords, EltTy.bits .f32 = 32 ∨ (Rect.block (s := S150000x64) S3000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x64.size a ≤ S150000x64.size a
  hwx0_2 : ∀ i : grid0.Coords, EltTy.bits .f32 = 32 ∨ (Rect.block (s := S150000x64) S3000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3000x64.size a ≤ S150000x64.size a
  hwx0_7 : ∀ i : grid0.Coords, EltTy.bits .f32 = 32 ∨ (Rect.block (s := S150000x64) S3000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S3000x64.size a ≤ S150000x64.size a
  hwx0_8 : ∀ i : grid0.Coords, EltTy.bits .f32 = 32 ∨ (Rect.block (s := S150000x64) S3000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x64.size a ≤ S150000x64.size a
  hwx1_0 : ∀ i : grid1.Coords, EltTy.bits .f32 = 32 ∨ (Rect.block (s := S150000x64) S3000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x64.size a ≤ S150000x64.size a
  hwx1_1 : ∀ i : grid1.Coords, EltTy.bits .f32 = 32 ∨ (Rect.block (s := S150000x64) S3000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3000x64.size a ≤ S150000x64.size a
  hwx1_2 : ∀ i : grid1.Coords, EltTy.bits .f32 = 32 ∨ (Rect.block (s := S150000x64) S3000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .bf16 = 32 ∨ (Rect.block (s := S64x64) S64x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S3000x64.size a ≤ S150000x64.size a
  hwx1_7 : ∀ i : grid1.Coords, EltTy.bits .f32 = 32 ∨ (Rect.block (s := S150000x64) S3000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S3000x64.size a ≤ S150000x64.size a
  hwx1_8 : ∀ i : grid1.Coords, EltTy.bits .f32 = 32 ∨ (Rect.block (s := S150000x64) S3000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x64.size a ≤ S150000x64.size a
  hwx2_0 : ∀ i : grid2.Coords, EltTy.bits .f32 = 32 ∨ (Rect.block (s := S150000x64) S3000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3000x64.size a ≤ S150000x64.size a
  hwx2_1 : ∀ i : grid2.Coords, EltTy.bits .f32 = 32 ∨ (Rect.block (s := S150000x64) S3000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3000x64.size a ≤ S150000x64.size a
  hwx2_2 : ∀ i : grid2.Coords, EltTy.bits .f32 = 32 ∨ (Rect.block (s := S150000x64) S3000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .bf16 = 32 ∨ (Rect.block (s := S64x64) S64x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .bf16 = 32 ∨ (Rect.block (s := S64x64) S64x64.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S3000x64.size a ≤ S150000x64.size a
  hwx2_7 : ∀ i : grid2.Coords, EltTy.bits .f32 = 32 ∨ (Rect.block (s := S150000x64) S3000x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S3000x64.size a ≤ S150000x64.size a
  hwx2_8 : ∀ i : grid2.Coords, EltTy.bits .f32 = 32 ∨ (Rect.block (s := S150000x64) S3000x64.size (cc2_transform_8 i) (hinb2_8 i)).WholeWords (EltTy.packing .f32)

variable [Facts₀]

def scatter_S150000_S4150000x1_S4150000_n_0_0_1 : ScatterDims S150000 S4150000x1 S4150000 where
  updateWindowDims := []
  insertedWindowDims := [0]
  scatterDimsToOperandDims := [0]
  indexVectorDim := 1
  wf := scatter_S150000_S4150000x1_S4150000_n_0_0_1_wf
def gather_S150000_S4150000x1_S4150000_n_0_n_n_0_1_1 : GatherDims S150000 S4150000x1 S4150000 where
  offsetDims := []
  collapsedSliceDims := [0]
  operandBatchingDims := []
  startIndicesBatchingDims := []
  startIndexMap := [0]
  indexVectorDim := 1
  sliceSizes := ![1]
  wf := gather_S150000_S4150000x1_S4150000_n_0_n_n_0_1_1_wf
def gather_S150000x64_S4150000x1_S4150000x64_1_0_n_n_0_1_164 : GatherDims S150000x64 S4150000x1 S4150000x64 where
  offsetDims := [1]
  collapsedSliceDims := [0]
  operandBatchingDims := []
  startIndicesBatchingDims := []
  startIndexMap := [0]
  indexVectorDim := 1
  sliceSizes := ![1, 64]
  wf := gather_S150000x64_S4150000x1_S4150000x64_1_0_n_n_0_1_164_wf
def scatter_S150000x64_S4150000x1_S4150000x64_1_0_0_1 : ScatterDims S150000x64 S4150000x1 S4150000x64 where
  updateWindowDims := [1]
  insertedWindowDims := [0]
  scatterDimsToOperandDims := [0]
  indexVectorDim := 1
  wf := scatter_S150000x64_S4150000x1_S4150000x64_1_0_0_1_wf
def dot_S3000x64_S64x64_S3000x64_1_0_0_1_n_n : DotDims S3000x64 S64x64 S3000x64 where
  lhsContracting := [1]
  rhsContracting := [0]
  lhsNonContracting := [0]
  rhsNonContracting := [1]
  lhsBatch := []
  rhsBatch := []
  wf := dot_S3000x64_S64x64_S3000x64_1_0_0_1_n_n_wf

abbrev win0_0 : Pipeline.Window sig grid0 :=
  Pipeline.Window.ofSpec (Memref.whole main_v48) S3000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S3000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S3000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v50) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v52) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v54) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v56) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v57_0) S3000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v57_1) S3000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v70) S3000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57_0) S3000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v57_1) S3000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v72) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v74) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v76) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v78) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v79_0) S3000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v79_1) S3000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v92) S3000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v79_0) S3000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v79_1) S3000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v94) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v96) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v98) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v100) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v101_0) S3000x64.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v101_1) S3000x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S3x64x64 : Shape := ⟨3, ![3, 64, 64]⟩
abbrev S3x64 : Shape := ⟨2, ![3, 64]⟩
abbrev S2000000 : Shape := ⟨1, ![2000000]⟩
abbrev S150000 : Shape := ⟨1, ![150000]⟩
abbrev S_ : Shape := ⟨0, ![]⟩
abbrev S4150000 : Shape := ⟨1, ![4150000]⟩
abbrev S4150000x1 : Shape := ⟨2, ![4150000, 1]⟩
abbrev S150000x64 : Shape := ⟨2, ![150000, 64]⟩
abbrev S4150000x64 : Shape := ⟨2, ![4150000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S150000x1 : Shape := ⟨2, ![150000, 1]⟩

abbrev nBuf : Space → Nat
  | .hbm => 241
  | .vmem => 0
  | .smem => 0
  | _ => 0

abbrev hbmTy0_0 (i : Nat) : BufTy := match i % 128 with
  | 0 => ⟨S100000x64, .f32⟩
  | 1 => ⟨S50000x64, .f32⟩
  | 2 => ⟨S3x64x64, .f32⟩
  | 3 => ⟨S3x64, .f32⟩
  | 4 => ⟨S3x64x64, .f32⟩
  | 5 => ⟨S3x64, .f32⟩
  | 6 => ⟨S2000000, .i32⟩
  | 7 => ⟨S2000000, .i32⟩
  | 8 => ⟨S150000, .i32⟩
  | 9 => ⟨S_, .i32⟩
  | 10 => ⟨S2000000, .i32⟩
  | 11 => ⟨S2000000, .i32⟩
  | 12 => ⟨S4150000, .i32⟩
  | 13 => ⟨S_, .i32⟩
  | 14 => ⟨S2000000, .i32⟩
  | 15 => ⟨S2000000, .i32⟩
  | 16 => ⟨S4150000, .i32⟩
  | 17 => ⟨S_, .f32⟩
  | 18 => ⟨S4150000, .f32⟩
  | 19 => ⟨S_, .f32⟩
  | 20 => ⟨S150000, .f32⟩
  | 21 => ⟨S4150000x1, .i32⟩
  | 22 => ⟨S150000, .f32⟩
  | 23 => ⟨S_, .f32⟩
  | 24 => ⟨S150000, .f32⟩
  | 25 => ⟨S150000, .f32⟩
  | 26 => ⟨S150000, .f32⟩
  | 27 => ⟨S_, .i32⟩
  | 28 => ⟨S4150000, .i32⟩
  | 29 => ⟨S4150000, .i1⟩
  | 30 => ⟨S_, .i32⟩
  | 31 => ⟨S4150000, .i32⟩
  | 32 => ⟨S4150000, .i32⟩
  | 33 => ⟨S4150000, .i32⟩
  | 34 => ⟨S4150000x1, .i32⟩
  | 35 => ⟨S4150000, .f32⟩
  | 36 => ⟨S_, .i32⟩
  | 37 => ⟨S4150000, .i32⟩
  | 38 => ⟨S4150000, .i1⟩
  | 39 => ⟨S_, .i32⟩
  | 40 => ⟨S4150000, .i32⟩
  | 41 => ⟨S4150000, .i32⟩
  | 42 => ⟨S4150000, .i32⟩
  | 43 => ⟨S4150000x1, .i32⟩
  | 44 => ⟨S4150000, .f32⟩
  | 45 => ⟨S4150000, .f32⟩
  | 46 => ⟨S150000x64, .f32⟩
  | 47 => ⟨S4150000x1, .f32⟩
  | 48 => ⟨S_, .i32⟩
  | 49 => ⟨S4150000, .i32⟩
  | 50 => ⟨S4150000, .i1⟩
  | 51 => ⟨S_, .i32⟩
  | 52 => ⟨S4150000, .i32⟩
  | 53 => ⟨S4150000, .i32⟩
  | 54 => ⟨S4150000, .i32⟩
  | 55 => ⟨S4150000x1, .i32⟩
  | 56 => ⟨S4150000x64, .f32⟩
  | 57 => ⟨S4150000x64, .f32⟩
  | 58 => ⟨S4150000x64, .f32⟩
  | 59 => ⟨S_, .f32⟩
  | 60 => ⟨S150000x64, .f32⟩
  | 61 => ⟨S4150000x1, .i32⟩
  | 62 => ⟨S150000x64, .f32⟩
  | 63 => ⟨S1x64x64, .f32⟩
  | 64 => ⟨S64x64, .f32⟩
  | 65 => ⟨S64x64, .f32⟩
  | 66 => ⟨S150000x64, .f32⟩
  | 67 => ⟨S1x64, .f32⟩
  | 68 => ⟨S64, .f32⟩
  | 69 => ⟨S1x64, .f32⟩
  | 70 => ⟨S150000x64, .f32⟩
  | 71 => ⟨S150000x64, .f32⟩
  | 72 => ⟨S_, .f32⟩
  | 73 => ⟨S_, .f32⟩
  | 74 => ⟨S150000x64, .f32⟩
  | 75 => ⟨S150000x64, .i1⟩
  | 76 => ⟨S_, .f32⟩
  | 77 => ⟨S150000x64, .f32⟩
  | 78 => ⟨S150000x64, .f32⟩
  | 79 => ⟨S150000x64, .f32⟩
  | 80 => ⟨S150000x64, .f32⟩
  | 81 => ⟨S1x64x64, .f32⟩
  | 82 => ⟨S64x64, .f32⟩
  | 83 => ⟨S64x64, .f32⟩
  | 84 => ⟨S150000x64, .f32⟩
  | 85 => ⟨S1x64, .f32⟩
  | 86 => ⟨S64, .f32⟩
  | 87 => ⟨S1x64, .f32⟩
  | 88 => ⟨S150000x64, .f32⟩
  | 89 => ⟨S150000x64, .f32⟩
  | 90 => ⟨S_, .f32⟩
  | 91 => ⟨S_, .f32⟩
  | 92 => ⟨S150000x64, .f32⟩
  | 93 => ⟨S150000x64, .i1⟩
  | 94 => ⟨S_, .f32⟩
  | 95 => ⟨S150000x64, .f32⟩
  | 96 => ⟨S150000x64, .f32⟩
  | 97 => ⟨S150000x64, .f32⟩
  | 98 => ⟨S150000x64, .f32⟩
  | 99 => ⟨S150000x64, .f32⟩
  | 100 => ⟨S_, .f32⟩
  | 101 => ⟨S150000, .f32⟩
  | 102 => ⟨S150000x1, .f32⟩
  | 103 => ⟨S150000x1, .f32⟩
  | 104 => ⟨S_, .f32⟩
  | 105 => ⟨S150000x1, .f32⟩
  | 106 => ⟨S150000x1, .f32⟩
  | 107 => ⟨S150000x64, .f32⟩
  | 108 => ⟨S150000x64, .f32⟩
  | 109 => ⟨S150000x64, .f32⟩
  | 110 => ⟨S4150000x1, .f32⟩
  | 111 => ⟨S_, .i32⟩
  | 112 => ⟨S4150000, .i32⟩
  | 113 => ⟨S4150000, .i1⟩
  | 114 => ⟨S_, .i32⟩
  | 115 => ⟨S4150000, .i32⟩
  | 116 => ⟨S4150000, .i32⟩
  | 117 => ⟨S4150000, .i32⟩
  | 118 => ⟨S4150000x1, .i32⟩
  | 119 => ⟨S4150000x64, .f32⟩
  | 120 => ⟨S4150000x64, .f32⟩
  | 121 => ⟨S4150000x64, .f32⟩
  | 122 => ⟨S_, .f32⟩
  | 123 => ⟨S150000x64, .f32⟩
  | 124 => ⟨S4150000x1, .i32⟩
  | 125 => ⟨S150000x64, .f32⟩
  | 126 => ⟨S1x64x64, .f32⟩
  | 127 => ⟨S64x64, .f32⟩
  | _ => ⟨S100000x64, .f32⟩

abbrev hbmTy0_1 (i : Nat) : BufTy := match i % 128 with
  | 0 => ⟨S64x64, .f32⟩
  | 1 => ⟨S150000x64, .f32⟩
  | 2 => ⟨S1x64, .f32⟩
  | 3 => ⟨S64, .f32⟩
  | 4 => ⟨S1x64, .f32⟩
  | 5 => ⟨S150000x64, .f32⟩
  | 6 => ⟨S150000x64, .f32⟩
  | 7 => ⟨S_, .f32⟩
  | 8 => ⟨S_, .f32⟩
  | 9 => ⟨S150000x64, .f32⟩
  | 10 => ⟨S150000x64, .i1⟩
  | 11 => ⟨S_, .f32⟩
  | 12 => ⟨S150000x64, .f32⟩
  | 13 => ⟨S150000x64, .f32⟩
  | 14 => ⟨S150000x64, .f32⟩
  | 15 => ⟨S150000x64, .f32⟩
  | 16 => ⟨S1x64x64, .f32⟩
  | 17 => ⟨S64x64, .f32⟩
  | 18 => ⟨S64x64, .f32⟩
  | 19 => ⟨S150000x64, .f32⟩
  | 20 => ⟨S1x64, .f32⟩
  | 21 => ⟨S64, .f32⟩
  | 22 => ⟨S1x64, .f32⟩
  | 23 => ⟨S150000x64, .f32⟩
  | 24 => ⟨S150000x64, .f32⟩
  | 25 => ⟨S_, .f32⟩
  | 26 => ⟨S_, .f32⟩
  | 27 => ⟨S150000x64, .f32⟩
  | 28 => ⟨S150000x64, .i1⟩
  | 29 => ⟨S_, .f32⟩
  | 30 => ⟨S150000x64, .f32⟩
  | 31 => ⟨S150000x64, .f32⟩
  | 32 => ⟨S150000x64, .f32⟩
  | 33 => ⟨S150000x64, .f32⟩
  | 34 => ⟨S150000x64, .f32⟩
  | 35 => ⟨S_, .f32⟩
  | 36 => ⟨S150000, .f32⟩
  | 37 => ⟨S150000x1, .f32⟩
  | 38 => ⟨S150000x1, .f32⟩
  | 39 => ⟨S_, .f32⟩
  | 40 => ⟨S150000x1, .f32⟩
  | 41 => ⟨S150000x1, .f32⟩
  | 42 => ⟨S150000x64, .f32⟩
  | 43 => ⟨S150000x64, .f32⟩
  | 44 => ⟨S150000x64, .f32⟩
  | 45 => ⟨S4150000x1, .f32⟩
  | 46 => ⟨S_, .i32⟩
  | 47 => ⟨S4150000, .i32⟩
  | 48 => ⟨S4150000, .i1⟩
  | 49 => ⟨S_, .i32⟩
  | 50 => ⟨S4150000, .i32⟩
  | 51 => ⟨S4150000, .i32⟩
  | 52 => ⟨S4150000, .i32⟩
  | 53 => ⟨S4150000x1, .i32⟩
  | 54 => ⟨S4150000x64, .f32⟩
  | 55 => ⟨S4150000x64, .f32⟩
  | 56 => ⟨S4150000x64, .f32⟩
  | 57 => ⟨S_, .f32⟩
  | 58 => ⟨S150000x64, .f32⟩
  | 59 => ⟨S4150000x1, .i32⟩
  | 60 => ⟨S150000x64, .f32⟩
  | 61 => ⟨S1x64x64, .f32⟩
  | 62 => ⟨S64x64, .f32⟩
  | 63 => ⟨S64x64, .f32⟩
  | 64 => ⟨S150000x64, .f32⟩
  | 65 => ⟨S1x64, .f32⟩
  | 66 => ⟨S64, .f32⟩
  | 67 => ⟨S1x64, .f32⟩
  | 68 => ⟨S150000x64, .f32⟩
  | 69 => ⟨S150000x64, .f32⟩
  | 70 => ⟨S_, .f32⟩
  | 71 => ⟨S_, .f32⟩
  | 72 => ⟨S150000x64, .f32⟩
  | 73 => ⟨S150000x64, .i1⟩
  | 74 => ⟨S_, .f32⟩
  | 75 => ⟨S150000x64, .f32⟩
  | 76 => ⟨S150000x64, .f32⟩
  | 77 => ⟨S150000x64, .f32⟩
  | 78 => ⟨S150000x64, .f32⟩
  | 79 => ⟨S1x64x64, .f32⟩
  | 80 => ⟨S64x64, .f32⟩
  | 81 => ⟨S64x64, .f32⟩
  | 82 => ⟨S150000x64, .f32⟩
  | 83 => ⟨S1x64, .f32⟩
  | 84 => ⟨S64, .f32⟩
  | 85 => ⟨S1x64, .f32⟩
  | 86 => ⟨S150000x64, .f32⟩
  | 87 => ⟨S150000x64, .f32⟩
  | 88 => ⟨S_, .f32⟩
  | 89 => ⟨S_, .f32⟩
  | 90 => ⟨S150000x64, .f32⟩
  | 91 => ⟨S150000x64, .i1⟩
  | 92 => ⟨S_, .f32⟩
  | 93 => ⟨S150000x64, .f32⟩
  | 94 => ⟨S150000x64, .f32⟩
  | 95 => ⟨S150000x64, .f32⟩
  | 96 => ⟨S150000x64, .f32⟩
  | 97 => ⟨S150000x64, .f32⟩
  | 98 => ⟨S_, .f32⟩
  | 99 => ⟨S150000, .f32⟩
  | 100 => ⟨S150000x1, .f32⟩
  | 101 => ⟨S150000x1, .f32⟩
  | 102 => ⟨S_, .f32⟩
  | 103 => ⟨S150000x1, .f32⟩
  | 104 => ⟨S150000x1, .f32⟩
  | 105 => ⟨S150000x64, .f32⟩
  | 106 => ⟨S150000x64, .f32⟩
  | 107 => ⟨S150000x64, .f32⟩
  | 108 => ⟨S_, .f32⟩
  | 109 => ⟨S150000x64, .f32⟩
  | 110 => ⟨S150000x64, .f32⟩
  | 111 => ⟨S100000x64, .f32⟩
  | 112 => ⟨S50000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_call0_cst : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_11 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_13 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_14 : Ref sig .tc := ⟨.hbm, 111, rfl⟩
abbrev main_v75 : Ref sig .tc := ⟨.hbm, 112, rfl⟩
abbrev main_v76 : Ref sig .tc := ⟨.hbm, 113, rfl⟩
abbrev main_c_15 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_16 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_17 : Ref sig .tc := ⟨.hbm, 135, rfl⟩
abbrev main_call2_cst : Ref sig .tc := ⟨.hbm, 136, rfl⟩
abbrev main_call2_v0 : Ref sig .tc := ⟨.hbm, 137, rfl⟩
abbrev main_call2_v1 : Ref sig .tc := ⟨.hbm, 138, rfl⟩
abbrev main_call2_v2 : Ref sig .tc := ⟨.hbm, 139, rfl⟩
abbrev main_call2_v3 : Ref sig .tc := ⟨.hbm, 140, rfl⟩
abbrev main_call2_v4 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_18 : Ref sig .tc := ⟨.hbm, 153, rfl⟩
abbrev main_call3_cst : Ref sig .tc := ⟨.hbm, 154, rfl⟩
abbrev main_call3_v0 : Ref sig .tc := ⟨.hbm, 155, rfl⟩
abbrev main_call3_v1 : Ref sig .tc := ⟨.hbm, 156, rfl⟩
abbrev main_call3_v2 : Ref sig .tc := ⟨.hbm, 157, rfl⟩
abbrev main_call3_v3 : Ref sig .tc := ⟨.hbm, 158, rfl⟩
abbrev main_call3_v4 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_cst_19 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_cst_20 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_c_21 : Ref sig .tc := ⟨.hbm, 174, rfl⟩
abbrev main_v119 : Ref sig .tc := ⟨.hbm, 175, rfl⟩
abbrev main_v120 : Ref sig .tc := ⟨.hbm, 176, rfl⟩
abbrev main_c_22 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_cst_23 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_cst_24 : Ref sig .tc := ⟨.hbm, 198, rfl⟩
abbrev main_call4_cst : Ref sig .tc := ⟨.hbm, 199, rfl⟩
abbrev main_call4_v0 : Ref sig .tc := ⟨.hbm, 200, rfl⟩
abbrev main_call4_v1 : Ref sig .tc := ⟨.hbm, 201, rfl⟩
abbrev main_call4_v2 : Ref sig .tc := ⟨.hbm, 202, rfl⟩
abbrev main_call4_v3 : Ref sig .tc := ⟨.hbm, 203, rfl⟩
abbrev main_call4_v4 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_cst_25 : Ref sig .tc := ⟨.hbm, 216, rfl⟩
abbrev main_call5_cst : Ref sig .tc := ⟨.hbm, 217, rfl⟩
abbrev main_call5_v0 : Ref sig .tc := ⟨.hbm, 218, rfl⟩
abbrev main_call5_v1 : Ref sig .tc := ⟨.hbm, 219, rfl⟩
abbrev main_call5_v2 : Ref sig .tc := ⟨.hbm, 220, rfl⟩
abbrev main_call5_v3 : Ref sig .tc := ⟨.hbm, 221, rfl⟩
abbrev main_call5_v4 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_cst_26 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_cst_27 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_cst_28 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  concatenates_S2000000_S2000000_S150000_S4150000_d0 : Shape.Concatenates [S2000000, S2000000, S150000] S4150000 0
  bcast_S_S4150000 : S_.BroadcastsInDim S4150000 (![] : Fin 0 → Fin S4150000.rank)
  bcast_S_S150000 : S_.BroadcastsInDim S150000 (![] : Fin 0 → Fin S150000.rank)
  bcast_S4150000_S4150000x1_0 : S4150000.BroadcastsInDim S4150000x1 (![0] : Fin 1 → Fin S4150000x1.rank)
  concatenates_S100000x64_S50000x64_S150000x64_d0 : Shape.Concatenates [S100000x64, S50000x64] S150000x64 0
  bcast_S4150000x1_S4150000x64_0_1 : S4150000x1.BroadcastsInDim S4150000x64 (![0, 1] : Fin 2 → Fin S4150000x64.rank)
  bcast_S_S150000x64 : S_.BroadcastsInDim S150000x64 (![] : Fin 0 → Fin S150000x64.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  reducesTo_S150000x64_S150000_d1 : S150000x64.ReducesTo [1] S150000
  h_S_ : 0 < S_.numel
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  slices_S150000x64_S100000x64_0_0 : S150000x64.Slices ![0, 0] S100000x64
  slices_S150000x64_S50000x64_100000_0 : S150000x64.Slices ![100000, 0] S50000x64
  scatter_S150000_S4150000x1_S4150000_n_0_0_1_wf : ScatterDims.WF S150000 S4150000x1 S4150000 [] [0] [0] 1
  gather_S150000_S4150000x1_S4150000_n_0_n_n_0_1_1_wf : GatherDims.WF S150000 S4150000x1 S4150000 [] [0] [] [0] [] 1 ![1]
  gather_S150000x64_S4150000x1_S4150000x64_1_0_n_n_0_1_164_wf : GatherDims.WF S150000x64 S4150000x1 S4150000x64 [1] [0] [] [0] [] 1 ![1, 64]
  scatter_S150000x64_S4150000x1_S4150000x64_1_0_0_1_wf : ScatterDims.WF S150000x64 S4150000x1 S4150000x64 [1] [0] [0] 1
  dot_S150000x64_S64x64_S150000x64_1_0_0_1_n_n_wf : DotDims.WF S150000x64 S64x64 S150000x64 [1] [0] [0] [1] [] []

variable [Facts₀]

def scatter_S150000_S4150000x1_S4150000_n_0_0_1 : ScatterDims S150000 S4150000x1 S4150000 where
  updateWindowDims := []
  insertedWindowDims := [0]
  scatterDimsToOperandDims := [0]
  indexVectorDim := 1
  wf := scatter_S150000_S4150000x1_S4150000_n_0_0_1_wf
def gather_S150000_S4150000x1_S4150000_n_0_n_n_0_1_1 : GatherDims S150000 S4150000x1 S4150000 where
  offsetDims := []
  collapsedSliceDims := [0]
  operandBatchingDims := []
  startIndicesBatchingDims := []
  startIndexMap := [0]
  indexVectorDim := 1
  sliceSizes := ![1]
  wf := gather_S150000_S4150000x1_S4150000_n_0_n_n_0_1_1_wf
def gather_S150000x64_S4150000x1_S4150000x64_1_0_n_n_0_1_164 : GatherDims S150000x64 S4150000x1 S4150000x64 where
  offsetDims := [1]
  collapsedSliceDims := [0]
  operandBatchingDims := []
  startIndicesBatchingDims := []
  startIndexMap := [0]
  indexVectorDim := 1
  sliceSizes := ![1, 64]
  wf := gather_S150000x64_S4150000x1_S4150000x64_1_0_n_n_0_1_164_wf
def scatter_S150000x64_S4150000x1_S4150000x64_1_0_0_1 : ScatterDims S150000x64 S4150000x1 S4150000x64 where
  updateWindowDims := [1]
  insertedWindowDims := [0]
  scatterDimsToOperandDims := [0]
  indexVectorDim := 1
  wf := scatter_S150000x64_S4150000x1_S4150000x64_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf

class Facts : Prop extends Facts₀ where

variable [Facts]
-- ==== Proof.LibFrameShared.lean ====
/-
  The frame run of a one-region pipeline kernel whose INPUT windows may share an array.

  When one array of @main is handed to a kernel through several input windows, the windows' arrays are no longer
  pairwise distinct buffers, so the full share of the shared buffer has to be dealt among the windows that read it.
  The launch theorem for that layout asks the certificate how the distinct buffers behind the arrays, each whole at
  the full share, make up the proof data's arrays at entry (`hsplit`). This file states the frame run on top of it, in
  the same form as the frame run for distinct arrays: the region invariant is the core's scoped rest (the kernel's
  scratch, at some contents), every unscoped buffer that is no window's array bypasses the region and is read back at
  the end unchanged, and every window's array ends at the contents the proof data compute (`FramePost`).
  It also lists the distinct buffers behind the arrays as a chain of points-tos (`arrBufs_eq_of_list`).
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}

section Listed

variable {Ix : Type} [DecidableEq Ix] {Name : Type} [DecidableEq Name] {U : Type} [URA U] {Lvl : Type}

/-- The distinct buffers behind the windows' arrays, listed: `arrBufs` is the chain of their points-tos, each whole
    at the full share at contents `V`. -/
theorem arrBufs_eq_of_list {gr : Nat} {W : Nat} (win : Fin W → WinSpec sig gr) (c : Dev nD)
    (V : (b : Ref sig .tc) → Buf Val ((c.tc : Thread nD τ).loc b)) (l : List (Ref sig .tc))
    (h : Finset.univ.image (arrRef win) = l.toFinset) (hl : l.Nodup) :
    (arrBufs (Ix := Ix) (Name := Name) (U := U) (Lvl := Lvl) win c V : sProp (MT nD τ sig Ix Val Name U Lvl))
      = BI.bigSepL l fun b => ((c.tc : Thread nD τ).loc b) ↦{fullShare} V b := by
  unfold arrBufs; exact BI.bigSep_eq_bigSepL_of_eq l h hl _

end Listed

section Frame

variable {Λ₀ : SL.Sem.Labels} {P : Type} [Fintype P] [DecidableEq P] [∀ e, Nonempty (Val e)]

local notation "𝕄" => MT nD τ sig Unit Val ℕ (UR sig nD τ) ℕ

/-- THE FRAME RUN of a one-region kernel with no semaphore of its own whose input windows may share arrays: from any
    memory with zero counters every weakly fair execution of @main on the TensorCores terminates, and in every final
    state each window's array holds what the proof data compute (`Dat.arrAt … N`) and every other unscoped buffer what
    it held at the region's entry (`V`). The certificate supplies the layout facts one by one, the proof data with
    the scoped rest as the invariant at the first and after the last point (`hin`, `hout`), the body obligation,
    @main up to the region (`hmain`), and how the buffers behind the arrays are dealt among the windows (`hsplit`). -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H; isplitr
      · iempintro
      · iexact H)
    (hin := fun c => (show _ ⊢ (scopedRest (cfgs p).spec c : sProp 𝕄) from by iintro ⟨-, H⟩; iexact H).trans (hin c))
    (hout := fun c => (hout c).trans (by
      iintro H; isplitr
      · iempintro
      · iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Frame

end Idealize.ShloMosaic.Pipeline

end
-- ==== Proof.KShared.lean ====
/-
  One array read through two input windows of the first kernel launch.

  The first launch hands the array of all node rows to two of its input windows (the rows entering the layer and the
  running sum, which start out equal), so the buffer behind them is one buffer and its full share has to be dealt:
  the left half to one window, the right half to the other. Both halves hold the same contents, and joined they are
  the whole buffer again. Every other window has a buffer of its own at the full share.
-/
import proofs.«146559_j69123203662125_1_alg».proof.Proof.Gen.Kernel.Launch
import proofs.«146559_j69123203662125_1_alg».proof.Proof.Gen.Kernel.Skeleton
import proofs.«146559_j69123203662125_1_alg».proof.Proof.Gen.Kernel.Points
import proofs.«146559_j69123203662125_1_alg».proof.Proof.LibFrameShared
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The distinct buffers behind the nine windows' arrays of the first launch. -/
abbrev bufs0 : List (Ref sig .tc) := [main_v48, main_v29, main_v50, main_v52, main_v54, main_v56, main_v57_0, main_v57_1]

theorem bufs0_image : Finset.univ.image (Pipeline.arrRef spec0) = bufs0.toFinset := by decide
theorem bufs0_nodup : bufs0.Nodup := by decide

/-- The pipeline's arrays, window by window, each a whole buffer at its share. -/
theorem arrays0_eq {c : Dev nD} (dat : Dat τ (Elt F) Unit ℕ (UR sig nD τ) ℕ cfg0 c)
    (G : (w : Fin cfg0.W) → Buf (Elt F) ((cfg0.win w).arr.view.loc (c.tc : Thread nD τ))) :
    (dat.arrays G : sProp 𝕄) = bigSep Finset.univ fun w : Fin cfg0.W =>
      ((((c.tc : Thread nD τ).loc (Pipeline.arrRef spec0 w)) ↦{dat.share w} G w : sProp 𝕄)) := by
  unfold Dat.arrays
  exact bigSep_congr fun w _ => by rw [(arr_whole0 w).set_eq_univ]

section Deal

variable {c : Dev nD} (dat : Dat τ (Elt F) Unit ℕ (UR sig nD τ) ℕ cfg0 c)
  (h1 : dat.q 1 = fullShare.left) (h2 : dat.q 2 = fullShare.right)
  (hq : ∀ w : Fin cfg0.W, w ≠ 1 → w ≠ 2 → dat.q w = fullShare)

include h1 h2 hq

theorem share0_0 : dat.share 0 = fullShare := by unfold Dat.share; rw [if_neg (by decide)]; exact hq 0 (by decide) (by decide)
theorem share0_1 : dat.share 1 = fullShare.left := by unfold Dat.share; rw [if_neg (by decide)]; exact h1
theorem share0_2 : dat.share 2 = fullShare.right := by unfold Dat.share; rw [if_neg (by decide)]; exact h2
theorem share0_3 : dat.share 3 = fullShare := by unfold Dat.share; rw [if_neg (by decide)]; exact hq 3 (by decide) (by decide)
theorem share0_4 : dat.share 4 = fullShare := by unfold Dat.share; rw [if_neg (by decide)]; exact hq 4 (by decide) (by decide)
theorem share0_5 : dat.share 5 = fullShare := by unfold Dat.share; rw [if_neg (by decide)]; exact hq 5 (by decide) (by decide)
theorem share0_6 : dat.share 6 = fullShare := by unfold Dat.share; rw [if_neg (by decide)]; exact hq 6 (by decide) (by decide)
omit h1 h2 hq in
theorem share0_7 : dat.share 7 = fullShare := by unfold Dat.share; rw [if_pos (by decide)]
omit h1 h2 hq in
theorem share0_8 : dat.share 8 = fullShare := by unfold Dat.share; rw [if_pos (by decide)]

omit h1 h2 hq in
set_option maxHeartbeats 1000000 in
/-- The windows' arrays as a chain of nine points-tos. -/
theorem arrays0_chain (G : (w : Fin cfg0.W) → Buf (Elt F) ((cfg0.win w).arr.view.loc (c.tc : Thread nD τ))) :
    (dat.arrays G : sProp 𝕄) = iprop(((((c.tc : Thread nD τ).loc (Pipeline.arrRef spec0 0)) ↦{dat.share 0} G 0 : sProp 𝕄)) ∗ ((((c.tc : Thread nD τ).loc (Pipeline.arrRef spec0 1)) ↦{dat.share 1} G 1 : sProp 𝕄)) ∗ ((((c.tc : Thread nD τ).loc (Pipeline.arrRef spec0 2)) ↦{dat.share 2} G 2 : sProp 𝕄)) ∗ ((((c.tc : Thread nD τ).loc (Pipeline.arrRef spec0 3)) ↦{dat.share 3} G 3 : sProp 𝕄)) ∗ ((((c.tc : Thread nD τ).loc (Pipeline.arrRef spec0 4)) ↦{dat.share 4} G 4 : sProp 𝕄)) ∗ ((((c.tc : Thread nD τ).loc (Pipeline.arrRef spec0 5)) ↦{dat.share 5} G 5 : sProp 𝕄)) ∗ ((((c.tc : Thread nD τ).loc (Pipeline.arrRef spec0 6)) ↦{dat.share 6} G 6 : sProp 𝕄)) ∗ ((((c.tc : Thread nD τ).loc (Pipeline.arrRef spec0 7)) ↦{dat.share 7} G 7 : sProp 𝕄)) ∗ ((((c.tc : Thread nD τ).loc (Pipeline.arrRef spec0 8)) ↦{dat.share 8} G 8 : sProp 𝕄))) := by
  rw [arrays0_eq, bigSep_W0]

omit h1 h2 hq dat in
/-- The distinct buffers behind them as a chain of eight. -/
theorem bufs0_chain (V : (b : Ref sig .tc) → Buf (Elt F) ((c.tc : Thread nD τ).loc b)) :
    (Pipeline.arrBufs (Ix := Unit) (Name := ℕ) (U := UR sig nD τ) (Lvl := ℕ) spec0 c V : sProp 𝕄)
      = iprop(((((c.tc : Thread nD τ).loc main_v48) ↦{fullShare} V main_v48 : sProp 𝕄)) ∗ ((((c.tc : Thread nD τ).loc main_v29) ↦{fullShare} V main_v29 : sProp 𝕄)) ∗ ((((c.tc : Thread nD τ).loc main_v50) ↦{fullShare} V main_v50 : sProp 𝕄)) ∗ ((((c.tc : Thread nD τ).loc main_v52) ↦{fullShare} V main_v52 : sProp 𝕄)) ∗ ((((c.tc : Thread nD τ).loc main_v54) ↦{fullShare} V main_v54 : sProp 𝕄)) ∗ ((((c.tc : Thread nD τ).loc main_v56) ↦{fullShare} V main_v56 : sProp 𝕄)) ∗ ((((c.tc : Thread nD τ).loc main_v57_0) ↦{fullShare} V main_v57_0 : sProp 𝕄)) ∗ ((((c.tc : Thread nD τ).loc main_v57_1) ↦{fullShare} V main_v57_1 : sProp 𝕄))) :=
  (Pipeline.arrBufs_eq_of_list spec0 c V bufs0 bufs0_image bufs0_nodup).trans rfl

theorem win0_0_eq (V : (b : Ref sig .tc) → Buf (Elt F) ((c.tc : Thread nD τ).loc b))
    (G : (w : Fin cfg0.W) → Buf (Elt F) ((cfg0.win w).arr.view.loc (c.tc : Thread nD τ))) (hG : ∀ w, G w = V (Pipeline.arrRef spec0 w)) :
    ((((c.tc : Thread nD τ).loc (Pipeline.arrRef spec0 0)) ↦{dat.share 0} G 0 : sProp 𝕄)) = ((((c.tc : Thread nD τ).loc main_v48) ↦{fullShare} V main_v48 : sProp 𝕄)) := by
  rw [share0_0 dat h1 h2 hq, hG 0]
theorem win0_1_eq (V : (b : Ref sig .tc) → Buf (Elt F) ((c.tc : Thread nD τ).loc b))
    (G : (w : Fin cfg0.W) → Buf (Elt F) ((cfg0.win w).arr.view.loc (c.tc : Thread nD τ))) (hG : ∀ w, G w = V (Pipeline.arrRef spec0 w)) :
    ((((c.tc : Thread nD τ).loc (Pipeline.arrRef spec0 1)) ↦{dat.share 1} G 1 : sProp 𝕄)) = ((((c.tc : Thread nD τ).loc main_v29) ↦{fullShare.left} V main_v29 : sProp 𝕄)) := by
  rw [share0_1 dat h1 h2 hq, hG 1]
theorem win0_2_eq (V : (b : Ref sig .tc) → Buf (Elt F) ((c.tc : Thread nD τ).loc b))
    (G : (w : Fin cfg0.W) → Buf (Elt F) ((cfg0.win w).arr.view.loc (c.tc : Thread nD τ))) (hG : ∀ w, G w = V (Pipeline.arrRef spec0 w)) :
    ((((c.tc : Thread nD τ).loc (Pipeline.arrRef spec0 2)) ↦{dat.share 2} G 2 : sProp 𝕄)) = ((((c.tc : Thread nD τ).loc main_v29) ↦{fullShare.right} V main_v29 : sProp 𝕄)) := by
  rw [share0_2 dat h1 h2 hq, hG 2]
theorem win0_3_eq (V : (b : Ref sig .tc) → Buf (Elt F) ((c.tc : Thread nD τ).loc b))
    (G : (w : Fin cfg0.W) → Buf (Elt F) ((cfg0.win w).arr.view.loc (c.tc : Thread nD τ))) (hG : ∀ w, G w = V (Pipeline.arrRef spec0 w)) :
    ((((c.tc : Thread nD τ).loc (Pipeline.arrRef spec0 3)) ↦{dat.share 3} G 3 : sProp 𝕄)) = ((((c.tc : Thread nD τ).loc main_v50) ↦{fullShare} V main_v50 : sProp 𝕄)) := by
  rw [share0_3 dat h1 h2 hq, hG 3]
theorem win0_4_eq (V : (b : Ref sig .tc) → Buf (Elt F) ((c.tc : Thread nD τ).loc b))
    (G : (w : Fin cfg0.W) → Buf (Elt F) ((cfg0.win w).arr.view.loc (c.tc : Thread nD τ))) (hG : ∀ w, G w = V (Pipeline.arrRef spec0 w)) :
    ((((c.tc : Thread nD τ).loc (Pipeline.arrRef spec0 4)) ↦{dat.share 4} G 4 : sProp 𝕄)) = ((((c.tc : Thread nD τ).loc main_v52) ↦{fullShare} V main_v52 : sProp 𝕄)) := by
  rw [share0_4 dat h1 h2 hq, hG 4]
theorem win0_5_eq (V : (b : Ref sig .tc) → Buf (Elt F) ((c.tc : Thread nD τ).loc b))
    (G : (w : Fin cfg0.W) → Buf (Elt F) ((cfg0.win w).arr.view.loc (c.tc : Thread nD τ))) (hG : ∀ w, G w = V (Pipeline.arrRef spec0 w)) :
    ((((c.tc : Thread nD τ).loc (Pipeline.arrRef spec0 5)) ↦{dat.share 5} G 5 : sProp 𝕄)) = ((((c.tc : Thread nD τ).loc main_v54) ↦{fullShare} V main_v54 : sProp 𝕄)) := by
  rw [share0_5 dat h1 h2 hq, hG 5]
theorem win0_6_eq (V : (b : Ref sig .tc) → Buf (Elt F) ((c.tc : Thread nD τ).loc b))
    (G : (w : Fin cfg0.W) → Buf (Elt F) ((cfg0.win w).arr.view.loc (c.tc : Thread nD τ))) (hG : ∀ w, G w = V (Pipeline.arrRef spec0 w)) :
    ((((c.tc : Thread nD τ).loc (Pipeline.arrRef spec0 6)) ↦{dat.share 6} G 6 : sProp 𝕄)) = ((((c.tc : Thread nD τ).loc main_v56) ↦{fullShare} V main_v56 : sProp 𝕄)) := by
  rw [share0_6 dat h1 h2 hq, hG 6]
omit h1 h2 hq in
theorem win0_7_eq (V : (b : Ref sig .tc) → Buf (Elt F) ((c.tc : Thread nD τ).loc b))
    (G : (w : Fin cfg0.W) → Buf (Elt F) ((cfg0.win w).arr.view.loc (c.tc : Thread nD τ))) (hG : ∀ w, G w = V (Pipeline.arrRef spec0 w)) :
    ((((c.tc : Thread nD τ).loc (Pipeline.arrRef spec0 7)) ↦{dat.share 7} G 7 : sProp 𝕄)) = ((((c.tc : Thread nD τ).loc main_v57_0) ↦{fullShare} V main_v57_0 : sProp 𝕄)) := by
  rw [share0_7 dat, hG 7]
omit h1 h2 hq in
theorem win0_8_eq (V : (b : Ref sig .tc) → Buf (Elt F) ((c.tc : Thread nD τ).loc b))
    (G : (w : Fin cfg0.W) → Buf (Elt F) ((cfg0.win w).arr.view.loc (c.tc : Thread nD τ))) (hG : ∀ w, G w = V (Pipeline.arrRef spec0 w)) :
    ((((c.tc : Thread nD τ).loc (Pipeline.arrRef spec0 8)) ↦{dat.share 8} G 8 : sProp 𝕄)) = ((((c.tc : Thread nD τ).loc main_v57_1) ↦{fullShare} V main_v57_1 : sProp 𝕄)) := by
  rw [share0_8 dat, hG 8]

set_option maxHeartbeats 2000000 in
/-- ENTRY: the eight buffers, each whole at the full share at contents `V`, make the nine windows' arrays at the same
    contents — the shared buffer's two halves going to its two windows. -/
theorem arrays0_of_bufs (V : (b : Ref sig .tc) → Buf (Elt F) ((c.tc : Thread nD τ).loc b))
    (G : (w : Fin cfg0.W) → Buf (Elt F) ((cfg0.win w).arr.view.loc (c.tc : Thread nD τ)))
    (hG : ∀ w, G w = V (Pipeline.arrRef spec0 w)) :
    (Pipeline.arrBufs (Ix := Unit) (Name := ℕ) (U := UR sig nD τ) (Lvl := ℕ) spec0 c V : sProp 𝕄) ⊢ dat.arrays G := by
  rw [bufs0_chain, arrays0_chain dat G]
  iintro ⟨H48, H29, H50, H52, H54, H56, H570, H571⟩
  ihave H29 := (pointsTo_share (PosShare.mem_left_op_right fullShare)).1 $$ H29
  icases H29 with ⟨Ha, Hb⟩
  isplitl [H48]; · iapply (Entails.of_eq (win0_0_eq dat h1 h2 hq V G hG).symm); iexact H48
  isplitl [Ha]; · iapply (Entails.of_eq (win0_1_eq dat h1 h2 hq V G hG).symm); iexact Ha
  isplitl [Hb]; · iapply (Entails.of_eq (win0_2_eq dat h1 h2 hq V G hG).symm); iexact Hb
  isplitl [H50]; · iapply (Entails.of_eq (win0_3_eq dat h1 h2 hq V G hG).symm); iexact H50
  isplitl [H52]; · iapply (Entails.of_eq (win0_4_eq dat h1 h2 hq V G hG).symm); iexact H52
  isplitl [H54]; · iapply (Entails.of_eq (win0_5_eq dat h1 h2 hq V G hG).symm); iexact H54
  isplitl [H56]; · iapply (Entails.of_eq (win0_6_eq dat h1 h2 hq V G hG).symm); iexact H56
  isplitl [H570]; · iapply (Entails.of_eq (win0_7_eq dat V G hG).symm); iexact H570
  iapply (Entails.of_eq (win0_8_eq dat V G hG).symm); iexact H571

set_option maxHeartbeats 2000000 in
/-- EXIT: the nine windows' arrays at contents read off `V` make the eight buffers whole again at `V`. -/
theorem bufs_of_arrays0 (V : (b : Ref sig .tc) → Buf (Elt F) ((c.tc : Thread nD τ).loc b))
    (G : (w : Fin cfg0.W) → Buf (Elt F) ((cfg0.win w).arr.view.loc (c.tc : Thread nD τ)))
    (hG : ∀ w, G w = V (Pipeline.arrRef spec0 w)) :
    dat.arrays G ⊢ (Pipeline.arrBufs (Ix := Unit) (Name := ℕ) (U := UR sig nD τ) (Lvl := ℕ) spec0 c V : sProp 𝕄) := by
  rw [bufs0_chain, arrays0_chain dat G]
  iintro ⟨H48, Ha, Hb, H50, H52, H54, H56, H570, H571⟩
  ihave H48 := (Entails.of_eq (win0_0_eq dat h1 h2 hq V G hG)) $$ H48
  ihave Ha := (Entails.of_eq (win0_1_eq dat h1 h2 hq V G hG)) $$ Ha
  ihave Hb := (Entails.of_eq (win0_2_eq dat h1 h2 hq V G hG)) $$ Hb
  ihave H50 := (Entails.of_eq (win0_3_eq dat h1 h2 hq V G hG)) $$ H50
  ihave H52 := (Entails.of_eq (win0_4_eq dat h1 h2 hq V G hG)) $$ H52
  ihave H54 := (Entails.of_eq (win0_5_eq dat h1 h2 hq V G hG)) $$ H54
  ihave H56 := (Entails.of_eq (win0_6_eq dat h1 h2 hq V G hG)) $$ H56
  ihave H570 := (Entails.of_eq (win0_7_eq dat V G hG)) $$ H570
  ihave H571 := (Entails.of_eq (win0_8_eq dat V G hG)) $$ H571
  ihave H29 := (pointsTo_share (PosShare.mem_left_op_right fullShare)).2 $$ [Ha Hb]
  · isplitl [Ha] <;> iassumption
  isplitl [H48]; · iexact H48
  isplitl [H29]; · iexact H29
  isplitl [H50]; · iexact H50
  isplitl [H52]; · iexact H52
  isplitl [H54]; · iexact H54
  isplitl [H56]; · iexact H56
  isplitl [H570]; · iexact H570
  iexact H571

end Deal

end Cert.Kernel.Hand

end
-- ==== Proof.KBody.lean ====
/- The kernel body's triple, for each of the three launches of the printed program: the nine whole staging memrefs,
   the seven inputs at read contents and the two outputs at anything, run to the continuation holding the inputs as
   they were and each output at the canonical contents of its one covering store over the payloads of the inputs read
   through the whole-block rectangle. -/
import proofs.«146559_j69123203662125_1_alg».proof.Proof.Gen.Kernel.Launch
import proofs.«146559_j69123203662125_1_alg».proof.Proof.Gen.Kernel.Skeleton
import proofs.«146559_j69123203662125_1_alg».proof.Proof.Gen.Kernel.Points
import Idealize.ShloMosaic.Lib.Pipeline.FrameBody
import Idealize.ShloMosaic.Lib.Ring
import Idealize.ShloMosaic.Lib.Tactic

-- membership in a rectangle of 3000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each memref is read and written through its whole block -/

abbrev rA : Rect S3000x64 := Rect.unit (s := S3000x64) ![0, 0] S3000x64.size inb_S3000x64_S3000x64_0_0
abbrev rW : Rect S64x64 := Rect.unit (s := S64x64) ![0, 0] S64x64.size inb_S64x64_S64x64_0_0
abbrev rB : Rect S1x64 := Rect.unit (s := S1x64) ![0, 0] S1x64.size inb_S1x64_S1x64_0_0

/-! ## Launch 0 -/

/-- Output window 7's staging buffer after the body of launch 0, from the contents of the seven input buffers: its
    one store, of the normalised sum, over the whole block. -/
def out0_7 (x0 x1 x2 : Vec F S3000x64 .f32) (x3 : Vec F S64x64 .bf16) (x4 : Vec F S1x64 .f32) (x5 : Vec F S64x64 .bf16) (x6 : Vec F S1x64 .f32) : Vec F S3000x64 .f32 :=
  View.canon [⟨rA, k0_pay1 (k0_pay4 (View.ld x0 rA) (View.ld x1 rA) (View.ld x3 rW) (View.ld x4 rB) (View.ld x5 rW) (View.ld x6 rB)) (k0_pay5 (View.ld x0 rA) (View.ld x1 rA) (View.ld x3 rW) (View.ld x4 rB) (View.ld x5 rW) (View.ld x6 rB))⟩]

/-- Output window 8's staging buffer after the body of launch 0: its one store, of the third input plus the
    normalised sum, over the whole block. -/
def out0_8 (x0 x1 x2 : Vec F S3000x64 .f32) (x3 : Vec F S64x64 .bf16) (x4 : Vec F S1x64 .f32) (x5 : Vec F S64x64 .bf16) (x6 : Vec F S1x64 .f32) : Vec F S3000x64 .f32 :=
  View.canon [⟨rA, k0_pay2 (k0_pay3 (View.ld x2 rA)) (k0_pay4 (View.ld x0 rA) (View.ld x1 rA) (View.ld x3 rW) (View.ld x4 rB) (View.ld x5 rW) (View.ld x6 rB)) (k0_pay5 (View.ld x0 rA) (View.ld x1 rA) (View.ld x3 rW) (View.ld x4 rB) (View.ld x5 rW) (View.ld x6 rB))⟩]

/-- The one store is the whole block, so it covers the buffer. -/
theorem cover0_7 (p0 : Vec F S3000x64 .f32) (y : S3000x64.Idx) :
    ∃ pc ∈ ([⟨rA, p0⟩] : List (View.Piece (Elt F) S3000x64 .f32)), y ∈ pc.1.set :=
  View.cover_of_tiled [⟨rA, p0⟩] S3000x64.size (by rfl) y

theorem cover0_8 (p0 : Vec F S3000x64 .f32) (y : S3000x64.Idx) :
    ∃ pc ∈ ([⟨rA, p0⟩] : List (View.Piece (Elt F) S3000x64 .f32)), y ∈ pc.1.set :=
  View.cover_of_tiled [⟨rA, p0⟩] S3000x64.size (by rfl) y

set_option maxHeartbeats 1000000 in
/-- The body of launch 0 on whole staging memrefs, the inputs' at read contents `x0 … x6` and the two outputs' at
    anything (the body reads both before it stores them, and uses neither value), runs to the continuation holding
    the inputs' as they were and the outputs' at `out0_7`, `out0_8` of the inputs'. -/
theorem sound_kernel0 (c : Dev nD) (E : Set ℕ) (i : grid0.Coords) (arg1 : Memref sig .tc .vmem S3000x64 .f32) (harg1 : arg1.IsWhole) (arg2 : Memref sig .tc .vmem S3000x64 .f32) (harg2 : arg2.IsWhole) (arg3 : Memref sig .tc .vmem S3000x64 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S3000x64 .f32) (harg8 : arg8.IsWhole) (arg9 : Memref sig .tc .vmem S3000x64 .f32) (harg9 : arg9.IsWhole)
    (x0 x1 x2 : Vec F S3000x64 .f32) (x3 : Vec F S64x64 .bf16) (x4 : Vec F S1x64 .f32) (x5 : Vec F S64x64 .bf16) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2 x3 x4 x5 x6) ∗ owns (c : Thread nD τ) arg9 fullShare (out0_8 x0 x1 x2 x3 x4 x5 x6)) -∗ K ⟨⟩))
      ⊢ wp frame (wpE (defs₀ (F := F)) Variants.none c none) E (cc0__layer_kernel i arg1 harg1 arg2 harg2 arg3 harg3 arg4 harg4 arg5 harg5 arg6 harg6 arg7 harg7 arg8 harg8 arg9 harg9) K := by
  simp only [cc0__layer_kernel_eq_skeleton]; unfold cc0__layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

/-! ## Launch 1 -/

/-- Output window 7's staging buffer after the body of launch 1, from the contents of the seven input buffers: its
    one store, of the normalised sum, over the whole block. -/
def out1_7 (x0 x1 x2 : Vec F S3000x64 .f32) (x3 : Vec F S64x64 .bf16) (x4 : Vec F S1x64 .f32) (x5 : Vec F S64x64 .bf16) (x6 : Vec F S1x64 .f32) : Vec F S3000x64 .f32 :=
  View.canon [⟨rA, k1_pay1 (k1_pay4 (View.ld x0 rA) (View.ld x1 rA) (View.ld x3 rW) (View.ld x4 rB) (View.ld x5 rW) (View.ld x6 rB)) (k1_pay5 (View.ld x0 rA) (View.ld x1 rA) (View.ld x3 rW) (View.ld x4 rB) (View.ld x5 rW) (View.ld x6 rB))⟩]

/-- Output window 8's staging buffer after the body of launch 1: its one store, of the third input plus the
    normalised sum, over the whole block. -/
def out1_8 (x0 x1 x2 : Vec F S3000x64 .f32) (x3 : Vec F S64x64 .bf16) (x4 : Vec F S1x64 .f32) (x5 : Vec F S64x64 .bf16) (x6 : Vec F S1x64 .f32) : Vec F S3000x64 .f32 :=
  View.canon [⟨rA, k1_pay2 (k1_pay3 (View.ld x2 rA)) (k1_pay4 (View.ld x0 rA) (View.ld x1 rA) (View.ld x3 rW) (View.ld x4 rB) (View.ld x5 rW) (View.ld x6 rB)) (k1_pay5 (View.ld x0 rA) (View.ld x1 rA) (View.ld x3 rW) (View.ld x4 rB) (View.ld x5 rW) (View.ld x6 rB))⟩]

/-- The one store is the whole block, so it covers the buffer. -/
theorem cover1_7 (p0 : Vec F S3000x64 .f32) (y : S3000x64.Idx) :
    ∃ pc ∈ ([⟨rA, p0⟩] : List (View.Piece (Elt F) S3000x64 .f32)), y ∈ pc.1.set :=
  View.cover_of_tiled [⟨rA, p0⟩] S3000x64.size (by rfl) y

theorem cover1_8 (p0 : Vec F S3000x64 .f32) (y : S3000x64.Idx) :
    ∃ pc ∈ ([⟨rA, p0⟩] : List (View.Piece (Elt F) S3000x64 .f32)), y ∈ pc.1.set :=
  View.cover_of_tiled [⟨rA, p0⟩] S3000x64.size (by rfl) y

set_option maxHeartbeats 1000000 in
/-- The body of launch 1 on whole staging memrefs, the inputs' at read contents `x0 … x6` and the two outputs' at
    anything (the body reads both before it stores them, and uses neither value), runs to the continuation holding
    the inputs' as they were and the outputs' at `out1_7`, `out1_8` of the inputs'. -/
theorem sound_kernel1 (c : Dev nD) (E : Set ℕ) (i : grid1.Coords) (arg1 : Memref sig .tc .vmem S3000x64 .f32) (harg1 : arg1.IsWhole) (arg2 : Memref sig .tc .vmem S3000x64 .f32) (harg2 : arg2.IsWhole) (arg3 : Memref sig .tc .vmem S3000x64 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S3000x64 .f32) (harg8 : arg8.IsWhole) (arg9 : Memref sig .tc .vmem S3000x64 .f32) (harg9 : arg9.IsWhole)
    (x0 x1 x2 : Vec F S3000x64 .f32) (x3 : Vec F S64x64 .bf16) (x4 : Vec F S1x64 .f32) (x5 : Vec F S64x64 .bf16) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6) ∗ owns (c : Thread nD τ) arg9 fullShare (out1_8 x0 x1 x2 x3 x4 x5 x6)) -∗ K ⟨⟩))
      ⊢ wp frame (wpE (defs₀ (F := F)) Variants.none c none) E (cc1__layer_kernel i arg1 harg1 arg2 harg2 arg3 harg3 arg4 harg4 arg5 harg5 arg6 harg6 arg7 harg7 arg8 harg8 arg9 harg9) K := by
  simp only [cc1__layer_kernel_eq_skeleton]; unfold cc1__layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1_7 _)
  iexists _; isplitr
  swap; · iexact H8
  ipureintro
  exact View.read_writes_eq_canon _ _ _ (cover1_8 _)

/-! ## Launch 2 -/

/-- Output window 7's staging buffer after the body of launch 2, from the contents of the seven input buffers: its
    one store, of the normalised sum, over the whole block. -/
def out2_7 (x0 x1 x2 : Vec F S3000x64 .f32) (x3 : Vec F S64x64 .bf16) (x4 : Vec F S1x64 .f32) (x5 : Vec F S64x64 .bf16) (x6 : Vec F S1x64 .f32) : Vec F S3000x64 .f32 :=
  View.canon [⟨rA, k2_pay1 (k2_pay4 (View.ld x0 rA) (View.ld x1 rA) (View.ld x3 rW) (View.ld x4 rB) (View.ld x5 rW) (View.ld x6 rB)) (k2_pay5 (View.ld x0 rA) (View.ld x1 rA) (View.ld x3 rW) (View.ld x4 rB) (View.ld x5 rW) (View.ld x6 rB))⟩]

/-- Output window 8's staging buffer after the body of launch 2: its one store, of the third input plus the
    normalised sum, over the whole block. -/
def out2_8 (x0 x1 x2 : Vec F S3000x64 .f32) (x3 : Vec F S64x64 .bf16) (x4 : Vec F S1x64 .f32) (x5 : Vec F S64x64 .bf16) (x6 : Vec F S1x64 .f32) : Vec F S3000x64 .f32 :=
  View.canon [⟨rA, k2_pay2 (k2_pay3 (View.ld x2 rA)) (k2_pay4 (View.ld x0 rA) (View.ld x1 rA) (View.ld x3 rW) (View.ld x4 rB) (View.ld x5 rW) (View.ld x6 rB)) (k2_pay5 (View.ld x0 rA) (View.ld x1 rA) (View.ld x3 rW) (View.ld x4 rB) (View.ld x5 rW) (View.ld x6 rB))⟩]

/-- The one store is the whole block, so it covers the buffer. -/
theorem cover2_7 (p0 : Vec F S3000x64 .f32) (y : S3000x64.Idx) :
    ∃ pc ∈ ([⟨rA, p0⟩] : List (View.Piece (Elt F) S3000x64 .f32)), y ∈ pc.1.set :=
  View.cover_of_tiled [⟨rA, p0⟩] S3000x64.size (by rfl) y

theorem cover2_8 (p0 : Vec F S3000x64 .f32) (y : S3000x64.Idx) :
    ∃ pc ∈ ([⟨rA, p0⟩] : List (View.Piece (Elt F) S3000x64 .f32)), y ∈ pc.1.set :=
  View.cover_of_tiled [⟨rA, p0⟩] S3000x64.size (by rfl) y

set_option maxHeartbeats 1000000 in
/-- The body of launch 2 on whole staging memrefs, the inputs' at read contents `x0 … x6` and the two outputs' at
    anything (the body reads both before it stores them, and uses neither value), runs to the continuation holding
    the inputs' as they were and the outputs' at `out2_7`, `out2_8` of the inputs'. -/
theorem sound_kernel2 (c : Dev nD) (E : Set ℕ) (i : grid2.Coords) (arg1 : Memref sig .tc .vmem S3000x64 .f32) (harg1 : arg1.IsWhole) (arg2 : Memref sig .tc .vmem S3000x64 .f32) (harg2 : arg2.IsWhole) (arg3 : Memref sig .tc .vmem S3000x64 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S3000x64 .f32) (harg8 : arg8.IsWhole) (arg9 : Memref sig .tc .vmem S3000x64 .f32) (harg9 : arg9.IsWhole)
    (x0 x1 x2 : Vec F S3000x64 .f32) (x3 : Vec F S64x64 .bf16) (x4 : Vec F S1x64 .f32) (x5 : Vec F S64x64 .bf16) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out2_7 x0 x1 x2 x3 x4 x5 x6) ∗ owns (c : Thread nD τ) arg9 fullShare (out2_8 x0 x1 x2 x3 x4 x5 x6)) -∗ K ⟨⟩))
      ⊢ wp frame (wpE (defs₀ (F := F)) Variants.none c none) E (cc2__layer_kernel i arg1 harg1 arg2 harg2 arg3 harg3 arg4 harg4 arg5 harg5 arg6 harg6 arg7 harg7 arg8 harg8 arg9 harg9) K := by
  simp only [cc2__layer_kernel_eq_skeleton]; unfold cc2__layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover2_7 _)
  iexists _; isplitr
  swap; · iexact H8
  ipureintro
  exact View.read_writes_eq_canon _ _ _ (cover2_8 _)

end Cert.Kernel.Hand

end
-- ==== Proof.KData.lean ====
/- Per launch of the printed program, at any contents `V` of the TensorCore's buffers when the launch's region is
   entered: each window's block at a grid point read off `V`; that every input window's staging buffer holds its block
   at every point, fetched there or not; the pipeline's proof data (each input's buffer left at its block, each output's
   at the canonical contents of the body's store over the input blocks); and the body obligation at every point. -/
import proofs.«146559_j69123203662125_1_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a launch's region is entered: every launch's data is stated at it
variable (V : (c : Dev nD) → (b : Ref sig .tc) → Buf (Elt F) ((c : Thread nD τ).loc b))

/-! # Launch 0, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s (`hA`) and whose body leaves the block in place (`hafter`): unfetched, the block index has not
    moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof data
    whose array is `V`'s (`hA`) and whose body leaves the block in place (`hafter`): unfetched, the block index has not
    moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof data
    whose array is `V`'s (`hA`) and whose body leaves the block in place (`hafter`): unfetched, the block index has not
    moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof data
    whose array is `V`'s (`hA`) and whose body leaves the block in place (`hafter`): unfetched, the block index has not
    moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof data
    whose array is `V`'s (`hA`) and whose body leaves the block in place (`hafter`): unfetched, the block index has not
    moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof data
    whose array is `V`'s (`hA`) and whose body leaves the block in place (`hafter`): unfetched, the block index has not
    moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof data
    whose array is `V`'s (`hA`) and whose body leaves the block in place (`hafter`): unfetched, the block index has not
    moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of pipeline 0 on core `c`: the arrays as the region finds them (`V`); after the body at point `t`
    each input's buffer at its block and each output's at `out0_W` of the input blocks; the invariant the scoped rest
    and the generator register, untouched; nothing owed; windows 1 and 2 read one array, which they hold by the two halves of the full share; every other window's at the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q w := match w with
    | ⟨1, _⟩ => fullShare.left
    | ⟨2, _⟩ => fullShare.right
    | _ => fullShare
  owed _ := 0

/-- The proof data's arrays are the region-entry contents. -/
theorem A_eq0 (c : Dev nD) (w : Fin cfg0.W) : (dat0 V c).A w = V c (Pipeline.arrRef spec0 w) := by
  dsimp only [dat0]

/-- The shares: windows 1 and 2, which read one array, hold its two halves; every other window holds its array whole. -/
theorem q0_1 (c : Dev nD) : (dat0 V c).q 1 = fullShare.left := rfl
theorem q0_2 (c : Dev nD) : (dat0 V c).q 2 = fullShare.right := rfl
theorem q0_other (c : Dev nD) (w : Fin cfg0.W) (h1 : w ≠ 1) (h2 : w ≠ 2) : (dat0 V c).q w = fullShare := by
  dsimp only [dat0]
  split
  · exact absurd rfl h1
  · exact absurd rfl h2
  · rfl

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Launch 1, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s (`hA`) and whose body leaves the block in place (`hafter`): unfetched, the block index has not
    moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof data
    whose array is `V`'s (`hA`) and whose body leaves the block in place (`hafter`): unfetched, the block index has not
    moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof data
    whose array is `V`'s (`hA`) and whose body leaves the block in place (`hafter`): unfetched, the block index has not
    moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof data
    whose array is `V`'s (`hA`) and whose body leaves the block in place (`hafter`): unfetched, the block index has not
    moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof data
    whose array is `V`'s (`hA`) and whose body leaves the block in place (`hafter`): unfetched, the block index has not
    moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof data
    whose array is `V`'s (`hA`) and whose body leaves the block in place (`hafter`): unfetched, the block index has not
    moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for any proof data
    whose array is `V`'s (`hA`) and whose body leaves the block in place (`hafter`): unfetched, the block index has not
    moved; the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of pipeline 1 on core `c`: the arrays as the region finds them (`V`); after the body at point `t`
    each input's buffer at its block and each output's at `out1_W` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation1 (c : Dev nD) : BodyObligation (dat1 (F := F) V c) (defs₀ (F := F)) Variants.none () Set.univ := fun t => by
  rw [bigSep_W1, bigSep_W1]
  exact sound_body1 V c t

/-! # Launch 2, at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s (`hA`) and whose body leaves the block in place (`hafter`): unfetched, the block index has not
    moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof data
    whose array is `V`'s (`hA`) and whose body leaves the block in place (`hafter`): unfetched, the block index has not
    moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof data
    whose array is `V`'s (`hA`) and whose body leaves the block in place (`hafter`): unfetched, the block index has not
    moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof data
    whose array is `V`'s (`hA`) and whose body leaves the block in place (`hafter`): unfetched, the block index has not
    moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof data
    whose array is `V`'s (`hA`) and whose body leaves the block in place (`hafter`): unfetched, the block index has not
    moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof data
    whose array is `V`'s (`hA`) and whose body leaves the block in place (`hafter`): unfetched, the block index has not
    moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for any proof data
    whose array is `V`'s (`hA`) and whose body leaves the block in place (`hafter`): unfetched, the block index has not
    moved; the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The pipeline's proof data -/

/-- The proof data of pipeline 2 on core `c`: the arrays as the region finds them (`V`); after the body at point `t`
    each input's buffer at its block and each output's at `out2_W` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
    | ⟨8, _⟩ => out2_8 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (grid2.coords t) _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KFrame.lean ====
/-
  The run of the whole program: three kernel launches among four stretches of host operations.

  Between two items every unscoped buffer of the core is held whole at contents that are a fold from the launch
  memory: a stretch of host operations applies its operations; a launch leaves its input arrays as it found them and
  each output array at what the blocks written back leave, every other buffer untouched. No operation and no launch
  writes an argument array, so each argument is read back at the end as launched. The first launch reads one array
  through two windows; there the buffer's two halves are dealt at entry and joined again at exit.
-/
import proofs.«146559_j69123203662125_1_alg».proof.Proof.Gen.Kernel.Launch
import proofs.«146559_j69123203662125_1_alg».proof.Proof.Gen.Kernel.Skeleton
import proofs.«146559_j69123203662125_1_alg».proof.Proof.Gen.Kernel.Points
import proofs.«146559_j69123203662125_1_alg».proof.Proof.KShared
import proofs.«146559_j69123203662125_1_alg».proof.Proof.KData
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => (s₀ m ρ).mem ((c : Dev nD), b)
/-- After the first stretch of host operations (the first launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- The first launch's two output windows, as a family of their own. -/
abbrev outIx0 : Fin 2 → Fin 9 := fun w => ⟨w.val + 7, by omega⟩
abbrev outs0 : Fin 2 → Pipeline.WinSpec sig grid0.rank := fun w => spec0 (outIx0 w)
theorem outs0_inj : Function.Injective (Pipeline.arrRef outs0) := by decide

/-- After the first launch: its two output arrays at what the write-backs leave, every other buffer — its input
    arrays among them — as entered. -/
def W2 (c : Dev nD) : Valuation τ sig (Elt F) :=
  Pipeline.withArrays outs0 c (W1 m ρ c) fun w => (dat0 (V1 m ρ) c).arrAt (outIx0 w) cfg0.N
theorem W2_out (c : Dev nD) (w : Fin 2) :
    W2 m ρ c (Proc.devRef .tc (Pipeline.arrRef spec0 (outIx0 w))) = (dat0 (V1 m ρ) c).arrAt (outIx0 w) cfg0.N := by
  unfold W2; exact Pipeline.withArrays_arr outs0 outs0_inj c _ _ w
theorem W2_of_ne (c : Dev nD) (b : Ref sig .tc) (hb : ∀ w, Pipeline.arrRef outs0 w ≠ b) :
    W2 m ρ c (Proc.devRef .tc b) = W1 m ρ c (Proc.devRef .tc b) := by
  unfold W2; exact Pipeline.withArrays_of_ne outs0 c _ _ b hb
abbrev V2 : (c : Dev nD) → (b : Ref sig .tc) → Buf (Elt F) ((c : Thread nD τ).loc b) := fun c b => W2 m ρ c b

set_option maxHeartbeats 4000000 in
/-- At the first launch's exit each of its arrays holds what the pipeline leaves: an input its entry contents, an
    output its folded write-backs. -/
theorem hF0 (c : Dev nD) : ∀ w : Fin cfg0.W, (dat0 (V1 m ρ) c).arrAt w cfg0.N = V2 m ρ c (Pipeline.arrRef spec0 w)
  | ⟨0, _⟩ => (((dat0 (V1 m ρ) c).arrAt_in 0 rfl _).trans (A_eq0 (V1 m ρ) c 0)).trans (W2_of_ne m ρ c main_v48 (by decide)).symm
  | ⟨1, _⟩ => (((dat0 (V1 m ρ) c).arrAt_in 1 rfl _).trans (A_eq0 (V1 m ρ) c 1)).trans (W2_of_ne m ρ c main_v29 (by decide)).symm
  | ⟨2, _⟩ => (((dat0 (V1 m ρ) c).arrAt_in 2 rfl _).trans (A_eq0 (V1 m ρ) c 2)).trans (W2_of_ne m ρ c main_v29 (by decide)).symm
  | ⟨3, _⟩ => (((dat0 (V1 m ρ) c).arrAt_in 3 rfl _).trans (A_eq0 (V1 m ρ) c 3)).trans (W2_of_ne m ρ c main_v50 (by decide)).symm
  | ⟨4, _⟩ => (((dat0 (V1 m ρ) c).arrAt_in 4 rfl _).trans (A_eq0 (V1 m ρ) c 4)).trans (W2_of_ne m ρ c main_v52 (by decide)).symm
  | ⟨5, _⟩ => (((dat0 (V1 m ρ) c).arrAt_in 5 rfl _).trans (A_eq0 (V1 m ρ) c 5)).trans (W2_of_ne m ρ c main_v54 (by decide)).symm
  | ⟨6, _⟩ => (((dat0 (V1 m ρ) c).arrAt_in 6 rfl _).trans (A_eq0 (V1 m ρ) c 6)).trans (W2_of_ne m ρ c main_v56 (by decide)).symm
  | ⟨7, _⟩ => (W2_out m ρ c 0).symm
  | ⟨8, _⟩ => (W2_out m ρ c 1).symm
theorem hrest0 (c : Dev nD) : ∀ b, b ∉ Finset.univ.image (Pipeline.arrRef spec0) → V2 m ρ c b = V1 m ρ c b :=
  fun b hb => W2_of_ne m ρ c b fun w e => hb (Finset.mem_image.mpr ⟨outIx0 w, Finset.mem_univ _, e⟩)

/-- After the second stretch (the second launch's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After launch 1: its arrays at what the pipeline leaves (the inputs as entered, each output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch (the third launch's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- After launch 2: its arrays at what the pipeline leaves (the inputs as entered, each output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last stretch: the program's end. -/
abbrev W7 : Dev nD → Valuation τ sig (Elt F) := fun c => StableHlo.after hostOps3 (W6 m ρ c)

/-! ### The arguments end as launched -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

set_option maxHeartbeats 4000000 in
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_forall_not_mem (b := Proc.devRef .tc main_arg0) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = m ((c : Thread nD τ).loc main_arg0) := rfl
set_option maxHeartbeats 4000000 in
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_forall_not_mem (b := Proc.devRef .tc main_arg1) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = m ((c : Thread nD τ).loc main_arg1) := rfl
set_option maxHeartbeats 4000000 in
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_forall_not_mem (b := Proc.devRef .tc main_arg2) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = m ((c : Thread nD τ).loc main_arg2) := rfl
set_option maxHeartbeats 4000000 in
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_forall_not_mem (b := Proc.devRef .tc main_arg3) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = m ((c : Thread nD τ).loc main_arg3) := rfl
set_option maxHeartbeats 4000000 in
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_forall_not_mem (b := Proc.devRef .tc main_arg4) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = m ((c : Thread nD τ).loc main_arg4) := rfl
set_option maxHeartbeats 4000000 in
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_forall_not_mem (b := Proc.devRef .tc main_arg5) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = m ((c : Thread nD τ).loc main_arg5) := rfl
set_option maxHeartbeats 4000000 in
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_forall_not_mem (b := Proc.devRef .tc main_arg6) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = m ((c : Thread nD τ).loc main_arg6) := rfl
set_option maxHeartbeats 4000000 in
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_forall_not_mem (b := Proc.devRef .tc main_arg7) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = m ((c : Thread nD τ).loc main_arg7) := rfl

/-! ## The proof data family and the thread state -/

/-- The prefetched tables' admissible contents: no launch has a table. -/
abbrev adm : (p : Fin 3) → (pcfgs (F := F) p).Adm := fun p => (cfgs p).toPCfg_adm
/-- Every launch's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at
    some state. -/
abbrev Tₙ (c : Dev nD) : sProp 𝕄 := iprop(StableHlo.held (c : Thread nD τ) (Pipeline.ucRefs τ sig) (W7 m ρ c) ∗ ∃ r, prngReg c r)

/-! ## The launches as segments -/

set_option backward.isDefEq.respectTransparency.types false in
/-- The first launch over the thread state. Its nine windows stand on eight buffers: at entry the buffers behind the
    arrays are taken out of the unscoped buffers and dealt to the windows (the shared one by halves); at exit the
    halves are joined and all eight put back, the two outputs at what the write-backs leave. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs (Ix := Unit) (Name := ℕ) (U := UR sig nD τ) (Lvl := ℕ) c (V1 m ρ c) : sProp 𝕄)
        = iprop((Pipeline.arrBufs (Ix := Unit) (Name := ℕ) (U := UR sig nD τ) (Lvl := ℕ) spec0 c (V1 m ρ c) : sProp 𝕄) ∗ Pipeline.unscopedRest (Ix := Unit) (Name := ℕ) (U := UR sig nD τ) (Lvl := ℕ) spec0 c (V1 m ρ c)) :=
      Pipeline.PerCore.unscopedBufs_split₀ (fun _ : Dev nD => cfgs) (0 : Fin 3) c winFacts₀0.arr_unscoped (V1 m ρ c)
    rw [Pipeline.unscopedBufs_held] at hsplit
    have hdeal := arrays0_of_bufs (dat0 (V1 m ρ) c) (q0_1 (V1 m ρ) c) (q0_2 (V1 m ρ) c) (q0_other (V1 m ρ) c) (V1 m ρ c)
      ((dat0 (V1 m ρ) c).arrAt · 0) (fun w => A_eq0 (V1 m ρ) c w)
    iintro ⟨⟨Hub, Hp, HO⟩, -, -⟩
    ihave H := (Entails.of_eq hsplit) $$ Hub
    icases H with ⟨Hb, Hrest⟩
    ihave Ha := hdeal $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hsplit : (unscopedBufs (Ix := Unit) (Name := ℕ) (U := UR sig nD τ) (Lvl := ℕ) c (V2 m ρ c) : sProp 𝕄)
        = iprop((Pipeline.arrBufs (Ix := Unit) (Name := ℕ) (U := UR sig nD τ) (Lvl := ℕ) spec0 c (V2 m ρ c) : sProp 𝕄) ∗ Pipeline.unscopedRest (Ix := Unit) (Name := ℕ) (U := UR sig nD τ) (Lvl := ℕ) spec0 c (V2 m ρ c)) :=
      Pipeline.PerCore.unscopedBufs_split₀ (fun _ : Dev nD => cfgs) (0 : Fin 3) c winFacts₀0.arr_unscoped (V2 m ρ c)
    rw [Pipeline.unscopedBufs_held] at hsplit
    have hjoin : ((pdats m ρ 0 c).arrays fun x => (pdats m ρ 0 c).arrAt x (Pipeline.pin (pcfgs (F := F)) adm 0).N)
        ⊢ (Pipeline.arrBufs (Ix := Unit) (Name := ℕ) (U := UR sig nD τ) (Lvl := ℕ) spec0 c (V2 m ρ c) : sProp 𝕄) :=
      bufs_of_arrays0 (dat0 (V1 m ρ) c) (q0_1 (V1 m ρ) c) (q0_2 (V1 m ρ) c) (q0_other (V1 m ρ) c) (V2 m ρ c)
        ((dat0 (V1 m ρ) c).arrAt · cfg0.N) (hF0 m ρ c)
    have hrest : (Pipeline.unscopedRest (Ix := Unit) (Name := ℕ) (U := UR sig nD τ) (Lvl := ℕ) spec0 c (V1 m ρ c) : sProp 𝕄) = Pipeline.unscopedRest (Ix := Unit) (Name := ℕ) (U := UR sig nD τ) (Lvl := ℕ) spec0 c (V2 m ρ c) := by
      unfold Pipeline.unscopedRest
      exact bigSep_congr fun b hb => by rw [hrest0 m ρ c b (Finset.mem_sdiff.mp hb).2]
    iintro ⟨Ha, HO, HY, Hrest⟩
    ihave Hb := hjoin $$ Ha
    ihave Hrest := (Entails.of_eq hrest) $$ Hrest
    imodintro
    isplitl [Hb Hrest]
    · iapply (Entails.of_eq hsplit.symm); isplitl [Hb] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at the contents before it, left with its two
    output arrays at what the write-backs leave and every other buffer as entered. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered with every unscoped buffer at the contents before it, left with its two
    output arrays at what the write-backs leave and every other buffer as entered. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
set_option maxHeartbeats 4000000 in
/-- The program IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of the program on the TensorCores
    terminates, nothing faulting, and every final state has every unscoped buffer at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c)⟩) (run_all m ρ)

end Cert.Kernel.Hand

end
-- ==== Proof.KIShared.lean ====
/-
  One array read through two input windows of the first kernel launch.

  The first launch hands the array of all node rows to two of its input windows (the rows entering the layer and the
  running sum, which start out equal), so the buffer behind them is one buffer and its full share has to be dealt:
  the left half to one window, the right half to the other. Both halves hold the same contents, and joined they are
  the whole buffer again. Every other window has a buffer of its own at the full share.
-/
import proofs.«146559_j69123203662125_1_alg».proof.Proof.Gen.KernelIdeal.Launch
import proofs.«146559_j69123203662125_1_alg».proof.Proof.Gen.KernelIdeal.Skeleton
import proofs.«146559_j69123203662125_1_alg».proof.Proof.Gen.KernelIdeal.Points
import proofs.«146559_j69123203662125_1_alg».proof.Proof.LibFrameShared
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The distinct buffers behind the nine windows' arrays of the first launch. -/
abbrev bufs0 : List (Ref sig .tc) := [main_v48, main_v29, main_v50, main_v52, main_v54, main_v56, main_v57_0, main_v57_1]

theorem bufs0_image : Finset.univ.image (Pipeline.arrRef spec0) = bufs0.toFinset := by decide
theorem bufs0_nodup : bufs0.Nodup := by decide

/-- The pipeline's arrays, window by window, each a whole buffer at its share. -/
theorem arrays0_eq {c : Dev nD} (dat : Dat τ (Elt F) Unit ℕ (UR sig nD τ) ℕ cfg0 c)
    (G : (w : Fin cfg0.W) → Buf (Elt F) ((cfg0.win w).arr.view.loc (c.tc : Thread nD τ))) :
    (dat.arrays G : sProp 𝕄) = bigSep Finset.univ fun w : Fin cfg0.W =>
      ((((c.tc : Thread nD τ).loc (Pipeline.arrRef spec0 w)) ↦{dat.share w} G w : sProp 𝕄)) := by
  unfold Dat.arrays
  exact bigSep_congr fun w _ => by rw [(arr_whole0 w).set_eq_univ]

section Deal

variable {c : Dev nD} (dat : Dat τ (Elt F) Unit ℕ (UR sig nD τ) ℕ cfg0 c)
  (h1 : dat.q 1 = fullShare.left) (h2 : dat.q 2 = fullShare.right)
  (hq : ∀ w : Fin cfg0.W, w ≠ 1 → w ≠ 2 → dat.q w = fullShare)

include h1 h2 hq

theorem share0_0 : dat.share 0 = fullShare := by unfold Dat.share; rw [if_neg (by decide)]; exact hq 0 (by decide) (by decide)
theorem share0_1 : dat.share 1 = fullShare.left := by unfold Dat.share; rw [if_neg (by decide)]; exact h1
theorem share0_2 : dat.share 2 = fullShare.right := by unfold Dat.share; rw [if_neg (by decide)]; exact h2
theorem share0_3 : dat.share 3 = fullShare := by unfold Dat.share; rw [if_neg (by decide)]; exact hq 3 (by decide) (by decide)
theorem share0_4 : dat.share 4 = fullShare := by unfold Dat.share; rw [if_neg (by decide)]; exact hq 4 (by decide) (by decide)
theorem share0_5 : dat.share 5 = fullShare := by unfold Dat.share; rw [if_neg (by decide)]; exact hq 5 (by decide) (by decide)
theorem share0_6 : dat.share 6 = fullShare := by unfold Dat.share; rw [if_neg (by decide)]; exact hq 6 (by decide) (by decide)
omit h1 h2 hq in
theorem share0_7 : dat.share 7 = fullShare := by unfold Dat.share; rw [if_pos (by decide)]
omit h1 h2 hq in
theorem share0_8 : dat.share 8 = fullShare := by unfold Dat.share; rw [if_pos (by decide)]

omit h1 h2 hq in
set_option maxHeartbeats 1000000 in
/-- The windows' arrays as a chain of nine points-tos. -/
theorem arrays0_chain (G : (w : Fin cfg0.W) → Buf (Elt F) ((cfg0.win w).arr.view.loc (c.tc : Thread nD τ))) :
    (dat.arrays G : sProp 𝕄) = iprop(((((c.tc : Thread nD τ).loc (Pipeline.arrRef spec0 0)) ↦{dat.share 0} G 0 : sProp 𝕄)) ∗ ((((c.tc : Thread nD τ).loc (Pipeline.arrRef spec0 1)) ↦{dat.share 1} G 1 : sProp 𝕄)) ∗ ((((c.tc : Thread nD τ).loc (Pipeline.arrRef spec0 2)) ↦{dat.share 2} G 2 : sProp 𝕄)) ∗ ((((c.tc : Thread nD τ).loc (Pipeline.arrRef spec0 3)) ↦{dat.share 3} G 3 : sProp 𝕄)) ∗ ((((c.tc : Thread nD τ).loc (Pipeline.arrRef spec0 4)) ↦{dat.share 4} G 4 : sProp 𝕄)) ∗ ((((c.tc : Thread nD τ).loc (Pipeline.arrRef spec0 5)) ↦{dat.share 5} G 5 : sProp 𝕄)) ∗ ((((c.tc : Thread nD τ).loc (Pipeline.arrRef spec0 6)) ↦{dat.share 6} G 6 : sProp 𝕄)) ∗ ((((c.tc : Thread nD τ).loc (Pipeline.arrRef spec0 7)) ↦{dat.share 7} G 7 : sProp 𝕄)) ∗ ((((c.tc : Thread nD τ).loc (Pipeline.arrRef spec0 8)) ↦{dat.share 8} G 8 : sProp 𝕄))) := by
  rw [arrays0_eq, bigSep_W0]

omit h1 h2 hq dat in
/-- The distinct buffers behind them as a chain of eight. -/
theorem bufs0_chain (V : (b : Ref sig .tc) → Buf (Elt F) ((c.tc : Thread nD τ).loc b)) :
    (Pipeline.arrBufs (Ix := Unit) (Name := ℕ) (U := UR sig nD τ) (Lvl := ℕ) spec0 c V : sProp 𝕄)
      = iprop(((((c.tc : Thread nD τ).loc main_v48) ↦{fullShare} V main_v48 : sProp 𝕄)) ∗ ((((c.tc : Thread nD τ).loc main_v29) ↦{fullShare} V main_v29 : sProp 𝕄)) ∗ ((((c.tc : Thread nD τ).loc main_v50) ↦{fullShare} V main_v50 : sProp 𝕄)) ∗ ((((c.tc : Thread nD τ).loc main_v52) ↦{fullShare} V main_v52 : sProp 𝕄)) ∗ ((((c.tc : Thread nD τ).loc main_v54) ↦{fullShare} V main_v54 : sProp 𝕄)) ∗ ((((c.tc : Thread nD τ).loc main_v56) ↦{fullShare} V main_v56 : sProp 𝕄)) ∗ ((((c.tc : Thread nD τ).loc main_v57_0) ↦{fullShare} V main_v57_0 : sProp 𝕄)) ∗ ((((c.tc : Thread nD τ).loc main_v57_1) ↦{fullShare} V main_v57_1 : sProp 𝕄))) :=
  (Pipeline.arrBufs_eq_of_list spec0 c V bufs0 bufs0_image bufs0_nodup).trans rfl

theorem win0_0_eq (V : (b : Ref sig .tc) → Buf (Elt F) ((c.tc : Thread nD τ).loc b))
    (G : (w : Fin cfg0.W) → Buf (Elt F) ((cfg0.win w).arr.view.loc (c.tc : Thread nD τ))) (hG : ∀ w, G w = V (Pipeline.arrRef spec0 w)) :
    ((((c.tc : Thread nD τ).loc (Pipeline.arrRef spec0 0)) ↦{dat.share 0} G 0 : sProp 𝕄)) = ((((c.tc : Thread nD τ).loc main_v48) ↦{fullShare} V main_v48 : sProp 𝕄)) := by
  rw [share0_0 dat h1 h2 hq, hG 0]
theorem win0_1_eq (V : (b : Ref sig .tc) → Buf (Elt F) ((c.tc : Thread nD τ).loc b))
    (G : (w : Fin cfg0.W) → Buf (Elt F) ((cfg0.win w).arr.view.loc (c.tc : Thread nD τ))) (hG : ∀ w, G w = V (Pipeline.arrRef spec0 w)) :
    ((((c.tc : Thread nD τ).loc (Pipeline.arrRef spec0 1)) ↦{dat.share 1} G 1 : sProp 𝕄)) = ((((c.tc : Thread nD τ).loc main_v29) ↦{fullShare.left} V main_v29 : sProp 𝕄)) := by
  rw [share0_1 dat h1 h2 hq, hG 1]
theorem win0_2_eq (V : (b : Ref sig .tc) → Buf (Elt F) ((c.tc : Thread nD τ).loc b))
    (G : (w : Fin cfg0.W) → Buf (Elt F) ((cfg0.win w).arr.view.loc (c.tc : Thread nD τ))) (hG : ∀ w, G w = V (Pipeline.arrRef spec0 w)) :
    ((((c.tc : Thread nD τ).loc (Pipeline.arrRef spec0 2)) ↦{dat.share 2} G 2 : sProp 𝕄)) = ((((c.tc : Thread nD τ).loc main_v29) ↦{fullShare.right} V main_v29 : sProp 𝕄)) := by
  rw [share0_2 dat h1 h2 hq, hG 2]
theorem win0_3_eq (V : (b : Ref sig .tc) → Buf (Elt F) ((c.tc : Thread nD τ).loc b))
    (G : (w : Fin cfg0.W) → Buf (Elt F) ((cfg0.win w).arr.view.loc (c.tc : Thread nD τ))) (hG : ∀ w, G w = V (Pipeline.arrRef spec0 w)) :
    ((((c.tc : Thread nD τ).loc (Pipeline.arrRef spec0 3)) ↦{dat.share 3} G 3 : sProp 𝕄)) = ((((c.tc : Thread nD τ).loc main_v50) ↦{fullShare} V main_v50 : sProp 𝕄)) := by
  rw [share0_3 dat h1 h2 hq, hG 3]
theorem win0_4_eq (V : (b : Ref sig .tc) → Buf (Elt F) ((c.tc : Thread nD τ).loc b))
    (G : (w : Fin cfg0.W) → Buf (Elt F) ((cfg0.win w).arr.view.loc (c.tc : Thread nD τ))) (hG : ∀ w, G w = V (Pipeline.arrRef spec0 w)) :
    ((((c.tc : Thread nD τ).loc (Pipeline.arrRef spec0 4)) ↦{dat.share 4} G 4 : sProp 𝕄)) = ((((c.tc : Thread nD τ).loc main_v52) ↦{fullShare} V main_v52 : sProp 𝕄)) := by
  rw [share0_4 dat h1 h2 hq, hG 4]
theorem win0_5_eq (V : (b : Ref sig .tc) → Buf (Elt F) ((c.tc : Thread nD τ).loc b))
    (G : (w : Fin cfg0.W) → Buf (Elt F) ((cfg0.win w).arr.view.loc (c.tc : Thread nD τ))) (hG : ∀ w, G w = V (Pipeline.arrRef spec0 w)) :
    ((((c.tc : Thread nD τ).loc (Pipeline.arrRef spec0 5)) ↦{dat.share 5} G 5 : sProp 𝕄)) = ((((c.tc : Thread nD τ).loc main_v54) ↦{fullShare} V main_v54 : sProp 𝕄)) := by
  rw [share0_5 dat h1 h2 hq, hG 5]
theorem win0_6_eq (V : (b : Ref sig .tc) → Buf (Elt F) ((c.tc : Thread nD τ).loc b))
    (G : (w : Fin cfg0.W) → Buf (Elt F) ((cfg0.win w).arr.view.loc (c.tc : Thread nD τ))) (hG : ∀ w, G w = V (Pipeline.arrRef spec0 w)) :
    ((((c.tc : Thread nD τ).loc (Pipeline.arrRef spec0 6)) ↦{dat.share 6} G 6 : sProp 𝕄)) = ((((c.tc : Thread nD τ).loc main_v56) ↦{fullShare} V main_v56 : sProp 𝕄)) := by
  rw [share0_6 dat h1 h2 hq, hG 6]
omit h1 h2 hq in
theorem win0_7_eq (V : (b : Ref sig .tc) → Buf (Elt F) ((c.tc : Thread nD τ).loc b))
    (G : (w : Fin cfg0.W) → Buf (Elt F) ((cfg0.win w).arr.view.loc (c.tc : Thread nD τ))) (hG : ∀ w, G w = V (Pipeline.arrRef spec0 w)) :
    ((((c.tc : Thread nD τ).loc (Pipeline.arrRef spec0 7)) ↦{dat.share 7} G 7 : sProp 𝕄)) = ((((c.tc : Thread nD τ).loc main_v57_0) ↦{fullShare} V main_v57_0 : sProp 𝕄)) := by
  rw [share0_7 dat, hG 7]
omit h1 h2 hq in
theorem win0_8_eq (V : (b : Ref sig .tc) → Buf (Elt F) ((c.tc : Thread nD τ).loc b))
    (G : (w : Fin cfg0.W) → Buf (Elt F) ((cfg0.win w).arr.view.loc (c.tc : Thread nD τ))) (hG : ∀ w, G w = V (Pipeline.arrRef spec0 w)) :
    ((((c.tc : Thread nD τ).loc (Pipeline.arrRef spec0 8)) ↦{dat.share 8} G 8 : sProp 𝕄)) = ((((c.tc : Thread nD τ).loc main_v57_1) ↦{fullShare} V main_v57_1 : sProp 𝕄)) := by
  rw [share0_8 dat, hG 8]

set_option maxHeartbeats 2000000 in
/-- ENTRY: the eight buffers, each whole at the full share at contents `V`, make the nine windows' arrays at the same
    contents — the shared buffer's two halves going to its two windows. -/
theorem arrays0_of_bufs (V : (b : Ref sig .tc) → Buf (Elt F) ((c.tc : Thread nD τ).loc b))
    (G : (w : Fin cfg0.W) → Buf (Elt F) ((cfg0.win w).arr.view.loc (c.tc : Thread nD τ)))
    (hG : ∀ w, G w = V (Pipeline.arrRef spec0 w)) :
    (Pipeline.arrBufs (Ix := Unit) (Name := ℕ) (U := UR sig nD τ) (Lvl := ℕ) spec0 c V : sProp 𝕄) ⊢ dat.arrays G := by
  rw [bufs0_chain, arrays0_chain dat G]
  iintro ⟨H48, H29, H50, H52, H54, H56, H570, H571⟩
  ihave H29 := (pointsTo_share (PosShare.mem_left_op_right fullShare)).1 $$ H29
  icases H29 with ⟨Ha, Hb⟩
  isplitl [H48]; · iapply (Entails.of_eq (win0_0_eq dat h1 h2 hq V G hG).symm); iexact H48
  isplitl [Ha]; · iapply (Entails.of_eq (win0_1_eq dat h1 h2 hq V G hG).symm); iexact Ha
  isplitl [Hb]; · iapply (Entails.of_eq (win0_2_eq dat h1 h2 hq V G hG).symm); iexact Hb
  isplitl [H50]; · iapply (Entails.of_eq (win0_3_eq dat h1 h2 hq V G hG).symm); iexact H50
  isplitl [H52]; · iapply (Entails.of_eq (win0_4_eq dat h1 h2 hq V G hG).symm); iexact H52
  isplitl [H54]; · iapply (Entails.of_eq (win0_5_eq dat h1 h2 hq V G hG).symm); iexact H54
  isplitl [H56]; · iapply (Entails.of_eq (win0_6_eq dat h1 h2 hq V G hG).symm); iexact H56
  isplitl [H570]; · iapply (Entails.of_eq (win0_7_eq dat V G hG).symm); iexact H570
  iapply (Entails.of_eq (win0_8_eq dat V G hG).symm); iexact H571

set_option maxHeartbeats 2000000 in
/-- EXIT: the nine windows' arrays at contents read off `V` make the eight buffers whole again at `V`. -/
theorem bufs_of_arrays0 (V : (b : Ref sig .tc) → Buf (Elt F) ((c.tc : Thread nD τ).loc b))
    (G : (w : Fin cfg0.W) → Buf (Elt F) ((cfg0.win w).arr.view.loc (c.tc : Thread nD τ)))
    (hG : ∀ w, G w = V (Pipeline.arrRef spec0 w)) :
    dat.arrays G ⊢ (Pipeline.arrBufs (Ix := Unit) (Name := ℕ) (U := UR sig nD τ) (Lvl := ℕ) spec0 c V : sProp 𝕄) := by
  rw [bufs0_chain, arrays0_chain dat G]
  iintro ⟨H48, Ha, Hb, H50, H52, H54, H56, H570, H571⟩
  ihave H48 := (Entails.of_eq (win0_0_eq dat h1 h2 hq V G hG)) $$ H48
  ihave Ha := (Entails.of_eq (win0_1_eq dat h1 h2 hq V G hG)) $$ Ha
  ihave Hb := (Entails.of_eq (win0_2_eq dat h1 h2 hq V G hG)) $$ Hb
  ihave H50 := (Entails.of_eq (win0_3_eq dat h1 h2 hq V G hG)) $$ H50
  ihave H52 := (Entails.of_eq (win0_4_eq dat h1 h2 hq V G hG)) $$ H52
  ihave H54 := (Entails.of_eq (win0_5_eq dat h1 h2 hq V G hG)) $$ H54
  ihave H56 := (Entails.of_eq (win0_6_eq dat h1 h2 hq V G hG)) $$ H56
  ihave H570 := (Entails.of_eq (win0_7_eq dat V G hG)) $$ H570
  ihave H571 := (Entails.of_eq (win0_8_eq dat V G hG)) $$ H571
  ihave H29 := (pointsTo_share (PosShare.mem_left_op_right fullShare)).2 $$ [Ha Hb]
  · isplitl [Ha] <;> iassumption
  isplitl [H48]; · iexact H48
  isplitl [H29]; · iexact H29
  isplitl [H50]; · iexact H50
  isplitl [H52]; · iexact H52
  isplitl [H54]; · iexact H54
  isplitl [H56]; · iexact H56
  isplitl [H570]; · iexact H570
  iexact H571

end Deal

end Cert.KernelIdeal.Hand

end
-- ==== Proof.KIBody.lean ====
/- The kernel body's triple, for each of the three launches of the printed program: the nine whole staging memrefs,
   the seven inputs at read contents and the two outputs at anything, run to the continuation holding the inputs as
   they were and each output at the canonical contents of its one covering store over the payloads of the inputs read
   through the whole-block rectangle. -/
import proofs.«146559_j69123203662125_1_alg».proof.Proof.Gen.KernelIdeal.Launch
import proofs.«146559_j69123203662125_1_alg».proof.Proof.Gen.KernelIdeal.Skeleton
import proofs.«146559_j69123203662125_1_alg».proof.Proof.Gen.KernelIdeal.Points
import Idealize.ShloMosaic.Lib.Pipeline.FrameBody
import Idealize.ShloMosaic.Lib.Ring
import Idealize.ShloMosaic.Lib.Tactic

-- membership in a rectangle of 3000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each memref is read and written through its whole block -/

abbrev rA : Rect S3000x64 := Rect.unit (s := S3000x64) ![0, 0] S3000x64.size inb_S3000x64_S3000x64_0_0
abbrev rW : Rect S64x64 := Rect.unit (s := S64x64) ![0, 0] S64x64.size inb_S64x64_S64x64_0_0
abbrev rB : Rect S1x64 := Rect.unit (s := S1x64) ![0, 0] S1x64.size inb_S1x64_S1x64_0_0

/-! ## Launch 0 -/

/-- Output window 7's staging buffer after the body of launch 0, from the contents of the seven input buffers: its
    one store, of the normalised sum, over the whole block. -/
def out0_7 (x0 x1 x2 : Vec F S3000x64 .f32) (x3 : Vec F S64x64 .bf16) (x4 : Vec F S1x64 .f32) (x5 : Vec F S64x64 .bf16) (x6 : Vec F S1x64 .f32) : Vec F S3000x64 .f32 :=
  View.canon [⟨rA, k0_pay1 (k0_pay4 (View.ld x0 rA) (View.ld x1 rA) (View.ld x3 rW) (View.ld x4 rB) (View.ld x5 rW) (View.ld x6 rB)) (k0_pay5 (View.ld x0 rA) (View.ld x1 rA) (View.ld x3 rW) (View.ld x4 rB) (View.ld x5 rW) (View.ld x6 rB))⟩]

/-- Output window 8's staging buffer after the body of launch 0: its one store, of the third input plus the
    normalised sum, over the whole block. -/
def out0_8 (x0 x1 x2 : Vec F S3000x64 .f32) (x3 : Vec F S64x64 .bf16) (x4 : Vec F S1x64 .f32) (x5 : Vec F S64x64 .bf16) (x6 : Vec F S1x64 .f32) : Vec F S3000x64 .f32 :=
  View.canon [⟨rA, k0_pay2 (k0_pay3 (View.ld x2 rA)) (k0_pay4 (View.ld x0 rA) (View.ld x1 rA) (View.ld x3 rW) (View.ld x4 rB) (View.ld x5 rW) (View.ld x6 rB)) (k0_pay5 (View.ld x0 rA) (View.ld x1 rA) (View.ld x3 rW) (View.ld x4 rB) (View.ld x5 rW) (View.ld x6 rB))⟩]

/-- The one store is the whole block, so it covers the buffer. -/
theorem cover0_7 (p0 : Vec F S3000x64 .f32) (y : S3000x64.Idx) :
    ∃ pc ∈ ([⟨rA, p0⟩] : List (View.Piece (Elt F) S3000x64 .f32)), y ∈ pc.1.set :=
  View.cover_of_tiled [⟨rA, p0⟩] S3000x64.size (by rfl) y

theorem cover0_8 (p0 : Vec F S3000x64 .f32) (y : S3000x64.Idx) :
    ∃ pc ∈ ([⟨rA, p0⟩] : List (View.Piece (Elt F) S3000x64 .f32)), y ∈ pc.1.set :=
  View.cover_of_tiled [⟨rA, p0⟩] S3000x64.size (by rfl) y

set_option maxHeartbeats 1000000 in
/-- The body of launch 0 on whole staging memrefs, the inputs' at read contents `x0 … x6` and the two outputs' at
    anything (the body reads both before it stores them, and uses neither value), runs to the continuation holding
    the inputs' as they were and the outputs' at `out0_7`, `out0_8` of the inputs'. -/
theorem sound_kernel0 (c : Dev nD) (E : Set ℕ) (i : grid0.Coords) (arg1 : Memref sig .tc .vmem S3000x64 .f32) (harg1 : arg1.IsWhole) (arg2 : Memref sig .tc .vmem S3000x64 .f32) (harg2 : arg2.IsWhole) (arg3 : Memref sig .tc .vmem S3000x64 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S3000x64 .f32) (harg8 : arg8.IsWhole) (arg9 : Memref sig .tc .vmem S3000x64 .f32) (harg9 : arg9.IsWhole)
    (x0 x1 x2 : Vec F S3000x64 .f32) (x3 : Vec F S64x64 .bf16) (x4 : Vec F S1x64 .f32) (x5 : Vec F S64x64 .bf16) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2 x3 x4 x5 x6) ∗ owns (c : Thread nD τ) arg9 fullShare (out0_8 x0 x1 x2 x3 x4 x5 x6)) -∗ K ⟨⟩))
      ⊢ wp frame (wpE (defs₀ (F := F)) Variants.none c none) E (cc0__layer_kernel i arg1 harg1 arg2 harg2 arg3 harg3 arg4 harg4 arg5 harg5 arg6 harg6 arg7 harg7 arg8 harg8 arg9 harg9) K := by
  simp only [cc0__layer_kernel_eq_skeleton]; unfold cc0__layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

/-! ## Launch 1 -/

/-- Output window 7's staging buffer after the body of launch 1, from the contents of the seven input buffers: its
    one store, of the normalised sum, over the whole block. -/
def out1_7 (x0 x1 x2 : Vec F S3000x64 .f32) (x3 : Vec F S64x64 .bf16) (x4 : Vec F S1x64 .f32) (x5 : Vec F S64x64 .bf16) (x6 : Vec F S1x64 .f32) : Vec F S3000x64 .f32 :=
  View.canon [⟨rA, k1_pay1 (k1_pay4 (View.ld x0 rA) (View.ld x1 rA) (View.ld x3 rW) (View.ld x4 rB) (View.ld x5 rW) (View.ld x6 rB)) (k1_pay5 (View.ld x0 rA) (View.ld x1 rA) (View.ld x3 rW) (View.ld x4 rB) (View.ld x5 rW) (View.ld x6 rB))⟩]

/-- Output window 8's staging buffer after the body of launch 1: its one store, of the third input plus the
    normalised sum, over the whole block. -/
def out1_8 (x0 x1 x2 : Vec F S3000x64 .f32) (x3 : Vec F S64x64 .bf16) (x4 : Vec F S1x64 .f32) (x5 : Vec F S64x64 .bf16) (x6 : Vec F S1x64 .f32) : Vec F S3000x64 .f32 :=
  View.canon [⟨rA, k1_pay2 (k1_pay3 (View.ld x2 rA)) (k1_pay4 (View.ld x0 rA) (View.ld x1 rA) (View.ld x3 rW) (View.ld x4 rB) (View.ld x5 rW) (View.ld x6 rB)) (k1_pay5 (View.ld x0 rA) (View.ld x1 rA) (View.ld x3 rW) (View.ld x4 rB) (View.ld x5 rW) (View.ld x6 rB))⟩]

/-- The one store is the whole block, so it covers the buffer. -/
theorem cover1_7 (p0 : Vec F S3000x64 .f32) (y : S3000x64.Idx) :
    ∃ pc ∈ ([⟨rA, p0⟩] : List (View.Piece (Elt F) S3000x64 .f32)), y ∈ pc.1.set :=
  View.cover_of_tiled [⟨rA, p0⟩] S3000x64.size (by rfl) y

theorem cover1_8 (p0 : Vec F S3000x64 .f32) (y : S3000x64.Idx) :
    ∃ pc ∈ ([⟨rA, p0⟩] : List (View.Piece (Elt F) S3000x64 .f32)), y ∈ pc.1.set :=
  View.cover_of_tiled [⟨rA, p0⟩] S3000x64.size (by rfl) y

set_option maxHeartbeats 1000000 in
/-- The body of launch 1 on whole staging memrefs, the inputs' at read contents `x0 … x6` and the two outputs' at
    anything (the body reads both before it stores them, and uses neither value), runs to the continuation holding
    the inputs' as they were and the outputs' at `out1_7`, `out1_8` of the inputs'. -/
theorem sound_kernel1 (c : Dev nD) (E : Set ℕ) (i : grid1.Coords) (arg1 : Memref sig .tc .vmem S3000x64 .f32) (harg1 : arg1.IsWhole) (arg2 : Memref sig .tc .vmem S3000x64 .f32) (harg2 : arg2.IsWhole) (arg3 : Memref sig .tc .vmem S3000x64 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S3000x64 .f32) (harg8 : arg8.IsWhole) (arg9 : Memref sig .tc .vmem S3000x64 .f32) (harg9 : arg9.IsWhole)
    (x0 x1 x2 : Vec F S3000x64 .f32) (x3 : Vec F S64x64 .bf16) (x4 : Vec F S1x64 .f32) (x5 : Vec F S64x64 .bf16) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6) ∗ owns (c : Thread nD τ) arg9 fullShare (out1_8 x0 x1 x2 x3 x4 x5 x6)) -∗ K ⟨⟩))
      ⊢ wp frame (wpE (defs₀ (F := F)) Variants.none c none) E (cc1__layer_kernel i arg1 harg1 arg2 harg2 arg3 harg3 arg4 harg4 arg5 harg5 arg6 harg6 arg7 harg7 arg8 harg8 arg9 harg9) K := by
  simp only [cc1__layer_kernel_eq_skeleton]; unfold cc1__layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1_7 _)
  iexists _; isplitr
  swap; · iexact H8
  ipureintro
  exact View.read_writes_eq_canon _ _ _ (cover1_8 _)

/-! ## Launch 2 -/

/-- Output window 7's staging buffer after the body of launch 2, from the contents of the seven input buffers: its
    one store, of the normalised sum, over the whole block. -/
def out2_7 (x0 x1 x2 : Vec F S3000x64 .f32) (x3 : Vec F S64x64 .bf16) (x4 : Vec F S1x64 .f32) (x5 : Vec F S64x64 .bf16) (x6 : Vec F S1x64 .f32) : Vec F S3000x64 .f32 :=
  View.canon [⟨rA, k2_pay1 (k2_pay4 (View.ld x0 rA) (View.ld x1 rA) (View.ld x3 rW) (View.ld x4 rB) (View.ld x5 rW) (View.ld x6 rB)) (k2_pay5 (View.ld x0 rA) (View.ld x1 rA) (View.ld x3 rW) (View.ld x4 rB) (View.ld x5 rW) (View.ld x6 rB))⟩]

/-- Output window 8's staging buffer after the body of launch 2: its one store, of the third input plus the
    normalised sum, over the whole block. -/
def out2_8 (x0 x1 x2 : Vec F S3000x64 .f32) (x3 : Vec F S64x64 .bf16) (x4 : Vec F S1x64 .f32) (x5 : Vec F S64x64 .bf16) (x6 : Vec F S1x64 .f32) : Vec F S3000x64 .f32 :=
  View.canon [⟨rA, k2_pay2 (k2_pay3 (View.ld x2 rA)) (k2_pay4 (View.ld x0 rA) (View.ld x1 rA) (View.ld x3 rW) (View.ld x4 rB) (View.ld x5 rW) (View.ld x6 rB)) (k2_pay5 (View.ld x0 rA) (View.ld x1 rA) (View.ld x3 rW) (View.ld x4 rB) (View.ld x5 rW) (View.ld x6 rB))⟩]

/-- The one store is the whole block, so it covers the buffer. -/
theorem cover2_7 (p0 : Vec F S3000x64 .f32) (y : S3000x64.Idx) :
    ∃ pc ∈ ([⟨rA, p0⟩] : List (View.Piece (Elt F) S3000x64 .f32)), y ∈ pc.1.set :=
  View.cover_of_tiled [⟨rA, p0⟩] S3000x64.size (by rfl) y

theorem cover2_8 (p0 : Vec F S3000x64 .f32) (y : S3000x64.Idx) :
    ∃ pc ∈ ([⟨rA, p0⟩] : List (View.Piece (Elt F) S3000x64 .f32)), y ∈ pc.1.set :=
  View.cover_of_tiled [⟨rA, p0⟩] S3000x64.size (by rfl) y

set_option maxHeartbeats 1000000 in
/-- The body of launch 2 on whole staging memrefs, the inputs' at read contents `x0 … x6` and the two outputs' at
    anything (the body reads both before it stores them, and uses neither value), runs to the continuation holding
    the inputs' as they were and the outputs' at `out2_7`, `out2_8` of the inputs'. -/
theorem sound_kernel2 (c : Dev nD) (E : Set ℕ) (i : grid2.Coords) (arg1 : Memref sig .tc .vmem S3000x64 .f32) (harg1 : arg1.IsWhole) (arg2 : Memref sig .tc .vmem S3000x64 .f32) (harg2 : arg2.IsWhole) (arg3 : Memref sig .tc .vmem S3000x64 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S3000x64 .f32) (harg8 : arg8.IsWhole) (arg9 : Memref sig .tc .vmem S3000x64 .f32) (harg9 : arg9.IsWhole)
    (x0 x1 x2 : Vec F S3000x64 .f32) (x3 : Vec F S64x64 .bf16) (x4 : Vec F S1x64 .f32) (x5 : Vec F S64x64 .bf16) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out2_7 x0 x1 x2 x3 x4 x5 x6) ∗ owns (c : Thread nD τ) arg9 fullShare (out2_8 x0 x1 x2 x3 x4 x5 x6)) -∗ K ⟨⟩))
      ⊢ wp frame (wpE (defs₀ (F := F)) Variants.none c none) E (cc2__layer_kernel i arg1 harg1 arg2 harg2 arg3 harg3 arg4 harg4 arg5 harg5 arg6 harg6 arg7 harg7 arg8 harg8 arg9 harg9) K := by
  simp only [cc2__layer_kernel_eq_skeleton]; unfold cc2__layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover2_7 _)
  iexists _; isplitr
  swap; · iexact H8
  ipureintro
  exact View.read_writes_eq_canon _ _ _ (cover2_8 _)

end Cert.KernelIdeal.Hand

end
-- ==== Proof.KIData.lean ====
/- Per launch of the printed program, at any contents `V` of the TensorCore's buffers when the launch's region is
   entered: each window's block at a grid point read off `V`; that every input window's staging buffer holds its block
   at every point, fetched there or not; the pipeline's proof data (each input's buffer left at its block, each output's
   at the canonical contents of the body's store over the input blocks); and the body obligation at every point. -/
import proofs.«146559_j69123203662125_1_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a launch's region is entered: every launch's data is stated at it
variable (V : (c : Dev nD) → (b : Ref sig .tc) → Buf (Elt F) ((c : Thread nD τ).loc b))

/-! # Launch 0, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s (`hA`) and whose body leaves the block in place (`hafter`): unfetched, the block index has not
    moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof data
    whose array is `V`'s (`hA`) and whose body leaves the block in place (`hafter`): unfetched, the block index has not
    moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof data
    whose array is `V`'s (`hA`) and whose body leaves the block in place (`hafter`): unfetched, the block index has not
    moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof data
    whose array is `V`'s (`hA`) and whose body leaves the block in place (`hafter`): unfetched, the block index has not
    moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof data
    whose array is `V`'s (`hA`) and whose body leaves the block in place (`hafter`): unfetched, the block index has not
    moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof data
    whose array is `V`'s (`hA`) and whose body leaves the block in place (`hafter`): unfetched, the block index has not
    moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof data
    whose array is `V`'s (`hA`) and whose body leaves the block in place (`hafter`): unfetched, the block index has not
    moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of pipeline 0 on core `c`: the arrays as the region finds them (`V`); after the body at point `t`
    each input's buffer at its block and each output's at `out0_W` of the input blocks; the invariant the scoped rest
    and the generator register, untouched; nothing owed; windows 1 and 2 read one array, which they hold by the two halves of the full share; every other window's at the full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q w := match w with
    | ⟨1, _⟩ => fullShare.left
    | ⟨2, _⟩ => fullShare.right
    | _ => fullShare
  owed _ := 0

/-- The proof data's arrays are the region-entry contents. -/
theorem A_eq0 (c : Dev nD) (w : Fin cfg0.W) : (dat0 V c).A w = V c (Pipeline.arrRef spec0 w) := by
  dsimp only [dat0]

/-- The shares: windows 1 and 2, which read one array, hold its two halves; every other window holds its array whole. -/
theorem q0_1 (c : Dev nD) : (dat0 V c).q 1 = fullShare.left := rfl
theorem q0_2 (c : Dev nD) : (dat0 V c).q 2 = fullShare.right := rfl
theorem q0_other (c : Dev nD) (w : Fin cfg0.W) (h1 : w ≠ 1) (h2 : w ≠ 2) : (dat0 V c).q w = fullShare := by
  dsimp only [dat0]
  split
  · exact absurd rfl h1
  · exact absurd rfl h2
  · rfl

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Launch 1, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s (`hA`) and whose body leaves the block in place (`hafter`): unfetched, the block index has not
    moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof data
    whose array is `V`'s (`hA`) and whose body leaves the block in place (`hafter`): unfetched, the block index has not
    moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof data
    whose array is `V`'s (`hA`) and whose body leaves the block in place (`hafter`): unfetched, the block index has not
    moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof data
    whose array is `V`'s (`hA`) and whose body leaves the block in place (`hafter`): unfetched, the block index has not
    moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof data
    whose array is `V`'s (`hA`) and whose body leaves the block in place (`hafter`): unfetched, the block index has not
    moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof data
    whose array is `V`'s (`hA`) and whose body leaves the block in place (`hafter`): unfetched, the block index has not
    moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for any proof data
    whose array is `V`'s (`hA`) and whose body leaves the block in place (`hafter`): unfetched, the block index has not
    moved; the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of pipeline 1 on core `c`: the arrays as the region finds them (`V`); after the body at point `t`
    each input's buffer at its block and each output's at `out1_W` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation1 (c : Dev nD) : BodyObligation (dat1 (F := F) V c) (defs₀ (F := F)) Variants.none () Set.univ := fun t => by
  rw [bigSep_W1, bigSep_W1]
  exact sound_body1 V c t

/-! # Launch 2, at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s (`hA`) and whose body leaves the block in place (`hafter`): unfetched, the block index has not
    moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof data
    whose array is `V`'s (`hA`) and whose body leaves the block in place (`hafter`): unfetched, the block index has not
    moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof data
    whose array is `V`'s (`hA`) and whose body leaves the block in place (`hafter`): unfetched, the block index has not
    moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof data
    whose array is `V`'s (`hA`) and whose body leaves the block in place (`hafter`): unfetched, the block index has not
    moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof data
    whose array is `V`'s (`hA`) and whose body leaves the block in place (`hafter`): unfetched, the block index has not
    moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof data
    whose array is `V`'s (`hA`) and whose body leaves the block in place (`hafter`): unfetched, the block index has not
    moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for any proof data
    whose array is `V`'s (`hA`) and whose body leaves the block in place (`hafter`): unfetched, the block index has not
    moved; the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The pipeline's proof data -/

/-- The proof data of pipeline 2 on core `c`: the arrays as the region finds them (`V`); after the body at point `t`
    each input's buffer at its block and each output's at `out2_W` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
    | ⟨8, _⟩ => out2_8 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (grid2.coords t) _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIFrame.lean ====
/-
  The run of the whole program: three kernel launches among four stretches of host operations.

  Between two items every unscoped buffer of the core is held whole at contents that are a fold from the launch
  memory: a stretch of host operations applies its operations; a launch leaves its input arrays as it found them and
  each output array at what the blocks written back leave, every other buffer untouched. No operation and no launch
  writes an argument array, so each argument is read back at the end as launched. The first launch reads one array
  through two windows; there the buffer's two halves are dealt at entry and joined again at exit.
-/
import proofs.«146559_j69123203662125_1_alg».proof.Proof.Gen.KernelIdeal.Launch
import proofs.«146559_j69123203662125_1_alg».proof.Proof.Gen.KernelIdeal.Skeleton
import proofs.«146559_j69123203662125_1_alg».proof.Proof.Gen.KernelIdeal.Points
import proofs.«146559_j69123203662125_1_alg».proof.Proof.KIShared
import proofs.«146559_j69123203662125_1_alg».proof.Proof.KIData
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => (s₀ m ρ).mem ((c : Dev nD), b)
/-- After the first stretch of host operations (the first launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- The first launch's two output windows, as a family of their own. -/
abbrev outIx0 : Fin 2 → Fin 9 := fun w => ⟨w.val + 7, by omega⟩
abbrev outs0 : Fin 2 → Pipeline.WinSpec sig grid0.rank := fun w => spec0 (outIx0 w)
theorem outs0_inj : Function.Injective (Pipeline.arrRef outs0) := by decide

/-- After the first launch: its two output arrays at what the write-backs leave, every other buffer — its input
    arrays among them — as entered. -/
def W2 (c : Dev nD) : Valuation τ sig (Elt F) :=
  Pipeline.withArrays outs0 c (W1 m ρ c) fun w => (dat0 (V1 m ρ) c).arrAt (outIx0 w) cfg0.N
theorem W2_out (c : Dev nD) (w : Fin 2) :
    W2 m ρ c (Proc.devRef .tc (Pipeline.arrRef spec0 (outIx0 w))) = (dat0 (V1 m ρ) c).arrAt (outIx0 w) cfg0.N := by
  unfold W2; exact Pipeline.withArrays_arr outs0 outs0_inj c _ _ w
theorem W2_of_ne (c : Dev nD) (b : Ref sig .tc) (hb : ∀ w, Pipeline.arrRef outs0 w ≠ b) :
    W2 m ρ c (Proc.devRef .tc b) = W1 m ρ c (Proc.devRef .tc b) := by
  unfold W2; exact Pipeline.withArrays_of_ne outs0 c _ _ b hb
abbrev V2 : (c : Dev nD) → (b : Ref sig .tc) → Buf (Elt F) ((c : Thread nD τ).loc b) := fun c b => W2 m ρ c b

set_option maxHeartbeats 4000000 in
/-- At the first launch's exit each of its arrays holds what the pipeline leaves: an input its entry contents, an
    output its folded write-backs. -/
theorem hF0 (c : Dev nD) : ∀ w : Fin cfg0.W, (dat0 (V1 m ρ) c).arrAt w cfg0.N = V2 m ρ c (Pipeline.arrRef spec0 w)
  | ⟨0, _⟩ => (((dat0 (V1 m ρ) c).arrAt_in 0 rfl _).trans (A_eq0 (V1 m ρ) c 0)).trans (W2_of_ne m ρ c main_v48 (by decide)).symm
  | ⟨1, _⟩ => (((dat0 (V1 m ρ) c).arrAt_in 1 rfl _).trans (A_eq0 (V1 m ρ) c 1)).trans (W2_of_ne m ρ c main_v29 (by decide)).symm
  | ⟨2, _⟩ => (((dat0 (V1 m ρ) c).arrAt_in 2 rfl _).trans (A_eq0 (V1 m ρ) c 2)).trans (W2_of_ne m ρ c main_v29 (by decide)).symm
  | ⟨3, _⟩ => (((dat0 (V1 m ρ) c).arrAt_in 3 rfl _).trans (A_eq0 (V1 m ρ) c 3)).trans (W2_of_ne m ρ c main_v50 (by decide)).symm
  | ⟨4, _⟩ => (((dat0 (V1 m ρ) c).arrAt_in 4 rfl _).trans (A_eq0 (V1 m ρ) c 4)).trans (W2_of_ne m ρ c main_v52 (by decide)).symm
  | ⟨5, _⟩ => (((dat0 (V1 m ρ) c).arrAt_in 5 rfl _).trans (A_eq0 (V1 m ρ) c 5)).trans (W2_of_ne m ρ c main_v54 (by decide)).symm
  | ⟨6, _⟩ => (((dat0 (V1 m ρ) c).arrAt_in 6 rfl _).trans (A_eq0 (V1 m ρ) c 6)).trans (W2_of_ne m ρ c main_v56 (by decide)).symm
  | ⟨7, _⟩ => (W2_out m ρ c 0).symm
  | ⟨8, _⟩ => (W2_out m ρ c 1).symm
theorem hrest0 (c : Dev nD) : ∀ b, b ∉ Finset.univ.image (Pipeline.arrRef spec0) → V2 m ρ c b = V1 m ρ c b :=
  fun b hb => W2_of_ne m ρ c b fun w e => hb (Finset.mem_image.mpr ⟨outIx0 w, Finset.mem_univ _, e⟩)

/-- After the second stretch (the second launch's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- After launch 1: its arrays at what the pipeline leaves (the inputs as entered, each output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch (the third launch's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- After launch 2: its arrays at what the pipeline leaves (the inputs as entered, each output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last stretch: the program's end. -/
abbrev W7 : Dev nD → Valuation τ sig (Elt F) := fun c => StableHlo.after hostOps3 (W6 m ρ c)

/-! ### The arguments end as launched -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

set_option maxHeartbeats 4000000 in
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_forall_not_mem (b := Proc.devRef .tc main_arg0) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = m ((c : Thread nD τ).loc main_arg0) := rfl
set_option maxHeartbeats 4000000 in
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_forall_not_mem (b := Proc.devRef .tc main_arg1) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = m ((c : Thread nD τ).loc main_arg1) := rfl
set_option maxHeartbeats 4000000 in
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_forall_not_mem (b := Proc.devRef .tc main_arg2) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = m ((c : Thread nD τ).loc main_arg2) := rfl
set_option maxHeartbeats 4000000 in
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_forall_not_mem (b := Proc.devRef .tc main_arg3) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = m ((c : Thread nD τ).loc main_arg3) := rfl
set_option maxHeartbeats 4000000 in
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_forall_not_mem (b := Proc.devRef .tc main_arg4) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = m ((c : Thread nD τ).loc main_arg4) := rfl
set_option maxHeartbeats 4000000 in
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_forall_not_mem (b := Proc.devRef .tc main_arg5) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = m ((c : Thread nD τ).loc main_arg5) := rfl
set_option maxHeartbeats 4000000 in
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_forall_not_mem (b := Proc.devRef .tc main_arg6) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = m ((c : Thread nD τ).loc main_arg6) := rfl
set_option maxHeartbeats 4000000 in
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_forall_not_mem (b := Proc.devRef .tc main_arg7) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
    _ = m ((c : Thread nD τ).loc main_arg7) := rfl

/-! ## The proof data family and the thread state -/

/-- The prefetched tables' admissible contents: no launch has a table. -/
abbrev adm : (p : Fin 3) → (pcfgs (F := F) p).Adm := fun p => (cfgs p).toPCfg_adm
/-- Every launch's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at
    some state. -/
abbrev Tₙ (c : Dev nD) : sProp 𝕄 := iprop(StableHlo.held (c : Thread nD τ) (Pipeline.ucRefs τ sig) (W7 m ρ c) ∗ ∃ r, prngReg c r)

/-! ## The launches as segments -/

set_option backward.isDefEq.respectTransparency.types false in
/-- The first launch over the thread state. Its nine windows stand on eight buffers: at entry the buffers behind the
    arrays are taken out of the unscoped buffers and dealt to the windows (the shared one by halves); at exit the
    halves are joined and all eight put back, the two outputs at what the write-backs leave. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs (Ix := Unit) (Name := ℕ) (U := UR sig nD τ) (Lvl := ℕ) c (V1 m ρ c) : sProp 𝕄)
        = iprop((Pipeline.arrBufs (Ix := Unit) (Name := ℕ) (U := UR sig nD τ) (Lvl := ℕ) spec0 c (V1 m ρ c) : sProp 𝕄) ∗ Pipeline.unscopedRest (Ix := Unit) (Name := ℕ) (U := UR sig nD τ) (Lvl := ℕ) spec0 c (V1 m ρ c)) :=
      Pipeline.PerCore.unscopedBufs_split₀ (fun _ : Dev nD => cfgs) (0 : Fin 3) c winFacts₀0.arr_unscoped (V1 m ρ c)
    rw [Pipeline.unscopedBufs_held] at hsplit
    have hdeal := arrays0_of_bufs (dat0 (V1 m ρ) c) (q0_1 (V1 m ρ) c) (q0_2 (V1 m ρ) c) (q0_other (V1 m ρ) c) (V1 m ρ c)
      ((dat0 (V1 m ρ) c).arrAt · 0) (fun w => A_eq0 (V1 m ρ) c w)
    iintro ⟨⟨Hub, Hp, HO⟩, -, -⟩
    ihave H := (Entails.of_eq hsplit) $$ Hub
    icases H with ⟨Hb, Hrest⟩
    ihave Ha := hdeal $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hsplit : (unscopedBufs (Ix := Unit) (Name := ℕ) (U := UR sig nD τ) (Lvl := ℕ) c (V2 m ρ c) : sProp 𝕄)
        = iprop((Pipeline.arrBufs (Ix := Unit) (Name := ℕ) (U := UR sig nD τ) (Lvl := ℕ) spec0 c (V2 m ρ c) : sProp 𝕄) ∗ Pipeline.unscopedRest (Ix := Unit) (Name := ℕ) (U := UR sig nD τ) (Lvl := ℕ) spec0 c (V2 m ρ c)) :=
      Pipeline.PerCore.unscopedBufs_split₀ (fun _ : Dev nD => cfgs) (0 : Fin 3) c winFacts₀0.arr_unscoped (V2 m ρ c)
    rw [Pipeline.unscopedBufs_held] at hsplit
    have hjoin : ((pdats m ρ 0 c).arrays fun x => (pdats m ρ 0 c).arrAt x (Pipeline.pin (pcfgs (F := F)) adm 0).N)
        ⊢ (Pipeline.arrBufs (Ix := Unit) (Name := ℕ) (U := UR sig nD τ) (Lvl := ℕ) spec0 c (V2 m ρ c) : sProp 𝕄) :=
      bufs_of_arrays0 (dat0 (V1 m ρ) c) (q0_1 (V1 m ρ) c) (q0_2 (V1 m ρ) c) (q0_other (V1 m ρ) c) (V2 m ρ c)
        ((dat0 (V1 m ρ) c).arrAt · cfg0.N) (hF0 m ρ c)
    have hrest : (Pipeline.unscopedRest (Ix := Unit) (Name := ℕ) (U := UR sig nD τ) (Lvl := ℕ) spec0 c (V1 m ρ c) : sProp 𝕄) = Pipeline.unscopedRest (Ix := Unit) (Name := ℕ) (U := UR sig nD τ) (Lvl := ℕ) spec0 c (V2 m ρ c) := by
      unfold Pipeline.unscopedRest
      exact bigSep_congr fun b hb => by rw [hrest0 m ρ c b (Finset.mem_sdiff.mp hb).2]
    iintro ⟨Ha, HO, HY, Hrest⟩
    ihave Hb := hjoin $$ Ha
    ihave Hrest := (Entails.of_eq hrest) $$ Hrest
    imodintro
    isplitl [Hb Hrest]
    · iapply (Entails.of_eq hsplit.symm); isplitl [Hb] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at the contents before it, left with its two
    output arrays at what the write-backs leave and every other buffer as entered. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered with every unscoped buffer at the contents before it, left with its two
    output arrays at what the write-backs leave and every other buffer as entered. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
set_option maxHeartbeats 4000000 in
/-- The program IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of the program on the TensorCores
    terminates, nothing faulting, and every final state has every unscoped buffer at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c)⟩) (run_all m ρ)

end Cert.KernelIdeal.Hand

end
-- ==== Proof.RefRun.lean ====
/- The reference program's run, read back as a list of its operations.

   @main of the reference is a straight line of 233 tensor operations: the 191 it states itself and, at each of its six
   calls of the leaky rectifier, the callee's six operations followed by the selection its own callee performs, all
   over the buffers that call names. The list is cut where the printed program cuts @main into four windows. The
   program is the sequence of the list (`main_eq`), every operation touches tensor buffers only (`ops_sub`), so every
   weakly fair execution terminates with each buffer at the fold of the operations over the launch contents
   (`run_all`); no operation writes an argument, so the arguments end as they were (`frame_ri`).

   The second half names what the fold holds at the two result buffers. The operations are regrouped by stage — the
   edge lists with the coefficients and the joined table, the three layers, the closing mean and split —, each stage's
   live buffers are read back as a named function of the buffers it reads (`seg0_v3` … `segT_v165`), the buffers a
   stage does not write pass through it (`kept_of_forall`), and the stages compose to `refU` and `refI` of the
   arguments (`res_v164`, `res_v165`, and with the run `run_res`). -/
import proofs.«146559_j69123203662125_1_alg».proof.Defs
import proofs.«146559_j69123203662125_1_alg».proof.Proof.Gen.ReferenceIdeal
import proofs.«146559_j69123203662125_1_alg».proof.Proof.Gen.Pre_finite_inputs
import Idealize.ShloMosaic.Lib.StableHlo.Run

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The operations of window 0 of @main, in order, each call's operations in its place. -/
abbrev ops0 : List (HloOp τ sig (Elt F)) :=
  [ StableHlo.nullary main_v0 (iotaInDim S150000 32 0),
    StableHlo.nullary main_c (constantI S_ 32 100000#32),
    StableHlo.unary main_c main_v1 (broadcastInDim S2000000 ![] bcast_S_S2000000 : (⟨S_, .i32⟩ : BufTy).Contents (Elt F) → (⟨S2000000, .i32⟩ : BufTy).Contents (Elt F)),
    StableHlo.binary main_arg7 main_v1 main_v2 (addi : (⟨S2000000, .i32⟩ : BufTy).Contents (Elt F) → (⟨S2000000, .i32⟩ : BufTy).Contents (Elt F) → (⟨S2000000, .i32⟩ : BufTy).Contents (Elt F)),
    StableHlo.nary ![main_arg6, main_v2, main_v0] main_v3 (fun u => concatenate S4150000 0 [⟨S2000000, u 0⟩, ⟨S2000000, u 1⟩, ⟨S150000, u 2⟩] concatenates_S2000000_S2000000_S150000_S4150000_d0),
    StableHlo.nullary main_c_0 (constantI S_ 32 100000#32),
    StableHlo.unary main_c_0 main_v4 (broadcastInDim S2000000 ![] bcast_S_S2000000 : (⟨S_, .i32⟩ : BufTy).Contents (Elt F) → (⟨S2000000, .i32⟩ : BufTy).Contents (Elt F)),
    StableHlo.binary main_arg7 main_v4 main_v5 (addi : (⟨S2000000, .i32⟩ : BufTy).Contents (Elt F) → (⟨S2000000, .i32⟩ : BufTy).Contents (Elt F) → (⟨S2000000, .i32⟩ : BufTy).Contents (Elt F)),
    StableHlo.nary ![main_v5, main_arg6, main_v0] main_v6 (fun u => concatenate S4150000 0 [⟨S2000000, u 0⟩, ⟨S2000000, u 1⟩, ⟨S150000, u 2⟩] concatenates_S2000000_S2000000_S150000_S4150000_d0),
    StableHlo.nullary main_cst (constant S_ .f32 0x3F800000#32),
    StableHlo.unary main_cst main_v7 (broadcastInDim S4150000 ![] bcast_S_S4150000 : (⟨S_, .f32⟩ : BufTy).Contents (Elt F) → (⟨S4150000, .f32⟩ : BufTy).Contents (Elt F)),
    StableHlo.nullary main_cst_1 (constant S_ .f32 0x00000000#32),
    StableHlo.unary main_cst_1 main_v8 (broadcastInDim S150000 ![] bcast_S_S150000 : (⟨S_, .f32⟩ : BufTy).Contents (Elt F) → (⟨S150000, .f32⟩ : BufTy).Contents (Elt F)),
    StableHlo.unary main_v3 main_v9 (broadcastInDim S4150000x1 ![0] bcast_S4150000_S4150000x1_0 : (⟨S4150000, .i32⟩ : BufTy).Contents (Elt F) → (⟨S4150000x1, .i32⟩ : BufTy).Contents (Elt F)),
    StableHlo.ternary main_v8 main_v9 main_v7 main_v10 ((fun x i u => Host.scatterAdd scatter_S150000_S4150000x1_S4150000_n_0_0_1 x i u) : (⟨S150000, .f32⟩ : BufTy).Contents (Elt F) → (⟨S4150000x1, .i32⟩ : BufTy).Contents (Elt F) → (⟨S4150000, .f32⟩ : BufTy).Contents (Elt F) → (⟨S150000, .f32⟩ : BufTy).Contents (Elt F)),
    StableHlo.nullary main_cst_2 (constant S_ .f32 0x3F800000#32),
    StableHlo.unary main_cst_2 main_v11 (broadcastInDim S150000 ![] bcast_S_S150000 : (⟨S_, .f32⟩ : BufTy).Contents (Elt F) → (⟨S150000, .f32⟩ : BufTy).Contents (Elt F)),
    StableHlo.binary main_v10 main_v11 main_v12 (maximumf : (⟨S150000, .f32⟩ : BufTy).Contents (Elt F) → (⟨S150000, .f32⟩ : BufTy).Contents (Elt F) → (⟨S150000, .f32⟩ : BufTy).Contents (Elt F)),
    StableHlo.unary main_v12 main_v13 (Host.rsqrt : (⟨S150000, .f32⟩ : BufTy).Contents (Elt F) → (⟨S150000, .f32⟩ : BufTy).Contents (Elt F)),
    StableHlo.nullary main_c_3 (constantI S_ 32 0#32),
    StableHlo.unary main_c_3 main_v14 (broadcastInDim S4150000 ![] bcast_S_S4150000 : (⟨S_, .i32⟩ : BufTy).Contents (Elt F) → (⟨S4150000, .i32⟩ : BufTy).Contents (Elt F)),
    StableHlo.binary main_v3 main_v14 main_v15 (cmpi .slt : (⟨S4150000, .i32⟩ : BufTy).Contents (Elt F) → (⟨S4150000, .i32⟩ : BufTy).Contents (Elt F) → (⟨S4150000, .i1⟩ : BufTy).Contents (Elt F)),
    StableHlo.nullary main_c_4 (constantI S_ 32 150000#32),
    StableHlo.unary main_c_4 main_v16 (broadcastInDim S4150000 ![] bcast_S_S4150000 : (⟨S_, .i32⟩ : BufTy).Contents (Elt F) → (⟨S4150000, .i32⟩ : BufTy).Contents (Elt F)),
    StableHlo.binary main_v3 main_v16 main_v17 (addi : (⟨S4150000, .i32⟩ : BufTy).Contents (Elt F) → (⟨S4150000, .i32⟩ : BufTy).Contents (Elt F) → (⟨S4150000, .i32⟩ : BufTy).Contents (Elt F)),
    StableHlo.ternary main_v15 main_v17 main_v3 main_v18 (select : (⟨S4150000, .i1⟩ : BufTy).Contents (Elt F) → (⟨S4150000, .i32⟩ : BufTy).Contents (Elt F) → (⟨S4150000, .i32⟩ : BufTy).Contents (Elt F) → (⟨S4150000, .i32⟩ : BufTy).Contents (Elt F)),
    StableHlo.unary main_v18 main_v19 (broadcastInDim S4150000x1 ![0] bcast_S4150000_S4150000x1_0 : (⟨S4150000, .i32⟩ : BufTy).Contents (Elt F) → (⟨S4150000x1, .i32⟩ : BufTy).Contents (Elt F)),
    StableHlo.binary main_v13 main_v19 main_v20 ((fun x i => Host.gather gather_S150000_S4150000x1_S4150000_n_0_n_n_0_1_1 x i) : (⟨S150000, .f32⟩ : BufTy).Contents (Elt F) → (⟨S4150000x1, .i32⟩ : BufTy).Contents (Elt F) → (⟨S4150000, .f32⟩ : BufTy).Contents (Elt F)),
    StableHlo.nullary main_c_5 (constantI S_ 32 0#32),
    StableHlo.unary main_c_5 main_v21 (broadcastInDim S4150000 ![] bcast_S_S4150000 : (⟨S_, .i32⟩ : BufTy).Contents (Elt F) → (⟨S4150000, .i32⟩ : BufTy).Contents (Elt F)),
    StableHlo.binary main_v6 main_v21 main_v22 (cmpi .slt : (⟨S4150000, .i32⟩ : BufTy).Contents (Elt F) → (⟨S4150000, .i32⟩ : BufTy).Contents (Elt F) → (⟨S4150000, .i1⟩ : BufTy).Contents (Elt F)),
    StableHlo.nullary main_c_6 (constantI S_ 32 150000#32),
    StableHlo.unary main_c_6 main_v23 (broadcastInDim S4150000 ![] bcast_S_S4150000 : (⟨S_, .i32⟩ : BufTy).Contents (Elt F) → (⟨S4150000, .i32⟩ : BufTy).Contents (Elt F)),
    StableHlo.binary main_v6 main_v23 main_v24 (addi : (⟨S4150000, .i32⟩ : BufTy).Contents (Elt F) → (⟨S4150000, .i32⟩ : BufTy).Contents (Elt F) → (⟨S4150000, .i32⟩ : BufTy).Contents (Elt F)),
    StableHlo.ternary main_v22 main_v24 main_v6 main_v25 (select : (⟨S4150000, .i1⟩ : BufTy).Contents (Elt F) → (⟨S4150000, .i32⟩ : BufTy).Contents (Elt F) → (⟨S4150000, .i32⟩ : BufTy).Contents (Elt F) → (⟨S4150000, .i32⟩ : BufTy).Contents (Elt F)),
    StableHlo.unary main_v25 main_v26 (broadcastInDim S4150000x1 ![0] bcast_S4150000_S4150000x1_0 : (⟨S4150000, .i32⟩ : BufTy).Contents (Elt F) → (⟨S4150000x1, .i32⟩ : BufTy).Contents (Elt F)),
    StableHlo.binary main_v13 main_v26 main_v27 ((fun x i => Host.gather gather_S150000_S4150000x1_S4150000_n_0_n_n_0_1_1 x i) : (⟨S150000, .f32⟩ : BufTy).Contents (Elt F) → (⟨S4150000x1, .i32⟩ : BufTy).Contents (Elt F) → (⟨S4150000, .f32⟩ : BufTy).Contents (Elt F)),
    StableHlo.binary main_v20 main_v27 main_v28 (mulf : (⟨S4150000, .f32⟩ : BufTy).Contents (Elt F) → (⟨S4150000, .f32⟩ : BufTy).Contents (Elt F) → (⟨S4150000, .f32⟩ : BufTy).Contents (Elt F)),
    StableHlo.binary main_arg0 main_arg1 main_v29 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)),
    StableHlo.unary main_v28 main_v30 (broadcastInDim S4150000x1 ![0] bcast_S4150000_S4150000x1_0 : (⟨S4150000, .f32⟩ : BufTy).Contents (Elt F) → (⟨S4150000x1, .f32⟩ : BufTy).Contents (Elt F)),
    StableHlo.nullary main_c_7 (constantI S_ 32 0#32),
    StableHlo.unary main_c_7 main_v31 (broadcastInDim S4150000 ![] bcast_S_S4150000 : (⟨S_, .i32⟩ : BufTy).Contents (Elt F) → (⟨S4150000, .i32⟩ : BufTy).Contents (Elt F)),
    StableHlo.binary main_v6 main_v31 main_v32 (cmpi .slt : (⟨S4150000, .i32⟩ : BufTy).Contents (Elt F) → (⟨S4150000, .i32⟩ : BufTy).Contents (Elt F) → (⟨S4150000, .i1⟩ : BufTy).Contents (Elt F)),
    StableHlo.nullary main_c_8 (constantI S_ 32 150000#32),
    StableHlo.unary main_c_8 main_v33 (broadcastInDim S4150000 ![] bcast_S_S4150000 : (⟨S_, .i32⟩ : BufTy).Contents (Elt F) → (⟨S4150000, .i32⟩ : BufTy).Contents (Elt F)),
    StableHlo.binary main_v6 main_v33 main_v34 (addi : (⟨S4150000, .i32⟩ : BufTy).Contents (Elt F) → (⟨S4150000, .i32⟩ : BufTy).Contents (Elt F) → (⟨S4150000, .i32⟩ : BufTy).Contents (Elt F)),
    StableHlo.ternary main_v32 main_v34 main_v6 main_v35 (select : (⟨S4150000, .i1⟩ : BufTy).Contents (Elt F) → (⟨S4150000, .i32⟩ : BufTy).Contents (Elt F) → (⟨S4150000, .i32⟩ : BufTy).Contents (Elt F) → (⟨S4150000, .i32⟩ : BufTy).Contents (Elt F)),
    StableHlo.unary main_v35 main_v36 (broadcastInDim S4150000x1 ![0] bcast_S4150000_S4150000x1_0 : (⟨S4150000, .i32⟩ : BufTy).Contents (Elt F) → (⟨S4150000x1, .i32⟩ : BufTy).Contents (Elt F)),
    StableHlo.binary main_v29 main_v36 main_v37 ((fun x i => Host.gather gather_S150000x64_S4150000x1_S4150000x64_1_0_n_n_0_1_164 x i) : (⟨S150000x64, .f32⟩ : BufTy).Contents (Elt F) → (⟨S4150000x1, .i32⟩ : BufTy).Contents (Elt F) → (⟨S4150000x64, .f32⟩ : BufTy).Contents (Elt F)),
    StableHlo.unary main_v30 main_v38 (broadcastInDim S4150000x64 ![0, 1] bcast_S4150000x1_S4150000x64_0_1 : (⟨S4150000x1, .f32⟩ : BufTy).Contents (Elt F) → (⟨S4150000x64, .f32⟩ : BufTy).Contents (Elt F)),
    StableHlo.binary main_v38 main_v37 main_v39 (mulf : (⟨S4150000x64, .f32⟩ : BufTy).Contents (Elt F) → (⟨S4150000x64, .f32⟩ : BufTy).Contents (Elt F) → (⟨S4150000x64, .f32⟩ : BufTy).Contents (Elt F)),
    StableHlo.nullary main_cst_9 (constant S_ .f32 0x00000000#32),
    StableHlo.unary main_cst_9 main_v40 (broadcastInDim S150000x64 ![] bcast_S_S150000x64 : (⟨S_, .f32⟩ : BufTy).Contents (Elt F) → (⟨S150000x64, .f32⟩ : BufTy).Contents (Elt F)),
    StableHlo.unary main_v3 main_v41 (broadcastInDim S4150000x1 ![0] bcast_S4150000_S4150000x1_0 : (⟨S4150000, .i32⟩ : BufTy).Contents (Elt F) → (⟨S4150000x1, .i32⟩ : BufTy).Contents (Elt F)),
    StableHlo.ternary main_v40 main_v41 main_v39 main_v42 ((fun x i u => Host.scatterAdd scatter_S150000x64_S4150000x1_S4150000x64_1_0_0_1 x i u) : (⟨S150000x64, .f32⟩ : BufTy).Contents (Elt F) → (⟨S4150000x1, .i32⟩ : BufTy).Contents (Elt F) → (⟨S4150000x64, .f32⟩ : BufTy).Contents (Elt F) → (⟨S150000x64, .f32⟩ : BufTy).Contents (Elt F)),
    StableHlo.unary main_arg2 main_v43 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v43 main_v44 rfl shapeCasts_S1x64x64_S64x64,
    StableHlo.unary main_v44 main_v45 ((transpose S64x64 [1, 0] · transposes_S64x64_S64x64_1_0) : (⟨S64x64, .f32⟩ : BufTy).Contents (Elt F) → (⟨S64x64, .f32⟩ : BufTy).Contents (Elt F)),
    StableHlo.binary main_v42 main_v45 main_v46 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg3 main_v47 ((extractStridedSlice S1x64 ![0, 0] · slices_S3x64_S1x64_0_0) : (⟨S3x64, .f32⟩ : BufTy).Contents (Elt F) → (⟨S1x64, .f32⟩ : BufTy).Contents (Elt F)) ]

set_option maxHeartbeats 40000000 in
/-- The operations of window 1 of @main, in order, each call's operations in its place. -/
abbrev ops1 : List (HloOp τ sig (Elt F)) :=
  [ StableHlo.reshape main_v47 main_v48 rfl shapeCasts_S1x64_S64,
    StableHlo.unary main_v48 main_v49 (broadcastInDim S1x64 ![1] bcast_S64_S1x64_1 : (⟨S64, .f32⟩ : BufTy).Contents (Elt F) → (⟨S1x64, .f32⟩ : BufTy).Contents (Elt F)),
    StableHlo.unary main_v49 main_v50 (broadcastInDim S150000x64 ![0, 1] bcast_S1x64_S150000x64_0_1 : (⟨S1x64, .f32⟩ : BufTy).Contents (Elt F) → (⟨S150000x64, .f32⟩ : BufTy).Contents (Elt F)),
    StableHlo.binary main_v46 main_v50 main_v51 (addf : (⟨S150000x64, .f32⟩ : BufTy).Contents (Elt F) → (⟨S150000x64, .f32⟩ : BufTy).Contents (Elt F) → (⟨S150000x64, .f32⟩ : BufTy).Contents (Elt F)),
    StableHlo.nullary main_cst_10 (constant S_ .f32 0x3E4CCCCD#32),
    StableHlo.TRef.nullary main_call0.cst (constant S_ .f32 0x00000000#32),
    StableHlo.TRef.unary main_call0.cst main_call0.v0 (broadcastInDim S150000x64 ![] bcast_S_S150000x64),
    StableHlo.TRef.binary (.of main_v51 : StableHlo.TRef sig ⟨S150000x64, .f32⟩) main_call0.v0 main_call0.v1 (cmpf .oge),
    StableHlo.TRef.unary (.of main_cst_10 : StableHlo.TRef sig ⟨S_, .f32⟩) main_call0.v2 id,
    StableHlo.TRef.unary main_call0.v2 main_call0.v3 (broadcastInDim S150000x64 ![] bcast_S_S150000x64),
    StableHlo.TRef.binary main_call0.v3 (.of main_v51 : StableHlo.TRef sig ⟨S150000x64, .f32⟩) main_call0.v4 mulf,
    StableHlo.TRef.ternary main_call0.v1 (.of main_v51 : StableHlo.TRef sig ⟨S150000x64, .f32⟩) main_call0.v4 main_call0.call0.v0 select,
    StableHlo.binary main_v29 main_v42 main_v53 (mulf : (⟨S150000x64, .f32⟩ : BufTy).Contents (Elt F) → (⟨S150000x64, .f32⟩ : BufTy).Contents (Elt F) → (⟨S150000x64, .f32⟩ : BufTy).Contents (Elt F)),
    StableHlo.unary main_arg4 main_v54 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v54 main_v55 rfl shapeCasts_S1x64x64_S64x64,
    StableHlo.unary main_v55 main_v56 ((transpose S64x64 [1, 0] · transposes_S64x64_S64x64_1_0) : (⟨S64x64, .f32⟩ : BufTy).Contents (Elt F) → (⟨S64x64, .f32⟩ : BufTy).Contents (Elt F)),
    StableHlo.binary main_v53 main_v56 main_v57 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg5 main_v58 ((extractStridedSlice S1x64 ![0, 0] · slices_S3x64_S1x64_0_0) : (⟨S3x64, .f32⟩ : BufTy).Contents (Elt F) → (⟨S1x64, .f32⟩ : BufTy).Contents (Elt F)),
    StableHlo.reshape main_v58 main_v59 rfl shapeCasts_S1x64_S64,
    StableHlo.unary main_v59 main_v60 (broadcastInDim S1x64 ![1] bcast_S64_S1x64_1 : (⟨S64, .f32⟩ : BufTy).Contents (Elt F) → (⟨S1x64, .f32⟩ : BufTy).Contents (Elt F)),
    StableHlo.unary main_v60 main_v61 (broadcastInDim S150000x64 ![0, 1] bcast_S1x64_S150000x64_0_1 : (⟨S1x64, .f32⟩ : BufTy).Contents (Elt F) → (⟨S150000x64, .f32⟩ : BufTy).Contents (Elt F)),
    StableHlo.binary main_v57 main_v61 main_v62 (addf : (⟨S150000x64, .f32⟩ : BufTy).Contents (Elt F) → (⟨S150000x64, .f32⟩ : BufTy).Contents (Elt F) → (⟨S150000x64, .f32⟩ : BufTy).Contents (Elt F)),
    StableHlo.nullary main_cst_11 (constant S_ .f32 0x3E4CCCCD#32),
    StableHlo.TRef.nullary main_call1.cst (constant S_ .f32 0x00000000#32),
    StableHlo.TRef.unary main_call1.cst main_call1.v0 (broadcastInDim S150000x64 ![] bcast_S_S150000x64),
    StableHlo.TRef.binary (.of main_v62 : StableHlo.TRef sig ⟨S150000x64, .f32⟩) main_call1.v0 main_call1.v1 (cmpf .oge),
    StableHlo.TRef.unary (.of main_cst_11 : StableHlo.TRef sig ⟨S_, .f32⟩) main_call1.v2 id,
    StableHlo.TRef.unary main_call1.v2 main_call1.v3 (broadcastInDim S150000x64 ![] bcast_S_S150000x64),
    StableHlo.TRef.binary main_call1.v3 (.of main_v62 : StableHlo.TRef sig ⟨S150000x64, .f32⟩) main_call1.v4 mulf,
    StableHlo.TRef.ternary main_call1.v1 (.of main_v62 : StableHlo.TRef sig ⟨S150000x64, .f32⟩) main_call1.v4 main_call1.call0.v0 select,
    StableHlo.binary main_v52 main_v63 main_v64 (addf : (⟨S150000x64, .f32⟩ : BufTy).Contents (Elt F) → (⟨S150000x64, .f32⟩ : BufTy).Contents (Elt F) → (⟨S150000x64, .f32⟩ : BufTy).Contents (Elt F)),
    StableHlo.binary main_v64 main_v64 main_v65 (mulf : (⟨S150000x64, .f32⟩ : BufTy).Contents (Elt F) → (⟨S150000x64, .f32⟩ : BufTy).Contents (Elt F) → (⟨S150000x64, .f32⟩ : BufTy).Contents (Elt F)),
    StableHlo.nullary main_cst_12 (constant S_ .f32 0x00000000#32),
    StableHlo.binary main_v65 main_cst_12 main_v66 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    StableHlo.unary main_v66 main_v67 (broadcastInDim S150000x1 ![0] bcast_S150000_S150000x1_0 : (⟨S150000, .f32⟩ : BufTy).Contents (Elt F) → (⟨S150000x1, .f32⟩ : BufTy).Contents (Elt F)),
    StableHlo.unary main_v67 main_v68 (Host.sqrt : (⟨S150000x1, .f32⟩ : BufTy).Contents (Elt F) → (⟨S150000x1, .f32⟩ : BufTy).Contents (Elt F)),
    StableHlo.nullary main_cst_13 (constant S_ .f32 0x2B8CBCCC#32),
    StableHlo.unary main_cst_13 main_v69 (broadcastInDim S150000x1 ![] bcast_S_S150000x1 : (⟨S_, .f32⟩ : BufTy).Contents (Elt F) → (⟨S150000x1, .f32⟩ : BufTy).Contents (Elt F)),
    StableHlo.binary main_v68 main_v69 main_v70 (maximumf : (⟨S150000x1, .f32⟩ : BufTy).Contents (Elt F) → (⟨S150000x1, .f32⟩ : BufTy).Contents (Elt F) → (⟨S150000x1, .f32⟩ : BufTy).Contents (Elt F)),
    StableHlo.unary main_v70 main_v71 (broadcastInDim S150000x64 ![0, 1] bcast_S150000x1_S150000x64_0_1 : (⟨S150000x1, .f32⟩ : BufTy).Contents (Elt F) → (⟨S150000x64, .f32⟩ : BufTy).Contents (Elt F)),
    StableHlo.binary main_v64 main_v71 main_v72 (Host.divf : (⟨S150000x64, .f32⟩ : BufTy).Contents (Elt F) → (⟨S150000x64, .f32⟩ : BufTy).Contents (Elt F) → (⟨S150000x64, .f32⟩ : BufTy).Contents (Elt F)),
    StableHlo.binary main_v29 main_v72 main_v73 (addf : (⟨S150000x64, .f32⟩ : BufTy).Contents (Elt F) → (⟨S150000x64, .f32⟩ : BufTy).Contents (Elt F) → (⟨S150000x64, .f32⟩ : BufTy).Contents (Elt F)),
    StableHlo.unary main_v28 main_v74 (broadcastInDim S4150000x1 ![0] bcast_S4150000_S4150000x1_0 : (⟨S4150000, .f32⟩ : BufTy).Contents (Elt F) → (⟨S4150000x1, .f32⟩ : BufTy).Contents (Elt F)),
    StableHlo.nullary main_c_14 (constantI S_ 32 0#32),
    StableHlo.unary main_c_14 main_v75 (broadcastInDim S4150000 ![] bcast_S_S4150000 : (⟨S_, .i32⟩ : BufTy).Contents (Elt F) → (⟨S4150000, .i32⟩ : BufTy).Contents (Elt F)),
    StableHlo.binary main_v6 main_v75 main_v76 (cmpi .slt : (⟨S4150000, .i32⟩ : BufTy).Contents (Elt F) → (⟨S4150000, .i32⟩ : BufTy).Contents (Elt F) → (⟨S4150000, .i1⟩ : BufTy).Contents (Elt F)),
    StableHlo.nullary main_c_15 (constantI S_ 32 150000#32),
    StableHlo.unary main_c_15 main_v77 (broadcastInDim S4150000 ![] bcast_S_S4150000 : (⟨S_, .i32⟩ : BufTy).Contents (Elt F) → (⟨S4150000, .i32⟩ : BufTy).Contents (Elt F)),
    StableHlo.binary main_v6 main_v77 main_v78 (addi : (⟨S4150000, .i32⟩ : BufTy).Contents (Elt F) → (⟨S4150000, .i32⟩ : BufTy).Contents (Elt F) → (⟨S4150000, .i32⟩ : BufTy).Contents (Elt F)),
    StableHlo.ternary main_v76 main_v78 main_v6 main_v79 (select : (⟨S4150000, .i1⟩ : BufTy).Contents (Elt F) → (⟨S4150000, .i32⟩ : BufTy).Contents (Elt F) → (⟨S4150000, .i32⟩ : BufTy).Contents (Elt F) → (⟨S4150000, .i32⟩ : BufTy).Contents (Elt F)),
    StableHlo.unary main_v79 main_v80 (broadcastInDim S4150000x1 ![0] bcast_S4150000_S4150000x1_0 : (⟨S4150000, .i32⟩ : BufTy).Contents (Elt F) → (⟨S4150000x1, .i32⟩ : BufTy).Contents (Elt F)),
    StableHlo.binary main_v72 main_v80 main_v81 ((fun x i => Host.gather gather_S150000x64_S4150000x1_S4150000x64_1_0_n_n_0_1_164 x i) : (⟨S150000x64, .f32⟩ : BufTy).Contents (Elt F) → (⟨S4150000x1, .i32⟩ : BufTy).Contents (Elt F) → (⟨S4150000x64, .f32⟩ : BufTy).Contents (Elt F)),
    StableHlo.unary main_v74 main_v82 (broadcastInDim S4150000x64 ![0, 1] bcast_S4150000x1_S4150000x64_0_1 : (⟨S4150000x1, .f32⟩ : BufTy).Contents (Elt F) → (⟨S4150000x64, .f32⟩ : BufTy).Contents (Elt F)),
    StableHlo.binary main_v82 main_v81 main_v83 (mulf : (⟨S4150000x64, .f32⟩ : BufTy).Contents (Elt F) → (⟨S4150000x64, .f32⟩ : BufTy).Contents (Elt F) → (⟨S4150000x64, .f32⟩ : BufTy).Contents (Elt F)),
    StableHlo.nullary main_cst_16 (constant S_ .f32 0x00000000#32),
    StableHlo.unary main_cst_16 main_v84 (broadcastInDim S150000x64 ![] bcast_S_S150000x64 : (⟨S_, .f32⟩ : BufTy).Contents (Elt F) → (⟨S150000x64, .f32⟩ : BufTy).Contents (Elt F)),
    StableHlo.unary main_v3 main_v85 (broadcastInDim S4150000x1 ![0] bcast_S4150000_S4150000x1_0 : (⟨S4150000, .i32⟩ : BufTy).Contents (Elt F) → (⟨S4150000x1, .i32⟩ : BufTy).Contents (Elt F)),
    StableHlo.ternary main_v84 main_v85 main_v83 main_v86 ((fun x i u => Host.scatterAdd scatter_S150000x64_S4150000x1_S4150000x64_1_0_0_1 x i u) : (⟨S150000x64, .f32⟩ : BufTy).Contents (Elt F) → (⟨S4150000x1, .i32⟩ : BufTy).Contents (Elt F) → (⟨S4150000x64, .f32⟩ : BufTy).Contents (Elt F) → (⟨S150000x64, .f32⟩ : BufTy).Contents (Elt F)),
    StableHlo.unary main_arg2 main_v87 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v87 main_v88 rfl shapeCasts_S1x64x64_S64x64,
    StableHlo.unary main_v88 main_v89 ((transpose S64x64 [1, 0] · transposes_S64x64_S64x64_1_0) : (⟨S64x64, .f32⟩ : BufTy).Contents (Elt F) → (⟨S64x64, .f32⟩ : BufTy).Contents (Elt F)),
    StableHlo.binary main_v86 main_v89 main_v90 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg3 main_v91 ((extractStridedSlice S1x64 ![1, 0] · slices_S3x64_S1x64_1_0) : (⟨S3x64, .f32⟩ : BufTy).Contents (Elt F) → (⟨S1x64, .f32⟩ : BufTy).Contents (Elt F)),
    StableHlo.reshape main_v91 main_v92 rfl shapeCasts_S1x64_S64,
    StableHlo.unary main_v92 main_v93 (broadcastInDim S1x64 ![1] bcast_S64_S1x64_1 : (⟨S64, .f32⟩ : BufTy).Contents (Elt F) → (⟨S1x64, .f32⟩ : BufTy).Contents (Elt F)),
    StableHlo.unary main_v93 main_v94 (broadcastInDim S150000x64 ![0, 1] bcast_S1x64_S150000x64_0_1 : (⟨S1x64, .f32⟩ : BufTy).Contents (Elt F) → (⟨S150000x64, .f32⟩ : BufTy).Contents (Elt F)),
    StableHlo.binary main_v90 main_v94 main_v95 (addf : (⟨S150000x64, .f32⟩ : BufTy).Contents (Elt F) → (⟨S150000x64, .f32⟩ : BufTy).Contents (Elt F) → (⟨S150000x64, .f32⟩ : BufTy).Contents (Elt F)),
    StableHlo.nullary main_cst_17 (constant S_ .f32 0x3E4CCCCD#32),
    StableHlo.TRef.nullary main_call2.cst (constant S_ .f32 0x00000000#32),
    StableHlo.TRef.unary main_call2.cst main_call2.v0 (broadcastInDim S150000x64 ![] bcast_S_S150000x64),
    StableHlo.TRef.binary (.of main_v95 : StableHlo.TRef sig ⟨S150000x64, .f32⟩) main_call2.v0 main_call2.v1 (cmpf .oge),
    StableHlo.TRef.unary (.of main_cst_17 : StableHlo.TRef sig ⟨S_, .f32⟩) main_call2.v2 id,
    StableHlo.TRef.unary main_call2.v2 main_call2.v3 (broadcastInDim S150000x64 ![] bcast_S_S150000x64),
    StableHlo.TRef.binary main_call2.v3 (.of main_v95 : StableHlo.TRef sig ⟨S150000x64, .f32⟩) main_call2.v4 mulf,
    StableHlo.TRef.ternary main_call2.v1 (.of main_v95 : StableHlo.TRef sig ⟨S150000x64, .f32⟩) main_call2.v4 main_call2.call0.v0 select,
    StableHlo.binary main_v72 main_v86 main_v97 (mulf : (⟨S150000x64, .f32⟩ : BufTy).Contents (Elt F) → (⟨S150000x64, .f32⟩ : BufTy).Contents (Elt F) → (⟨S150000x64, .f32⟩ : BufTy).Contents (Elt F)),
    StableHlo.unary main_arg4 main_v98 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v98 main_v99 rfl shapeCasts_S1x64x64_S64x64 ]

set_option maxHeartbeats 40000000 in
/-- The operations of window 2 of @main, in order, each call's operations in its place. -/
abbrev ops2 : List (HloOp τ sig (Elt F)) :=
  [ StableHlo.unary main_v99 main_v100 ((transpose S64x64 [1, 0] · transposes_S64x64_S64x64_1_0) : (⟨S64x64, .f32⟩ : BufTy).Contents (Elt F) → (⟨S64x64, .f32⟩ : BufTy).Contents (Elt F)),
    StableHlo.binary main_v97 main_v100 main_v101 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg5 main_v102 ((extractStridedSlice S1x64 ![1, 0] · slices_S3x64_S1x64_1_0) : (⟨S3x64, .f32⟩ : BufTy).Contents (Elt F) → (⟨S1x64, .f32⟩ : BufTy).Contents (Elt F)),
    StableHlo.reshape main_v102 main_v103 rfl shapeCasts_S1x64_S64,
    StableHlo.unary main_v103 main_v104 (broadcastInDim S1x64 ![1] bcast_S64_S1x64_1 : (⟨S64, .f32⟩ : BufTy).Contents (Elt F) → (⟨S1x64, .f32⟩ : BufTy).Contents (Elt F)),
    StableHlo.unary main_v104 main_v105 (broadcastInDim S150000x64 ![0, 1] bcast_S1x64_S150000x64_0_1 : (⟨S1x64, .f32⟩ : BufTy).Contents (Elt F) → (⟨S150000x64, .f32⟩ : BufTy).Contents (Elt F)),
    StableHlo.binary main_v101 main_v105 main_v106 (addf : (⟨S150000x64, .f32⟩ : BufTy).Contents (Elt F) → (⟨S150000x64, .f32⟩ : BufTy).Contents (Elt F) → (⟨S150000x64, .f32⟩ : BufTy).Contents (Elt F)),
    StableHlo.nullary main_cst_18 (constant S_ .f32 0x3E4CCCCD#32),
    StableHlo.TRef.nullary main_call3.cst (constant S_ .f32 0x00000000#32),
    StableHlo.TRef.unary main_call3.cst main_call3.v0 (broadcastInDim S150000x64 ![] bcast_S_S150000x64),
    StableHlo.TRef.binary (.of main_v106 : StableHlo.TRef sig ⟨S150000x64, .f32⟩) main_call3.v0 main_call3.v1 (cmpf .oge),
    StableHlo.TRef.unary (.of main_cst_18 : StableHlo.TRef sig ⟨S_, .f32⟩) main_call3.v2 id,
    StableHlo.TRef.unary main_call3.v2 main_call3.v3 (broadcastInDim S150000x64 ![] bcast_S_S150000x64),
    StableHlo.TRef.binary main_call3.v3 (.of main_v106 : StableHlo.TRef sig ⟨S150000x64, .f32⟩) main_call3.v4 mulf,
    StableHlo.TRef.ternary main_call3.v1 (.of main_v106 : StableHlo.TRef sig ⟨S150000x64, .f32⟩) main_call3.v4 main_call3.call0.v0 select,
    StableHlo.binary main_v96 main_v107 main_v108 (addf : (⟨S150000x64, .f32⟩ : BufTy).Contents (Elt F) → (⟨S150000x64, .f32⟩ : BufTy).Contents (Elt F) → (⟨S150000x64, .f32⟩ : BufTy).Contents (Elt F)),
    StableHlo.binary main_v108 main_v108 main_v109 (mulf : (⟨S150000x64, .f32⟩ : BufTy).Contents (Elt F) → (⟨S150000x64, .f32⟩ : BufTy).Contents (Elt F) → (⟨S150000x64, .f32⟩ : BufTy).Contents (Elt F)),
    StableHlo.nullary main_cst_19 (constant S_ .f32 0x00000000#32),
    StableHlo.binary main_v109 main_cst_19 main_v110 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    StableHlo.unary main_v110 main_v111 (broadcastInDim S150000x1 ![0] bcast_S150000_S150000x1_0 : (⟨S150000, .f32⟩ : BufTy).Contents (Elt F) → (⟨S150000x1, .f32⟩ : BufTy).Contents (Elt F)),
    StableHlo.unary main_v111 main_v112 (Host.sqrt : (⟨S150000x1, .f32⟩ : BufTy).Contents (Elt F) → (⟨S150000x1, .f32⟩ : BufTy).Contents (Elt F)),
    StableHlo.nullary main_cst_20 (constant S_ .f32 0x2B8CBCCC#32),
    StableHlo.unary main_cst_20 main_v113 (broadcastInDim S150000x1 ![] bcast_S_S150000x1 : (⟨S_, .f32⟩ : BufTy).Contents (Elt F) → (⟨S150000x1, .f32⟩ : BufTy).Contents (Elt F)),
    StableHlo.binary main_v112 main_v113 main_v114 (maximumf : (⟨S150000x1, .f32⟩ : BufTy).Contents (Elt F) → (⟨S150000x1, .f32⟩ : BufTy).Contents (Elt F) → (⟨S150000x1, .f32⟩ : BufTy).Contents (Elt F)),
    StableHlo.unary main_v114 main_v115 (broadcastInDim S150000x64 ![0, 1] bcast_S150000x1_S150000x64_0_1 : (⟨S150000x1, .f32⟩ : BufTy).Contents (Elt F) → (⟨S150000x64, .f32⟩ : BufTy).Contents (Elt F)),
    StableHlo.binary main_v108 main_v115 main_v116 (Host.divf : (⟨S150000x64, .f32⟩ : BufTy).Contents (Elt F) → (⟨S150000x64, .f32⟩ : BufTy).Contents (Elt F) → (⟨S150000x64, .f32⟩ : BufTy).Contents (Elt F)),
    StableHlo.binary main_v73 main_v116 main_v117 (addf : (⟨S150000x64, .f32⟩ : BufTy).Contents (Elt F) → (⟨S150000x64, .f32⟩ : BufTy).Contents (Elt F) → (⟨S150000x64, .f32⟩ : BufTy).Contents (Elt F)),
    StableHlo.unary main_v28 main_v118 (broadcastInDim S4150000x1 ![0] bcast_S4150000_S4150000x1_0 : (⟨S4150000, .f32⟩ : BufTy).Contents (Elt F) → (⟨S4150000x1, .f32⟩ : BufTy).Contents (Elt F)),
    StableHlo.nullary main_c_21 (constantI S_ 32 0#32),
    StableHlo.unary main_c_21 main_v119 (broadcastInDim S4150000 ![] bcast_S_S4150000 : (⟨S_, .i32⟩ : BufTy).Contents (Elt F) → (⟨S4150000, .i32⟩ : BufTy).Contents (Elt F)),
    StableHlo.binary main_v6 main_v119 main_v120 (cmpi .slt : (⟨S4150000, .i32⟩ : BufTy).Contents (Elt F) → (⟨S4150000, .i32⟩ : BufTy).Contents (Elt F) → (⟨S4150000, .i1⟩ : BufTy).Contents (Elt F)),
    StableHlo.nullary main_c_22 (constantI S_ 32 150000#32),
    StableHlo.unary main_c_22 main_v121 (broadcastInDim S4150000 ![] bcast_S_S4150000 : (⟨S_, .i32⟩ : BufTy).Contents (Elt F) → (⟨S4150000, .i32⟩ : BufTy).Contents (Elt F)),
    StableHlo.binary main_v6 main_v121 main_v122 (addi : (⟨S4150000, .i32⟩ : BufTy).Contents (Elt F) → (⟨S4150000, .i32⟩ : BufTy).Contents (Elt F) → (⟨S4150000, .i32⟩ : BufTy).Contents (Elt F)),
    StableHlo.ternary main_v120 main_v122 main_v6 main_v123 (select : (⟨S4150000, .i1⟩ : BufTy).Contents (Elt F) → (⟨S4150000, .i32⟩ : BufTy).Contents (Elt F) → (⟨S4150000, .i32⟩ : BufTy).Contents (Elt F) → (⟨S4150000, .i32⟩ : BufTy).Contents (Elt F)),
    StableHlo.unary main_v123 main_v124 (broadcastInDim S4150000x1 ![0] bcast_S4150000_S4150000x1_0 : (⟨S4150000, .i32⟩ : BufTy).Contents (Elt F) → (⟨S4150000x1, .i32⟩ : BufTy).Contents (Elt F)),
    StableHlo.binary main_v116 main_v124 main_v125 ((fun x i => Host.gather gather_S150000x64_S4150000x1_S4150000x64_1_0_n_n_0_1_164 x i) : (⟨S150000x64, .f32⟩ : BufTy).Contents (Elt F) → (⟨S4150000x1, .i32⟩ : BufTy).Contents (Elt F) → (⟨S4150000x64, .f32⟩ : BufTy).Contents (Elt F)),
    StableHlo.unary main_v118 main_v126 (broadcastInDim S4150000x64 ![0, 1] bcast_S4150000x1_S4150000x64_0_1 : (⟨S4150000x1, .f32⟩ : BufTy).Contents (Elt F) → (⟨S4150000x64, .f32⟩ : BufTy).Contents (Elt F)),
    StableHlo.binary main_v126 main_v125 main_v127 (mulf : (⟨S4150000x64, .f32⟩ : BufTy).Contents (Elt F) → (⟨S4150000x64, .f32⟩ : BufTy).Contents (Elt F) → (⟨S4150000x64, .f32⟩ : BufTy).Contents (Elt F)),
    StableHlo.nullary main_cst_23 (constant S_ .f32 0x00000000#32),
    StableHlo.unary main_cst_23 main_v128 (broadcastInDim S150000x64 ![] bcast_S_S150000x64 : (⟨S_, .f32⟩ : BufTy).Contents (Elt F) → (⟨S150000x64, .f32⟩ : BufTy).Contents (Elt F)),
    StableHlo.unary main_v3 main_v129 (broadcastInDim S4150000x1 ![0] bcast_S4150000_S4150000x1_0 : (⟨S4150000, .i32⟩ : BufTy).Contents (Elt F) → (⟨S4150000x1, .i32⟩ : BufTy).Contents (Elt F)),
    StableHlo.ternary main_v128 main_v129 main_v127 main_v130 ((fun x i u => Host.scatterAdd scatter_S150000x64_S4150000x1_S4150000x64_1_0_0_1 x i u) : (⟨S150000x64, .f32⟩ : BufTy).Contents (Elt F) → (⟨S4150000x1, .i32⟩ : BufTy).Contents (Elt F) → (⟨S4150000x64, .f32⟩ : BufTy).Contents (Elt F) → (⟨S150000x64, .f32⟩ : BufTy).Contents (Elt F)),
    StableHlo.unary main_arg2 main_v131 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v131 main_v132 rfl shapeCasts_S1x64x64_S64x64,
    StableHlo.unary main_v132 main_v133 ((transpose S64x64 [1, 0] · transposes_S64x64_S64x64_1_0) : (⟨S64x64, .f32⟩ : BufTy).Contents (Elt F) → (⟨S64x64, .f32⟩ : BufTy).Contents (Elt F)),
    StableHlo.binary main_v130 main_v133 main_v134 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg3 main_v135 ((extractStridedSlice S1x64 ![2, 0] · slices_S3x64_S1x64_2_0) : (⟨S3x64, .f32⟩ : BufTy).Contents (Elt F) → (⟨S1x64, .f32⟩ : BufTy).Contents (Elt F)),
    StableHlo.reshape main_v135 main_v136 rfl shapeCasts_S1x64_S64,
    StableHlo.unary main_v136 main_v137 (broadcastInDim S1x64 ![1] bcast_S64_S1x64_1 : (⟨S64, .f32⟩ : BufTy).Contents (Elt F) → (⟨S1x64, .f32⟩ : BufTy).Contents (Elt F)),
    StableHlo.unary main_v137 main_v138 (broadcastInDim S150000x64 ![0, 1] bcast_S1x64_S150000x64_0_1 : (⟨S1x64, .f32⟩ : BufTy).Contents (Elt F) → (⟨S150000x64, .f32⟩ : BufTy).Contents (Elt F)),
    StableHlo.binary main_v134 main_v138 main_v139 (addf : (⟨S150000x64, .f32⟩ : BufTy).Contents (Elt F) → (⟨S150000x64, .f32⟩ : BufTy).Contents (Elt F) → (⟨S150000x64, .f32⟩ : BufTy).Contents (Elt F)),
    StableHlo.nullary main_cst_24 (constant S_ .f32 0x3E4CCCCD#32),
    StableHlo.TRef.nullary main_call4.cst (constant S_ .f32 0x00000000#32),
    StableHlo.TRef.unary main_call4.cst main_call4.v0 (broadcastInDim S150000x64 ![] bcast_S_S150000x64),
    StableHlo.TRef.binary (.of main_v139 : StableHlo.TRef sig ⟨S150000x64, .f32⟩) main_call4.v0 main_call4.v1 (cmpf .oge),
    StableHlo.TRef.unary (.of main_cst_24 : StableHlo.TRef sig ⟨S_, .f32⟩) main_call4.v2 id,
    StableHlo.TRef.unary main_call4.v2 main_call4.v3 (broadcastInDim S150000x64 ![] bcast_S_S150000x64),
    StableHlo.TRef.binary main_call4.v3 (.of main_v139 : StableHlo.TRef sig ⟨S150000x64, .f32⟩) main_call4.v4 mulf,
    StableHlo.TRef.ternary main_call4.v1 (.of main_v139 : StableHlo.TRef sig ⟨S150000x64, .f32⟩) main_call4.v4 main_call4.call0.v0 select,
    StableHlo.binary main_v116 main_v130 main_v141 (mulf : (⟨S150000x64, .f32⟩ : BufTy).Contents (Elt F) → (⟨S150000x64, .f32⟩ : BufTy).Contents (Elt F) → (⟨S150000x64, .f32⟩ : BufTy).Contents (Elt F)),
    StableHlo.unary main_arg4 main_v142 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v142 main_v143 rfl shapeCasts_S1x64x64_S64x64,
    StableHlo.unary main_v143 main_v144 ((transpose S64x64 [1, 0] · transposes_S64x64_S64x64_1_0) : (⟨S64x64, .f32⟩ : BufTy).Contents (Elt F) → (⟨S64x64, .f32⟩ : BufTy).Contents (Elt F)),
    StableHlo.binary main_v141 main_v144 main_v145 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg5 main_v146 ((extractStridedSlice S1x64 ![2, 0] · slices_S3x64_S1x64_2_0) : (⟨S3x64, .f32⟩ : BufTy).Contents (Elt F) → (⟨S1x64, .f32⟩ : BufTy).Contents (Elt F)),
    StableHlo.reshape main_v146 main_v147 rfl shapeCasts_S1x64_S64,
    StableHlo.unary main_v147 main_v148 (broadcastInDim S1x64 ![1] bcast_S64_S1x64_1 : (⟨S64, .f32⟩ : BufTy).Contents (Elt F) → (⟨S1x64, .f32⟩ : BufTy).Contents (Elt F)),
    StableHlo.unary main_v148 main_v149 (broadcastInDim S150000x64 ![0, 1] bcast_S1x64_S150000x64_0_1 : (⟨S1x64, .f32⟩ : BufTy).Contents (Elt F) → (⟨S150000x64, .f32⟩ : BufTy).Contents (Elt F)),
    StableHlo.binary main_v145 main_v149 main_v150 (addf : (⟨S150000x64, .f32⟩ : BufTy).Contents (Elt F) → (⟨S150000x64, .f32⟩ : BufTy).Contents (Elt F) → (⟨S150000x64, .f32⟩ : BufTy).Contents (Elt F)),
    StableHlo.nullary main_cst_25 (constant S_ .f32 0x3E4CCCCD#32),
    StableHlo.TRef.nullary main_call5.cst (constant S_ .f32 0x00000000#32),
    StableHlo.TRef.unary main_call5.cst main_call5.v0 (broadcastInDim S150000x64 ![] bcast_S_S150000x64),
    StableHlo.TRef.binary (.of main_v150 : StableHlo.TRef sig ⟨S150000x64, .f32⟩) main_call5.v0 main_call5.v1 (cmpf .oge),
    StableHlo.TRef.unary (.of main_cst_25 : StableHlo.TRef sig ⟨S_, .f32⟩) main_call5.v2 id,
    StableHlo.TRef.unary main_call5.v2 main_call5.v3 (broadcastInDim S150000x64 ![] bcast_S_S150000x64),
    StableHlo.TRef.binary main_call5.v3 (.of main_v150 : StableHlo.TRef sig ⟨S150000x64, .f32⟩) main_call5.v4 mulf,
    StableHlo.TRef.ternary main_call5.v1 (.of main_v150 : StableHlo.TRef sig ⟨S150000x64, .f32⟩) main_call5.v4 main_call5.call0.v0 select ]

set_option maxHeartbeats 40000000 in
/-- The operations of window 3 of @main, in order, each call's operations in its place. -/
abbrev ops3 : List (HloOp τ sig (Elt F)) :=
  [ StableHlo.binary main_v140 main_v151 main_v152 (addf : (⟨S150000x64, .f32⟩ : BufTy).Contents (Elt F) → (⟨S150000x64, .f32⟩ : BufTy).Contents (Elt F) → (⟨S150000x64, .f32⟩ : BufTy).Contents (Elt F)),
    StableHlo.binary main_v152 main_v152 main_v153 (mulf : (⟨S150000x64, .f32⟩ : BufTy).Contents (Elt F) → (⟨S150000x64, .f32⟩ : BufTy).Contents (Elt F) → (⟨S150000x64, .f32⟩ : BufTy).Contents (Elt F)),
    StableHlo.nullary main_cst_26 (constant S_ .f32 0x00000000#32),
    StableHlo.binary main_v153 main_cst_26 main_v154 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    StableHlo.unary main_v154 main_v155 (broadcastInDim S150000x1 ![0] bcast_S150000_S150000x1_0 : (⟨S150000, .f32⟩ : BufTy).Contents (Elt F) → (⟨S150000x1, .f32⟩ : BufTy).Contents (Elt F)),
    StableHlo.unary main_v155 main_v156 (Host.sqrt : (⟨S150000x1, .f32⟩ : BufTy).Contents (Elt F) → (⟨S150000x1, .f32⟩ : BufTy).Contents (Elt F)),
    StableHlo.nullary main_cst_27 (constant S_ .f32 0x2B8CBCCC#32),
    StableHlo.unary main_cst_27 main_v157 (broadcastInDim S150000x1 ![] bcast_S_S150000x1 : (⟨S_, .f32⟩ : BufTy).Contents (Elt F) → (⟨S150000x1, .f32⟩ : BufTy).Contents (Elt F)),
    StableHlo.binary main_v156 main_v157 main_v158 (maximumf : (⟨S150000x1, .f32⟩ : BufTy).Contents (Elt F) → (⟨S150000x1, .f32⟩ : BufTy).Contents (Elt F) → (⟨S150000x1, .f32⟩ : BufTy).Contents (Elt F)),
    StableHlo.unary main_v158 main_v159 (broadcastInDim S150000x64 ![0, 1] bcast_S150000x1_S150000x64_0_1 : (⟨S150000x1, .f32⟩ : BufTy).Contents (Elt F) → (⟨S150000x64, .f32⟩ : BufTy).Contents (Elt F)),
    StableHlo.binary main_v152 main_v159 main_v160 (Host.divf : (⟨S150000x64, .f32⟩ : BufTy).Contents (Elt F) → (⟨S150000x64, .f32⟩ : BufTy).Contents (Elt F) → (⟨S150000x64, .f32⟩ : BufTy).Contents (Elt F)),
    StableHlo.binary main_v117 main_v160 main_v161 (addf : (⟨S150000x64, .f32⟩ : BufTy).Contents (Elt F) → (⟨S150000x64, .f32⟩ : BufTy).Contents (Elt F) → (⟨S150000x64, .f32⟩ : BufTy).Contents (Elt F)),
    StableHlo.nullary main_cst_28 (constant S_ .f32 0x40800000#32),
    StableHlo.unary main_cst_28 main_v162 (broadcastInDim S150000x64 ![] bcast_S_S150000x64 : (⟨S_, .f32⟩ : BufTy).Contents (Elt F) → (⟨S150000x64, .f32⟩ : BufTy).Contents (Elt F)),
    StableHlo.binary main_v161 main_v162 main_v163 (Host.divf : (⟨S150000x64, .f32⟩ : BufTy).Contents (Elt F) → (⟨S150000x64, .f32⟩ : BufTy).Contents (Elt F) → (⟨S150000x64, .f32⟩ : BufTy).Contents (Elt F)),
    StableHlo.unary main_v163 main_v164 ((extractStridedSlice S100000x64 ![0, 0] · slices_S150000x64_S100000x64_0_0) : (⟨S150000x64, .f32⟩ : BufTy).Contents (Elt F) → (⟨S100000x64, .f32⟩ : BufTy).Contents (Elt F)),
    StableHlo.unary main_v163 main_v165 ((extractStridedSlice S50000x64 ![100000, 0] · slices_S150000x64_S50000x64_100000_0) : (⟨S150000x64, .f32⟩ : BufTy).Contents (Elt F) → (⟨S50000x64, .f32⟩ : BufTy).Contents (Elt F)) ]

set_option maxHeartbeats 40000000 in
/-- Window 0 of @main is the sequence of its operations. -/
theorem part0_eq (c : Dev nD) : main_part0 (F := F) c = seq ops0 := rfl

set_option maxHeartbeats 40000000 in
/-- Window 1 of @main is the sequence of its operations. -/
theorem part1_eq (c : Dev nD) : main_part1 (F := F) c = seq ops1 := rfl

set_option maxHeartbeats 40000000 in
/-- Window 2 of @main is the sequence of its operations. -/
theorem part2_eq (c : Dev nD) : main_part2 (F := F) c = seq ops2 := rfl

set_option maxHeartbeats 40000000 in
/-- Window 3 of @main is the sequence of its operations. -/
theorem part3_eq (c : Dev nD) : main_part3 (F := F) c = seq ops3 := rfl

/-- @main's 233 operations, in order: the four windows' lists one after the other. -/
abbrev ops : List (HloOp τ sig (Elt F)) := ops0 ++ (ops1 ++ (ops2 ++ ops3))

/-- @main is the sequence of its operations: the windows run in order, each the sequence of its own. -/
theorem main_eq (c : Dev nD) : main (F := F) c = seq ops := by
  rw [seq_append, seq_append, seq_append, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxHeartbeats 40000000 in
theorem ops0_sub : (ops0 : List (HloOp τ sig (Elt F))).Forall fun op => op.bufs ⊆ tcRefs τ sig :=
  ⟨nullary_bufs_sub .., nullary_bufs_sub .., unary_bufs_sub .., binary_bufs_sub .., nary_bufs_sub .., nullary_bufs_sub .., unary_bufs_sub .., binary_bufs_sub ..,
    nary_bufs_sub .., nullary_bufs_sub .., unary_bufs_sub .., nullary_bufs_sub .., unary_bufs_sub .., unary_bufs_sub .., ternary_bufs_sub .., nullary_bufs_sub ..,
    unary_bufs_sub .., binary_bufs_sub .., unary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub .., binary_bufs_sub .., unary_bufs_sub ..,
    nullary_bufs_sub .., unary_bufs_sub .., binary_bufs_sub .., nullary_bufs_sub .., unary_bufs_sub .., binary_bufs_sub .., ternary_bufs_sub .., unary_bufs_sub ..,
    binary_bufs_sub .., unary_bufs_sub .., binary_bufs_sub .., nullary_bufs_sub .., unary_bufs_sub .., unary_bufs_sub .., ternary_bufs_sub .., unary_bufs_sub ..,
    reshape_bufs_sub .., unary_bufs_sub .., binary_bufs_sub .., unary_bufs_sub ..⟩

set_option maxHeartbeats 40000000 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 40000000 in
theorem ops1_sub : (ops1 : List (HloOp τ sig (Elt F))).Forall fun op => op.bufs ⊆ tcRefs τ sig :=
  ⟨reshape_bufs_sub .., unary_bufs_sub .., unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., unary_bufs_sub .., reshape_bufs_sub .., unary_bufs_sub ..,
    binary_bufs_sub .., unary_bufs_sub .., reshape_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub .., binary_bufs_sub .., binary_bufs_sub ..,
    nullary_bufs_sub .., binary_bufs_sub .., unary_bufs_sub .., unary_bufs_sub .., nullary_bufs_sub .., unary_bufs_sub .., binary_bufs_sub .., unary_bufs_sub ..,
    binary_bufs_sub .., binary_bufs_sub .., unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub .., nullary_bufs_sub .., unary_bufs_sub ..,
    unary_bufs_sub .., ternary_bufs_sub .., unary_bufs_sub .., reshape_bufs_sub .., unary_bufs_sub .., binary_bufs_sub .., unary_bufs_sub .., reshape_bufs_sub ..,
    unary_bufs_sub .., unary_bufs_sub .., binary_bufs_sub .., nullary_bufs_sub .., nullary_bufs_sub .., unary_bufs_sub .., binary_bufs_sub .., unary_bufs_sub ..,
    unary_bufs_sub .., binary_bufs_sub .., ternary_bufs_sub .., binary_bufs_sub .., unary_bufs_sub .., reshape_bufs_sub ..⟩

set_option maxHeartbeats 40000000 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

set_option maxHeartbeats 40000000 in
theorem ops2_sub : (ops2 : List (HloOp τ sig (Elt F))).Forall fun op => op.bufs ⊆ tcRefs τ sig :=
  ⟨unary_bufs_sub .., binary_bufs_sub .., unary_bufs_sub .., reshape_bufs_sub .., unary_bufs_sub .., unary_bufs_sub .., binary_bufs_sub .., nullary_bufs_sub ..,
    nullary_bufs_sub .., unary_bufs_sub .., binary_bufs_sub .., unary_bufs_sub .., unary_bufs_sub .., binary_bufs_sub .., ternary_bufs_sub .., binary_bufs_sub ..,
    binary_bufs_sub .., nullary_bufs_sub .., binary_bufs_sub .., unary_bufs_sub .., unary_bufs_sub .., nullary_bufs_sub .., unary_bufs_sub .., binary_bufs_sub ..,
    unary_bufs_sub .., binary_bufs_sub .., binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub .., binary_bufs_sub .., nullary_bufs_sub ..,
    unary_bufs_sub .., unary_bufs_sub .., ternary_bufs_sub .., unary_bufs_sub .., reshape_bufs_sub .., unary_bufs_sub .., binary_bufs_sub .., unary_bufs_sub ..,
    reshape_bufs_sub .., unary_bufs_sub .., unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., unary_bufs_sub .., reshape_bufs_sub .., unary_bufs_sub ..,
    binary_bufs_sub .., unary_bufs_sub .., reshape_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..⟩

set_option maxHeartbeats 40000000 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

set_option maxHeartbeats 40000000 in
theorem ops3_sub : (ops3 : List (HloOp τ sig (Elt F))).Forall fun op => op.bufs ⊆ tcRefs τ sig :=
  ⟨binary_bufs_sub .., binary_bufs_sub .., nullary_bufs_sub .., binary_bufs_sub .., unary_bufs_sub .., unary_bufs_sub .., nullary_bufs_sub .., unary_bufs_sub ..,
    binary_bufs_sub .., unary_bufs_sub .., binary_bufs_sub .., binary_bufs_sub .., nullary_bufs_sub .., unary_bufs_sub .., binary_bufs_sub .., unary_bufs_sub ..,
    unary_bufs_sub ..⟩

set_option maxHeartbeats 40000000 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl⟩

/-- Every operation touches tensor buffers only. -/
theorem ops_sub : (ops : List (HloOp τ sig (Elt F))).Forall fun op => op.bufs ⊆ tcRefs τ sig :=
  List.forall_append.mpr ⟨ops0_sub, List.forall_append.mpr ⟨ops1_sub, List.forall_append.mpr ⟨ops2_sub, ops3_sub⟩⟩⟩

/-- Every operation determines all it writes. -/
theorem ops_fresh : ∀ op ∈ (ops : List (HloOp τ sig (Elt F))), op.fresh = ∅ :=
  List.forall_iff_forall_mem.mp
    (List.forall_append.mpr ⟨ops0_fresh, List.forall_append.mpr ⟨ops1_fresh, List.forall_append.mpr ⟨ops2_fresh, ops3_fresh⟩⟩⟩)

/-- On the device, for any float values, from any memory with zero counters: every weakly fair execution of @main
    terminates, and every final state has each buffer at the fold of the operations over the launch contents. -/
theorem run_all (m : (ℓ : Loc nD τ sig) → Buf (Elt F) ℓ) (ρ : Dev nD → PrngReg) :
    θ_run defs (onTc (τ := τ) (main (F := F))) ⟨m, fun _ => 0, ρ⟩ (fun r =>
      ∀ (c : Dev nD) (b : Ref sig .tc), r.2.mem ((c.tc : Thread nD τ).loc b) = after ops (fun b => m (c, b)) (Proc.devRef .tc b)) :=
  run_seq scopedRefs_eq scopedSems_eq defs main (fun _ => ops) main_eq (fun _ => ops_sub) m ρ (fun _ => ops_fresh)

/-- The arguments' buffers. -/
abbrev args : List (Ref sig .tc) :=
  [main_arg0, main_arg1, main_arg2, main_arg3, main_arg4, main_arg5, main_arg6, main_arg7]

/-- An operation whose one written buffer is outside a list writes no buffer of the list. -/
theorem keeps_of_writes {K : List (Ref sig .tc)} {op : HloOp τ sig (Elt F)} {y : Ref sig .tc}
    (hw : op.writes = {(Proc.devRef .tc y : DevRef τ sig)}) (hy : y ∉ K) :
    ∀ r ∈ K, (Proc.devRef .tc r : DevRef τ sig) ∉ op.writes := by
  intro r hr hmem
  rw [hw, Finset.mem_singleton] at hmem
  exact hy (Proc.devRef_injective _ hmem ▸ hr)

set_option maxHeartbeats 40000000 in
theorem ops0_keep : (ops0 : List (HloOp τ sig (Elt F))).Forall fun op =>
    ∀ r ∈ args, (Proc.devRef .tc r : DevRef τ sig) ∉ op.writes :=
  ⟨keeps_of_writes (K := args) (y := main_v0) rfl (by decide), keeps_of_writes (K := args) (y := main_c) rfl (by decide), keeps_of_writes (K := args) (y := main_v1) rfl (by decide),
    keeps_of_writes (K := args) (y := main_v2) rfl (by decide), keeps_of_writes (K := args) (y := main_v3) rfl (by decide), keeps_of_writes (K := args) (y := main_c_0) rfl (by decide),
    keeps_of_writes (K := args) (y := main_v4) rfl (by decide), keeps_of_writes (K := args) (y := main_v5) rfl (by decide), keeps_of_writes (K := args) (y := main_v6) rfl (by decide),
    keeps_of_writes (K := args) (y := main_cst) rfl (by decide), keeps_of_writes (K := args) (y := main_v7) rfl (by decide), keeps_of_writes (K := args) (y := main_cst_1) rfl (by decide),
    keeps_of_writes (K := args) (y := main_v8) rfl (by decide), keeps_of_writes (K := args) (y := main_v9) rfl (by decide), keeps_of_writes (K := args) (y := main_v10) rfl (by decide),
    keeps_of_writes (K := args) (y := main_cst_2) rfl (by decide), keeps_of_writes (K := args) (y := main_v11) rfl (by decide), keeps_of_writes (K := args) (y := main_v12) rfl (by decide),
    keeps_of_writes (K := args) (y := main_v13) rfl (by decide), keeps_of_writes (K := args) (y := main_c_3) rfl (by decide), keeps_of_writes (K := args) (y := main_v14) rfl (by decide),
    keeps_of_writes (K := args) (y := main_v15) rfl (by decide), keeps_of_writes (K := args) (y := main_c_4) rfl (by decide), keeps_of_writes (K := args) (y := main_v16) rfl (by decide),
    keeps_of_writes (K := args) (y := main_v17) rfl (by decide), keeps_of_writes (K := args) (y := main_v18) rfl (by decide), keeps_of_writes (K := args) (y := main_v19) rfl (by decide),
    keeps_of_writes (K := args) (y := main_v20) rfl (by decide), keeps_of_writes (K := args) (y := main_c_5) rfl (by decide), keeps_of_writes (K := args) (y := main_v21) rfl (by decide),
    keeps_of_writes (K := args) (y := main_v22) rfl (by decide), keeps_of_writes (K := args) (y := main_c_6) rfl (by decide), keeps_of_writes (K := args) (y := main_v23) rfl (by decide),
    keeps_of_writes (K := args) (y := main_v24) rfl (by decide), keeps_of_writes (K := args) (y := main_v25) rfl (by decide), keeps_of_writes (K := args) (y := main_v26) rfl (by decide),
    keeps_of_writes (K := args) (y := main_v27) rfl (by decide), keeps_of_writes (K := args) (y := main_v28) rfl (by decide), keeps_of_writes (K := args) (y := main_v29) rfl (by decide),
    keeps_of_writes (K := args) (y := main_v30) rfl (by decide), keeps_of_writes (K := args) (y := main_c_7) rfl (by decide), keeps_of_writes (K := args) (y := main_v31) rfl (by decide),
    keeps_of_writes (K := args) (y := main_v32) rfl (by decide), keeps_of_writes (K := args) (y := main_c_8) rfl (by decide), keeps_of_writes (K := args) (y := main_v33) rfl (by decide),
    keeps_of_writes (K := args) (y := main_v34) rfl (by decide), keeps_of_writes (K := args) (y := main_v35) rfl (by decide), keeps_of_writes (K := args) (y := main_v36) rfl (by decide),
    keeps_of_writes (K := args) (y := main_v37) rfl (by decide), keeps_of_writes (K := args) (y := main_v38) rfl (by decide), keeps_of_writes (K := args) (y := main_v39) rfl (by decide),
    keeps_of_writes (K := args) (y := main_cst_9) rfl (by decide), keeps_of_writes (K := args) (y := main_v40) rfl (by decide), keeps_of_writes (K := args) (y := main_v41) rfl (by decide),
    keeps_of_writes (K := args) (y := main_v42) rfl (by decide), keeps_of_writes (K := args) (y := main_v43) rfl (by decide), keeps_of_writes (K := args) (y := main_v44) rfl (by decide),
    keeps_of_writes (K := args) (y := main_v45) rfl (by decide), keeps_of_writes (K := args) (y := main_v46) rfl (by decide), keeps_of_writes (K := args) (y := main_v47) rfl (by decide)⟩

set_option maxHeartbeats 40000000 in
theorem ops1_keep : (ops1 : List (HloOp τ sig (Elt F))).Forall fun op =>
    ∀ r ∈ args, (Proc.devRef .tc r : DevRef τ sig) ∉ op.writes :=
  ⟨keeps_of_writes (K := args) (y := main_v48) rfl (by decide), keeps_of_writes (K := args) (y := main_v49) rfl (by decide), keeps_of_writes (K := args) (y := main_v50) rfl (by decide),
    keeps_of_writes (K := args) (y := main_v51) rfl (by decide), keeps_of_writes (K := args) (y := main_cst_10) rfl (by decide), keeps_of_writes (K := args) (y := main_call0_cst) rfl (by decide),
    keeps_of_writes (K := args) (y := main_call0_v0) rfl (by decide), keeps_of_writes (K := args) (y := main_call0_v1) rfl (by decide), keeps_of_writes (K := args) (y := main_call0_v2) rfl (by decide),
    keeps_of_writes (K := args) (y := main_call0_v3) rfl (by decide), keeps_of_writes (K := args) (y := main_call0_v4) rfl (by decide), keeps_of_writes (K := args) (y := main_v52) rfl (by decide),
    keeps_of_writes (K := args) (y := main_v53) rfl (by decide), keeps_of_writes (K := args) (y := main_v54) rfl (by decide), keeps_of_writes (K := args) (y := main_v55) rfl (by decide),
    keeps_of_writes (K := args) (y := main_v56) rfl (by decide), keeps_of_writes (K := args) (y := main_v57) rfl (by decide), keeps_of_writes (K := args) (y := main_v58) rfl (by decide),
    keeps_of_writes (K := args) (y := main_v59) rfl (by decide), keeps_of_writes (K := args) (y := main_v60) rfl (by decide), keeps_of_writes (K := args) (y := main_v61) rfl (by decide),
    keeps_of_writes (K := args) (y := main_v62) rfl (by decide), keeps_of_writes (K := args) (y := main_cst_11) rfl (by decide), keeps_of_writes (K := args) (y := main_call1_cst) rfl (by decide),
    keeps_of_writes (K := args) (y := main_call1_v0) rfl (by decide), keeps_of_writes (K := args) (y := main_call1_v1) rfl (by decide), keeps_of_writes (K := args) (y := main_call1_v2) rfl (by decide),
    keeps_of_writes (K := args) (y := main_call1_v3) rfl (by decide), keeps_of_writes (K := args) (y := main_call1_v4) rfl (by decide), keeps_of_writes (K := args) (y := main_v63) rfl (by decide),
    keeps_of_writes (K := args) (y := main_v64) rfl (by decide), keeps_of_writes (K := args) (y := main_v65) rfl (by decide), keeps_of_writes (K := args) (y := main_cst_12) rfl (by decide),
    keeps_of_writes (K := args) (y := main_v66) rfl (by decide), keeps_of_writes (K := args) (y := main_v67) rfl (by decide), keeps_of_writes (K := args) (y := main_v68) rfl (by decide),
    keeps_of_writes (K := args) (y := main_cst_13) rfl (by decide), keeps_of_writes (K := args) (y := main_v69) rfl (by decide), keeps_of_writes (K := args) (y := main_v70) rfl (by decide),
    keeps_of_writes (K := args) (y := main_v71) rfl (by decide), keeps_of_writes (K := args) (y := main_v72) rfl (by decide), keeps_of_writes (K := args) (y := main_v73) rfl (by decide),
    keeps_of_writes (K := args) (y := main_v74) rfl (by decide), keeps_of_writes (K := args) (y := main_c_14) rfl (by decide), keeps_of_writes (K := args) (y := main_v75) rfl (by decide),
    keeps_of_writes (K := args) (y := main_v76) rfl (by decide), keeps_of_writes (K := args) (y := main_c_15) rfl (by decide), keeps_of_writes (K := args) (y := main_v77) rfl (by decide),
    keeps_of_writes (K := args) (y := main_v78) rfl (by decide), keeps_of_writes (K := args) (y := main_v79) rfl (by decide), keeps_of_writes (K := args) (y := main_v80) rfl (by decide),
    keeps_of_writes (K := args) (y := main_v81) rfl (by decide), keeps_of_writes (K := args) (y := main_v82) rfl (by decide), keeps_of_writes (K := args) (y := main_v83) rfl (by decide),
    keeps_of_writes (K := args) (y := main_cst_16) rfl (by decide), keeps_of_writes (K := args) (y := main_v84) rfl (by decide), keeps_of_writes (K := args) (y := main_v85) rfl (by decide),
    keeps_of_writes (K := args) (y := main_v86) rfl (by decide), keeps_of_writes (K := args) (y := main_v87) rfl (by decide), keeps_of_writes (K := args) (y := main_v88) rfl (by decide),
    keeps_of_writes (K := args) (y := main_v89) rfl (by decide), keeps_of_writes (K := args) (y := main_v90) rfl (by decide), keeps_of_writes (K := args) (y := main_v91) rfl (by decide),
    keeps_of_writes (K := args) (y := main_v92) rfl (by decide), keeps_of_writes (K := args) (y := main_v93) rfl (by decide), keeps_of_writes (K := args) (y := main_v94) rfl (by decide),
    keeps_of_writes (K := args) (y := main_v95) rfl (by decide), keeps_of_writes (K := args) (y := main_cst_17) rfl (by decide), keeps_of_writes (K := args) (y := main_call2_cst) rfl (by decide),
    keeps_of_writes (K := args) (y := main_call2_v0) rfl (by decide), keeps_of_writes (K := args) (y := main_call2_v1) rfl (by decide), keeps_of_writes (K := args) (y := main_call2_v2) rfl (by decide),
    keeps_of_writes (K := args) (y := main_call2_v3) rfl (by decide), keeps_of_writes (K := args) (y := main_call2_v4) rfl (by decide), keeps_of_writes (K := args) (y := main_v96) rfl (by decide),
    keeps_of_writes (K := args) (y := main_v97) rfl (by decide), keeps_of_writes (K := args) (y := main_v98) rfl (by decide), keeps_of_writes (K := args) (y := main_v99) rfl (by decide)⟩

set_option maxHeartbeats 40000000 in
theorem ops2_keep : (ops2 : List (HloOp τ sig (Elt F))).Forall fun op =>
    ∀ r ∈ args, (Proc.devRef .tc r : DevRef τ sig) ∉ op.writes :=
  ⟨keeps_of_writes (K := args) (y := main_v100) rfl (by decide), keeps_of_writes (K := args) (y := main_v101) rfl (by decide), keeps_of_writes (K := args) (y := main_v102) rfl (by decide),
    keeps_of_writes (K := args) (y := main_v103) rfl (by decide), keeps_of_writes (K := args) (y := main_v104) rfl (by decide), keeps_of_writes (K := args) (y := main_v105) rfl (by decide),
    keeps_of_writes (K := args) (y := main_v106) rfl (by decide), keeps_of_writes (K := args) (y := main_cst_18) rfl (by decide), keeps_of_writes (K := args) (y := main_call3_cst) rfl (by decide),
    keeps_of_writes (K := args) (y := main_call3_v0) rfl (by decide), keeps_of_writes (K := args) (y := main_call3_v1) rfl (by decide), keeps_of_writes (K := args) (y := main_call3_v2) rfl (by decide),
    keeps_of_writes (K := args) (y := main_call3_v3) rfl (by decide), keeps_of_writes (K := args) (y := main_call3_v4) rfl (by decide), keeps_of_writes (K := args) (y := main_v107) rfl (by decide),
    keeps_of_writes (K := args) (y := main_v108) rfl (by decide), keeps_of_writes (K := args) (y := main_v109) rfl (by decide), keeps_of_writes (K := args) (y := main_cst_19) rfl (by decide),
    keeps_of_writes (K := args) (y := main_v110) rfl (by decide), keeps_of_writes (K := args) (y := main_v111) rfl (by decide), keeps_of_writes (K := args) (y := main_v112) rfl (by decide),
    keeps_of_writes (K := args) (y := main_cst_20) rfl (by decide), keeps_of_writes (K := args) (y := main_v113) rfl (by decide), keeps_of_writes (K := args) (y := main_v114) rfl (by decide),
    keeps_of_writes (K := args) (y := main_v115) rfl (by decide), keeps_of_writes (K := args) (y := main_v116) rfl (by decide), keeps_of_writes (K := args) (y := main_v117) rfl (by decide),
    keeps_of_writes (K := args) (y := main_v118) rfl (by decide), keeps_of_writes (K := args) (y := main_c_21) rfl (by decide), keeps_of_writes (K := args) (y := main_v119) rfl (by decide),
    keeps_of_writes (K := args) (y := main_v120) rfl (by decide), keeps_of_writes (K := args) (y := main_c_22) rfl (by decide), keeps_of_writes (K := args) (y := main_v121) rfl (by decide),
    keeps_of_writes (K := args) (y := main_v122) rfl (by decide), keeps_of_writes (K := args) (y := main_v123) rfl (by decide), keeps_of_writes (K := args) (y := main_v124) rfl (by decide),
    keeps_of_writes (K := args) (y := main_v125) rfl (by decide), keeps_of_writes (K := args) (y := main_v126) rfl (by decide), keeps_of_writes (K := args) (y := main_v127) rfl (by decide),
    keeps_of_writes (K := args) (y := main_cst_23) rfl (by decide), keeps_of_writes (K := args) (y := main_v128) rfl (by decide), keeps_of_writes (K := args) (y := main_v129) rfl (by decide),
    keeps_of_writes (K := args) (y := main_v130) rfl (by decide), keeps_of_writes (K := args) (y := main_v131) rfl (by decide), keeps_of_writes (K := args) (y := main_v132) rfl (by decide),
    keeps_of_writes (K := args) (y := main_v133) rfl (by decide), keeps_of_writes (K := args) (y := main_v134) rfl (by decide), keeps_of_writes (K := args) (y := main_v135) rfl (by decide),
    keeps_of_writes (K := args) (y := main_v136) rfl (by decide), keeps_of_writes (K := args) (y := main_v137) rfl (by decide), keeps_of_writes (K := args) (y := main_v138) rfl (by decide),
    keeps_of_writes (K := args) (y := main_v139) rfl (by decide), keeps_of_writes (K := args) (y := main_cst_24) rfl (by decide), keeps_of_writes (K := args) (y := main_call4_cst) rfl (by decide),
    keeps_of_writes (K := args) (y := main_call4_v0) rfl (by decide), keeps_of_writes (K := args) (y := main_call4_v1) rfl (by decide), keeps_of_writes (K := args) (y := main_call4_v2) rfl (by decide),
    keeps_of_writes (K := args) (y := main_call4_v3) rfl (by decide), keeps_of_writes (K := args) (y := main_call4_v4) rfl (by decide), keeps_of_writes (K := args) (y := main_v140) rfl (by decide),
    keeps_of_writes (K := args) (y := main_v141) rfl (by decide), keeps_of_writes (K := args) (y := main_v142) rfl (by decide), keeps_of_writes (K := args) (y := main_v143) rfl (by decide),
    keeps_of_writes (K := args) (y := main_v144) rfl (by decide), keeps_of_writes (K := args) (y := main_v145) rfl (by decide), keeps_of_writes (K := args) (y := main_v146) rfl (by decide),
    keeps_of_writes (K := args) (y := main_v147) rfl (by decide), keeps_of_writes (K := args) (y := main_v148) rfl (by decide), keeps_of_writes (K := args) (y := main_v149) rfl (by decide),
    keeps_of_writes (K := args) (y := main_v150) rfl (by decide), keeps_of_writes (K := args) (y := main_cst_25) rfl (by decide), keeps_of_writes (K := args) (y := main_call5_cst) rfl (by decide),
    keeps_of_writes (K := args) (y := main_call5_v0) rfl (by decide), keeps_of_writes (K := args) (y := main_call5_v1) rfl (by decide), keeps_of_writes (K := args) (y := main_call5_v2) rfl (by decide),
    keeps_of_writes (K := args) (y := main_call5_v3) rfl (by decide), keeps_of_writes (K := args) (y := main_call5_v4) rfl (by decide), keeps_of_writes (K := args) (y := main_v151) rfl (by decide)⟩

set_option maxHeartbeats 40000000 in
theorem ops3_keep : (ops3 : List (HloOp τ sig (Elt F))).Forall fun op =>
    ∀ r ∈ args, (Proc.devRef .tc r : DevRef τ sig) ∉ op.writes :=
  ⟨keeps_of_writes (K := args) (y := main_v152) rfl (by decide), keeps_of_writes (K := args) (y := main_v153) rfl (by decide), keeps_of_writes (K := args) (y := main_cst_26) rfl (by decide),
    keeps_of_writes (K := args) (y := main_v154) rfl (by decide), keeps_of_writes (K := args) (y := main_v155) rfl (by decide), keeps_of_writes (K := args) (y := main_v156) rfl (by decide),
    keeps_of_writes (K := args) (y := main_cst_27) rfl (by decide), keeps_of_writes (K := args) (y := main_v157) rfl (by decide), keeps_of_writes (K := args) (y := main_v158) rfl (by decide),
    keeps_of_writes (K := args) (y := main_v159) rfl (by decide), keeps_of_writes (K := args) (y := main_v160) rfl (by decide), keeps_of_writes (K := args) (y := main_v161) rfl (by decide),
    keeps_of_writes (K := args) (y := main_cst_28) rfl (by decide), keeps_of_writes (K := args) (y := main_v162) rfl (by decide), keeps_of_writes (K := args) (y := main_v163) rfl (by decide),
    keeps_of_writes (K := args) (y := main_v164) rfl (by decide), keeps_of_writes (K := args) (y := main_v165) rfl (by decide)⟩

/-- No operation writes an argument. -/
theorem ops_keep : (ops : List (HloOp τ sig (Elt F))).Forall fun op =>
    ∀ r ∈ args, (Proc.devRef .tc r : DevRef τ sig) ∉ op.writes :=
  List.forall_append.mpr ⟨ops0_keep, List.forall_append.mpr ⟨ops1_keep, List.forall_append.mpr ⟨ops2_keep, ops3_keep⟩⟩⟩

/-- An argument's buffer holds after the operations what it held before them. -/
theorem arg_kept (V : Valuation τ sig (Elt F)) {r : Ref sig .tc} (hr : r ∈ args) :
    after ops V (Proc.devRef .tc r) = V (Proc.devRef .tc r) :=
  after_of_forall_not_mem ops V fun op hop => List.forall_iff_forall_mem.mp ops_keep op hop r hr

/-- The reference runs to the end from any memory with zero counters, and its arguments end unchanged. -/
theorem frame_ri : Cert.frame_ReferenceIdeal (hReferenceIdeal := Cert.ReferenceIdeal.Gen.facts)
    (hPre_finite_inputs := Cert.Pre_finite_inputs.Gen.facts) := by
  intro m g _
  exact (θ_run (defs (F := Ideal)) _ _).mono (fun _ h c =>
    ⟨(h c main_arg0).trans (arg_kept _ (by decide)), (h c main_arg1).trans (arg_kept _ (by decide)),
     (h c main_arg2).trans (arg_kept _ (by decide)), (h c main_arg3).trans (arg_kept _ (by decide)),
     (h c main_arg4).trans (arg_kept _ (by decide)), (h c main_arg5).trans (arg_kept _ (by decide)),
     (h c main_arg6).trans (arg_kept _ (by decide)), (h c main_arg7).trans (arg_kept _ (by decide))⟩)
    (run_all (F := Ideal) m g)

/-! ## The result as named stages

Each definition below is the composition of the program's operations for one stage of the reference, over the float
values `F`: the edge lists `rows` / `cols` of the symmetric adjacency with self loops, the normalisation
coefficient `coef` of each edge, the sparse product `spmm`, one layer (`layerEmb`, `layer`), and the closing mean and
split (`mean4`, `outU`, `outI`). -/

/-- The item ids moved past the user ids: `edge_i + 100000`. -/
def shifted (ei : IVec S2000000 32) : IVec S2000000 32 :=
  addi ei (broadcastInDim S2000000 ![] bcast_S_S2000000 (constantI S_ 32 100000#32))

/-- The edges' source rows: user → item, item → user, then every node's self loop. -/
def rows (eu ei : IVec S2000000 32) : IVec S4150000 32 :=
  concatenate S4150000 0 [⟨S2000000, eu⟩, ⟨S2000000, shifted ei⟩, ⟨S150000, iotaInDim S150000 32 0⟩]
    concatenates_S2000000_S2000000_S150000_S4150000_d0

/-- The edges' target columns, in the same order. -/
def cols (eu ei : IVec S2000000 32) : IVec S4150000 32 :=
  concatenate S4150000 0 [⟨S2000000, shifted ei⟩, ⟨S2000000, eu⟩, ⟨S150000, iotaInDim S150000 32 0⟩]
    concatenates_S2000000_S2000000_S150000_S4150000_d0

/-- An index vector as a column of gather indices, a negative entry first moved up by the node count. -/
def wrapIdx (x : IVec S4150000 32) : IVec S4150000x1 32 :=
  broadcastInDim S4150000x1 ![0] bcast_S4150000_S4150000x1_0
    (select (cmpi .slt x (broadcastInDim S4150000 ![] bcast_S_S4150000 (constantI S_ 32 0#32)))
      (addi x (broadcastInDim S4150000 ![] bcast_S_S4150000 (constantI S_ 32 150000#32))) x)

/-- Each node's degree: a one added at every edge's row. -/
def degree (r : IVec S4150000 32) : FVec F S150000 .f32 :=
  Host.scatterAdd scatter_S150000_S4150000x1_S4150000_n_0_0_1
    (broadcastInDim S150000 ![] bcast_S_S150000 (constant S_ .f32 0x00000000#32))
    (broadcastInDim S4150000x1 ![0] bcast_S4150000_S4150000x1_0 r)
    (broadcastInDim S4150000 ![] bcast_S_S4150000 (constant S_ .f32 0x3F800000#32))

/-- The inverse square root of each degree, the degree taken at least one. -/
def dinv (r : IVec S4150000 32) : FVec F S150000 .f32 :=
  Host.rsqrt (maximumf (degree (F := F) r) (broadcastInDim S150000 ![] bcast_S_S150000 (constant S_ .f32 0x3F800000#32)))

/-- Each edge's coefficient: the product of its two ends' inverse root degrees. -/
def coef (r c : IVec S4150000 32) : FVec F S4150000 .f32 :=
  mulf (Host.gather gather_S150000_S4150000x1_S4150000_n_0_n_n_0_1_1 (dinv (F := F) r) (wrapIdx r))
    (Host.gather gather_S150000_S4150000x1_S4150000_n_0_n_n_0_1_1 (dinv (F := F) r) (wrapIdx c))

/-- The two embedding tables as one: users, then items. -/
def emb0 (u : FVec F S100000x64 .f32) (i : FVec F S50000x64 .f32) : FVec F S150000x64 .f32 :=
  concatenate S150000x64 0 [⟨S100000x64, u⟩, ⟨S50000x64, i⟩] concatenates_S100000x64_S50000x64_S150000x64_d0

/-- The normalised adjacency applied to `X`: each edge's coefficient times `X`'s row at its column, summed at its row. -/
def spmm (r c : IVec S4150000 32) (k : FVec F S4150000 .f32) (X : FVec F S150000x64 .f32) : FVec F S150000x64 .f32 :=
  Host.scatterAdd scatter_S150000x64_S4150000x1_S4150000x64_1_0_0_1
    (broadcastInDim S150000x64 ![] bcast_S_S150000x64 (constant S_ .f32 0x00000000#32))
    (broadcastInDim S4150000x1 ![0] bcast_S4150000_S4150000x1_0 r)
    (mulf
      (broadcastInDim S4150000x64 ![0, 1] bcast_S4150000x1_S4150000x64_0_1
        (broadcastInDim S4150000x1 ![0] bcast_S4150000_S4150000x1_0 k))
      (Host.gather gather_S150000x64_S4150000x1_S4150000x64_1_0_n_n_0_1_164 X (wrapIdx c)))

/-- The transpose of the weight matrix at offset `off` of a stack of three. -/
def weightT (off : Fin 3 → ℕ) (h : S3x64x64.Slices off S1x64x64) (W : FVec F S3x64x64 .f32) : FVec F S64x64 .f32 :=
  transpose S64x64 [1, 0] (shapeCast S64x64 (extractStridedSlice S1x64x64 off W h) shapeCasts_S1x64x64_S64x64)
    transposes_S64x64_S64x64_1_0

/-- The bias vector at offset `off` of a stack of three, at every row. -/
def biasRows (off : Fin 2 → ℕ) (h : S3x64.Slices off S1x64) (b : FVec F S3x64 .f32) : FVec F S150000x64 .f32 :=
  broadcastInDim S150000x64 ![0, 1] bcast_S1x64_S150000x64_0_1
    (broadcastInDim S1x64 ![1] bcast_S64_S1x64_1 (shapeCast S64 (extractStridedSlice S1x64 off b h) shapeCasts_S1x64_S64))

/-- `X · Wᵀ + b` with the layer's weight and bias. -/
def affine (offW : Fin 3 → ℕ) (offb : Fin 2 → ℕ) (hW : S3x64x64.Slices offW S1x64x64) (hb : S3x64.Slices offb S1x64)
    (X : FVec F S150000x64 .f32) (W : FVec F S3x64x64 .f32) (b : FVec F S3x64 .f32) : FVec F S150000x64 .f32 :=
  addf (Host.dotGeneral dot_S150000x64_S64x64_S150000x64_1_0_0_1_n_n none X (weightT offW hW W)) (biasRows offb hb b)

/-- The leaky rectifier: `x` where it is at least zero, `slope · x` elsewhere. -/
def leakyRelu (x : FVec F S150000x64 .f32) (slope : FVec F S_ .f32) : FVec F S150000x64 .f32 :=
  select (cmpf .oge x (broadcastInDim S150000x64 ![] bcast_S_S150000x64 (constant S_ .f32 0x00000000#32))) x
    (mulf (broadcastInDim S150000x64 ![] bcast_S_S150000x64 (id slope)) x)

/-- Each row divided by its Euclidean norm, the norm taken at least the smallest admitted one. -/
def l2normalize (x : FVec F S150000x64 .f32) : FVec F S150000x64 .f32 :=
  Host.divf x
    (broadcastInDim S150000x64 ![0, 1] bcast_S150000x1_S150000x64_0_1
      (maximumf
        (Host.sqrt (broadcastInDim S150000x1 ![0] bcast_S150000_S150000x1_0
          (Host.reduceAdd (mulf x x) (constant S_ .f32 0x00000000#32) reducesTo_S150000x64_S150000_d1 h_S_)))
        (broadcastInDim S150000x1 ![] bcast_S_S150000x1 (constant S_ .f32 0x2B8CBCCC#32))))

/-- One layer's new embeddings from the propagated ones `g` and the current ones `emb`. -/
def layerEmb (offW : Fin 3 → ℕ) (offb : Fin 2 → ℕ) (hW : S3x64x64.Slices offW S1x64x64) (hb : S3x64.Slices offb S1x64)
    (g emb : FVec F S150000x64 .f32) (Wgc : FVec F S3x64x64 .f32) (bgc : FVec F S3x64 .f32)
    (Wbi : FVec F S3x64x64 .f32) (bbi : FVec F S3x64 .f32) : FVec F S150000x64 .f32 :=
  l2normalize
    (addf (leakyRelu (affine offW offb hW hb g Wgc bgc) (constant S_ .f32 0x3E4CCCCD#32))
      (leakyRelu (affine offW offb hW hb (mulf emb g) Wbi bbi) (constant S_ .f32 0x3E4CCCCD#32)))

/-- One layer: the new embeddings, and the running sum with them added. -/
def layer (offW : Fin 3 → ℕ) (offb : Fin 2 → ℕ) (hW : S3x64x64.Slices offW S1x64x64) (hb : S3x64.Slices offb S1x64)
    (g emb acc : FVec F S150000x64 .f32) (Wgc : FVec F S3x64x64 .f32) (bgc : FVec F S3x64 .f32)
    (Wbi : FVec F S3x64x64 .f32) (bbi : FVec F S3x64 .f32) : FVec F S150000x64 .f32 × FVec F S150000x64 .f32 :=
  (layerEmb offW offb hW hb g emb Wgc bgc Wbi bbi, addf acc (layerEmb offW offb hW hb g emb Wgc bgc Wbi bbi))

/-- The three layers, each at its own weights. -/
def layer0 := @layer F _ ![0, 0, 0] ![0, 0] slices_S3x64x64_S1x64x64_0_0_0 slices_S3x64_S1x64_0_0
def layer1 := @layer F _ ![1, 0, 0] ![1, 0] slices_S3x64x64_S1x64x64_1_0_0 slices_S3x64_S1x64_1_0
def layer2 := @layer F _ ![2, 0, 0] ![2, 0] slices_S3x64x64_S1x64x64_2_0_0 slices_S3x64_S1x64_2_0

/-- The mean of the four layer outputs from their sum. -/
def mean4 (acc : FVec F S150000x64 .f32) : FVec F S150000x64 .f32 :=
  Host.divf acc (broadcastInDim S150000x64 ![] bcast_S_S150000x64 (constant S_ .f32 0x40800000#32))

/-- The users' rows of the mean. -/
def outU (acc : FVec F S150000x64 .f32) : FVec F S100000x64 .f32 :=
  extractStridedSlice S100000x64 ![0, 0] (mean4 acc) slices_S150000x64_S100000x64_0_0

/-- The items' rows of the mean. -/
def outI (acc : FVec F S150000x64 .f32) : FVec F S50000x64 .f32 :=
  extractStridedSlice S50000x64 ![100000, 0] (mean4 acc) slices_S150000x64_S50000x64_100000_0

/-! ## The operations regrouped by stage

The same 233 operations cut where the stages end: the edge lists, the coefficients and the joined table; each of the
three layers; the closing mean and split. -/

set_option maxHeartbeats 40000000 in
abbrev seg0 : List (HloOp τ sig (Elt F)) :=
  [ StableHlo.nullary main_v0 (iotaInDim S150000 32 0),
    StableHlo.nullary main_c (constantI S_ 32 100000#32),
    StableHlo.unary main_c main_v1 (broadcastInDim S2000000 ![] bcast_S_S2000000 : (⟨S_, .i32⟩ : BufTy).Contents (Elt F) → (⟨S2000000, .i32⟩ : BufTy).Contents (Elt F)),
    StableHlo.binary main_arg7 main_v1 main_v2 (addi : (⟨S2000000, .i32⟩ : BufTy).Contents (Elt F) → (⟨S2000000, .i32⟩ : BufTy).Contents (Elt F) → (⟨S2000000, .i32⟩ : BufTy).Contents (Elt F)),
    StableHlo.nary ![main_arg6, main_v2, main_v0] main_v3 (fun u => concatenate S4150000 0 [⟨S2000000, u 0⟩, ⟨S2000000, u 1⟩, ⟨S150000, u 2⟩] concatenates_S2000000_S2000000_S150000_S4150000_d0),
    StableHlo.nullary main_c_0 (constantI S_ 32 100000#32),
    StableHlo.unary main_c_0 main_v4 (broadcastInDim S2000000 ![] bcast_S_S2000000 : (⟨S_, .i32⟩ : BufTy).Contents (Elt F) → (⟨S2000000, .i32⟩ : BufTy).Contents (Elt F)),
    StableHlo.binary main_arg7 main_v4 main_v5 (addi : (⟨S2000000, .i32⟩ : BufTy).Contents (Elt F) → (⟨S2000000, .i32⟩ : BufTy).Contents (Elt F) → (⟨S2000000, .i32⟩ : BufTy).Contents (Elt F)),
    StableHlo.nary ![main_v5, main_arg6, main_v0] main_v6 (fun u => concatenate S4150000 0 [⟨S2000000, u 0⟩, ⟨S2000000, u 1⟩, ⟨S150000, u 2⟩] concatenates_S2000000_S2000000_S150000_S4150000_d0),
    StableHlo.nullary main_cst (constant S_ .f32 0x3F800000#32),
    StableHlo.unary main_cst main_v7 (broadcastInDim S4150000 ![] bcast_S_S4150000 : (⟨S_, .f32⟩ : BufTy).Contents (Elt F) → (⟨S4150000, .f32⟩ : BufTy).Contents (Elt F)),
    StableHlo.nullary main_cst_1 (constant S_ .f32 0x00000000#32),
    StableHlo.unary main_cst_1 main_v8 (broadcastInDim S150000 ![] bcast_S_S150000 : (⟨S_, .f32⟩ : BufTy).Contents (Elt F) → (⟨S150000, .f32⟩ : BufTy).Contents (Elt F)),
    StableHlo.unary main_v3 main_v9 (broadcastInDim S4150000x1 ![0] bcast_S4150000_S4150000x1_0 : (⟨S4150000, .i32⟩ : BufTy).Contents (Elt F) → (⟨S4150000x1, .i32⟩ : BufTy).Contents (Elt F)),
    StableHlo.ternary main_v8 main_v9 main_v7 main_v10 ((fun x i u => Host.scatterAdd scatter_S150000_S4150000x1_S4150000_n_0_0_1 x i u) : (⟨S150000, .f32⟩ : BufTy).Contents (Elt F) → (⟨S4150000x1, .i32⟩ : BufTy).Contents (Elt F) → (⟨S4150000, .f32⟩ : BufTy).Contents (Elt F) → (⟨S150000, .f32⟩ : BufTy).Contents (Elt F)),
    StableHlo.nullary main_cst_2 (constant S_ .f32 0x3F800000#32),
    StableHlo.unary main_cst_2 main_v11 (broadcastInDim S150000 ![] bcast_S_S150000 : (⟨S_, .f32⟩ : BufTy).Contents (Elt F) → (⟨S150000, .f32⟩ : BufTy).Contents (Elt F)),
    StableHlo.binary main_v10 main_v11 main_v12 (maximumf : (⟨S150000, .f32⟩ : BufTy).Contents (Elt F) → (⟨S150000, .f32⟩ : BufTy).Contents (Elt F) → (⟨S150000, .f32⟩ : BufTy).Contents (Elt F)),
    StableHlo.unary main_v12 main_v13 (Host.rsqrt : (⟨S150000, .f32⟩ : BufTy).Contents (Elt F) → (⟨S150000, .f32⟩ : BufTy).Contents (Elt F)),
    StableHlo.nullary main_c_3 (constantI S_ 32 0#32),
    StableHlo.unary main_c_3 main_v14 (broadcastInDim S4150000 ![] bcast_S_S4150000 : (⟨S_, .i32⟩ : BufTy).Contents (Elt F) → (⟨S4150000, .i32⟩ : BufTy).Contents (Elt F)),
    StableHlo.binary main_v3 main_v14 main_v15 (cmpi .slt : (⟨S4150000, .i32⟩ : BufTy).Contents (Elt F) → (⟨S4150000, .i32⟩ : BufTy).Contents (Elt F) → (⟨S4150000, .i1⟩ : BufTy).Contents (Elt F)),
    StableHlo.nullary main_c_4 (constantI S_ 32 150000#32),
    StableHlo.unary main_c_4 main_v16 (broadcastInDim S4150000 ![] bcast_S_S4150000 : (⟨S_, .i32⟩ : BufTy).Contents (Elt F) → (⟨S4150000, .i32⟩ : BufTy).Contents (Elt F)),
    StableHlo.binary main_v3 main_v16 main_v17 (addi : (⟨S4150000, .i32⟩ : BufTy).Contents (Elt F) → (⟨S4150000, .i32⟩ : BufTy).Contents (Elt F) → (⟨S4150000, .i32⟩ : BufTy).Contents (Elt F)),
    StableHlo.ternary main_v15 main_v17 main_v3 main_v18 (select : (⟨S4150000, .i1⟩ : BufTy).Contents (Elt F) → (⟨S4150000, .i32⟩ : BufTy).Contents (Elt F) → (⟨S4150000, .i32⟩ : BufTy).Contents (Elt F) → (⟨S4150000, .i32⟩ : BufTy).Contents (Elt F)),
    StableHlo.unary main_v18 main_v19 (broadcastInDim S4150000x1 ![0] bcast_S4150000_S4150000x1_0 : (⟨S4150000, .i32⟩ : BufTy).Contents (Elt F) → (⟨S4150000x1, .i32⟩ : BufTy).Contents (Elt F)),
    StableHlo.binary main_v13 main_v19 main_v20 ((fun x i => Host.gather gather_S150000_S4150000x1_S4150000_n_0_n_n_0_1_1 x i) : (⟨S150000, .f32⟩ : BufTy).Contents (Elt F) → (⟨S4150000x1, .i32⟩ : BufTy).Contents (Elt F) → (⟨S4150000, .f32⟩ : BufTy).Contents (Elt F)),
    StableHlo.nullary main_c_5 (constantI S_ 32 0#32),
    StableHlo.unary main_c_5 main_v21 (broadcastInDim S4150000 ![] bcast_S_S4150000 : (⟨S_, .i32⟩ : BufTy).Contents (Elt F) → (⟨S4150000, .i32⟩ : BufTy).Contents (Elt F)),
    StableHlo.binary main_v6 main_v21 main_v22 (cmpi .slt : (⟨S4150000, .i32⟩ : BufTy).Contents (Elt F) → (⟨S4150000, .i32⟩ : BufTy).Contents (Elt F) → (⟨S4150000, .i1⟩ : BufTy).Contents (Elt F)),
    StableHlo.nullary main_c_6 (constantI S_ 32 150000#32),
    StableHlo.unary main_c_6 main_v23 (broadcastInDim S4150000 ![] bcast_S_S4150000 : (⟨S_, .i32⟩ : BufTy).Contents (Elt F) → (⟨S4150000, .i32⟩ : BufTy).Contents (Elt F)),
    StableHlo.binary main_v6 main_v23 main_v24 (addi : (⟨S4150000, .i32⟩ : BufTy).Contents (Elt F) → (⟨S4150000, .i32⟩ : BufTy).Contents (Elt F) → (⟨S4150000, .i32⟩ : BufTy).Contents (Elt F)),
    StableHlo.ternary main_v22 main_v24 main_v6 main_v25 (select : (⟨S4150000, .i1⟩ : BufTy).Contents (Elt F) → (⟨S4150000, .i32⟩ : BufTy).Contents (Elt F) → (⟨S4150000, .i32⟩ : BufTy).Contents (Elt F) → (⟨S4150000, .i32⟩ : BufTy).Contents (Elt F)),
    StableHlo.unary main_v25 main_v26 (broadcastInDim S4150000x1 ![0] bcast_S4150000_S4150000x1_0 : (⟨S4150000, .i32⟩ : BufTy).Contents (Elt F) → (⟨S4150000x1, .i32⟩ : BufTy).Contents (Elt F)),
    StableHlo.binary main_v13 main_v26 main_v27 ((fun x i => Host.gather gather_S150000_S4150000x1_S4150000_n_0_n_n_0_1_1 x i) : (⟨S150000, .f32⟩ : BufTy).Contents (Elt F) → (⟨S4150000x1, .i32⟩ : BufTy).Contents (Elt F) → (⟨S4150000, .f32⟩ : BufTy).Contents (Elt F)),
    StableHlo.binary main_v20 main_v27 main_v28 (mulf : (⟨S4150000, .f32⟩ : BufTy).Contents (Elt F) → (⟨S4150000, .f32⟩ : BufTy).Contents (Elt F) → (⟨S4150000, .f32⟩ : BufTy).Contents (Elt F)),
    StableHlo.binary main_arg0 main_arg1 main_v29 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)) ]

set_option maxHeartbeats 40000000 in
abbrev segL0 : List (HloOp τ sig (Elt F)) :=
  [ StableHlo.unary main_v28 main_v30 (broadcastInDim S4150000x1 ![0] bcast_S4150000_S4150000x1_0 : (⟨S4150000, .f32⟩ : BufTy).Contents (Elt F) → (⟨S4150000x1, .f32⟩ : BufTy).Contents (Elt F)),
    StableHlo.nullary main_c_7 (constantI S_ 32 0#32),
    StableHlo.unary main_c_7 main_v31 (broadcastInDim S4150000 ![] bcast_S_S4150000 : (⟨S_, .i32⟩ : BufTy).Contents (Elt F) → (⟨S4150000, .i32⟩ : BufTy).Contents (Elt F)),
    StableHlo.binary main_v6 main_v31 main_v32 (cmpi .slt : (⟨S4150000, .i32⟩ : BufTy).Contents (Elt F) → (⟨S4150000, .i32⟩ : BufTy).Contents (Elt F) → (⟨S4150000, .i1⟩ : BufTy).Contents (Elt F)),
    StableHlo.nullary main_c_8 (constantI S_ 32 150000#32),
    StableHlo.unary main_c_8 main_v33 (broadcastInDim S4150000 ![] bcast_S_S4150000 : (⟨S_, .i32⟩ : BufTy).Contents (Elt F) → (⟨S4150000, .i32⟩ : BufTy).Contents (Elt F)),
    StableHlo.binary main_v6 main_v33 main_v34 (addi : (⟨S4150000, .i32⟩ : BufTy).Contents (Elt F) → (⟨S4150000, .i32⟩ : BufTy).Contents (Elt F) → (⟨S4150000, .i32⟩ : BufTy).Contents (Elt F)),
    StableHlo.ternary main_v32 main_v34 main_v6 main_v35 (select : (⟨S4150000, .i1⟩ : BufTy).Contents (Elt F) → (⟨S4150000, .i32⟩ : BufTy).Contents (Elt F) → (⟨S4150000, .i32⟩ : BufTy).Contents (Elt F) → (⟨S4150000, .i32⟩ : BufTy).Contents (Elt F)),
    StableHlo.unary main_v35 main_v36 (broadcastInDim S4150000x1 ![0] bcast_S4150000_S4150000x1_0 : (⟨S4150000, .i32⟩ : BufTy).Contents (Elt F) → (⟨S4150000x1, .i32⟩ : BufTy).Contents (Elt F)),
    StableHlo.binary main_v29 main_v36 main_v37 ((fun x i => Host.gather gather_S150000x64_S4150000x1_S4150000x64_1_0_n_n_0_1_164 x i) : (⟨S150000x64, .f32⟩ : BufTy).Contents (Elt F) → (⟨S4150000x1, .i32⟩ : BufTy).Contents (Elt F) → (⟨S4150000x64, .f32⟩ : BufTy).Contents (Elt F)),
    StableHlo.unary main_v30 main_v38 (broadcastInDim S4150000x64 ![0, 1] bcast_S4150000x1_S4150000x64_0_1 : (⟨S4150000x1, .f32⟩ : BufTy).Contents (Elt F) → (⟨S4150000x64, .f32⟩ : BufTy).Contents (Elt F)),
    StableHlo.binary main_v38 main_v37 main_v39 (mulf : (⟨S4150000x64, .f32⟩ : BufTy).Contents (Elt F) → (⟨S4150000x64, .f32⟩ : BufTy).Contents (Elt F) → (⟨S4150000x64, .f32⟩ : BufTy).Contents (Elt F)),
    StableHlo.nullary main_cst_9 (constant S_ .f32 0x00000000#32),
    StableHlo.unary main_cst_9 main_v40 (broadcastInDim S150000x64 ![] bcast_S_S150000x64 : (⟨S_, .f32⟩ : BufTy).Contents (Elt F) → (⟨S150000x64, .f32⟩ : BufTy).Contents (Elt F)),
    StableHlo.unary main_v3 main_v41 (broadcastInDim S4150000x1 ![0] bcast_S4150000_S4150000x1_0 : (⟨S4150000, .i32⟩ : BufTy).Contents (Elt F) → (⟨S4150000x1, .i32⟩ : BufTy).Contents (Elt F)),
    StableHlo.ternary main_v40 main_v41 main_v39 main_v42 ((fun x i u => Host.scatterAdd scatter_S150000x64_S4150000x1_S4150000x64_1_0_0_1 x i u) : (⟨S150000x64, .f32⟩ : BufTy).Contents (Elt F) → (⟨S4150000x1, .i32⟩ : BufTy).Contents (Elt F) → (⟨S4150000x64, .f32⟩ : BufTy).Contents (Elt F) → (⟨S150000x64, .f32⟩ : BufTy).Contents (Elt F)),
    StableHlo.unary main_arg2 main_v43 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v43 main_v44 rfl shapeCasts_S1x64x64_S64x64,
    StableHlo.unary main_v44 main_v45 ((transpose S64x64 [1, 0] · transposes_S64x64_S64x64_1_0) : (⟨S64x64, .f32⟩ : BufTy).Contents (Elt F) → (⟨S64x64, .f32⟩ : BufTy).Contents (Elt F)),
    StableHlo.binary main_v42 main_v45 main_v46 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg3 main_v47 ((extractStridedSlice S1x64 ![0, 0] · slices_S3x64_S1x64_0_0) : (⟨S3x64, .f32⟩ : BufTy).Contents (Elt F) → (⟨S1x64, .f32⟩ : BufTy).Contents (Elt F)),
    StableHlo.reshape main_v47 main_v48 rfl shapeCasts_S1x64_S64,
    StableHlo.unary main_v48 main_v49 (broadcastInDim S1x64 ![1] bcast_S64_S1x64_1 : (⟨S64, .f32⟩ : BufTy).Contents (Elt F) → (⟨S1x64, .f32⟩ : BufTy).Contents (Elt F)),
    StableHlo.unary main_v49 main_v50 (broadcastInDim S150000x64 ![0, 1] bcast_S1x64_S150000x64_0_1 : (⟨S1x64, .f32⟩ : BufTy).Contents (Elt F) → (⟨S150000x64, .f32⟩ : BufTy).Contents (Elt F)),
    StableHlo.binary main_v46 main_v50 main_v51 (addf : (⟨S150000x64, .f32⟩ : BufTy).Contents (Elt F) → (⟨S150000x64, .f32⟩ : BufTy).Contents (Elt F) → (⟨S150000x64, .f32⟩ : BufTy).Contents (Elt F)),
    StableHlo.nullary main_cst_10 (constant S_ .f32 0x3E4CCCCD#32),
    StableHlo.TRef.nullary main_call0.cst (constant S_ .f32 0x00000000#32),
    StableHlo.TRef.unary main_call0.cst main_call0.v0 (broadcastInDim S150000x64 ![] bcast_S_S150000x64),
    StableHlo.TRef.binary (.of main_v51 : StableHlo.TRef sig ⟨S150000x64, .f32⟩) main_call0.v0 main_call0.v1 (cmpf .oge),
    StableHlo.TRef.unary (.of main_cst_10 : StableHlo.TRef sig ⟨S_, .f32⟩) main_call0.v2 id,
    StableHlo.TRef.unary main_call0.v2 main_call0.v3 (broadcastInDim S150000x64 ![] bcast_S_S150000x64),
    StableHlo.TRef.binary main_call0.v3 (.of main_v51 : StableHlo.TRef sig ⟨S150000x64, .f32⟩) main_call0.v4 mulf,
    StableHlo.TRef.ternary main_call0.v1 (.of main_v51 : StableHlo.TRef sig ⟨S150000x64, .f32⟩) main_call0.v4 main_call0.call0.v0 select,
    StableHlo.binary main_v29 main_v42 main_v53 (mulf : (⟨S150000x64, .f32⟩ : BufTy).Contents (Elt F) → (⟨S150000x64, .f32⟩ : BufTy).Contents (Elt F) → (⟨S150000x64, .f32⟩ : BufTy).Contents (Elt F)),
    StableHlo.unary main_arg4 main_v54 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v54 main_v55 rfl shapeCasts_S1x64x64_S64x64,
    StableHlo.unary main_v55 main_v56 ((transpose S64x64 [1, 0] · transposes_S64x64_S64x64_1_0) : (⟨S64x64, .f32⟩ : BufTy).Contents (Elt F) → (⟨S64x64, .f32⟩ : BufTy).Contents (Elt F)),
    StableHlo.binary main_v53 main_v56 main_v57 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg5 main_v58 ((extractStridedSlice S1x64 ![0, 0] · slices_S3x64_S1x64_0_0) : (⟨S3x64, .f32⟩ : BufTy).Contents (Elt F) → (⟨S1x64, .f32⟩ : BufTy).Contents (Elt F)),
    StableHlo.reshape main_v58 main_v59 rfl shapeCasts_S1x64_S64,
    StableHlo.unary main_v59 main_v60 (broadcastInDim S1x64 ![1] bcast_S64_S1x64_1 : (⟨S64, .f32⟩ : BufTy).Contents (Elt F) → (⟨S1x64, .f32⟩ : BufTy).Contents (Elt F)),
    StableHlo.unary main_v60 main_v61 (broadcastInDim S150000x64 ![0, 1] bcast_S1x64_S150000x64_0_1 : (⟨S1x64, .f32⟩ : BufTy).Contents (Elt F) → (⟨S150000x64, .f32⟩ : BufTy).Contents (Elt F)),
    StableHlo.binary main_v57 main_v61 main_v62 (addf : (⟨S150000x64, .f32⟩ : BufTy).Contents (Elt F) → (⟨S150000x64, .f32⟩ : BufTy).Contents (Elt F) → (⟨S150000x64, .f32⟩ : BufTy).Contents (Elt F)),
    StableHlo.nullary main_cst_11 (constant S_ .f32 0x3E4CCCCD#32),
    StableHlo.TRef.nullary main_call1.cst (constant S_ .f32 0x00000000#32),
    StableHlo.TRef.unary main_call1.cst main_call1.v0 (broadcastInDim S150000x64 ![] bcast_S_S150000x64),
    StableHlo.TRef.binary (.of main_v62 : StableHlo.TRef sig ⟨S150000x64, .f32⟩) main_call1.v0 main_call1.v1 (cmpf .oge),
    StableHlo.TRef.unary (.of main_cst_11 : StableHlo.TRef sig ⟨S_, .f32⟩) main_call1.v2 id,
    StableHlo.TRef.unary main_call1.v2 main_call1.v3 (broadcastInDim S150000x64 ![] bcast_S_S150000x64),
    StableHlo.TRef.binary main_call1.v3 (.of main_v62 : StableHlo.TRef sig ⟨S150000x64, .f32⟩) main_call1.v4 mulf,
    StableHlo.TRef.ternary main_call1.v1 (.of main_v62 : StableHlo.TRef sig ⟨S150000x64, .f32⟩) main_call1.v4 main_call1.call0.v0 select,
    StableHlo.binary main_v52 main_v63 main_v64 (addf : (⟨S150000x64, .f32⟩ : BufTy).Contents (Elt F) → (⟨S150000x64, .f32⟩ : BufTy).Contents (Elt F) → (⟨S150000x64, .f32⟩ : BufTy).Contents (Elt F)),
    StableHlo.binary main_v64 main_v64 main_v65 (mulf : (⟨S150000x64, .f32⟩ : BufTy).Contents (Elt F) → (⟨S150000x64, .f32⟩ : BufTy).Contents (Elt F) → (⟨S150000x64, .f32⟩ : BufTy).Contents (Elt F)),
    StableHlo.nullary main_cst_12 (constant S_ .f32 0x00000000#32),
    StableHlo.binary main_v65 main_cst_12 main_v66 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    StableHlo.unary main_v66 main_v67 (broadcastInDim S150000x1 ![0] bcast_S150000_S150000x1_0 : (⟨S150000, .f32⟩ : BufTy).Contents (Elt F) → (⟨S150000x1, .f32⟩ : BufTy).Contents (Elt F)),
    StableHlo.unary main_v67 main_v68 (Host.sqrt : (⟨S150000x1, .f32⟩ : BufTy).Contents (Elt F) → (⟨S150000x1, .f32⟩ : BufTy).Contents (Elt F)),
    StableHlo.nullary main_cst_13 (constant S_ .f32 0x2B8CBCCC#32),
    StableHlo.unary main_cst_13 main_v69 (broadcastInDim S150000x1 ![] bcast_S_S150000x1 : (⟨S_, .f32⟩ : BufTy).Contents (Elt F) → (⟨S150000x1, .f32⟩ : BufTy).Contents (Elt F)),
    StableHlo.binary main_v68 main_v69 main_v70 (maximumf : (⟨S150000x1, .f32⟩ : BufTy).Contents (Elt F) → (⟨S150000x1, .f32⟩ : BufTy).Contents (Elt F) → (⟨S150000x1, .f32⟩ : BufTy).Contents (Elt F)),
    StableHlo.unary main_v70 main_v71 (broadcastInDim S150000x64 ![0, 1] bcast_S150000x1_S150000x64_0_1 : (⟨S150000x1, .f32⟩ : BufTy).Contents (Elt F) → (⟨S150000x64, .f32⟩ : BufTy).Contents (Elt F)),
    StableHlo.binary main_v64 main_v71 main_v72 (Host.divf : (⟨S150000x64, .f32⟩ : BufTy).Contents (Elt F) → (⟨S150000x64, .f32⟩ : BufTy).Contents (Elt F) → (⟨S150000x64, .f32⟩ : BufTy).Contents (Elt F)),
    StableHlo.binary main_v29 main_v72 main_v73 (addf : (⟨S150000x64, .f32⟩ : BufTy).Contents (Elt F) → (⟨S150000x64, .f32⟩ : BufTy).Contents (Elt F) → (⟨S150000x64, .f32⟩ : BufTy).Contents (Elt F)) ]

set_option maxHeartbeats 40000000 in
abbrev segL1 : List (HloOp τ sig (Elt F)) :=
  [ StableHlo.unary main_v28 main_v74 (broadcastInDim S4150000x1 ![0] bcast_S4150000_S4150000x1_0 : (⟨S4150000, .f32⟩ : BufTy).Contents (Elt F) → (⟨S4150000x1, .f32⟩ : BufTy).Contents (Elt F)),
    StableHlo.nullary main_c_14 (constantI S_ 32 0#32),
    StableHlo.unary main_c_14 main_v75 (broadcastInDim S4150000 ![] bcast_S_S4150000 : (⟨S_, .i32⟩ : BufTy).Contents (Elt F) → (⟨S4150000, .i32⟩ : BufTy).Contents (Elt F)),
    StableHlo.binary main_v6 main_v75 main_v76 (cmpi .slt : (⟨S4150000, .i32⟩ : BufTy).Contents (Elt F) → (⟨S4150000, .i32⟩ : BufTy).Contents (Elt F) → (⟨S4150000, .i1⟩ : BufTy).Contents (Elt F)),
    StableHlo.nullary main_c_15 (constantI S_ 32 150000#32),
    StableHlo.unary main_c_15 main_v77 (broadcastInDim S4150000 ![] bcast_S_S4150000 : (⟨S_, .i32⟩ : BufTy).Contents (Elt F) → (⟨S4150000, .i32⟩ : BufTy).Contents (Elt F)),
    StableHlo.binary main_v6 main_v77 main_v78 (addi : (⟨S4150000, .i32⟩ : BufTy).Contents (Elt F) → (⟨S4150000, .i32⟩ : BufTy).Contents (Elt F) → (⟨S4150000, .i32⟩ : BufTy).Contents (Elt F)),
    StableHlo.ternary main_v76 main_v78 main_v6 main_v79 (select : (⟨S4150000, .i1⟩ : BufTy).Contents (Elt F) → (⟨S4150000, .i32⟩ : BufTy).Contents (Elt F) → (⟨S4150000, .i32⟩ : BufTy).Contents (Elt F) → (⟨S4150000, .i32⟩ : BufTy).Contents (Elt F)),
    StableHlo.unary main_v79 main_v80 (broadcastInDim S4150000x1 ![0] bcast_S4150000_S4150000x1_0 : (⟨S4150000, .i32⟩ : BufTy).Contents (Elt F) → (⟨S4150000x1, .i32⟩ : BufTy).Contents (Elt F)),
    StableHlo.binary main_v72 main_v80 main_v81 ((fun x i => Host.gather gather_S150000x64_S4150000x1_S4150000x64_1_0_n_n_0_1_164 x i) : (⟨S150000x64, .f32⟩ : BufTy).Contents (Elt F) → (⟨S4150000x1, .i32⟩ : BufTy).Contents (Elt F) → (⟨S4150000x64, .f32⟩ : BufTy).Contents (Elt F)),
    StableHlo.unary main_v74 main_v82 (broadcastInDim S4150000x64 ![0, 1] bcast_S4150000x1_S4150000x64_0_1 : (⟨S4150000x1, .f32⟩ : BufTy).Contents (Elt F) → (⟨S4150000x64, .f32⟩ : BufTy).Contents (Elt F)),
    StableHlo.binary main_v82 main_v81 main_v83 (mulf : (⟨S4150000x64, .f32⟩ : BufTy).Contents (Elt F) → (⟨S4150000x64, .f32⟩ : BufTy).Contents (Elt F) → (⟨S4150000x64, .f32⟩ : BufTy).Contents (Elt F)),
    StableHlo.nullary main_cst_16 (constant S_ .f32 0x00000000#32),
    StableHlo.unary main_cst_16 main_v84 (broadcastInDim S150000x64 ![] bcast_S_S150000x64 : (⟨S_, .f32⟩ : BufTy).Contents (Elt F) → (⟨S150000x64, .f32⟩ : BufTy).Contents (Elt F)),
    StableHlo.unary main_v3 main_v85 (broadcastInDim S4150000x1 ![0] bcast_S4150000_S4150000x1_0 : (⟨S4150000, .i32⟩ : BufTy).Contents (Elt F) → (⟨S4150000x1, .i32⟩ : BufTy).Contents (Elt F)),
    StableHlo.ternary main_v84 main_v85 main_v83 main_v86 ((fun x i u => Host.scatterAdd scatter_S150000x64_S4150000x1_S4150000x64_1_0_0_1 x i u) : (⟨S150000x64, .f32⟩ : BufTy).Contents (Elt F) → (⟨S4150000x1, .i32⟩ : BufTy).Contents (Elt F) → (⟨S4150000x64, .f32⟩ : BufTy).Contents (Elt F) → (⟨S150000x64, .f32⟩ : BufTy).Contents (Elt F)),
    StableHlo.unary main_arg2 main_v87 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v87 main_v88 rfl shapeCasts_S1x64x64_S64x64,
    StableHlo.unary main_v88 main_v89 ((transpose S64x64 [1, 0] · transposes_S64x64_S64x64_1_0) : (⟨S64x64, .f32⟩ : BufTy).Contents (Elt F) → (⟨S64x64, .f32⟩ : BufTy).Contents (Elt F)),
    StableHlo.binary main_v86 main_v89 main_v90 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg3 main_v91 ((extractStridedSlice S1x64 ![1, 0] · slices_S3x64_S1x64_1_0) : (⟨S3x64, .f32⟩ : BufTy).Contents (Elt F) → (⟨S1x64, .f32⟩ : BufTy).Contents (Elt F)),
    StableHlo.reshape main_v91 main_v92 rfl shapeCasts_S1x64_S64,
    StableHlo.unary main_v92 main_v93 (broadcastInDim S1x64 ![1] bcast_S64_S1x64_1 : (⟨S64, .f32⟩ : BufTy).Contents (Elt F) → (⟨S1x64, .f32⟩ : BufTy).Contents (Elt F)),
    StableHlo.unary main_v93 main_v94 (broadcastInDim S150000x64 ![0, 1] bcast_S1x64_S150000x64_0_1 : (⟨S1x64, .f32⟩ : BufTy).Contents (Elt F) → (⟨S150000x64, .f32⟩ : BufTy).Contents (Elt F)),
    StableHlo.binary main_v90 main_v94 main_v95 (addf : (⟨S150000x64, .f32⟩ : BufTy).Contents (Elt F) → (⟨S150000x64, .f32⟩ : BufTy).Contents (Elt F) → (⟨S150000x64, .f32⟩ : BufTy).Contents (Elt F)),
    StableHlo.nullary main_cst_17 (constant S_ .f32 0x3E4CCCCD#32),
    StableHlo.TRef.nullary main_call2.cst (constant S_ .f32 0x00000000#32),
    StableHlo.TRef.unary main_call2.cst main_call2.v0 (broadcastInDim S150000x64 ![] bcast_S_S150000x64),
    StableHlo.TRef.binary (.of main_v95 : StableHlo.TRef sig ⟨S150000x64, .f32⟩) main_call2.v0 main_call2.v1 (cmpf .oge),
    StableHlo.TRef.unary (.of main_cst_17 : StableHlo.TRef sig ⟨S_, .f32⟩) main_call2.v2 id,
    StableHlo.TRef.unary main_call2.v2 main_call2.v3 (broadcastInDim S150000x64 ![] bcast_S_S150000x64),
    StableHlo.TRef.binary main_call2.v3 (.of main_v95 : StableHlo.TRef sig ⟨S150000x64, .f32⟩) main_call2.v4 mulf,
    StableHlo.TRef.ternary main_call2.v1 (.of main_v95 : StableHlo.TRef sig ⟨S150000x64, .f32⟩) main_call2.v4 main_call2.call0.v0 select,
    StableHlo.binary main_v72 main_v86 main_v97 (mulf : (⟨S150000x64, .f32⟩ : BufTy).Contents (Elt F) → (⟨S150000x64, .f32⟩ : BufTy).Contents (Elt F) → (⟨S150000x64, .f32⟩ : BufTy).Contents (Elt F)),
    StableHlo.unary main_arg4 main_v98 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v98 main_v99 rfl shapeCasts_S1x64x64_S64x64,
    StableHlo.unary main_v99 main_v100 ((transpose S64x64 [1, 0] · transposes_S64x64_S64x64_1_0) : (⟨S64x64, .f32⟩ : BufTy).Contents (Elt F) → (⟨S64x64, .f32⟩ : BufTy).Contents (Elt F)),
    StableHlo.binary main_v97 main_v100 main_v101 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg5 main_v102 ((extractStridedSlice S1x64 ![1, 0] · slices_S3x64_S1x64_1_0) : (⟨S3x64, .f32⟩ : BufTy).Contents (Elt F) → (⟨S1x64, .f32⟩ : BufTy).Contents (Elt F)),
    StableHlo.reshape main_v102 main_v103 rfl shapeCasts_S1x64_S64,
    StableHlo.unary main_v103 main_v104 (broadcastInDim S1x64 ![1] bcast_S64_S1x64_1 : (⟨S64, .f32⟩ : BufTy).Contents (Elt F) → (⟨S1x64, .f32⟩ : BufTy).Contents (Elt F)),
    StableHlo.unary main_v104 main_v105 (broadcastInDim S150000x64 ![0, 1] bcast_S1x64_S150000x64_0_1 : (⟨S1x64, .f32⟩ : BufTy).Contents (Elt F) → (⟨S150000x64, .f32⟩ : BufTy).Contents (Elt F)),
    StableHlo.binary main_v101 main_v105 main_v106 (addf : (⟨S150000x64, .f32⟩ : BufTy).Contents (Elt F) → (⟨S150000x64, .f32⟩ : BufTy).Contents (Elt F) → (⟨S150000x64, .f32⟩ : BufTy).Contents (Elt F)),
    StableHlo.nullary main_cst_18 (constant S_ .f32 0x3E4CCCCD#32),
    StableHlo.TRef.nullary main_call3.cst (constant S_ .f32 0x00000000#32),
    StableHlo.TRef.unary main_call3.cst main_call3.v0 (broadcastInDim S150000x64 ![] bcast_S_S150000x64),
    StableHlo.TRef.binary (.of main_v106 : StableHlo.TRef sig ⟨S150000x64, .f32⟩) main_call3.v0 main_call3.v1 (cmpf .oge),
    StableHlo.TRef.unary (.of main_cst_18 : StableHlo.TRef sig ⟨S_, .f32⟩) main_call3.v2 id,
    StableHlo.TRef.unary main_call3.v2 main_call3.v3 (broadcastInDim S150000x64 ![] bcast_S_S150000x64),
    StableHlo.TRef.binary main_call3.v3 (.of main_v106 : StableHlo.TRef sig ⟨S150000x64, .f32⟩) main_call3.v4 mulf,
    StableHlo.TRef.ternary main_call3.v1 (.of main_v106 : StableHlo.TRef sig ⟨S150000x64, .f32⟩) main_call3.v4 main_call3.call0.v0 select,
    StableHlo.binary main_v96 main_v107 main_v108 (addf : (⟨S150000x64, .f32⟩ : BufTy).Contents (Elt F) → (⟨S150000x64, .f32⟩ : BufTy).Contents (Elt F) → (⟨S150000x64, .f32⟩ : BufTy).Contents (Elt F)),
    StableHlo.binary main_v108 main_v108 main_v109 (mulf : (⟨S150000x64, .f32⟩ : BufTy).Contents (Elt F) → (⟨S150000x64, .f32⟩ : BufTy).Contents (Elt F) → (⟨S150000x64, .f32⟩ : BufTy).Contents (Elt F)),
    StableHlo.nullary main_cst_19 (constant S_ .f32 0x00000000#32),
    StableHlo.binary main_v109 main_cst_19 main_v110 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    StableHlo.unary main_v110 main_v111 (broadcastInDim S150000x1 ![0] bcast_S150000_S150000x1_0 : (⟨S150000, .f32⟩ : BufTy).Contents (Elt F) → (⟨S150000x1, .f32⟩ : BufTy).Contents (Elt F)),
    StableHlo.unary main_v111 main_v112 (Host.sqrt : (⟨S150000x1, .f32⟩ : BufTy).Contents (Elt F) → (⟨S150000x1, .f32⟩ : BufTy).Contents (Elt F)),
    StableHlo.nullary main_cst_20 (constant S_ .f32 0x2B8CBCCC#32),
    StableHlo.unary main_cst_20 main_v113 (broadcastInDim S150000x1 ![] bcast_S_S150000x1 : (⟨S_, .f32⟩ : BufTy).Contents (Elt F) → (⟨S150000x1, .f32⟩ : BufTy).Contents (Elt F)),
    StableHlo.binary main_v112 main_v113 main_v114 (maximumf : (⟨S150000x1, .f32⟩ : BufTy).Contents (Elt F) → (⟨S150000x1, .f32⟩ : BufTy).Contents (Elt F) → (⟨S150000x1, .f32⟩ : BufTy).Contents (Elt F)),
    StableHlo.unary main_v114 main_v115 (broadcastInDim S150000x64 ![0, 1] bcast_S150000x1_S150000x64_0_1 : (⟨S150000x1, .f32⟩ : BufTy).Contents (Elt F) → (⟨S150000x64, .f32⟩ : BufTy).Contents (Elt F)),
    StableHlo.binary main_v108 main_v115 main_v116 (Host.divf : (⟨S150000x64, .f32⟩ : BufTy).Contents (Elt F) → (⟨S150000x64, .f32⟩ : BufTy).Contents (Elt F) → (⟨S150000x64, .f32⟩ : BufTy).Contents (Elt F)),
    StableHlo.binary main_v73 main_v116 main_v117 (addf : (⟨S150000x64, .f32⟩ : BufTy).Contents (Elt F) → (⟨S150000x64, .f32⟩ : BufTy).Contents (Elt F) → (⟨S150000x64, .f32⟩ : BufTy).Contents (Elt F)) ]

set_option maxHeartbeats 40000000 in
abbrev segL2 : List (HloOp τ sig (Elt F)) :=
  [ StableHlo.unary main_v28 main_v118 (broadcastInDim S4150000x1 ![0] bcast_S4150000_S4150000x1_0 : (⟨S4150000, .f32⟩ : BufTy).Contents (Elt F) → (⟨S4150000x1, .f32⟩ : BufTy).Contents (Elt F)),
    StableHlo.nullary main_c_21 (constantI S_ 32 0#32),
    StableHlo.unary main_c_21 main_v119 (broadcastInDim S4150000 ![] bcast_S_S4150000 : (⟨S_, .i32⟩ : BufTy).Contents (Elt F) → (⟨S4150000, .i32⟩ : BufTy).Contents (Elt F)),
    StableHlo.binary main_v6 main_v119 main_v120 (cmpi .slt : (⟨S4150000, .i32⟩ : BufTy).Contents (Elt F) → (⟨S4150000, .i32⟩ : BufTy).Contents (Elt F) → (⟨S4150000, .i1⟩ : BufTy).Contents (Elt F)),
    StableHlo.nullary main_c_22 (constantI S_ 32 150000#32),
    StableHlo.unary main_c_22 main_v121 (broadcastInDim S4150000 ![] bcast_S_S4150000 : (⟨S_, .i32⟩ : BufTy).Contents (Elt F) → (⟨S4150000, .i32⟩ : BufTy).Contents (Elt F)),
    StableHlo.binary main_v6 main_v121 main_v122 (addi : (⟨S4150000, .i32⟩ : BufTy).Contents (Elt F) → (⟨S4150000, .i32⟩ : BufTy).Contents (Elt F) → (⟨S4150000, .i32⟩ : BufTy).Contents (Elt F)),
    StableHlo.ternary main_v120 main_v122 main_v6 main_v123 (select : (⟨S4150000, .i1⟩ : BufTy).Contents (Elt F) → (⟨S4150000, .i32⟩ : BufTy).Contents (Elt F) → (⟨S4150000, .i32⟩ : BufTy).Contents (Elt F) → (⟨S4150000, .i32⟩ : BufTy).Contents (Elt F)),
    StableHlo.unary main_v123 main_v124 (broadcastInDim S4150000x1 ![0] bcast_S4150000_S4150000x1_0 : (⟨S4150000, .i32⟩ : BufTy).Contents (Elt F) → (⟨S4150000x1, .i32⟩ : BufTy).Contents (Elt F)),
    StableHlo.binary main_v116 main_v124 main_v125 ((fun x i => Host.gather gather_S150000x64_S4150000x1_S4150000x64_1_0_n_n_0_1_164 x i) : (⟨S150000x64, .f32⟩ : BufTy).Contents (Elt F) → (⟨S4150000x1, .i32⟩ : BufTy).Contents (Elt F) → (⟨S4150000x64, .f32⟩ : BufTy).Contents (Elt F)),
    StableHlo.unary main_v118 main_v126 (broadcastInDim S4150000x64 ![0, 1] bcast_S4150000x1_S4150000x64_0_1 : (⟨S4150000x1, .f32⟩ : BufTy).Contents (Elt F) → (⟨S4150000x64, .f32⟩ : BufTy).Contents (Elt F)),
    StableHlo.binary main_v126 main_v125 main_v127 (mulf : (⟨S4150000x64, .f32⟩ : BufTy).Contents (Elt F) → (⟨S4150000x64, .f32⟩ : BufTy).Contents (Elt F) → (⟨S4150000x64, .f32⟩ : BufTy).Contents (Elt F)),
    StableHlo.nullary main_cst_23 (constant S_ .f32 0x00000000#32),
    StableHlo.unary main_cst_23 main_v128 (broadcastInDim S150000x64 ![] bcast_S_S150000x64 : (⟨S_, .f32⟩ : BufTy).Contents (Elt F) → (⟨S150000x64, .f32⟩ : BufTy).Contents (Elt F)),
    StableHlo.unary main_v3 main_v129 (broadcastInDim S4150000x1 ![0] bcast_S4150000_S4150000x1_0 : (⟨S4150000, .i32⟩ : BufTy).Contents (Elt F) → (⟨S4150000x1, .i32⟩ : BufTy).Contents (Elt F)),
    StableHlo.ternary main_v128 main_v129 main_v127 main_v130 ((fun x i u => Host.scatterAdd scatter_S150000x64_S4150000x1_S4150000x64_1_0_0_1 x i u) : (⟨S150000x64, .f32⟩ : BufTy).Contents (Elt F) → (⟨S4150000x1, .i32⟩ : BufTy).Contents (Elt F) → (⟨S4150000x64, .f32⟩ : BufTy).Contents (Elt F) → (⟨S150000x64, .f32⟩ : BufTy).Contents (Elt F)),
    StableHlo.unary main_arg2 main_v131 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v131 main_v132 rfl shapeCasts_S1x64x64_S64x64,
    StableHlo.unary main_v132 main_v133 ((transpose S64x64 [1, 0] · transposes_S64x64_S64x64_1_0) : (⟨S64x64, .f32⟩ : BufTy).Contents (Elt F) → (⟨S64x64, .f32⟩ : BufTy).Contents (Elt F)),
    StableHlo.binary main_v130 main_v133 main_v134 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg3 main_v135 ((extractStridedSlice S1x64 ![2, 0] · slices_S3x64_S1x64_2_0) : (⟨S3x64, .f32⟩ : BufTy).Contents (Elt F) → (⟨S1x64, .f32⟩ : BufTy).Contents (Elt F)),
    StableHlo.reshape main_v135 main_v136 rfl shapeCasts_S1x64_S64,
    StableHlo.unary main_v136 main_v137 (broadcastInDim S1x64 ![1] bcast_S64_S1x64_1 : (⟨S64, .f32⟩ : BufTy).Contents (Elt F) → (⟨S1x64, .f32⟩ : BufTy).Contents (Elt F)),
    StableHlo.unary main_v137 main_v138 (broadcastInDim S150000x64 ![0, 1] bcast_S1x64_S150000x64_0_1 : (⟨S1x64, .f32⟩ : BufTy).Contents (Elt F) → (⟨S150000x64, .f32⟩ : BufTy).Contents (Elt F)),
    StableHlo.binary main_v134 main_v138 main_v139 (addf : (⟨S150000x64, .f32⟩ : BufTy).Contents (Elt F) → (⟨S150000x64, .f32⟩ : BufTy).Contents (Elt F) → (⟨S150000x64, .f32⟩ : BufTy).Contents (Elt F)),
    StableHlo.nullary main_cst_24 (constant S_ .f32 0x3E4CCCCD#32),
    StableHlo.TRef.nullary main_call4.cst (constant S_ .f32 0x00000000#32),
    StableHlo.TRef.unary main_call4.cst main_call4.v0 (broadcastInDim S150000x64 ![] bcast_S_S150000x64),
    StableHlo.TRef.binary (.of main_v139 : StableHlo.TRef sig ⟨S150000x64, .f32⟩) main_call4.v0 main_call4.v1 (cmpf .oge),
    StableHlo.TRef.unary (.of main_cst_24 : StableHlo.TRef sig ⟨S_, .f32⟩) main_call4.v2 id,
    StableHlo.TRef.unary main_call4.v2 main_call4.v3 (broadcastInDim S150000x64 ![] bcast_S_S150000x64),
    StableHlo.TRef.binary main_call4.v3 (.of main_v139 : StableHlo.TRef sig ⟨S150000x64, .f32⟩) main_call4.v4 mulf,
    StableHlo.TRef.ternary main_call4.v1 (.of main_v139 : StableHlo.TRef sig ⟨S150000x64, .f32⟩) main_call4.v4 main_call4.call0.v0 select,
    StableHlo.binary main_v116 main_v130 main_v141 (mulf : (⟨S150000x64, .f32⟩ : BufTy).Contents (Elt F) → (⟨S150000x64, .f32⟩ : BufTy).Contents (Elt F) → (⟨S150000x64, .f32⟩ : BufTy).Contents (Elt F)),
    StableHlo.unary main_arg4 main_v142 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v142 main_v143 rfl shapeCasts_S1x64x64_S64x64,
    StableHlo.unary main_v143 main_v144 ((transpose S64x64 [1, 0] · transposes_S64x64_S64x64_1_0) : (⟨S64x64, .f32⟩ : BufTy).Contents (Elt F) → (⟨S64x64, .f32⟩ : BufTy).Contents (Elt F)),
    StableHlo.binary main_v141 main_v144 main_v145 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg5 main_v146 ((extractStridedSlice S1x64 ![2, 0] · slices_S3x64_S1x64_2_0) : (⟨S3x64, .f32⟩ : BufTy).Contents (Elt F) → (⟨S1x64, .f32⟩ : BufTy).Contents (Elt F)),
    StableHlo.reshape main_v146 main_v147 rfl shapeCasts_S1x64_S64,
    StableHlo.unary main_v147 main_v148 (broadcastInDim S1x64 ![1] bcast_S64_S1x64_1 : (⟨S64, .f32⟩ : BufTy).Contents (Elt F) → (⟨S1x64, .f32⟩ : BufTy).Contents (Elt F)),
    StableHlo.unary main_v148 main_v149 (broadcastInDim S150000x64 ![0, 1] bcast_S1x64_S150000x64_0_1 : (⟨S1x64, .f32⟩ : BufTy).Contents (Elt F) → (⟨S150000x64, .f32⟩ : BufTy).Contents (Elt F)),
    StableHlo.binary main_v145 main_v149 main_v150 (addf : (⟨S150000x64, .f32⟩ : BufTy).Contents (Elt F) → (⟨S150000x64, .f32⟩ : BufTy).Contents (Elt F) → (⟨S150000x64, .f32⟩ : BufTy).Contents (Elt F)),
    StableHlo.nullary main_cst_25 (constant S_ .f32 0x3E4CCCCD#32),
    StableHlo.TRef.nullary main_call5.cst (constant S_ .f32 0x00000000#32),
    StableHlo.TRef.unary main_call5.cst main_call5.v0 (broadcastInDim S150000x64 ![] bcast_S_S150000x64),
    StableHlo.TRef.binary (.of main_v150 : StableHlo.TRef sig ⟨S150000x64, .f32⟩) main_call5.v0 main_call5.v1 (cmpf .oge),
    StableHlo.TRef.unary (.of main_cst_25 : StableHlo.TRef sig ⟨S_, .f32⟩) main_call5.v2 id,
    StableHlo.TRef.unary main_call5.v2 main_call5.v3 (broadcastInDim S150000x64 ![] bcast_S_S150000x64),
    StableHlo.TRef.binary main_call5.v3 (.of main_v150 : StableHlo.TRef sig ⟨S150000x64, .f32⟩) main_call5.v4 mulf,
    StableHlo.TRef.ternary main_call5.v1 (.of main_v150 : StableHlo.TRef sig ⟨S150000x64, .f32⟩) main_call5.v4 main_call5.call0.v0 select,
    StableHlo.binary main_v140 main_v151 main_v152 (addf : (⟨S150000x64, .f32⟩ : BufTy).Contents (Elt F) → (⟨S150000x64, .f32⟩ : BufTy).Contents (Elt F) → (⟨S150000x64, .f32⟩ : BufTy).Contents (Elt F)),
    StableHlo.binary main_v152 main_v152 main_v153 (mulf : (⟨S150000x64, .f32⟩ : BufTy).Contents (Elt F) → (⟨S150000x64, .f32⟩ : BufTy).Contents (Elt F) → (⟨S150000x64, .f32⟩ : BufTy).Contents (Elt F)),
    StableHlo.nullary main_cst_26 (constant S_ .f32 0x00000000#32),
    StableHlo.binary main_v153 main_cst_26 main_v154 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    StableHlo.unary main_v154 main_v155 (broadcastInDim S150000x1 ![0] bcast_S150000_S150000x1_0 : (⟨S150000, .f32⟩ : BufTy).Contents (Elt F) → (⟨S150000x1, .f32⟩ : BufTy).Contents (Elt F)),
    StableHlo.unary main_v155 main_v156 (Host.sqrt : (⟨S150000x1, .f32⟩ : BufTy).Contents (Elt F) → (⟨S150000x1, .f32⟩ : BufTy).Contents (Elt F)),
    StableHlo.nullary main_cst_27 (constant S_ .f32 0x2B8CBCCC#32),
    StableHlo.unary main_cst_27 main_v157 (broadcastInDim S150000x1 ![] bcast_S_S150000x1 : (⟨S_, .f32⟩ : BufTy).Contents (Elt F) → (⟨S150000x1, .f32⟩ : BufTy).Contents (Elt F)),
    StableHlo.binary main_v156 main_v157 main_v158 (maximumf : (⟨S150000x1, .f32⟩ : BufTy).Contents (Elt F) → (⟨S150000x1, .f32⟩ : BufTy).Contents (Elt F) → (⟨S150000x1, .f32⟩ : BufTy).Contents (Elt F)),
    StableHlo.unary main_v158 main_v159 (broadcastInDim S150000x64 ![0, 1] bcast_S150000x1_S150000x64_0_1 : (⟨S150000x1, .f32⟩ : BufTy).Contents (Elt F) → (⟨S150000x64, .f32⟩ : BufTy).Contents (Elt F)),
    StableHlo.binary main_v152 main_v159 main_v160 (Host.divf : (⟨S150000x64, .f32⟩ : BufTy).Contents (Elt F) → (⟨S150000x64, .f32⟩ : BufTy).Contents (Elt F) → (⟨S150000x64, .f32⟩ : BufTy).Contents (Elt F)),
    StableHlo.binary main_v117 main_v160 main_v161 (addf : (⟨S150000x64, .f32⟩ : BufTy).Contents (Elt F) → (⟨S150000x64, .f32⟩ : BufTy).Contents (Elt F) → (⟨S150000x64, .f32⟩ : BufTy).Contents (Elt F)) ]

set_option maxHeartbeats 40000000 in
abbrev segT : List (HloOp τ sig (Elt F)) :=
  [ StableHlo.nullary main_cst_28 (constant S_ .f32 0x40800000#32),
    StableHlo.unary main_cst_28 main_v162 (broadcastInDim S150000x64 ![] bcast_S_S150000x64 : (⟨S_, .f32⟩ : BufTy).Contents (Elt F) → (⟨S150000x64, .f32⟩ : BufTy).Contents (Elt F)),
    StableHlo.binary main_v161 main_v162 main_v163 (Host.divf : (⟨S150000x64, .f32⟩ : BufTy).Contents (Elt F) → (⟨S150000x64, .f32⟩ : BufTy).Contents (Elt F) → (⟨S150000x64, .f32⟩ : BufTy).Contents (Elt F)),
    StableHlo.unary main_v163 main_v164 ((extractStridedSlice S100000x64 ![0, 0] · slices_S150000x64_S100000x64_0_0) : (⟨S150000x64, .f32⟩ : BufTy).Contents (Elt F) → (⟨S100000x64, .f32⟩ : BufTy).Contents (Elt F)),
    StableHlo.unary main_v163 main_v165 ((extractStridedSlice S50000x64 ![100000, 0] · slices_S150000x64_S50000x64_100000_0) : (⟨S150000x64, .f32⟩ : BufTy).Contents (Elt F) → (⟨S50000x64, .f32⟩ : BufTy).Contents (Elt F)) ]

set_option maxHeartbeats 40000000 in
/-- The regrouped operations are the program's, in order. -/
theorem ops_eq_segs : (ops : List (HloOp τ sig (Elt F))) = seg0 ++ (segL0 ++ (segL1 ++ (segL2 ++ segT))) := rfl

/-- The fold over two lists one after the other is the fold over the second from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- What the layers read besides the embeddings: the edge lists, the coefficients and the weights. -/
abbrev keepL : List (Ref sig .tc) := [main_v3, main_v6, main_v28, main_arg2, main_arg3, main_arg4, main_arg5]

/-- A buffer none of a list's operations writes holds after them what it held before. -/
theorem kept_of_forall {K : List (Ref sig .tc)} (l : List (HloOp τ sig (Elt F)))
    (h : l.Forall fun op => ∀ r ∈ K, (Proc.devRef .tc r : DevRef τ sig) ∉ op.writes)
    (V : Valuation τ sig (Elt F)) {r : Ref sig .tc} (hr : r ∈ K) :
    after l V (Proc.devRef .tc r) = V (Proc.devRef .tc r) :=
  after_of_forall_not_mem l V fun op hop => List.forall_iff_forall_mem.mp h op hop r hr

set_option maxHeartbeats 40000000 in
theorem seg0_keep : (seg0 : List (HloOp τ sig (Elt F))).Forall fun op =>
    ∀ r ∈ args, (Proc.devRef .tc r : DevRef τ sig) ∉ op.writes :=
  ⟨keeps_of_writes (K := args) (y := main_v0) rfl (by decide), keeps_of_writes (K := args) (y := main_c) rfl (by decide),
    keeps_of_writes (K := args) (y := main_v1) rfl (by decide), keeps_of_writes (K := args) (y := main_v2) rfl (by decide),
    keeps_of_writes (K := args) (y := main_v3) rfl (by decide), keeps_of_writes (K := args) (y := main_c_0) rfl (by decide),
    keeps_of_writes (K := args) (y := main_v4) rfl (by decide), keeps_of_writes (K := args) (y := main_v5) rfl (by decide),
    keeps_of_writes (K := args) (y := main_v6) rfl (by decide), keeps_of_writes (K := args) (y := main_cst) rfl (by decide),
    keeps_of_writes (K := args) (y := main_v7) rfl (by decide), keeps_of_writes (K := args) (y := main_cst_1) rfl (by decide),
    keeps_of_writes (K := args) (y := main_v8) rfl (by decide), keeps_of_writes (K := args) (y := main_v9) rfl (by decide),
    keeps_of_writes (K := args) (y := main_v10) rfl (by decide), keeps_of_writes (K := args) (y := main_cst_2) rfl (by decide),
    keeps_of_writes (K := args) (y := main_v11) rfl (by decide), keeps_of_writes (K := args) (y := main_v12) rfl (by decide),
    keeps_of_writes (K := args) (y := main_v13) rfl (by decide), keeps_of_writes (K := args) (y := main_c_3) rfl (by decide),
    keeps_of_writes (K := args) (y := main_v14) rfl (by decide), keeps_of_writes (K := args) (y := main_v15) rfl (by decide),
    keeps_of_writes (K := args) (y := main_c_4) rfl (by decide), keeps_of_writes (K := args) (y := main_v16) rfl (by decide),
    keeps_of_writes (K := args) (y := main_v17) rfl (by decide), keeps_of_writes (K := args) (y := main_v18) rfl (by decide),
    keeps_of_writes (K := args) (y := main_v19) rfl (by decide), keeps_of_writes (K := args) (y := main_v20) rfl (by decide),
    keeps_of_writes (K := args) (y := main_c_5) rfl (by decide), keeps_of_writes (K := args) (y := main_v21) rfl (by decide),
    keeps_of_writes (K := args) (y := main_v22) rfl (by decide), keeps_of_writes (K := args) (y := main_c_6) rfl (by decide),
    keeps_of_writes (K := args) (y := main_v23) rfl (by decide), keeps_of_writes (K := args) (y := main_v24) rfl (by decide),
    keeps_of_writes (K := args) (y := main_v25) rfl (by decide), keeps_of_writes (K := args) (y := main_v26) rfl (by decide),
    keeps_of_writes (K := args) (y := main_v27) rfl (by decide), keeps_of_writes (K := args) (y := main_v28) rfl (by decide),
    keeps_of_writes (K := args) (y := main_v29) rfl (by decide)⟩

set_option maxHeartbeats 40000000 in
theorem segL0_keep : (segL0 : List (HloOp τ sig (Elt F))).Forall fun op =>
    ∀ r ∈ keepL, (Proc.devRef .tc r : DevRef τ sig) ∉ op.writes :=
  ⟨keeps_of_writes (K := keepL) (y := main_v30) rfl (by decide), keeps_of_writes (K := keepL) (y := main_c_7) rfl (by decide),
    keeps_of_writes (K := keepL) (y := main_v31) rfl (by decide), keeps_of_writes (K := keepL) (y := main_v32) rfl (by decide),
    keeps_of_writes (K := keepL) (y := main_c_8) rfl (by decide), keeps_of_writes (K := keepL) (y := main_v33) rfl (by decide),
    keeps_of_writes (K := keepL) (y := main_v34) rfl (by decide), keeps_of_writes (K := keepL) (y := main_v35) rfl (by decide),
    keeps_of_writes (K := keepL) (y := main_v36) rfl (by decide), keeps_of_writes (K := keepL) (y := main_v37) rfl (by decide),
    keeps_of_writes (K := keepL) (y := main_v38) rfl (by decide), keeps_of_writes (K := keepL) (y := main_v39) rfl (by decide),
    keeps_of_writes (K := keepL) (y := main_cst_9) rfl (by decide), keeps_of_writes (K := keepL) (y := main_v40) rfl (by decide),
    keeps_of_writes (K := keepL) (y := main_v41) rfl (by decide), keeps_of_writes (K := keepL) (y := main_v42) rfl (by decide),
    keeps_of_writes (K := keepL) (y := main_v43) rfl (by decide), keeps_of_writes (K := keepL) (y := main_v44) rfl (by decide),
    keeps_of_writes (K := keepL) (y := main_v45) rfl (by decide), keeps_of_writes (K := keepL) (y := main_v46) rfl (by decide),
    keeps_of_writes (K := keepL) (y := main_v47) rfl (by decide), keeps_of_writes (K := keepL) (y := main_v48) rfl (by decide),
    keeps_of_writes (K := keepL) (y := main_v49) rfl (by decide), keeps_of_writes (K := keepL) (y := main_v50) rfl (by decide),
    keeps_of_writes (K := keepL) (y := main_v51) rfl (by decide), keeps_of_writes (K := keepL) (y := main_cst_10) rfl (by decide),
    keeps_of_writes (K := keepL) (y := main_call0_cst) rfl (by decide), keeps_of_writes (K := keepL) (y := main_call0_v0) rfl (by decide),
    keeps_of_writes (K := keepL) (y := main_call0_v1) rfl (by decide), keeps_of_writes (K := keepL) (y := main_call0_v2) rfl (by decide),
    keeps_of_writes (K := keepL) (y := main_call0_v3) rfl (by decide), keeps_of_writes (K := keepL) (y := main_call0_v4) rfl (by decide),
    keeps_of_writes (K := keepL) (y := main_v52) rfl (by decide), keeps_of_writes (K := keepL) (y := main_v53) rfl (by decide),
    keeps_of_writes (K := keepL) (y := main_v54) rfl (by decide), keeps_of_writes (K := keepL) (y := main_v55) rfl (by decide),
    keeps_of_writes (K := keepL) (y := main_v56) rfl (by decide), keeps_of_writes (K := keepL) (y := main_v57) rfl (by decide),
    keeps_of_writes (K := keepL) (y := main_v58) rfl (by decide), keeps_of_writes (K := keepL) (y := main_v59) rfl (by decide),
    keeps_of_writes (K := keepL) (y := main_v60) rfl (by decide), keeps_of_writes (K := keepL) (y := main_v61) rfl (by decide),
    keeps_of_writes (K := keepL) (y := main_v62) rfl (by decide), keeps_of_writes (K := keepL) (y := main_cst_11) rfl (by decide),
    keeps_of_writes (K := keepL) (y := main_call1_cst) rfl (by decide), keeps_of_writes (K := keepL) (y := main_call1_v0) rfl (by decide),
    keeps_of_writes (K := keepL) (y := main_call1_v1) rfl (by decide), keeps_of_writes (K := keepL) (y := main_call1_v2) rfl (by decide),
    keeps_of_writes (K := keepL) (y := main_call1_v3) rfl (by decide), keeps_of_writes (K := keepL) (y := main_call1_v4) rfl (by decide),
    keeps_of_writes (K := keepL) (y := main_v63) rfl (by decide), keeps_of_writes (K := keepL) (y := main_v64) rfl (by decide),
    keeps_of_writes (K := keepL) (y := main_v65) rfl (by decide), keeps_of_writes (K := keepL) (y := main_cst_12) rfl (by decide),
    keeps_of_writes (K := keepL) (y := main_v66) rfl (by decide), keeps_of_writes (K := keepL) (y := main_v67) rfl (by decide),
    keeps_of_writes (K := keepL) (y := main_v68) rfl (by decide), keeps_of_writes (K := keepL) (y := main_cst_13) rfl (by decide),
    keeps_of_writes (K := keepL) (y := main_v69) rfl (by decide), keeps_of_writes (K := keepL) (y := main_v70) rfl (by decide),
    keeps_of_writes (K := keepL) (y := main_v71) rfl (by decide), keeps_of_writes (K := keepL) (y := main_v72) rfl (by decide),
    keeps_of_writes (K := keepL) (y := main_v73) rfl (by decide)⟩

set_option maxHeartbeats 40000000 in
theorem segL1_keep : (segL1 : List (HloOp τ sig (Elt F))).Forall fun op =>
    ∀ r ∈ keepL, (Proc.devRef .tc r : DevRef τ sig) ∉ op.writes :=
  ⟨keeps_of_writes (K := keepL) (y := main_v74) rfl (by decide), keeps_of_writes (K := keepL) (y := main_c_14) rfl (by decide),
    keeps_of_writes (K := keepL) (y := main_v75) rfl (by decide), keeps_of_writes (K := keepL) (y := main_v76) rfl (by decide),
    keeps_of_writes (K := keepL) (y := main_c_15) rfl (by decide), keeps_of_writes (K := keepL) (y := main_v77) rfl (by decide),
    keeps_of_writes (K := keepL) (y := main_v78) rfl (by decide), keeps_of_writes (K := keepL) (y := main_v79) rfl (by decide),
    keeps_of_writes (K := keepL) (y := main_v80) rfl (by decide), keeps_of_writes (K := keepL) (y := main_v81) rfl (by decide),
    keeps_of_writes (K := keepL) (y := main_v82) rfl (by decide), keeps_of_writes (K := keepL) (y := main_v83) rfl (by decide),
    keeps_of_writes (K := keepL) (y := main_cst_16) rfl (by decide), keeps_of_writes (K := keepL) (y := main_v84) rfl (by decide),
    keeps_of_writes (K := keepL) (y := main_v85) rfl (by decide), keeps_of_writes (K := keepL) (y := main_v86) rfl (by decide),
    keeps_of_writes (K := keepL) (y := main_v87) rfl (by decide), keeps_of_writes (K := keepL) (y := main_v88) rfl (by decide),
    keeps_of_writes (K := keepL) (y := main_v89) rfl (by decide), keeps_of_writes (K := keepL) (y := main_v90) rfl (by decide),
    keeps_of_writes (K := keepL) (y := main_v91) rfl (by decide), keeps_of_writes (K := keepL) (y := main_v92) rfl (by decide),
    keeps_of_writes (K := keepL) (y := main_v93) rfl (by decide), keeps_of_writes (K := keepL) (y := main_v94) rfl (by decide),
    keeps_of_writes (K := keepL) (y := main_v95) rfl (by decide), keeps_of_writes (K := keepL) (y := main_cst_17) rfl (by decide),
    keeps_of_writes (K := keepL) (y := main_call2_cst) rfl (by decide), keeps_of_writes (K := keepL) (y := main_call2_v0) rfl (by decide),
    keeps_of_writes (K := keepL) (y := main_call2_v1) rfl (by decide), keeps_of_writes (K := keepL) (y := main_call2_v2) rfl (by decide),
    keeps_of_writes (K := keepL) (y := main_call2_v3) rfl (by decide), keeps_of_writes (K := keepL) (y := main_call2_v4) rfl (by decide),
    keeps_of_writes (K := keepL) (y := main_v96) rfl (by decide), keeps_of_writes (K := keepL) (y := main_v97) rfl (by decide),
    keeps_of_writes (K := keepL) (y := main_v98) rfl (by decide), keeps_of_writes (K := keepL) (y := main_v99) rfl (by decide),
    keeps_of_writes (K := keepL) (y := main_v100) rfl (by decide), keeps_of_writes (K := keepL) (y := main_v101) rfl (by decide),
    keeps_of_writes (K := keepL) (y := main_v102) rfl (by decide), keeps_of_writes (K := keepL) (y := main_v103) rfl (by decide),
    keeps_of_writes (K := keepL) (y := main_v104) rfl (by decide), keeps_of_writes (K := keepL) (y := main_v105) rfl (by decide),
    keeps_of_writes (K := keepL) (y := main_v106) rfl (by decide), keeps_of_writes (K := keepL) (y := main_cst_18) rfl (by decide),
    keeps_of_writes (K := keepL) (y := main_call3_cst) rfl (by decide), keeps_of_writes (K := keepL) (y := main_call3_v0) rfl (by decide),
    keeps_of_writes (K := keepL) (y := main_call3_v1) rfl (by decide), keeps_of_writes (K := keepL) (y := main_call3_v2) rfl (by decide),
    keeps_of_writes (K := keepL) (y := main_call3_v3) rfl (by decide), keeps_of_writes (K := keepL) (y := main_call3_v4) rfl (by decide),
    keeps_of_writes (K := keepL) (y := main_v107) rfl (by decide), keeps_of_writes (K := keepL) (y := main_v108) rfl (by decide),
    keeps_of_writes (K := keepL) (y := main_v109) rfl (by decide), keeps_of_writes (K := keepL) (y := main_cst_19) rfl (by decide),
    keeps_of_writes (K := keepL) (y := main_v110) rfl (by decide), keeps_of_writes (K := keepL) (y := main_v111) rfl (by decide),
    keeps_of_writes (K := keepL) (y := main_v112) rfl (by decide), keeps_of_writes (K := keepL) (y := main_cst_20) rfl (by decide),
    keeps_of_writes (K := keepL) (y := main_v113) rfl (by decide), keeps_of_writes (K := keepL) (y := main_v114) rfl (by decide),
    keeps_of_writes (K := keepL) (y := main_v115) rfl (by decide), keeps_of_writes (K := keepL) (y := main_v116) rfl (by decide),
    keeps_of_writes (K := keepL) (y := main_v117) rfl (by decide)⟩

set_option maxHeartbeats 4000000 in
theorem seg0_v3 (V : Valuation τ sig (Elt F)) :
    after seg0 V (main_v3 : DevRef τ sig)
      = rows (V main_arg6) (V main_arg7) := by
  after_results_simp
  rfl

set_option maxHeartbeats 4000000 in
theorem seg0_v6 (V : Valuation τ sig (Elt F)) :
    after seg0 V (main_v6 : DevRef τ sig)
      = cols (V main_arg6) (V main_arg7) := by
  after_results_simp
  rfl

set_option maxHeartbeats 4000000 in
theorem seg0_v28 (V : Valuation τ sig (Elt F)) :
    after seg0 V (main_v28 : DevRef τ sig)
      = coef (F := F) (rows (V main_arg6) (V main_arg7)) (cols (V main_arg6) (V main_arg7)) := by
  after_results_simp
  rfl

set_option maxHeartbeats 4000000 in
theorem seg0_v29 (V : Valuation τ sig (Elt F)) :
    after seg0 V (main_v29 : DevRef τ sig)
      = emb0 (V main_arg0) (V main_arg1) := by
  after_results_simp
  rfl

set_option maxHeartbeats 4000000 in
theorem segL0_emb (V : Valuation τ sig (Elt F)) :
    after segL0 V (main_v72 : DevRef τ sig)
      = (layer0 (spmm (V main_v3) (V main_v6) (V main_v28) (V main_v29)) (V main_v29) (V main_v29)
          (V main_arg2) (V main_arg3) (V main_arg4) (V main_arg5)).1 := by
  after_results_simp
  rfl

set_option maxHeartbeats 4000000 in
theorem segL0_acc (V : Valuation τ sig (Elt F)) :
    after segL0 V (main_v73 : DevRef τ sig)
      = (layer0 (spmm (V main_v3) (V main_v6) (V main_v28) (V main_v29)) (V main_v29) (V main_v29)
          (V main_arg2) (V main_arg3) (V main_arg4) (V main_arg5)).2 := by
  after_results_simp
  rfl

set_option maxHeartbeats 4000000 in
theorem segL1_emb (V : Valuation τ sig (Elt F)) :
    after segL1 V (main_v116 : DevRef τ sig)
      = (layer1 (spmm (V main_v3) (V main_v6) (V main_v28) (V main_v72)) (V main_v72) (V main_v73)
          (V main_arg2) (V main_arg3) (V main_arg4) (V main_arg5)).1 := by
  after_results_simp
  rfl

set_option maxHeartbeats 4000000 in
theorem segL1_acc (V : Valuation τ sig (Elt F)) :
    after segL1 V (main_v117 : DevRef τ sig)
      = (layer1 (spmm (V main_v3) (V main_v6) (V main_v28) (V main_v72)) (V main_v72) (V main_v73)
          (V main_arg2) (V main_arg3) (V main_arg4) (V main_arg5)).2 := by
  after_results_simp
  rfl

set_option maxHeartbeats 4000000 in
theorem segL2_acc (V : Valuation τ sig (Elt F)) :
    after segL2 V (main_v161 : DevRef τ sig)
      = (layer2 (spmm (V main_v3) (V main_v6) (V main_v28) (V main_v116)) (V main_v116) (V main_v117)
          (V main_arg2) (V main_arg3) (V main_arg4) (V main_arg5)).2 := by
  after_results_simp
  rfl

set_option maxHeartbeats 4000000 in
theorem segT_v164 (V : Valuation τ sig (Elt F)) :
    after segT V (main_v164 : DevRef τ sig)
      = outU (V main_v161) := by
  after_results_simp
  rfl

set_option maxHeartbeats 4000000 in
theorem segT_v165 (V : Valuation τ sig (Elt F)) :
    after segT V (main_v165 : DevRef τ sig)
      = outI (V main_v161) := by
  after_results_simp
  rfl

section Top

variable (u : FVec F S100000x64 .f32) (i : FVec F S50000x64 .f32) (Wgc : FVec F S3x64x64 .f32) (bgc : FVec F S3x64 .f32)
  (Wbi : FVec F S3x64x64 .f32) (bbi : FVec F S3x64 .f32) (eu ei : IVec S2000000 32)

/-- The first layer's embeddings and running sum, from the arguments. -/
def out1 : FVec F S150000x64 .f32 × FVec F S150000x64 .f32 :=
  layer0 (spmm (rows eu ei) (cols eu ei) (coef (rows eu ei) (cols eu ei)) (emb0 u i)) (emb0 u i) (emb0 u i) Wgc bgc Wbi bbi

/-- The second layer's. -/
def out2 : FVec F S150000x64 .f32 × FVec F S150000x64 .f32 :=
  layer1 (spmm (rows eu ei) (cols eu ei) (coef (rows eu ei) (cols eu ei)) (out1 u i Wgc bgc Wbi bbi eu ei).1)
    (out1 u i Wgc bgc Wbi bbi eu ei).1 (out1 u i Wgc bgc Wbi bbi eu ei).2 Wgc bgc Wbi bbi

/-- The third layer's. -/
def out3 : FVec F S150000x64 .f32 × FVec F S150000x64 .f32 :=
  layer2 (spmm (rows eu ei) (cols eu ei) (coef (rows eu ei) (cols eu ei)) (out2 u i Wgc bgc Wbi bbi eu ei).1)
    (out2 u i Wgc bgc Wbi bbi eu ei).1 (out2 u i Wgc bgc Wbi bbi eu ei).2 Wgc bgc Wbi bbi

/-- The reference's first result: the users' mean embeddings. -/
def refU : FVec F S100000x64 .f32 := outU (out3 u i Wgc bgc Wbi bbi eu ei).2

/-- The reference's second result: the items' mean embeddings. -/
def refI : FVec F S50000x64 .f32 := outI (out3 u i Wgc bgc Wbi bbi eu ei).2

end Top

/-- The running sum after the three layers, read back from the fold. -/
theorem acc3_eq (V : Valuation τ sig (Elt F)) :
    after segL2 (after segL1 (after segL0 (after seg0 V))) (main_v161 : DevRef τ sig)
      = (out3 (V main_arg0) (V main_arg1) (V main_arg2) (V main_arg3) (V main_arg4) (V main_arg5) (V main_arg6) (V main_arg7)).2 := by
  rw [segL2_acc, segL1_emb, segL1_acc, segL0_emb, segL0_acc]
  rw [kept_of_forall segL1 segL1_keep _ (r := main_v3) (by decide), kept_of_forall segL1 segL1_keep _ (r := main_v6) (by decide),
    kept_of_forall segL1 segL1_keep _ (r := main_v28) (by decide), kept_of_forall segL1 segL1_keep _ (r := main_arg2) (by decide),
    kept_of_forall segL1 segL1_keep _ (r := main_arg3) (by decide), kept_of_forall segL1 segL1_keep _ (r := main_arg4) (by decide),
    kept_of_forall segL1 segL1_keep _ (r := main_arg5) (by decide)]
  rw [kept_of_forall segL0 segL0_keep _ (r := main_v3) (by decide), kept_of_forall segL0 segL0_keep _ (r := main_v6) (by decide),
    kept_of_forall segL0 segL0_keep _ (r := main_v28) (by decide), kept_of_forall segL0 segL0_keep _ (r := main_arg2) (by decide),
    kept_of_forall segL0 segL0_keep _ (r := main_arg3) (by decide), kept_of_forall segL0 segL0_keep _ (r := main_arg4) (by decide),
    kept_of_forall segL0 segL0_keep _ (r := main_arg5) (by decide)]
  rw [seg0_v3, seg0_v6, seg0_v28, seg0_v29]
  rw [kept_of_forall seg0 seg0_keep _ (r := main_arg2) (by decide), kept_of_forall seg0 seg0_keep _ (r := main_arg3) (by decide),
    kept_of_forall seg0 seg0_keep _ (r := main_arg4) (by decide), kept_of_forall seg0 seg0_keep _ (r := main_arg5) (by decide)]
  rfl

/-- The first result buffer after the run: the users' mean embeddings of the arguments. -/
theorem res_v164 (V : Valuation τ sig (Elt F)) :
    after ops V (main_v164 : DevRef τ sig)
      = refU (V main_arg0) (V main_arg1) (V main_arg2) (V main_arg3) (V main_arg4) (V main_arg5) (V main_arg6) (V main_arg7) := by
  rw [ops_eq_segs, after_append, after_append, after_append, after_append, segT_v164, acc3_eq]
  rfl

/-- The second result buffer after the run: the items' mean embeddings of the arguments. -/
theorem res_v165 (V : Valuation τ sig (Elt F)) :
    after ops V (main_v165 : DevRef τ sig)
      = refI (V main_arg0) (V main_arg1) (V main_arg2) (V main_arg3) (V main_arg4) (V main_arg5) (V main_arg6) (V main_arg7) := by
  rw [ops_eq_segs, after_append, after_append, after_append, after_append, segT_v165, acc3_eq]
  rfl

/-- On the device, for any float values, from any memory with zero counters: every weakly fair execution of @main
    terminates with the two results at the named terms of the arguments' launch contents, the arguments unchanged. -/
theorem run_res (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v164)
          = refU (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_v165)
          = refI (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(h c main_v164).trans (res_v164 _), (h c main_v165).trans (res_v165 _),
     (h c main_arg0).trans (arg_kept _ (by decide)), (h c main_arg1).trans (arg_kept _ (by decide)),
     (h c main_arg2).trans (arg_kept _ (by decide)), (h c main_arg3).trans (arg_kept _ (by decide)),
     (h c main_arg4).trans (arg_kept _ (by decide)), (h c main_arg5).trans (arg_kept _ (by decide)),
     (h c main_arg6).trans (arg_kept _ (by decide)), (h c main_arg7).trans (arg_kept _ (by decide))⟩)
    (run_all m ρ)

end Cert.ReferenceIdeal.RefRun

end
-- ==== Proof.KIHost.lean ====
/- The kernel program's four stretches of host operations read back, over any float values: what each stretch leaves
   in the buffers the launches and the later stretches read — the edge lists, the edge coefficients, the joined
   embedding table and the sparse products, as the named stages of the reference's run applied to this program's
   buffers; the two weight stacks transposed and narrowed and the two bias stacks with a unit axis added, and their
   per-layer slabs; the closing mean's two slices — and that each stretch leaves the buffers it does not write as it
   found them. Then, over the extended reals, a slab of a weight stack and of a bias stack read at an entry. -/
import proofs.«146559_j69123203662125_1_alg».proof.Proof.Gen.KernelIdeal.Launch
import proofs.«146559_j69123203662125_1_alg».proof.Proof.RefRun
import Idealize.ShloMosaic.Lib.StableHlo.Run
import Idealize.ShloMosaic.Lib.ValueIdx
import Idealize.ShloMosaic.Lib.Pipeline.Value
import Idealize.ShloMosaic.Lib.ValueLayout

set_option maxRecDepth 8192

noncomputable section

namespace Cert.KernelIdeal.Hand

open Cert.KernelIdeal Cert.KernelIdeal.Gen Idealize.ShloMosaic Idealize.ShloMosaic.TcCoe Idealize.SL.Sem Idealize.ShloMosaic.StableHlo
open Cert.ReferenceIdeal.RefRun (rows cols coef emb0 spmm outU outI)

variable {F : FTy → Type} [FloatOps F]

/-! ## The stacks and their slabs -/

/-- A stack of three weight matrices, each transposed, narrowed to the matrix unit's operand format. -/
def wStack (W : FVec F S3x64x64 .f32) : FVec F S3x64x64 .bf16 :=
  truncf .bf16 (transpose S3x64x64 [0, 2, 1] W transposes_S3x64x64_S3x64x64_0_2_1) bitsLt_bf16_f32

/-- A stack of three bias vectors, each as a one-row matrix. -/
def bStack (b : FVec F S3x64 .f32) : FVec F S3x1x64 .f32 :=
  shapeCast S3x1x64 b shapeCasts_S3x64_S3x1x64

/-- The matrix at offset `off` of a stack of three. -/
def wSlab (off : Fin 3 → ℕ) (h : S3x64x64.Slices off S1x64x64) (X : FVec F S3x64x64 .bf16) : FVec F S64x64 .bf16 :=
  shapeCast S64x64 (extractStridedSlice S1x64x64 off X h) shapeCasts_S1x64x64_S64x64

/-- The one-row matrix at offset `off` of a stack of three. -/
def bSlab (off : Fin 3 → ℕ) (h : S3x1x64.Slices off S1x1x64) (X : FVec F S3x1x64 .f32) : FVec F S1x64 .f32 :=
  shapeCast S1x64 (extractStridedSlice S1x1x64 off X h) shapeCasts_S1x1x64_S1x64

/-! ## What a stretch leaves alone -/

/-- An operation whose one written buffer is outside a list writes no buffer of the list. -/
theorem hostKeeps_of_writes {K : List (Ref sig .tc)} {op : HloOp τ sig (Elt F)} {y : Ref sig .tc}
    (hw : op.writes = {(Proc.devRef .tc y : DevRef τ sig)}) (hy : y ∉ K) :
    ∀ r ∈ K, (Proc.devRef .tc r : DevRef τ sig) ∉ op.writes := by
  intro r hr hmem
  rw [hw, Finset.mem_singleton] at hmem
  exact hy (Proc.devRef_injective _ hmem ▸ hr)

/-- A buffer none of a list's operations writes holds after them what it held before. -/
theorem hostKept_of_forall {K : List (Ref sig .tc)} (l : List (HloOp τ sig (Elt F)))
    (h : l.Forall fun op => ∀ r ∈ K, (Proc.devRef .tc r : DevRef τ sig) ∉ op.writes)
    (V : Valuation τ sig (Elt F)) {r : Ref sig .tc} (hr : r ∈ K) :
    after l V (Proc.devRef .tc r) = V (Proc.devRef .tc r) :=
  after_of_forall_not_mem l V fun op hop => List.forall_iff_forall_mem.mp h op hop r hr

/-- The arguments' buffers. -/
abbrev hostArgs : List (Ref sig .tc) :=
  [main_arg0, main_arg1, main_arg2, main_arg3, main_arg4, main_arg5, main_arg6, main_arg7]

/-! ## Stretch 0: the edge preamble, the first sparse product, the stacks and layer 0's slabs -/

/-- What stretch 0 must leave as found. -/
abbrev K0 : List (Ref sig .tc) := hostArgs

set_option maxHeartbeats 40000000 in
theorem hostOps0_keep : (hostOps0 : List (HloOp τ sig (Elt F))).Forall fun op =>
    ∀ r ∈ K0, (Proc.devRef .tc r : DevRef τ sig) ∉ op.writes :=
  ⟨hostKeeps_of_writes (K := K0) (y := main_v0) rfl (by decide),
    hostKeeps_of_writes (K := K0) (y := main_c) rfl (by decide),
    hostKeeps_of_writes (K := K0) (y := main_v1) rfl (by decide),
    hostKeeps_of_writes (K := K0) (y := main_v2) rfl (by decide),
    hostKeeps_of_writes (K := K0) (y := main_v3) rfl (by decide),
    hostKeeps_of_writes (K := K0) (y := main_c_0) rfl (by decide),
    hostKeeps_of_writes (K := K0) (y := main_v4) rfl (by decide),
    hostKeeps_of_writes (K := K0) (y := main_v5) rfl (by decide),
    hostKeeps_of_writes (K := K0) (y := main_v6) rfl (by decide),
    hostKeeps_of_writes (K := K0) (y := main_cst) rfl (by decide),
    hostKeeps_of_writes (K := K0) (y := main_v7) rfl (by decide),
    hostKeeps_of_writes (K := K0) (y := main_cst_1) rfl (by decide),
    hostKeeps_of_writes (K := K0) (y := main_v8) rfl (by decide),
    hostKeeps_of_writes (K := K0) (y := main_v9) rfl (by decide),
    hostKeeps_of_writes (K := K0) (y := main_v10) rfl (by decide),
    hostKeeps_of_writes (K := K0) (y := main_cst_2) rfl (by decide),
    hostKeeps_of_writes (K := K0) (y := main_v11) rfl (by decide),
    hostKeeps_of_writes (K := K0) (y := main_v12) rfl (by decide),
    hostKeeps_of_writes (K := K0) (y := main_v13) rfl (by decide),
    hostKeeps_of_writes (K := K0) (y := main_c_3) rfl (by decide),
    hostKeeps_of_writes (K := K0) (y := main_v14) rfl (by decide),
    hostKeeps_of_writes (K := K0) (y := main_v15) rfl (by decide),
    hostKeeps_of_writes (K := K0) (y := main_c_4) rfl (by decide),
    hostKeeps_of_writes (K := K0) (y := main_v16) rfl (by decide),
    hostKeeps_of_writes (K := K0) (y := main_v17) rfl (by decide),
    hostKeeps_of_writes (K := K0) (y := main_v18) rfl (by decide),
    hostKeeps_of_writes (K := K0) (y := main_v19) rfl (by decide),
    hostKeeps_of_writes (K := K0) (y := main_v20) rfl (by decide),
    hostKeeps_of_writes (K := K0) (y := main_c_5) rfl (by decide),
    hostKeeps_of_writes (K := K0) (y := main_v21) rfl (by decide),
    hostKeeps_of_writes (K := K0) (y := main_v22) rfl (by decide),
    hostKeeps_of_writes (K := K0) (y := main_c_6) rfl (by decide),
    hostKeeps_of_writes (K := K0) (y := main_v23) rfl (by decide),
    hostKeeps_of_writes (K := K0) (y := main_v24) rfl (by decide),
    hostKeeps_of_writes (K := K0) (y := main_v25) rfl (by decide),
    hostKeeps_of_writes (K := K0) (y := main_v26) rfl (by decide),
    hostKeeps_of_writes (K := K0) (y := main_v27) rfl (by decide),
    hostKeeps_of_writes (K := K0) (y := main_v28) rfl (by decide),
    hostKeeps_of_writes (K := K0) (y := main_v29) rfl (by decide),
    hostKeeps_of_writes (K := K0) (y := main_v30) rfl (by decide),
    hostKeeps_of_writes (K := K0) (y := main_v31) rfl (by decide),
    hostKeeps_of_writes (K := K0) (y := main_v32) rfl (by decide),
    hostKeeps_of_writes (K := K0) (y := main_v33) rfl (by decide),
    hostKeeps_of_writes (K := K0) (y := main_v34) rfl (by decide),
    hostKeeps_of_writes (K := K0) (y := main_v35) rfl (by decide),
    hostKeeps_of_writes (K := K0) (y := main_v36) rfl (by decide),
    hostKeeps_of_writes (K := K0) (y := main_c_7) rfl (by decide),
    hostKeeps_of_writes (K := K0) (y := main_v37) rfl (by decide),
    hostKeeps_of_writes (K := K0) (y := main_v38) rfl (by decide),
    hostKeeps_of_writes (K := K0) (y := main_c_8) rfl (by decide),
    hostKeeps_of_writes (K := K0) (y := main_v39) rfl (by decide),
    hostKeeps_of_writes (K := K0) (y := main_v40) rfl (by decide),
    hostKeeps_of_writes (K := K0) (y := main_v41) rfl (by decide),
    hostKeeps_of_writes (K := K0) (y := main_v42) rfl (by decide),
    hostKeeps_of_writes (K := K0) (y := main_v43) rfl (by decide),
    hostKeeps_of_writes (K := K0) (y := main_v44) rfl (by decide),
    hostKeeps_of_writes (K := K0) (y := main_v45) rfl (by decide),
    hostKeeps_of_writes (K := K0) (y := main_cst_9) rfl (by decide),
    hostKeeps_of_writes (K := K0) (y := main_v46) rfl (by decide),
    hostKeeps_of_writes (K := K0) (y := main_v47) rfl (by decide),
    hostKeeps_of_writes (K := K0) (y := main_v48) rfl (by decide),
    hostKeeps_of_writes (K := K0) (y := main_v49) rfl (by decide),
    hostKeeps_of_writes (K := K0) (y := main_v50) rfl (by decide),
    hostKeeps_of_writes (K := K0) (y := main_v51) rfl (by decide),
    hostKeeps_of_writes (K := K0) (y := main_v52) rfl (by decide),
    hostKeeps_of_writes (K := K0) (y := main_v53) rfl (by decide),
    hostKeeps_of_writes (K := K0) (y := main_v54) rfl (by decide),
    hostKeeps_of_writes (K := K0) (y := main_v55) rfl (by decide),
    hostKeeps_of_writes (K := K0) (y := main_v56) rfl (by decide)⟩

/-- Stretch 0 leaves every buffer of `K0` as it found it. -/
theorem h0_kept (V : Valuation τ sig (Elt F)) {r : Ref sig .tc} (hr : r ∈ K0) :
    after hostOps0 V (Proc.devRef .tc r) = V (Proc.devRef .tc r) :=
  hostKept_of_forall hostOps0 hostOps0_keep V hr

set_option maxHeartbeats 4000000 in
/-- The edges' rows. -/
theorem h0_v3 (V : Valuation τ sig (Elt F)) :
    after hostOps0 V (main_v3 : DevRef τ sig)
      = rows (V main_arg6) (V main_arg7) := by
  after_results_simp
  rfl

set_option maxHeartbeats 4000000 in
/-- The edges' columns. -/
theorem h0_v6 (V : Valuation τ sig (Elt F)) :
    after hostOps0 V (main_v6 : DevRef τ sig)
      = cols (V main_arg6) (V main_arg7) := by
  after_results_simp
  rfl

set_option maxHeartbeats 4000000 in
/-- The edges' coefficients. -/
theorem h0_v28 (V : Valuation τ sig (Elt F)) :
    after hostOps0 V (main_v28 : DevRef τ sig)
      = coef (F := F) (rows (V main_arg6) (V main_arg7)) (cols (V main_arg6) (V main_arg7)) := by
  after_results_simp
  rfl

set_option maxHeartbeats 4000000 in
/-- The joined embedding table. -/
theorem h0_v29 (V : Valuation τ sig (Elt F)) :
    after hostOps0 V (main_v29 : DevRef τ sig)
      = emb0 (V main_arg0) (V main_arg1) := by
  after_results_simp
  rfl

set_option maxHeartbeats 4000000 in
/-- The first sparse product. -/
theorem h0_v48 (V : Valuation τ sig (Elt F)) :
    after hostOps0 V (main_v48 : DevRef τ sig)
      = spmm (rows (V main_arg6) (V main_arg7)) (cols (V main_arg6) (V main_arg7)) (coef (F := F) (rows (V main_arg6) (V main_arg7)) (cols (V main_arg6) (V main_arg7))) (emb0 (V main_arg0) (V main_arg1)) := by
  after_results_simp
  rfl

set_option maxHeartbeats 4000000 in
/-- The first weight stack. -/
theorem h0_v31 (V : Valuation τ sig (Elt F)) :
    after hostOps0 V (main_v31 : DevRef τ sig)
      = wStack (V main_arg2) := by
  after_results_simp
  rfl

set_option maxHeartbeats 4000000 in
/-- The second weight stack. -/
theorem h0_v33 (V : Valuation τ sig (Elt F)) :
    after hostOps0 V (main_v33 : DevRef τ sig)
      = wStack (V main_arg4) := by
  after_results_simp
  rfl

set_option maxHeartbeats 4000000 in
/-- The first bias stack. -/
theorem h0_v34 (V : Valuation τ sig (Elt F)) :
    after hostOps0 V (main_v34 : DevRef τ sig)
      = bStack (V main_arg3) := by
  after_results_simp
  rfl

set_option maxHeartbeats 4000000 in
/-- The second bias stack. -/
theorem h0_v35 (V : Valuation τ sig (Elt F)) :
    after hostOps0 V (main_v35 : DevRef τ sig)
      = bStack (V main_arg5) := by
  after_results_simp
  rfl

set_option maxHeartbeats 4000000 in
/-- Layer 0's first weight slab. -/
theorem h0_v50 (V : Valuation τ sig (Elt F)) :
    after hostOps0 V (main_v50 : DevRef τ sig)
      = wSlab ![0, 0, 0] slices_S3x64x64_S1x64x64_0_0_0 (wStack (V main_arg2)) := by
  after_results_simp
  rfl

set_option maxHeartbeats 4000000 in
/-- Layer 0's first bias slab. -/
theorem h0_v52 (V : Valuation τ sig (Elt F)) :
    after hostOps0 V (main_v52 : DevRef τ sig)
      = bSlab ![0, 0, 0] slices_S3x1x64_S1x1x64_0_0_0 (bStack (V main_arg3)) := by
  after_results_simp
  rfl

set_option maxHeartbeats 4000000 in
/-- Layer 0's second weight slab. -/
theorem h0_v54 (V : Valuation τ sig (Elt F)) :
    after hostOps0 V (main_v54 : DevRef τ sig)
      = wSlab ![0, 0, 0] slices_S3x64x64_S1x64x64_0_0_0 (wStack (V main_arg4)) := by
  after_results_simp
  rfl

set_option maxHeartbeats 4000000 in
/-- Layer 0's second bias slab. -/
theorem h0_v56 (V : Valuation τ sig (Elt F)) :
    after hostOps0 V (main_v56 : DevRef τ sig)
      = bSlab ![0, 0, 0] slices_S3x1x64_S1x1x64_0_0_0 (bStack (V main_arg5)) := by
  after_results_simp
  rfl

/-! ## Stretch 1: the second sparse product and layer 1's slabs -/

/-- What stretch 1 must leave as found. -/
abbrev K1 : List (Ref sig .tc) := [main_v3, main_v6, main_v28, main_v31, main_v33, main_v34, main_v35, main_v57_0, main_v57_1] ++ hostArgs

set_option maxHeartbeats 40000000 in
theorem hostOps1_keep : (hostOps1 : List (HloOp τ sig (Elt F))).Forall fun op =>
    ∀ r ∈ K1, (Proc.devRef .tc r : DevRef τ sig) ∉ op.writes :=
  ⟨hostKeeps_of_writes (K := K1) (y := main_v58) rfl (by decide),
    hostKeeps_of_writes (K := K1) (y := main_c_10) rfl (by decide),
    hostKeeps_of_writes (K := K1) (y := main_v59) rfl (by decide),
    hostKeeps_of_writes (K := K1) (y := main_v60) rfl (by decide),
    hostKeeps_of_writes (K := K1) (y := main_c_11) rfl (by decide),
    hostKeeps_of_writes (K := K1) (y := main_v61) rfl (by decide),
    hostKeeps_of_writes (K := K1) (y := main_v62) rfl (by decide),
    hostKeeps_of_writes (K := K1) (y := main_v63) rfl (by decide),
    hostKeeps_of_writes (K := K1) (y := main_v64) rfl (by decide),
    hostKeeps_of_writes (K := K1) (y := main_v65) rfl (by decide),
    hostKeeps_of_writes (K := K1) (y := main_v66) rfl (by decide),
    hostKeeps_of_writes (K := K1) (y := main_v67) rfl (by decide),
    hostKeeps_of_writes (K := K1) (y := main_cst_12) rfl (by decide),
    hostKeeps_of_writes (K := K1) (y := main_v68) rfl (by decide),
    hostKeeps_of_writes (K := K1) (y := main_v69) rfl (by decide),
    hostKeeps_of_writes (K := K1) (y := main_v70) rfl (by decide),
    hostKeeps_of_writes (K := K1) (y := main_v71) rfl (by decide),
    hostKeeps_of_writes (K := K1) (y := main_v72) rfl (by decide),
    hostKeeps_of_writes (K := K1) (y := main_v73) rfl (by decide),
    hostKeeps_of_writes (K := K1) (y := main_v74) rfl (by decide),
    hostKeeps_of_writes (K := K1) (y := main_v75) rfl (by decide),
    hostKeeps_of_writes (K := K1) (y := main_v76) rfl (by decide),
    hostKeeps_of_writes (K := K1) (y := main_v77) rfl (by decide),
    hostKeeps_of_writes (K := K1) (y := main_v78) rfl (by decide)⟩

/-- Stretch 1 leaves every buffer of `K1` as it found it. -/
theorem h1_kept (V : Valuation τ sig (Elt F)) {r : Ref sig .tc} (hr : r ∈ K1) :
    after hostOps1 V (Proc.devRef .tc r) = V (Proc.devRef .tc r) :=
  hostKept_of_forall hostOps1 hostOps1_keep V hr

set_option maxHeartbeats 4000000 in
/-- The second sparse product. -/
theorem h1_v70 (V : Valuation τ sig (Elt F)) :
    after hostOps1 V (main_v70 : DevRef τ sig)
      = spmm (V main_v3) (V main_v6) (V main_v28) (V main_v57_0) := by
  after_results_simp
  rfl

set_option maxHeartbeats 4000000 in
/-- Layer 1's first weight slab. -/
theorem h1_v72 (V : Valuation τ sig (Elt F)) :
    after hostOps1 V (main_v72 : DevRef τ sig)
      = wSlab ![1, 0, 0] slices_S3x64x64_S1x64x64_1_0_0 (V main_v31) := by
  after_results_simp
  rfl

set_option maxHeartbeats 4000000 in
/-- Layer 1's first bias slab. -/
theorem h1_v74 (V : Valuation τ sig (Elt F)) :
    after hostOps1 V (main_v74 : DevRef τ sig)
      = bSlab ![1, 0, 0] slices_S3x1x64_S1x1x64_1_0_0 (V main_v34) := by
  after_results_simp
  rfl

set_option maxHeartbeats 4000000 in
/-- Layer 1's second weight slab. -/
theorem h1_v76 (V : Valuation τ sig (Elt F)) :
    after hostOps1 V (main_v76 : DevRef τ sig)
      = wSlab ![1, 0, 0] slices_S3x64x64_S1x64x64_1_0_0 (V main_v33) := by
  after_results_simp
  rfl

set_option maxHeartbeats 4000000 in
/-- Layer 1's second bias slab. -/
theorem h1_v78 (V : Valuation τ sig (Elt F)) :
    after hostOps1 V (main_v78 : DevRef τ sig)
      = bSlab ![1, 0, 0] slices_S3x1x64_S1x1x64_1_0_0 (V main_v35) := by
  after_results_simp
  rfl

/-! ## Stretch 2: the third sparse product and layer 2's slabs -/

/-- What stretch 2 must leave as found. -/
abbrev K2 : List (Ref sig .tc) := [main_v3, main_v6, main_v28, main_v31, main_v33, main_v34, main_v35, main_v79_0, main_v79_1] ++ hostArgs

set_option maxHeartbeats 40000000 in
theorem hostOps2_keep : (hostOps2 : List (HloOp τ sig (Elt F))).Forall fun op =>
    ∀ r ∈ K2, (Proc.devRef .tc r : DevRef τ sig) ∉ op.writes :=
  ⟨hostKeeps_of_writes (K := K2) (y := main_v80) rfl (by decide),
    hostKeeps_of_writes (K := K2) (y := main_c_13) rfl (by decide),
    hostKeeps_of_writes (K := K2) (y := main_v81) rfl (by decide),
    hostKeeps_of_writes (K := K2) (y := main_v82) rfl (by decide),
    hostKeeps_of_writes (K := K2) (y := main_c_14) rfl (by decide),
    hostKeeps_of_writes (K := K2) (y := main_v83) rfl (by decide),
    hostKeeps_of_writes (K := K2) (y := main_v84) rfl (by decide),
    hostKeeps_of_writes (K := K2) (y := main_v85) rfl (by decide),
    hostKeeps_of_writes (K := K2) (y := main_v86) rfl (by decide),
    hostKeeps_of_writes (K := K2) (y := main_v87) rfl (by decide),
    hostKeeps_of_writes (K := K2) (y := main_v88) rfl (by decide),
    hostKeeps_of_writes (K := K2) (y := main_v89) rfl (by decide),
    hostKeeps_of_writes (K := K2) (y := main_cst_15) rfl (by decide),
    hostKeeps_of_writes (K := K2) (y := main_v90) rfl (by decide),
    hostKeeps_of_writes (K := K2) (y := main_v91) rfl (by decide),
    hostKeeps_of_writes (K := K2) (y := main_v92) rfl (by decide),
    hostKeeps_of_writes (K := K2) (y := main_v93) rfl (by decide),
    hostKeeps_of_writes (K := K2) (y := main_v94) rfl (by decide),
    hostKeeps_of_writes (K := K2) (y := main_v95) rfl (by decide),
    hostKeeps_of_writes (K := K2) (y := main_v96) rfl (by decide),
    hostKeeps_of_writes (K := K2) (y := main_v97) rfl (by decide),
    hostKeeps_of_writes (K := K2) (y := main_v98) rfl (by decide),
    hostKeeps_of_writes (K := K2) (y := main_v99) rfl (by decide),
    hostKeeps_of_writes (K := K2) (y := main_v100) rfl (by decide)⟩

/-- Stretch 2 leaves every buffer of `K2` as it found it. -/
theorem h2_kept (V : Valuation τ sig (Elt F)) {r : Ref sig .tc} (hr : r ∈ K2) :
    after hostOps2 V (Proc.devRef .tc r) = V (Proc.devRef .tc r) :=
  hostKept_of_forall hostOps2 hostOps2_keep V hr

set_option maxHeartbeats 4000000 in
/-- The third sparse product. -/
theorem h2_v92 (V : Valuation τ sig (Elt F)) :
    after hostOps2 V (main_v92 : DevRef τ sig)
      = spmm (V main_v3) (V main_v6) (V main_v28) (V main_v79_0) := by
  after_results_simp
  rfl

set_option maxHeartbeats 4000000 in
/-- Layer 2's first weight slab. -/
theorem h2_v94 (V : Valuation τ sig (Elt F)) :
    after hostOps2 V (main_v94 : DevRef τ sig)
      = wSlab ![2, 0, 0] slices_S3x64x64_S1x64x64_2_0_0 (V main_v31) := by
  after_results_simp
  rfl

set_option maxHeartbeats 4000000 in
/-- Layer 2's first bias slab. -/
theorem h2_v96 (V : Valuation τ sig (Elt F)) :
    after hostOps2 V (main_v96 : DevRef τ sig)
      = bSlab ![2, 0, 0] slices_S3x1x64_S1x1x64_2_0_0 (V main_v34) := by
  after_results_simp
  rfl

set_option maxHeartbeats 4000000 in
/-- Layer 2's second weight slab. -/
theorem h2_v98 (V : Valuation τ sig (Elt F)) :
    after hostOps2 V (main_v98 : DevRef τ sig)
      = wSlab ![2, 0, 0] slices_S3x64x64_S1x64x64_2_0_0 (V main_v33) := by
  after_results_simp
  rfl

set_option maxHeartbeats 4000000 in
/-- Layer 2's second bias slab. -/
theorem h2_v100 (V : Valuation τ sig (Elt F)) :
    after hostOps2 V (main_v100 : DevRef τ sig)
      = bSlab ![2, 0, 0] slices_S3x1x64_S1x1x64_2_0_0 (V main_v35) := by
  after_results_simp
  rfl

/-! ## Stretch 3: the closing mean and its two slices -/

/-- What stretch 3 must leave as found. -/
abbrev K3 : List (Ref sig .tc) := [main_v101_1] ++ hostArgs

set_option maxHeartbeats 40000000 in
theorem hostOps3_keep : (hostOps3 : List (HloOp τ sig (Elt F))).Forall fun op =>
    ∀ r ∈ K3, (Proc.devRef .tc r : DevRef τ sig) ∉ op.writes :=
  ⟨hostKeeps_of_writes (K := K3) (y := main_cst_16) rfl (by decide),
    hostKeeps_of_writes (K := K3) (y := main_v102) rfl (by decide),
    hostKeeps_of_writes (K := K3) (y := main_v103) rfl (by decide),
    hostKeeps_of_writes (K := K3) (y := main_v104) rfl (by decide),
    hostKeeps_of_writes (K := K3) (y := main_v105) rfl (by decide)⟩

/-- Stretch 3 leaves every buffer of `K3` as it found it. -/
theorem h3_kept (V : Valuation τ sig (Elt F)) {r : Ref sig .tc} (hr : r ∈ K3) :
    after hostOps3 V (Proc.devRef .tc r) = V (Proc.devRef .tc r) :=
  hostKept_of_forall hostOps3 hostOps3_keep V hr

set_option maxHeartbeats 4000000 in
/-- The users' rows of the mean. -/
theorem h3_v104 (V : Valuation τ sig (Elt F)) :
    after hostOps3 V (main_v104 : DevRef τ sig)
      = outU (V main_v101_1) := by
  after_results_simp
  rfl

set_option maxHeartbeats 4000000 in
/-- The items' rows of the mean. -/
theorem h3_v105 (V : Valuation τ sig (Elt F)) :
    after hostOps3 V (main_v105 : DevRef τ sig)
      = outI (V main_v101_1) := by
  after_results_simp
  rfl

/-! ## A slab of a stack at an entry, over the extended reals -/

section AtIdeal

open Idealize.ShloMosaic.ValueIdx

/-- Entry (k, q) of the matrix at offset l of a weight stack is entry (l, q, k) of the weights: the matrices are
    transposed, and narrowing is the identity on extended reals. -/
theorem wSlab_apply (l : Fin 3) (h : S3x64x64.Slices ![l.val, 0, 0] S1x64x64) (W : FVec Ideal S3x64x64 .f32) (k q' : Fin 64) :
    wSlab ![l.val, 0, 0] h (wStack (F := Ideal) W) (ix2 k q') = W (ix3 l q' k) := by
  unfold wSlab wStack
  rw [shapeCast_1ab_ab_apply]
  refine (extractStridedSlice_apply _ _ h (ix3 (0 : Fin 1) k q') (ix3 l k q') (fun a => ?_)).trans ?_
  · match a with
    | ⟨0, _⟩ => rfl
    | ⟨1, _⟩ => exact (Nat.zero_add _).symm
    | ⟨2, _⟩ => exact (Nat.zero_add _).symm
  · exact transpose_ix3_021_apply W transposes_S3x64x64_S3x64x64_0_2_1 l k q'

/-- Entry (0, q) of the one-row matrix at offset l of a bias stack is entry (l, q) of the biases. -/
theorem bSlab_apply (l : Fin 3) (h : S3x1x64.Slices ![l.val, 0, 0] S1x1x64) (b : FVec Ideal S3x64 .f32) (q' : Fin 64) :
    bSlab ![l.val, 0, 0] h (bStack (F := Ideal) b) (ix2 (0 : Fin 1) q') = b (ix2 l q') := by
  unfold bSlab bStack
  rw [shapeCast_1ab_ab_apply]
  refine (extractStridedSlice_apply _ _ h (ix3 (0 : Fin 1) (0 : Fin 1) q') (ix3 l (0 : Fin 1) q') (fun a => ?_)).trans ?_
  · match a with
    | ⟨0, _⟩ => rfl
    | ⟨1, _⟩ => rfl
    | ⟨2, _⟩ => exact (Nat.zero_add _).symm
  · refine shapeCast_apply b shapeCasts_S3x64_S3x1x64 _ _ ?_
    rw [Shape.rowMajor_val_two, Shape.rowMajor_val_three]
    show l.val * 64 + q'.val = (l.val * 1 + 0) * 64 + q'.val
    rw [Nat.mul_one, Nat.add_zero]

/-- The three layers' offsets, as printed. -/
theorem wSlab0_apply (W : FVec Ideal S3x64x64 .f32) (k q' : Fin 64) :
    wSlab ![0, 0, 0] slices_S3x64x64_S1x64x64_0_0_0 (wStack (F := Ideal) W) (ix2 k q') = W (ix3 (0 : Fin 3) q' k) :=
  wSlab_apply 0 slices_S3x64x64_S1x64x64_0_0_0 W k q'
theorem wSlab1_apply (W : FVec Ideal S3x64x64 .f32) (k q' : Fin 64) :
    wSlab ![1, 0, 0] slices_S3x64x64_S1x64x64_1_0_0 (wStack (F := Ideal) W) (ix2 k q') = W (ix3 (1 : Fin 3) q' k) :=
  wSlab_apply 1 slices_S3x64x64_S1x64x64_1_0_0 W k q'
theorem wSlab2_apply (W : FVec Ideal S3x64x64 .f32) (k q' : Fin 64) :
    wSlab ![2, 0, 0] slices_S3x64x64_S1x64x64_2_0_0 (wStack (F := Ideal) W) (ix2 k q') = W (ix3 (2 : Fin 3) q' k) :=
  wSlab_apply 2 slices_S3x64x64_S1x64x64_2_0_0 W k q'
theorem bSlab0_apply (b : FVec Ideal S3x64 .f32) (q' : Fin 64) :
    bSlab ![0, 0, 0] slices_S3x1x64_S1x1x64_0_0_0 (bStack (F := Ideal) b) (ix2 (0 : Fin 1) q') = b (ix2 (0 : Fin 3) q') :=
  bSlab_apply 0 slices_S3x1x64_S1x1x64_0_0_0 b q'
theorem bSlab1_apply (b : FVec Ideal S3x64 .f32) (q' : Fin 64) :
    bSlab ![1, 0, 0] slices_S3x1x64_S1x1x64_1_0_0 (bStack (F := Ideal) b) (ix2 (0 : Fin 1) q') = b (ix2 (1 : Fin 3) q') :=
  bSlab_apply 1 slices_S3x1x64_S1x1x64_1_0_0 b q'
theorem bSlab2_apply (b : FVec Ideal S3x64 .f32) (q' : Fin 64) :
    bSlab ![2, 0, 0] slices_S3x1x64_S1x1x64_2_0_0 (bStack (F := Ideal) b) (ix2 (0 : Fin 1) q') = b (ix2 (2 : Fin 3) q') :=
  bSlab_apply 2 slices_S3x1x64_S1x1x64_2_0_0 b q'

end AtIdeal

end Cert.KernelIdeal.Hand

end
-- ==== Proof.LayerSpec.lean ====
/-
  One layer of the embedding propagation, row by row, over the extended reals.

  A node's new embedding is computed from its own row of the propagated embeddings `g` and of the current embeddings
  `e` alone: two affine maps of the row (one of `g`, one of the entrywise product `e · g`), each followed by the
  leaky rectifier, are added; the sum is divided by its Euclidean norm, the norm taken no smaller than a fixed
  positive word. The running sum adds the new embedding to the node's row of the sum so far. The matrices enter as
  the right operands of the two products, indexed (input coordinate, output coordinate).
-/
import Idealize.ShloMosaic.PureOps.Ideal
import Idealize.ShloMosaic.PureOps.Ideal.Laws
import Idealize.ShloMosaic.Lib.ValueIdx

noncomputable section

namespace Cert.LayerSpec

open Idealize.ShloMosaic

/-- The leaky rectifier: `x` where `x ≥ 0`, the slope word times `x` elsewhere. -/
def act (x : Ideal .f32) : Ideal .f32 :=
  Scalar.select (FloatOps.cmpf (F := Ideal) .oge x (FloatOps.ofBits .f32 0x00000000#32)) x
    (FloatOps.mulf (F := Ideal) (FloatOps.ofBits .f32 0x3E4CCCCD#32) x)

/-- An affine map of a row: `Σ_k x[k]·w[k,q] + b[q]`. -/
def lin (x : Fin 64 → Ideal .f32) (w : Fin 64 → Fin 64 → Ideal .f32) (b : Fin 64 → Ideal .f32) (q : Fin 64) : Ideal .f32 :=
  FloatOps.addf (F := Ideal) (∑ k : Fin 64, x k * w k q) (b q)

/-- The row before normalisation: the rectified map of `g` plus the rectified map of `e · g`. -/
def pre (g e : Fin 64 → Ideal .f32) (wg wb : Fin 64 → Fin 64 → Ideal .f32) (bg bb : Fin 64 → Ideal .f32) (q : Fin 64) : Ideal .f32 :=
  FloatOps.addf (F := Ideal) (act (lin g wg bg q)) (act (lin (fun k => FloatOps.mulf (F := Ideal) (e k) (g k)) wb bb q))

/-- The row's norm, taken at least the positive word. -/
def norm (s : Fin 64 → Ideal .f32) : Ideal .f32 :=
  FloatOps.maximumf (F := Ideal) (FloatOps.sqrt (F := Ideal) (∑ q : Fin 64, FloatOps.mulf (F := Ideal) (s q) (s q)))
    (FloatOps.ofBits .f32 0x2B8CBCCC#32)

/-- The node's new embedding. -/
def newEmb (g e : Fin 64 → Ideal .f32) (wg wb : Fin 64 → Fin 64 → Ideal .f32) (bg bb : Fin 64 → Ideal .f32) (q : Fin 64) : Ideal .f32 :=
  FloatOps.divf (F := Ideal) (pre g e wg wb bg bb q) (norm (pre g e wg wb bg bb))

/-- The node's row of the running sum. -/
def newAcc (g e a : Fin 64 → Ideal .f32) (wg wb : Fin 64 → Fin 64 → Ideal .f32) (bg bb : Fin 64 → Ideal .f32) (q : Fin 64) : Ideal .f32 :=
  FloatOps.addf (F := Ideal) (a q) (newEmb g e wg wb bg bb q)

end Cert.LayerSpec

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibSlabLayout.lean ====
/-
  Reusable lemmas: an [a, b] array of rows and an [a, b, c] array of slabs read at an entry.

  A kernel that treats each of a blocks separately reduces along the middle axis of an [a, b, c] array (a sum over the b
  rows of every slab, leaving [a, c]) and along the rows of an [a, b] array (a sum or a running maximum over b, leaving
  [a]), and lays an [a, b] array along a new trailing axis ([a, b] → [a, b, 1] → [a, b, c]).  Each lemma reads one such
  operation at an entry written by its coordinates; the sums are over the extended reals.  Generic in the extents.
-/
import Idealize.ShloMosaic.Lib.Pipeline.Value
import Idealize.ShloMosaic.Lib.ValueIdx
import Idealize.ShloMosaic.PureOps.Ideal.Laws

noncomputable section

namespace Cert.SlabLayout

open Idealize.ShloMosaic Idealize.ShloMosaic.ValueIdx

variable {α : Type} {a b c : ℕ}

/-- An [a, b] array viewed [a, b, 1] reads, at (i, k, u), the operand at (i, k). -/
theorem shapeCast_ab_ab1_apply (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array broadcast to [a, b, c] reads, at (i, k, j), the operand at (i, k, 0). -/
theorem broadcastTo_ab1_abc_apply (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The source index of a reduction over the middle axis: the pair (i, j) with the row k inserted is (i, k, j). -/
theorem lift_mid (h : (⟨3, ![a, b, c]⟩ : Shape).Reduces [(1 : Fin 3)] ⟨2, ![a, c]⟩) (i : Fin a) (j : Fin c) (k : Fin b) :
    h.lift (ix2 i j) k = ix3 i k j := by
  funext d
  apply Fin.ext
  show h.liftVal (ix2 i j) k.val d = (ix3 i k j d).val
  unfold Shape.Reduces.liftVal
  match d with
  | ⟨0, _⟩ => rfl
  | ⟨1, _⟩ => rfl
  | ⟨2, _⟩ => rfl

/-- Over the extended reals a sum over the middle axis of an [a, b, c] array, from the zero accumulator, is at (i, j)
    the sum over the rows k of the entries (i, k, j). -/
theorem midSum_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (j : Fin c) :
    multiReduction .add [(1 : Fin 3)] ⟨2, ![a, c]⟩ src acc h hφ hacc (ix2 i j) = ∑ k : Fin b, src (ix3 i k j) := by
  refine (Ideal.multiReduction_add_single src acc h hφ hacc (ix2 i j)).trans ?_
  show ∑ k : Fin b, src (h.lift (ix2 i j) k) = _
  exact Finset.sum_congr rfl fun k _ => congrArg src (lift_mid h i j k)

/-- The source index of a reduction over the rows of an [a, b] array: i with the column k inserted is (i, k). -/
theorem lift_row (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- Over the extended reals a sum along the rows of an [a, b] array, from the zero accumulator, is at i the sum over k
    of the entries (i, k). -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-- Over the extended reals a running maximum along the rows of an [a, b] array is at i the fold of max, from the
    accumulator's value, over the entries (i, k). -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  have e : (src ∘ h.lift (ix1 i)) = fun k => src (ix2 i k) := funext fun k => congrArg src (lift_row h i k)
  show (Finset.univ : Finset (Fin b)).fold max (Ideal.ofBits φ acc) (src ∘ h.lift (ix1 i)) = _
  rw [e]
  rfl

end Cert.SlabLayout

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.KIBlockValue.lean ====
/- The body's two stored blocks read at an entry, over the extended reals: entry (p, q) of the block the body leaves in
   the first output is the node's new embedding — row p of the two affine maps, each followed by the leaky rectifier,
   added and divided by the row's norm, the norm taken at least the fixed positive word — and entry (p, q) of the
   second is that plus entry (p, q) of the running sum. -/
import proofs.«146559_j69123203662125_1_alg».proof.Proof.KIBody
import proofs.«146559_j69123203662125_1_alg».proof.Proof.LayerSpec
import proofs.«146559_j69123203662125_1_alg».proof.Proof.LibMatmulNN
import proofs.«146559_j69123203662125_1_alg».proof.Proof.LibSlabLayout
import proofs.«146559_j69123203662125_1_alg».proof.Proof.LibKeepdimsColumn
import Idealize.ShloMosaic.Lib.ValueLayout
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.ValueIdx
open Cert.LayerSpec (act lin pre norm newEmb newAcc)

/-- The whole-block rectangle starts at the origin. -/
theorem hz2 : (![0, 0] : Fin 2 → Nat) = fun _ => 0 := funext fun a => by fin_cases a <;> rfl

/-- The leaky rectifier, written with a comparison against the zero splat, a select and a product by the slope
    splat, at an entry. -/
theorem act_apply (v : FVec Ideal S3000x64 .f32) (i : S3000x64.Idx) :
    select (cmpf .oge v (broadcast S3000x64 (Scalar.ofBits .f32 0x00000000#32))) v
      (mulf (broadcast S3000x64 (Scalar.ofBits .f32 0x3E4CCCCD#32)) v) i = act (v i) := rfl

/-- A product of the rows, narrowed, by a [64, 64] right operand into zeros, plus a bias row laid over every row, at
    entry (p, q): the affine map of row p. -/
theorem lin_apply (l : FVec Ideal S3000x64 .f32) (w : FVec Ideal S64x64 .bf16) (b : FVec Ideal S1x64 .f32) (p : Fin 3000) (q : Fin 64) :
    addf (matmul dot_S3000x64_S64x64_S3000x64_1_0_0_1_n_n none (truncf .bf16 l bitsLt_bf16_f32) w (constant S3000x64 .f32 0x00000000#32))
        (broadcastTo S3000x64 b broadcasts_S1x64_S3000x64) (ix2 p q)
      = lin (fun k => l (ix2 p k)) (fun k q' => w (ix2 k q')) (fun q' => b (ix2 0 q')) q := by
  show FloatOps.addf (F := Ideal) (FloatOps.matmul dot_S3000x64_S64x64_S3000x64_1_0_0_1_n_n none (truncf .bf16 l bitsLt_bf16_f32) w (constant S3000x64 .f32 0x00000000#32) (ix2 p q))
    (broadcastTo S3000x64 b broadcasts_S1x64_S3000x64 (ix2 p q)) = _
  exact congrArg₂ (FloatOps.addf (F := Ideal))
    (Cert.MatmulNN.matmul_zero_apply (M := 3000) (K := 64) (N := 64) dot_S3000x64_S64x64_S3000x64_1_0_0_1_n_n rfl none
      (truncf .bf16 l bitsLt_bf16_f32) w p q)
    (broadcastTo_1b_ab_apply (a := 3000) (b := 64) b broadcasts_S1x64_S3000x64 p q)

/-! ## Launch 0 -/

/-- The row before normalisation, at entry (p, q). -/
theorem pay4_0_apply (x0 x1 : Vec Ideal S3000x64 .f32) (x3 : Vec Ideal S64x64 .bf16) (x4 : Vec Ideal S1x64 .f32) (x5 : Vec Ideal S64x64 .bf16) (x6 : Vec Ideal S1x64 .f32) (p : Fin 3000) (q : Fin 64) :
    k0_pay4 x0 x1 x3 x4 x5 x6 (ix2 p q) = pre (fun k => x0 (ix2 p k)) (fun k => x1 (ix2 p k)) (fun k q' => x3 (ix2 k q')) (fun k q' => x5 (ix2 k q')) (fun q' => x4 (ix2 0 q')) (fun q' => x6 (ix2 0 q')) q := by
  unfold k0_pay4 pre
  simp only [shapeCast_self]
  refine congrArg₂ (FloatOps.addf (F := Ideal)) ?_ ?_
  · refine (act_apply _ _).trans ?_
    exact congrArg act (lin_apply x0 x3 x4 p q)
  · refine (act_apply _ _).trans ?_
    exact congrArg act (lin_apply (mulf x1 x0) x5 x6 p q)

/-- The rows' norms before the floor, kept as a column: at (p, ·) the root of row p's sum of squares. -/
theorem pay5_0_apply (x0 x1 : Vec Ideal S3000x64 .f32) (x3 : Vec Ideal S64x64 .bf16) (x4 : Vec Ideal S1x64 .f32) (x5 : Vec Ideal S64x64 .bf16) (x6 : Vec Ideal S1x64 .f32) (p : Fin 3000) (u : Fin 1) :
    k0_pay5 x0 x1 x3 x4 x5 x6 (ix2 p u)
      = FloatOps.sqrt (F := Ideal) (∑ k : Fin 64, FloatOps.mulf (F := Ideal) (k0_pay4 x0 x1 x3 x4 x5 x6 (ix2 p k)) (k0_pay4 x0 x1 x3 x4 x5 x6 (ix2 p k))) := by
  unfold k0_pay5
  show FloatOps.sqrt (F := Ideal) (shapeCast S3000x1 _ shapeCasts_S3000_S3000x1 (ix2 p u)) = _
  rw [Cert.KeepdimsColumn.shapeCast_a_a1_apply]
  exact congrArg (FloatOps.sqrt (F := Ideal))
    (Cert.SlabLayout.rowSum_apply (a := 3000) (b := 64) (mulf (k0_pay4 x0 x1 x3 x4 x5 x6) (k0_pay4 x0 x1 x3 x4 x5 x6)) _ reduces_S3000x64_S3000 _ _ p)

/-- The quotient by the floored norm column laid over the row, at entry (p, q). -/
theorem pay1_0_apply (v33 : FVec Ideal S3000x64 .f32) (v37 : FVec Ideal S3000x1 .f32) (p : Fin 3000) (q : Fin 64) :
    k0_pay1 v33 v37 (ix2 p q)
      = FloatOps.divf (F := Ideal) (v33 (ix2 p q)) (FloatOps.maximumf (F := Ideal) (v37 (ix2 p (0 : Fin 1))) (FloatOps.ofBits .f32 0x2B8CBCCC#32)) := by
  unfold k0_pay1
  show FloatOps.divf (F := Ideal) (v33 (ix2 p q)) (broadcastTo S3000x64 _ broadcasts_S3000x1_S3000x64 (ix2 p q)) = _
  rw [Cert.KeepdimsColumn.broadcastTo_a1_ab_apply]
  rfl

/-- Entry (p, q) of the first output's block: the node's new embedding. -/
theorem out0_7_apply (x0 x1 x2 : Vec Ideal S3000x64 .f32) (x3 : Vec Ideal S64x64 .bf16) (x4 : Vec Ideal S1x64 .f32) (x5 : Vec Ideal S64x64 .bf16) (x6 : Vec Ideal S1x64 .f32) (p : Fin 3000) (q : Fin 64) :
    out0_7 (F := Ideal) x0 x1 x2 x3 x4 x5 x6 (ix2 p q) = newEmb (fun k => x0 (ix2 p k)) (fun k => x1 (ix2 p k)) (fun k q' => x3 (ix2 k q')) (fun k q' => x5 (ix2 k q')) (fun q' => x4 (ix2 0 q')) (fun q' => x6 (ix2 0 q')) q := by
  unfold out0_7
  rw [View.canon_unit_zero hz2]
  simp only [View.ld_unit_zero (S := S3000x64) hz2, View.ld_unit_zero (S := S64x64) hz2, View.ld_unit_zero (S := S1x64) hz2]
  rw [pay1_0_apply, pay5_0_apply]
  simp only [pay4_0_apply]
  rfl

/-- Entry (p, q) of the second output's block: the running sum's entry plus the new embedding. -/
theorem out0_8_apply (x0 x1 x2 : Vec Ideal S3000x64 .f32) (x3 : Vec Ideal S64x64 .bf16) (x4 : Vec Ideal S1x64 .f32) (x5 : Vec Ideal S64x64 .bf16) (x6 : Vec Ideal S1x64 .f32) (p : Fin 3000) (q : Fin 64) :
    out0_8 (F := Ideal) x0 x1 x2 x3 x4 x5 x6 (ix2 p q) = newAcc (fun k => x0 (ix2 p k)) (fun k => x1 (ix2 p k)) (fun k => x2 (ix2 p k)) (fun k q' => x3 (ix2 k q')) (fun k q' => x5 (ix2 k q')) (fun q' => x4 (ix2 0 q')) (fun q' => x6 (ix2 0 q')) q := by
  unfold out0_8
  rw [View.canon_unit_zero hz2]
  simp only [View.ld_unit_zero (S := S3000x64) hz2, View.ld_unit_zero (S := S64x64) hz2, View.ld_unit_zero (S := S1x64) hz2]
  unfold k0_pay2 k0_pay3
  simp only [shapeCast_self]
  show FloatOps.addf (F := Ideal) (x2 (ix2 p q)) (k0_pay1 _ _ (ix2 p q)) = _
  rw [pay1_0_apply, pay5_0_apply]
  simp only [pay4_0_apply]
  rfl

/-! ## Launch 1 -/

/-- The row before normalisation, at entry (p, q). -/
theorem pay4_1_apply (x0 x1 : Vec Ideal S3000x64 .f32) (x3 : Vec Ideal S64x64 .bf16) (x4 : Vec Ideal S1x64 .f32) (x5 : Vec Ideal S64x64 .bf16) (x6 : Vec Ideal S1x64 .f32) (p : Fin 3000) (q : Fin 64) :
    k1_pay4 x0 x1 x3 x4 x5 x6 (ix2 p q) = pre (fun k => x0 (ix2 p k)) (fun k => x1 (ix2 p k)) (fun k q' => x3 (ix2 k q')) (fun k q' => x5 (ix2 k q')) (fun q' => x4 (ix2 0 q')) (fun q' => x6 (ix2 0 q')) q := by
  unfold k1_pay4 pre
  simp only [shapeCast_self]
  refine congrArg₂ (FloatOps.addf (F := Ideal)) ?_ ?_
  · refine (act_apply _ _).trans ?_
    exact congrArg act (lin_apply x0 x3 x4 p q)
  · refine (act_apply _ _).trans ?_
    exact congrArg act (lin_apply (mulf x1 x0) x5 x6 p q)

/-- The rows' norms before the floor, kept as a column: at (p, ·) the root of row p's sum of squares. -/
theorem pay5_1_apply (x0 x1 : Vec Ideal S3000x64 .f32) (x3 : Vec Ideal S64x64 .bf16) (x4 : Vec Ideal S1x64 .f32) (x5 : Vec Ideal S64x64 .bf16) (x6 : Vec Ideal S1x64 .f32) (p : Fin 3000) (u : Fin 1) :
    k1_pay5 x0 x1 x3 x4 x5 x6 (ix2 p u)
      = FloatOps.sqrt (F := Ideal) (∑ k : Fin 64, FloatOps.mulf (F := Ideal) (k1_pay4 x0 x1 x3 x4 x5 x6 (ix2 p k)) (k1_pay4 x0 x1 x3 x4 x5 x6 (ix2 p k))) := by
  unfold k1_pay5
  show FloatOps.sqrt (F := Ideal) (shapeCast S3000x1 _ shapeCasts_S3000_S3000x1 (ix2 p u)) = _
  rw [Cert.KeepdimsColumn.shapeCast_a_a1_apply]
  exact congrArg (FloatOps.sqrt (F := Ideal))
    (Cert.SlabLayout.rowSum_apply (a := 3000) (b := 64) (mulf (k1_pay4 x0 x1 x3 x4 x5 x6) (k1_pay4 x0 x1 x3 x4 x5 x6)) _ reduces_S3000x64_S3000 _ _ p)

/-- The quotient by the floored norm column laid over the row, at entry (p, q). -/
theorem pay1_1_apply (v33 : FVec Ideal S3000x64 .f32) (v37 : FVec Ideal S3000x1 .f32) (p : Fin 3000) (q : Fin 64) :
    k1_pay1 v33 v37 (ix2 p q)
      = FloatOps.divf (F := Ideal) (v33 (ix2 p q)) (FloatOps.maximumf (F := Ideal) (v37 (ix2 p (0 : Fin 1))) (FloatOps.ofBits .f32 0x2B8CBCCC#32)) := by
  unfold k1_pay1
  show FloatOps.divf (F := Ideal) (v33 (ix2 p q)) (broadcastTo S3000x64 _ broadcasts_S3000x1_S3000x64 (ix2 p q)) = _
  rw [Cert.KeepdimsColumn.broadcastTo_a1_ab_apply]
  rfl

/-- Entry (p, q) of the first output's block: the node's new embedding. -/
theorem out1_7_apply (x0 x1 x2 : Vec Ideal S3000x64 .f32) (x3 : Vec Ideal S64x64 .bf16) (x4 : Vec Ideal S1x64 .f32) (x5 : Vec Ideal S64x64 .bf16) (x6 : Vec Ideal S1x64 .f32) (p : Fin 3000) (q : Fin 64) :
    out1_7 (F := Ideal) x0 x1 x2 x3 x4 x5 x6 (ix2 p q) = newEmb (fun k => x0 (ix2 p k)) (fun k => x1 (ix2 p k)) (fun k q' => x3 (ix2 k q')) (fun k q' => x5 (ix2 k q')) (fun q' => x4 (ix2 0 q')) (fun q' => x6 (ix2 0 q')) q := by
  unfold out1_7
  rw [View.canon_unit_zero hz2]
  simp only [View.ld_unit_zero (S := S3000x64) hz2, View.ld_unit_zero (S := S64x64) hz2, View.ld_unit_zero (S := S1x64) hz2]
  rw [pay1_1_apply, pay5_1_apply]
  simp only [pay4_1_apply]
  rfl

/-- Entry (p, q) of the second output's block: the running sum's entry plus the new embedding. -/
theorem out1_8_apply (x0 x1 x2 : Vec Ideal S3000x64 .f32) (x3 : Vec Ideal S64x64 .bf16) (x4 : Vec Ideal S1x64 .f32) (x5 : Vec Ideal S64x64 .bf16) (x6 : Vec Ideal S1x64 .f32) (p : Fin 3000) (q : Fin 64) :
    out1_8 (F := Ideal) x0 x1 x2 x3 x4 x5 x6 (ix2 p q) = newAcc (fun k => x0 (ix2 p k)) (fun k => x1 (ix2 p k)) (fun k => x2 (ix2 p k)) (fun k q' => x3 (ix2 k q')) (fun k q' => x5 (ix2 k q')) (fun q' => x4 (ix2 0 q')) (fun q' => x6 (ix2 0 q')) q := by
  unfold out1_8
  rw [View.canon_unit_zero hz2]
  simp only [View.ld_unit_zero (S := S3000x64) hz2, View.ld_unit_zero (S := S64x64) hz2, View.ld_unit_zero (S := S1x64) hz2]
  unfold k1_pay2 k1_pay3
  simp only [shapeCast_self]
  show FloatOps.addf (F := Ideal) (x2 (ix2 p q)) (k1_pay1 _ _ (ix2 p q)) = _
  rw [pay1_1_apply, pay5_1_apply]
  simp only [pay4_1_apply]
  rfl

/-! ## Launch 2 -/

/-- The row before normalisation, at entry (p, q). -/
theorem pay4_2_apply (x0 x1 : Vec Ideal S3000x64 .f32) (x3 : Vec Ideal S64x64 .bf16) (x4 : Vec Ideal S1x64 .f32) (x5 : Vec Ideal S64x64 .bf16) (x6 : Vec Ideal S1x64 .f32) (p : Fin 3000) (q : Fin 64) :
    k2_pay4 x0 x1 x3 x4 x5 x6 (ix2 p q) = pre (fun k => x0 (ix2 p k)) (fun k => x1 (ix2 p k)) (fun k q' => x3 (ix2 k q')) (fun k q' => x5 (ix2 k q')) (fun q' => x4 (ix2 0 q')) (fun q' => x6 (ix2 0 q')) q := by
  unfold k2_pay4 pre
  simp only [shapeCast_self]
  refine congrArg₂ (FloatOps.addf (F := Ideal)) ?_ ?_
  · refine (act_apply _ _).trans ?_
    exact congrArg act (lin_apply x0 x3 x4 p q)
  · refine (act_apply _ _).trans ?_
    exact congrArg act (lin_apply (mulf x1 x0) x5 x6 p q)

/-- The rows' norms before the floor, kept as a column: at (p, ·) the root of row p's sum of squares. -/
theorem pay5_2_apply (x0 x1 : Vec Ideal S3000x64 .f32) (x3 : Vec Ideal S64x64 .bf16) (x4 : Vec Ideal S1x64 .f32) (x5 : Vec Ideal S64x64 .bf16) (x6 : Vec Ideal S1x64 .f32) (p : Fin 3000) (u : Fin 1) :
    k2_pay5 x0 x1 x3 x4 x5 x6 (ix2 p u)
      = FloatOps.sqrt (F := Ideal) (∑ k : Fin 64, FloatOps.mulf (F := Ideal) (k2_pay4 x0 x1 x3 x4 x5 x6 (ix2 p k)) (k2_pay4 x0 x1 x3 x4 x5 x6 (ix2 p k))) := by
  unfold k2_pay5
  show FloatOps.sqrt (F := Ideal) (shapeCast S3000x1 _ shapeCasts_S3000_S3000x1 (ix2 p u)) = _
  rw [Cert.KeepdimsColumn.shapeCast_a_a1_apply]
  exact congrArg (FloatOps.sqrt (F := Ideal))
    (Cert.SlabLayout.rowSum_apply (a := 3000) (b := 64) (mulf (k2_pay4 x0 x1 x3 x4 x5 x6) (k2_pay4 x0 x1 x3 x4 x5 x6)) _ reduces_S3000x64_S3000 _ _ p)

/-- The quotient by the floored norm column laid over the row, at entry (p, q). -/
theorem pay1_2_apply (v33 : FVec Ideal S3000x64 .f32) (v37 : FVec Ideal S3000x1 .f32) (p : Fin 3000) (q : Fin 64) :
    k2_pay1 v33 v37 (ix2 p q)
      = FloatOps.divf (F := Ideal) (v33 (ix2 p q)) (FloatOps.maximumf (F := Ideal) (v37 (ix2 p (0 : Fin 1))) (FloatOps.ofBits .f32 0x2B8CBCCC#32)) := by
  unfold k2_pay1
  show FloatOps.divf (F := Ideal) (v33 (ix2 p q)) (broadcastTo S3000x64 _ broadcasts_S3000x1_S3000x64 (ix2 p q)) = _
  rw [Cert.KeepdimsColumn.broadcastTo_a1_ab_apply]
  rfl

/-- Entry (p, q) of the first output's block: the node's new embedding. -/
theorem out2_7_apply (x0 x1 x2 : Vec Ideal S3000x64 .f32) (x3 : Vec Ideal S64x64 .bf16) (x4 : Vec Ideal S1x64 .f32) (x5 : Vec Ideal S64x64 .bf16) (x6 : Vec Ideal S1x64 .f32) (p : Fin 3000) (q : Fin 64) :
    out2_7 (F := Ideal) x0 x1 x2 x3 x4 x5 x6 (ix2 p q) = newEmb (fun k => x0 (ix2 p k)) (fun k => x1 (ix2 p k)) (fun k q' => x3 (ix2 k q')) (fun k q' => x5 (ix2 k q')) (fun q' => x4 (ix2 0 q')) (fun q' => x6 (ix2 0 q')) q := by
  unfold out2_7
  rw [View.canon_unit_zero hz2]
  simp only [View.ld_unit_zero (S := S3000x64) hz2, View.ld_unit_zero (S := S64x64) hz2, View.ld_unit_zero (S := S1x64) hz2]
  rw [pay1_2_apply, pay5_2_apply]
  simp only [pay4_2_apply]
  rfl

/-- Entry (p, q) of the second output's block: the running sum's entry plus the new embedding. -/
theorem out2_8_apply (x0 x1 x2 : Vec Ideal S3000x64 .f32) (x3 : Vec Ideal S64x64 .bf16) (x4 : Vec Ideal S1x64 .f32) (x5 : Vec Ideal S64x64 .bf16) (x6 : Vec Ideal S1x64 .f32) (p : Fin 3000) (q : Fin 64) :
    out2_8 (F := Ideal) x0 x1 x2 x3 x4 x5 x6 (ix2 p q) = newAcc (fun k => x0 (ix2 p k)) (fun k => x1 (ix2 p k)) (fun k => x2 (ix2 p k)) (fun k q' => x3 (ix2 k q')) (fun k q' => x5 (ix2 k q')) (fun q' => x4 (ix2 0 q')) (fun q' => x6 (ix2 0 q')) q := by
  unfold out2_8
  rw [View.canon_unit_zero hz2]
  simp only [View.ld_unit_zero (S := S3000x64) hz2, View.ld_unit_zero (S := S64x64) hz2, View.ld_unit_zero (S := S1x64) hz2]
  unfold k2_pay2 k2_pay3
  simp only [shapeCast_self]
  show FloatOps.addf (F := Ideal) (x2 (ix2 p q)) (k2_pay1 _ _ (ix2 p q)) = _
  rw [pay1_2_apply, pay5_2_apply]
  simp only [pay4_2_apply]
  rfl

end Cert.KernelIdeal.Hand

end
-- ==== Proof.KIFinal.lean ====
/-
  From blocks to arrays: what each launch leaves in its two output arrays, as one function of its input arrays.

  The launch's grid has fifty points; point t works on rows 3000·t … 3000·t + 2999 of the three row arrays and writes
  the same rows of the two outputs, the two matrices and the two bias rows being the same whole blocks at every point.
  A row of an output depends only on the same row of the inputs (the row-wise layer of the specification), so block
  t of the output array is block t of one whole-array function, and the fifty blocks tile the array.
-/
import proofs.«146559_j69123203662125_1_alg».proof.Proof.KIData
import proofs.«146559_j69123203662125_1_alg».proof.Proof.KIBlockValue
import proofs.«146559_j69123203662125_1_alg».proof.Proof.LayerSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.LayerSpec

/-- The new embeddings of every node: the row-wise layer applied to each row. -/
def embOut (g e : FVec Ideal S150000x64 .f32) (w3 : FVec Ideal S64x64 .bf16) (b4 : FVec Ideal S1x64 .f32)
    (w5 : FVec Ideal S64x64 .bf16) (b6 : FVec Ideal S1x64 .f32) : FVec Ideal S150000x64 .f32 :=
  fun i => newEmb (fun k => g (ix2 (n0 := 150000) (i 0) k)) (fun k => e (ix2 (n0 := 150000) (i 0) k))
    (fun k q' => w3 (ix2 k q')) (fun k q' => w5 (ix2 k q')) (fun q' => b4 (ix2 0 q')) (fun q' => b6 (ix2 0 q')) (i 1)

/-- The running sum of every node with its new embedding added. -/
def accOut (g e a : FVec Ideal S150000x64 .f32) (w3 : FVec Ideal S64x64 .bf16) (b4 : FVec Ideal S1x64 .f32)
    (w5 : FVec Ideal S64x64 .bf16) (b6 : FVec Ideal S1x64 .f32) : FVec Ideal S150000x64 .f32 :=
  fun i => newAcc (fun k => g (ix2 (n0 := 150000) (i 0) k)) (fun k => e (ix2 (n0 := 150000) (i 0) k))
    (fun k => a (ix2 (n0 := 150000) (i 0) k))
    (fun k q' => w3 (ix2 k q')) (fun k q' => w5 (ix2 k q')) (fun q' => b4 (ix2 0 q')) (fun q' => b6 (ix2 0 q')) (i 1)

/-- The layer's row functions respect equality of their arguments. -/
theorem newEmb_congr {g g' e e' : Fin 64 → Ideal .f32} {wg wg' wb wb' : Fin 64 → Fin 64 → Ideal .f32} {bg bg' bb bb' : Fin 64 → Ideal .f32}
    (hg : g = g') (he : e = e') (hwg : wg = wg') (hwb : wb = wb') (hbg : bg = bg') (hbb : bb = bb') (q : Fin 64) :
    newEmb g e wg wb bg bb q = newEmb g' e' wg' wb' bg' bb' q := by subst hg he hwg hwb hbg hbb; rfl
theorem newAcc_congr {g g' e e' a a' : Fin 64 → Ideal .f32} {wg wg' wb wb' : Fin 64 → Fin 64 → Ideal .f32} {bg bg' bb bb' : Fin 64 → Ideal .f32}
    (hg : g = g') (he : e = e') (ha : a = a') (hwg : wg = wg') (hwb : wb = wb') (hbg : bg = bg') (hbb : bb = bb') (q : Fin 64) :
    newAcc g e a wg wb bg bb q = newAcc g' e' a' wg' wb' bg' bb' q := by subst hg he ha hwg hwb hbg hbb; rfl

variable (V : (c : Dev nD) → (b : Ref sig .tc) → Buf (Elt Ideal) ((c : Thread nD τ).loc b))

/-! ## Launch 0 -/

/-- The printed index maps, decided over the grid: the row windows move with the point, the others stay. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem emb0_0 (t : Fin cfg0.N) (p : Fin 3000) (k : Fin 64) :
    ((cfg0.win 0).blk t).view.emb (ix2 p k) = (ix2 (n0 := 150000) ⟨t.val * 3000 + p.val, by have := lt_of_lt_of_eq t.isLt N_0; omega⟩ k) := by
  obtain ⟨r0a, r0b, r1a, r1b, r2a, r2b, r7a, r7b, r8a, r8b, c3a, c3b, c4a, c4b, c5a, c5b, c6a, c6b⟩ := idx_facts0 t
  funext a; apply Fin.ext
  match a with
  | ⟨0, _⟩ => show win0_0.index t (0 : Fin 2) * 3000 + 1 * p.val = t.val * 3000 + p.val; omega
  | ⟨1, _⟩ => show win0_0.index t (1 : Fin 2) * 64 + 1 * k.val = k.val; omega
theorem emb0_1 (t : Fin cfg0.N) (p : Fin 3000) (k : Fin 64) :
    ((cfg0.win 1).blk t).view.emb (ix2 p k) = (ix2 (n0 := 150000) ⟨t.val * 3000 + p.val, by have := lt_of_lt_of_eq t.isLt N_0; omega⟩ k) := by
  obtain ⟨r0a, r0b, r1a, r1b, r2a, r2b, r7a, r7b, r8a, r8b, c3a, c3b, c4a, c4b, c5a, c5b, c6a, c6b⟩ := idx_facts0 t
  funext a; apply Fin.ext
  match a with
  | ⟨0, _⟩ => show win0_1.index t (0 : Fin 2) * 3000 + 1 * p.val = t.val * 3000 + p.val; omega
  | ⟨1, _⟩ => show win0_1.index t (1 : Fin 2) * 64 + 1 * k.val = k.val; omega
theorem emb0_2 (t : Fin cfg0.N) (p : Fin 3000) (k : Fin 64) :
    ((cfg0.win 2).blk t).view.emb (ix2 p k) = (ix2 (n0 := 150000) ⟨t.val * 3000 + p.val, by have := lt_of_lt_of_eq t.isLt N_0; omega⟩ k) := by
  obtain ⟨r0a, r0b, r1a, r1b, r2a, r2b, r7a, r7b, r8a, r8b, c3a, c3b, c4a, c4b, c5a, c5b, c6a, c6b⟩ := idx_facts0 t
  funext a; apply Fin.ext
  match a with
  | ⟨0, _⟩ => show win0_2.index t (0 : Fin 2) * 3000 + 1 * p.val = t.val * 3000 + p.val; omega
  | ⟨1, _⟩ => show win0_2.index t (1 : Fin 2) * 64 + 1 * k.val = k.val; omega
theorem emb0_7 (t : Fin cfg0.N) (p : Fin 3000) (k : Fin 64) :
    ((cfg0.win 7).blk t).view.emb (ix2 p k) = (ix2 (n0 := 150000) ⟨t.val * 3000 + p.val, by have := lt_of_lt_of_eq t.isLt N_0; omega⟩ k) := by
  obtain ⟨r0a, r0b, r1a, r1b, r2a, r2b, r7a, r7b, r8a, r8b, c3a, c3b, c4a, c4b, c5a, c5b, c6a, c6b⟩ := idx_facts0 t
  funext a; apply Fin.ext
  match a with
  | ⟨0, _⟩ => show win0_7.index t (0 : Fin 2) * 3000 + 1 * p.val = t.val * 3000 + p.val; omega
  | ⟨1, _⟩ => show win0_7.index t (1 : Fin 2) * 64 + 1 * k.val = k.val; omega
theorem emb0_8 (t : Fin cfg0.N) (p : Fin 3000) (k : Fin 64) :
    ((cfg0.win 8).blk t).view.emb (ix2 p k) = (ix2 (n0 := 150000) ⟨t.val * 3000 + p.val, by have := lt_of_lt_of_eq t.isLt N_0; omega⟩ k) := by
  obtain ⟨r0a, r0b, r1a, r1b, r2a, r2b, r7a, r7b, r8a, r8b, c3a, c3b, c4a, c4b, c5a, c5b, c6a, c6b⟩ := idx_facts0 t
  funext a; apply Fin.ext
  match a with
  | ⟨0, _⟩ => show win0_8.index t (0 : Fin 2) * 3000 + 1 * p.val = t.val * 3000 + p.val; omega
  | ⟨1, _⟩ => show win0_8.index t (1 : Fin 2) * 64 + 1 * k.val = k.val; omega
theorem emb0_3 (t : Fin cfg0.N) (k : Fin 64) (q' : Fin 64) :
    ((cfg0.win 3).blk t).view.emb (ix2 k q') = (ix2 k q') := by
  obtain ⟨r0a, r0b, r1a, r1b, r2a, r2b, r7a, r7b, r8a, r8b, c3a, c3b, c4a, c4b, c5a, c5b, c6a, c6b⟩ := idx_facts0 t
  funext a; apply Fin.ext
  match a with
  | ⟨0, _⟩ => show win0_3.index t (0 : Fin 2) * 64 + 1 * k.val = k.val; omega
  | ⟨1, _⟩ => show win0_3.index t (1 : Fin 2) * 64 + 1 * q'.val = q'.val; omega
theorem emb0_4 (t : Fin cfg0.N) (k : Fin 1) (q' : Fin 64) :
    ((cfg0.win 4).blk t).view.emb (ix2 k q') = (ix2 k q') := by
  obtain ⟨r0a, r0b, r1a, r1b, r2a, r2b, r7a, r7b, r8a, r8b, c3a, c3b, c4a, c4b, c5a, c5b, c6a, c6b⟩ := idx_facts0 t
  funext a; apply Fin.ext
  match a with
  | ⟨0, _⟩ => show win0_4.index t (0 : Fin 2) * 1 + 1 * k.val = k.val; omega
  | ⟨1, _⟩ => show win0_4.index t (1 : Fin 2) * 64 + 1 * q'.val = q'.val; omega
theorem emb0_5 (t : Fin cfg0.N) (k : Fin 64) (q' : Fin 64) :
    ((cfg0.win 5).blk t).view.emb (ix2 k q') = (ix2 k q') := by
  obtain ⟨r0a, r0b, r1a, r1b, r2a, r2b, r7a, r7b, r8a, r8b, c3a, c3b, c4a, c4b, c5a, c5b, c6a, c6b⟩ := idx_facts0 t
  funext a; apply Fin.ext
  match a with
  | ⟨0, _⟩ => show win0_5.index t (0 : Fin 2) * 64 + 1 * k.val = k.val; omega
  | ⟨1, _⟩ => show win0_5.index t (1 : Fin 2) * 64 + 1 * q'.val = q'.val; omega
theorem emb0_6 (t : Fin cfg0.N) (k : Fin 1) (q' : Fin 64) :
    ((cfg0.win 6).blk t).view.emb (ix2 k q') = (ix2 k q') := by
  obtain ⟨r0a, r0b, r1a, r1b, r2a, r2b, r7a, r7b, r8a, r8b, c3a, c3b, c4a, c4b, c5a, c5b, c6a, c6b⟩ := idx_facts0 t
  funext a; apply Fin.ext
  match a with
  | ⟨0, _⟩ => show win0_6.index t (0 : Fin 2) * 1 + 1 * k.val = k.val; omega
  | ⟨1, _⟩ => show win0_6.index t (1 : Fin 2) * 64 + 1 * q'.val = q'.val; omega

set_option maxHeartbeats 1000000 in
/-- What point `t` writes back into output 0: block `t` of the whole-array function of the launch's input arrays. -/
theorem flushed0_7_eq (c : Dev nD) (t : Fin cfg0.N) :
    (dat0 V c).flushed 7 t = ((cfg0.win 7).blk t).view.read (Elt Ideal)
      (embOut (V c (Pipeline.arrRef spec0 0)) (V c (Pipeline.arrRef spec0 1)) (V c (Pipeline.arrRef spec0 3))
        (V c (Pipeline.arrRef spec0 4)) (V c (Pipeline.arrRef spec0 5)) (V c (Pipeline.arrRef spec0 6))) := by
  show (cfg0.win 7).cut (grid0.coords t) ((dat0 V c).after 7 t) = _
  rw [after0_7]
  funext j
  obtain ⟨p, q, rfl⟩ : ∃ (p : Fin 3000) (q : Fin 64), j = ix2 p q := ⟨j 0, j 1, eq_ix2 j⟩
  refine (out0_7_apply (iblk0 V c 0 t) (iblk0 V c 1 t) (iblk0 V c 2 t) (iblk0 V c 3 t) (iblk0 V c 4 t)
    (iblk0 V c 5 t) (iblk0 V c 6 t) p q).trans ?_
  show newEmb (fun k => V c (Pipeline.arrRef spec0 0) (((cfg0.win 0).blk t).view.emb (ix2 p k)))
      (fun k => V c (Pipeline.arrRef spec0 1) (((cfg0.win 1).blk t).view.emb (ix2 p k)))
      (fun k q' => V c (Pipeline.arrRef spec0 3) (((cfg0.win 3).blk t).view.emb (ix2 k q')))
      (fun k q' => V c (Pipeline.arrRef spec0 5) (((cfg0.win 5).blk t).view.emb (ix2 k q')))
      (fun q' => V c (Pipeline.arrRef spec0 4) (((cfg0.win 4).blk t).view.emb (ix2 0 q')))
      (fun q' => V c (Pipeline.arrRef spec0 6) (((cfg0.win 6).blk t).view.emb (ix2 0 q'))) q
    = embOut (V c (Pipeline.arrRef spec0 0)) (V c (Pipeline.arrRef spec0 1)) (V c (Pipeline.arrRef spec0 3)) (V c (Pipeline.arrRef spec0 4)) (V c (Pipeline.arrRef spec0 5)) (V c (Pipeline.arrRef spec0 6))
        (((cfg0.win 7).blk t).view.emb (ix2 p q))
  rw [emb0_7 t p q]
  refine (newEmb_congr (funext fun k => congrArg (V c (Pipeline.arrRef spec0 0)) (emb0_0 t p k)) (funext fun k => congrArg (V c (Pipeline.arrRef spec0 1)) (emb0_1 t p k))
    (funext fun k => funext fun q' => congrArg (V c (Pipeline.arrRef spec0 3)) (emb0_3 t k q'))
    (funext fun k => funext fun q' => congrArg (V c (Pipeline.arrRef spec0 5)) (emb0_5 t k q'))
    (funext fun q' => congrArg (V c (Pipeline.arrRef spec0 4)) (emb0_4 t 0 q'))
    (funext fun q' => congrArg (V c (Pipeline.arrRef spec0 6)) (emb0_6 t 0 q')) q).trans ?_
  unfold embOut
  rfl

set_option maxHeartbeats 1000000 in
/-- What point `t` writes back into output 1: block `t` of the whole-array function of the launch's input arrays. -/
theorem flushed0_8_eq (c : Dev nD) (t : Fin cfg0.N) :
    (dat0 V c).flushed 8 t = ((cfg0.win 8).blk t).view.read (Elt Ideal)
      (accOut (V c (Pipeline.arrRef spec0 0)) (V c (Pipeline.arrRef spec0 1)) (V c (Pipeline.arrRef spec0 2)) (V c (Pipeline.arrRef spec0 3))
        (V c (Pipeline.arrRef spec0 4)) (V c (Pipeline.arrRef spec0 5)) (V c (Pipeline.arrRef spec0 6))) := by
  show (cfg0.win 8).cut (grid0.coords t) ((dat0 V c).after 8 t) = _
  rw [after0_8]
  funext j
  obtain ⟨p, q, rfl⟩ : ∃ (p : Fin 3000) (q : Fin 64), j = ix2 p q := ⟨j 0, j 1, eq_ix2 j⟩
  refine (out0_8_apply (iblk0 V c 0 t) (iblk0 V c 1 t) (iblk0 V c 2 t) (iblk0 V c 3 t) (iblk0 V c 4 t)
    (iblk0 V c 5 t) (iblk0 V c 6 t) p q).trans ?_
  show newAcc (fun k => V c (Pipeline.arrRef spec0 0) (((cfg0.win 0).blk t).view.emb (ix2 p k)))
      (fun k => V c (Pipeline.arrRef spec0 1) (((cfg0.win 1).blk t).view.emb (ix2 p k)))
      (fun k => V c (Pipeline.arrRef spec0 2) (((cfg0.win 2).blk t).view.emb (ix2 p k)))
      (fun k q' => V c (Pipeline.arrRef spec0 3) (((cfg0.win 3).blk t).view.emb (ix2 k q')))
      (fun k q' => V c (Pipeline.arrRef spec0 5) (((cfg0.win 5).blk t).view.emb (ix2 k q')))
      (fun q' => V c (Pipeline.arrRef spec0 4) (((cfg0.win 4).blk t).view.emb (ix2 0 q')))
      (fun q' => V c (Pipeline.arrRef spec0 6) (((cfg0.win 6).blk t).view.emb (ix2 0 q'))) q
    = accOut (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))
        (((cfg0.win 8).blk t).view.emb (ix2 p q))
  rw [emb0_8 t p q]
  refine (newAcc_congr (funext fun k => congrArg (V c (Pipeline.arrRef spec0 0)) (emb0_0 t p k)) (funext fun k => congrArg (V c (Pipeline.arrRef spec0 1)) (emb0_1 t p k)) (funext fun k => congrArg (V c (Pipeline.arrRef spec0 2)) (emb0_2 t p k))
    (funext fun k => funext fun q' => congrArg (V c (Pipeline.arrRef spec0 3)) (emb0_3 t k q'))
    (funext fun k => funext fun q' => congrArg (V c (Pipeline.arrRef spec0 5)) (emb0_5 t k q'))
    (funext fun q' => congrArg (V c (Pipeline.arrRef spec0 4)) (emb0_4 t 0 q'))
    (funext fun q' => congrArg (V c (Pipeline.arrRef spec0 6)) (emb0_6 t 0 q')) q).trans ?_
  unfold accOut
  rfl

theorem mem_blk0_7 (t : Fin cfg0.N) (i : S150000x64.Idx) :
    i ∈ ((cfg0.win 7).blk t).view.set ↔ ∀ a : Fin 2, win0_7.index t a * S3000x64.size a ≤ (i a).val ∧ (i a).val < win0_7.index t a * S3000x64.size a + S3000x64.size a := by
  show i ∈ ((View.whole main_v57_0).slice (win0_7.rect t)).set ↔ _
  rw [View.set_slice_whole, Rect.mem_set_unit]
  exact Iff.rfl

/-- The fifty blocks tile the array: row r lies in point r / 3000's block. -/
theorem cover0_7' (i : S150000x64.Idx) :
    ∃ t : Fin cfg0.N, (cfg0.win 7).flush t = true ∧ i ∈ ((cfg0.win 7).blk t).view.set := by
  have hi0 : (i 0).val < 150000 := (i 0).isLt
  have hi1 : (i 1).val < 64 := (i 1).isLt
  have hN : cfg0.N = 50 := N_0
  refine ⟨⟨(i 0).val / 3000, by omega⟩, flush0_7 _, ?_⟩
  rw [mem_blk0_7]
  obtain ⟨r0a, r0b, r1a, r1b, r2a, r2b, r7a, r7b, r8a, r8b, c3a, c3b, c4a, c4b, c5a, c5b, c6a, c6b⟩ := idx_facts0 ⟨(i 0).val / 3000, by omega⟩
  intro a
  match a with
  | ⟨0, _⟩ => show win0_7.index _ (0 : Fin 2) * 3000 ≤ (i 0).val ∧ (i 0).val < win0_7.index _ (0 : Fin 2) * 3000 + 3000; rw [r7a]; show (i 0).val / 3000 * 3000 ≤ (i 0).val ∧ (i 0).val < (i 0).val / 3000 * 3000 + 3000; omega
  | ⟨1, _⟩ => show win0_7.index _ (1 : Fin 2) * 64 ≤ (i 1).val ∧ (i 1).val < win0_7.index _ (1 : Fin 2) * 64 + 64; rw [r7b]; omega

theorem mem_blk0_8 (t : Fin cfg0.N) (i : S150000x64.Idx) :
    i ∈ ((cfg0.win 8).blk t).view.set ↔ ∀ a : Fin 2, win0_8.index t a * S3000x64.size a ≤ (i a).val ∧ (i a).val < win0_8.index t a * S3000x64.size a + S3000x64.size a := by
  show i ∈ ((View.whole main_v57_1).slice (win0_8.rect t)).set ↔ _
  rw [View.set_slice_whole, Rect.mem_set_unit]
  exact Iff.rfl

/-- The fifty blocks tile the array: row r lies in point r / 3000's block. -/
theorem cover0_8' (i : S150000x64.Idx) :
    ∃ t : Fin cfg0.N, (cfg0.win 8).flush t = true ∧ i ∈ ((cfg0.win 8).blk t).view.set := by
  have hi0 : (i 0).val < 150000 := (i 0).isLt
  have hi1 : (i 1).val < 64 := (i 1).isLt
  have hN : cfg0.N = 50 := N_0
  refine ⟨⟨(i 0).val / 3000, by omega⟩, flush0_8 _, ?_⟩
  rw [mem_blk0_8]
  obtain ⟨r0a, r0b, r1a, r1b, r2a, r2b, r7a, r7b, r8a, r8b, c3a, c3b, c4a, c4b, c5a, c5b, c6a, c6b⟩ := idx_facts0 ⟨(i 0).val / 3000, by omega⟩
  intro a
  match a with
  | ⟨0, _⟩ => show win0_8.index _ (0 : Fin 2) * 3000 ≤ (i 0).val ∧ (i 0).val < win0_8.index _ (0 : Fin 2) * 3000 + 3000; rw [r8a]; show (i 0).val / 3000 * 3000 ≤ (i 0).val ∧ (i 0).val < (i 0).val / 3000 * 3000 + 3000; omega
  | ⟨1, _⟩ => show win0_8.index _ (1 : Fin 2) * 64 ≤ (i 1).val ∧ (i 1).val < win0_8.index _ (1 : Fin 2) * 64 + 64; rw [r8b]; omega

/-- After the launch, output 0 holds the whole-array function of the launch's input arrays. -/
theorem final0_7 (c : Dev nD) : (dat0 V c).arrAt 7 cfg0.N =
    embOut (V c (Pipeline.arrRef spec0 0)) (V c (Pipeline.arrRef spec0 1)) (V c (Pipeline.arrRef spec0 3))
      (V c (Pipeline.arrRef spec0 4)) (V c (Pipeline.arrRef spec0 5)) (V c (Pipeline.arrRef spec0 6)) :=
  (dat0 V c).arrAt_eq_of_cover 7 _ (fun t _ => flushed0_7_eq V c t) (cover0_7')

/-- After the launch, output 1 holds the whole-array function of the launch's input arrays. -/
theorem final0_8 (c : Dev nD) : (dat0 V c).arrAt 8 cfg0.N =
    accOut (V c (Pipeline.arrRef spec0 0)) (V c (Pipeline.arrRef spec0 1)) (V c (Pipeline.arrRef spec0 2)) (V c (Pipeline.arrRef spec0 3))
      (V c (Pipeline.arrRef spec0 4)) (V c (Pipeline.arrRef spec0 5)) (V c (Pipeline.arrRef spec0 6)) :=
  (dat0 V c).arrAt_eq_of_cover 8 _ (fun t _ => flushed0_8_eq V c t) (cover0_8')

/-! ## Launch 1 -/

/-- The printed index maps, decided over the grid: the row windows move with the point, the others stay. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_7.index t (0 : Fin 2) = t.val ∧ win1_7.index t (1 : Fin 2) = 0
    ∧ win1_8.index t (0 : Fin 2) = t.val ∧ win1_8.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

theorem emb1_0 (t : Fin cfg1.N) (p : Fin 3000) (k : Fin 64) :
    ((cfg1.win 0).blk t).view.emb (ix2 p k) = (ix2 (n0 := 150000) ⟨t.val * 3000 + p.val, by have := lt_of_lt_of_eq t.isLt N_1; omega⟩ k) := by
  obtain ⟨r0a, r0b, r1a, r1b, r2a, r2b, r7a, r7b, r8a, r8b, c3a, c3b, c4a, c4b, c5a, c5b, c6a, c6b⟩ := idx_facts1 t
  funext a; apply Fin.ext
  match a with
  | ⟨0, _⟩ => show win1_0.index t (0 : Fin 2) * 3000 + 1 * p.val = t.val * 3000 + p.val; omega
  | ⟨1, _⟩ => show win1_0.index t (1 : Fin 2) * 64 + 1 * k.val = k.val; omega
theorem emb1_1 (t : Fin cfg1.N) (p : Fin 3000) (k : Fin 64) :
    ((cfg1.win 1).blk t).view.emb (ix2 p k) = (ix2 (n0 := 150000) ⟨t.val * 3000 + p.val, by have := lt_of_lt_of_eq t.isLt N_1; omega⟩ k) := by
  obtain ⟨r0a, r0b, r1a, r1b, r2a, r2b, r7a, r7b, r8a, r8b, c3a, c3b, c4a, c4b, c5a, c5b, c6a, c6b⟩ := idx_facts1 t
  funext a; apply Fin.ext
  match a with
  | ⟨0, _⟩ => show win1_1.index t (0 : Fin 2) * 3000 + 1 * p.val = t.val * 3000 + p.val; omega
  | ⟨1, _⟩ => show win1_1.index t (1 : Fin 2) * 64 + 1 * k.val = k.val; omega
theorem emb1_2 (t : Fin cfg1.N) (p : Fin 3000) (k : Fin 64) :
    ((cfg1.win 2).blk t).view.emb (ix2 p k) = (ix2 (n0 := 150000) ⟨t.val * 3000 + p.val, by have := lt_of_lt_of_eq t.isLt N_1; omega⟩ k) := by
  obtain ⟨r0a, r0b, r1a, r1b, r2a, r2b, r7a, r7b, r8a, r8b, c3a, c3b, c4a, c4b, c5a, c5b, c6a, c6b⟩ := idx_facts1 t
  funext a; apply Fin.ext
  match a with
  | ⟨0, _⟩ => show win1_2.index t (0 : Fin 2) * 3000 + 1 * p.val = t.val * 3000 + p.val; omega
  | ⟨1, _⟩ => show win1_2.index t (1 : Fin 2) * 64 + 1 * k.val = k.val; omega
theorem emb1_7 (t : Fin cfg1.N) (p : Fin 3000) (k : Fin 64) :
    ((cfg1.win 7).blk t).view.emb (ix2 p k) = (ix2 (n0 := 150000) ⟨t.val * 3000 + p.val, by have := lt_of_lt_of_eq t.isLt N_1; omega⟩ k) := by
  obtain ⟨r0a, r0b, r1a, r1b, r2a, r2b, r7a, r7b, r8a, r8b, c3a, c3b, c4a, c4b, c5a, c5b, c6a, c6b⟩ := idx_facts1 t
  funext a; apply Fin.ext
  match a with
  | ⟨0, _⟩ => show win1_7.index t (0 : Fin 2) * 3000 + 1 * p.val = t.val * 3000 + p.val; omega
  | ⟨1, _⟩ => show win1_7.index t (1 : Fin 2) * 64 + 1 * k.val = k.val; omega
theorem emb1_8 (t : Fin cfg1.N) (p : Fin 3000) (k : Fin 64) :
    ((cfg1.win 8).blk t).view.emb (ix2 p k) = (ix2 (n0 := 150000) ⟨t.val * 3000 + p.val, by have := lt_of_lt_of_eq t.isLt N_1; omega⟩ k) := by
  obtain ⟨r0a, r0b, r1a, r1b, r2a, r2b, r7a, r7b, r8a, r8b, c3a, c3b, c4a, c4b, c5a, c5b, c6a, c6b⟩ := idx_facts1 t
  funext a; apply Fin.ext
  match a with
  | ⟨0, _⟩ => show win1_8.index t (0 : Fin 2) * 3000 + 1 * p.val = t.val * 3000 + p.val; omega
  | ⟨1, _⟩ => show win1_8.index t (1 : Fin 2) * 64 + 1 * k.val = k.val; omega
theorem emb1_3 (t : Fin cfg1.N) (k : Fin 64) (q' : Fin 64) :
    ((cfg1.win 3).blk t).view.emb (ix2 k q') = (ix2 k q') := by
  obtain ⟨r0a, r0b, r1a, r1b, r2a, r2b, r7a, r7b, r8a, r8b, c3a, c3b, c4a, c4b, c5a, c5b, c6a, c6b⟩ := idx_facts1 t
  funext a; apply Fin.ext
  match a with
  | ⟨0, _⟩ => show win1_3.index t (0 : Fin 2) * 64 + 1 * k.val = k.val; omega
  | ⟨1, _⟩ => show win1_3.index t (1 : Fin 2) * 64 + 1 * q'.val = q'.val; omega
theorem emb1_4 (t : Fin cfg1.N) (k : Fin 1) (q' : Fin 64) :
    ((cfg1.win 4).blk t).view.emb (ix2 k q') = (ix2 k q') := by
  obtain ⟨r0a, r0b, r1a, r1b, r2a, r2b, r7a, r7b, r8a, r8b, c3a, c3b, c4a, c4b, c5a, c5b, c6a, c6b⟩ := idx_facts1 t
  funext a; apply Fin.ext
  match a with
  | ⟨0, _⟩ => show win1_4.index t (0 : Fin 2) * 1 + 1 * k.val = k.val; omega
  | ⟨1, _⟩ => show win1_4.index t (1 : Fin 2) * 64 + 1 * q'.val = q'.val; omega
theorem emb1_5 (t : Fin cfg1.N) (k : Fin 64) (q' : Fin 64) :
    ((cfg1.win 5).blk t).view.emb (ix2 k q') = (ix2 k q') := by
  obtain ⟨r0a, r0b, r1a, r1b, r2a, r2b, r7a, r7b, r8a, r8b, c3a, c3b, c4a, c4b, c5a, c5b, c6a, c6b⟩ := idx_facts1 t
  funext a; apply Fin.ext
  match a with
  | ⟨0, _⟩ => show win1_5.index t (0 : Fin 2) * 64 + 1 * k.val = k.val; omega
  | ⟨1, _⟩ => show win1_5.index t (1 : Fin 2) * 64 + 1 * q'.val = q'.val; omega
theorem emb1_6 (t : Fin cfg1.N) (k : Fin 1) (q' : Fin 64) :
    ((cfg1.win 6).blk t).view.emb (ix2 k q') = (ix2 k q') := by
  obtain ⟨r0a, r0b, r1a, r1b, r2a, r2b, r7a, r7b, r8a, r8b, c3a, c3b, c4a, c4b, c5a, c5b, c6a, c6b⟩ := idx_facts1 t
  funext a; apply Fin.ext
  match a with
  | ⟨0, _⟩ => show win1_6.index t (0 : Fin 2) * 1 + 1 * k.val = k.val; omega
  | ⟨1, _⟩ => show win1_6.index t (1 : Fin 2) * 64 + 1 * q'.val = q'.val; omega

set_option maxHeartbeats 1000000 in
/-- What point `t` writes back into output 0: block `t` of the whole-array function of the launch's input arrays. -/
theorem flushed1_7_eq (c : Dev nD) (t : Fin cfg1.N) :
    (dat1 V c).flushed 7 t = ((cfg1.win 7).blk t).view.read (Elt Ideal)
      (embOut (V c (Pipeline.arrRef spec1 0)) (V c (Pipeline.arrRef spec1 1)) (V c (Pipeline.arrRef spec1 3))
        (V c (Pipeline.arrRef spec1 4)) (V c (Pipeline.arrRef spec1 5)) (V c (Pipeline.arrRef spec1 6))) := by
  show (cfg1.win 7).cut (grid1.coords t) ((dat1 V c).after 7 t) = _
  rw [after1_7]
  funext j
  obtain ⟨p, q, rfl⟩ : ∃ (p : Fin 3000) (q : Fin 64), j = ix2 p q := ⟨j 0, j 1, eq_ix2 j⟩
  refine (out1_7_apply (iblk1 V c 0 t) (iblk1 V c 1 t) (iblk1 V c 2 t) (iblk1 V c 3 t) (iblk1 V c 4 t)
    (iblk1 V c 5 t) (iblk1 V c 6 t) p q).trans ?_
  show newEmb (fun k => V c (Pipeline.arrRef spec1 0) (((cfg1.win 0).blk t).view.emb (ix2 p k)))
      (fun k => V c (Pipeline.arrRef spec1 1) (((cfg1.win 1).blk t).view.emb (ix2 p k)))
      (fun k q' => V c (Pipeline.arrRef spec1 3) (((cfg1.win 3).blk t).view.emb (ix2 k q')))
      (fun k q' => V c (Pipeline.arrRef spec1 5) (((cfg1.win 5).blk t).view.emb (ix2 k q')))
      (fun q' => V c (Pipeline.arrRef spec1 4) (((cfg1.win 4).blk t).view.emb (ix2 0 q')))
      (fun q' => V c (Pipeline.arrRef spec1 6) (((cfg1.win 6).blk t).view.emb (ix2 0 q'))) q
    = embOut (V c (Pipeline.arrRef spec1 0)) (V c (Pipeline.arrRef spec1 1)) (V c (Pipeline.arrRef spec1 3)) (V c (Pipeline.arrRef spec1 4)) (V c (Pipeline.arrRef spec1 5)) (V c (Pipeline.arrRef spec1 6))
        (((cfg1.win 7).blk t).view.emb (ix2 p q))
  rw [emb1_7 t p q]
  refine (newEmb_congr (funext fun k => congrArg (V c (Pipeline.arrRef spec1 0)) (emb1_0 t p k)) (funext fun k => congrArg (V c (Pipeline.arrRef spec1 1)) (emb1_1 t p k))
    (funext fun k => funext fun q' => congrArg (V c (Pipeline.arrRef spec1 3)) (emb1_3 t k q'))
    (funext fun k => funext fun q' => congrArg (V c (Pipeline.arrRef spec1 5)) (emb1_5 t k q'))
    (funext fun q' => congrArg (V c (Pipeline.arrRef spec1 4)) (emb1_4 t 0 q'))
    (funext fun q' => congrArg (V c (Pipeline.arrRef spec1 6)) (emb1_6 t 0 q')) q).trans ?_
  unfold embOut
  rfl

set_option maxHeartbeats 1000000 in
/-- What point `t` writes back into output 1: block `t` of the whole-array function of the launch's input arrays. -/
theorem flushed1_8_eq (c : Dev nD) (t : Fin cfg1.N) :
    (dat1 V c).flushed 8 t = ((cfg1.win 8).blk t).view.read (Elt Ideal)
      (accOut (V c (Pipeline.arrRef spec1 0)) (V c (Pipeline.arrRef spec1 1)) (V c (Pipeline.arrRef spec1 2)) (V c (Pipeline.arrRef spec1 3))
        (V c (Pipeline.arrRef spec1 4)) (V c (Pipeline.arrRef spec1 5)) (V c (Pipeline.arrRef spec1 6))) := by
  show (cfg1.win 8).cut (grid1.coords t) ((dat1 V c).after 8 t) = _
  rw [after1_8]
  funext j
  obtain ⟨p, q, rfl⟩ : ∃ (p : Fin 3000) (q : Fin 64), j = ix2 p q := ⟨j 0, j 1, eq_ix2 j⟩
  refine (out1_8_apply (iblk1 V c 0 t) (iblk1 V c 1 t) (iblk1 V c 2 t) (iblk1 V c 3 t) (iblk1 V c 4 t)
    (iblk1 V c 5 t) (iblk1 V c 6 t) p q).trans ?_
  show newAcc (fun k => V c (Pipeline.arrRef spec1 0) (((cfg1.win 0).blk t).view.emb (ix2 p k)))
      (fun k => V c (Pipeline.arrRef spec1 1) (((cfg1.win 1).blk t).view.emb (ix2 p k)))
      (fun k => V c (Pipeline.arrRef spec1 2) (((cfg1.win 2).blk t).view.emb (ix2 p k)))
      (fun k q' => V c (Pipeline.arrRef spec1 3) (((cfg1.win 3).blk t).view.emb (ix2 k q')))
      (fun k q' => V c (Pipeline.arrRef spec1 5) (((cfg1.win 5).blk t).view.emb (ix2 k q')))
      (fun q' => V c (Pipeline.arrRef spec1 4) (((cfg1.win 4).blk t).view.emb (ix2 0 q')))
      (fun q' => V c (Pipeline.arrRef spec1 6) (((cfg1.win 6).blk t).view.emb (ix2 0 q'))) q
    = accOut (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))
        (((cfg1.win 8).blk t).view.emb (ix2 p q))
  rw [emb1_8 t p q]
  refine (newAcc_congr (funext fun k => congrArg (V c (Pipeline.arrRef spec1 0)) (emb1_0 t p k)) (funext fun k => congrArg (V c (Pipeline.arrRef spec1 1)) (emb1_1 t p k)) (funext fun k => congrArg (V c (Pipeline.arrRef spec1 2)) (emb1_2 t p k))
    (funext fun k => funext fun q' => congrArg (V c (Pipeline.arrRef spec1 3)) (emb1_3 t k q'))
    (funext fun k => funext fun q' => congrArg (V c (Pipeline.arrRef spec1 5)) (emb1_5 t k q'))
    (funext fun q' => congrArg (V c (Pipeline.arrRef spec1 4)) (emb1_4 t 0 q'))
    (funext fun q' => congrArg (V c (Pipeline.arrRef spec1 6)) (emb1_6 t 0 q')) q).trans ?_
  unfold accOut
  rfl

theorem mem_blk1_7 (t : Fin cfg1.N) (i : S150000x64.Idx) :
    i ∈ ((cfg1.win 7).blk t).view.set ↔ ∀ a : Fin 2, win1_7.index t a * S3000x64.size a ≤ (i a).val ∧ (i a).val < win1_7.index t a * S3000x64.size a + S3000x64.size a := by
  show i ∈ ((View.whole main_v79_0).slice (win1_7.rect t)).set ↔ _
  rw [View.set_slice_whole, Rect.mem_set_unit]
  exact Iff.rfl

/-- The fifty blocks tile the array: row r lies in point r / 3000's block. -/
theorem cover1_7' (i : S150000x64.Idx) :
    ∃ t : Fin cfg1.N, (cfg1.win 7).flush t = true ∧ i ∈ ((cfg1.win 7).blk t).view.set := by
  have hi0 : (i 0).val < 150000 := (i 0).isLt
  have hi1 : (i 1).val < 64 := (i 1).isLt
  have hN : cfg1.N = 50 := N_1
  refine ⟨⟨(i 0).val / 3000, by omega⟩, flush1_7 _, ?_⟩
  rw [mem_blk1_7]
  obtain ⟨r0a, r0b, r1a, r1b, r2a, r2b, r7a, r7b, r8a, r8b, c3a, c3b, c4a, c4b, c5a, c5b, c6a, c6b⟩ := idx_facts1 ⟨(i 0).val / 3000, by omega⟩
  intro a
  match a with
  | ⟨0, _⟩ => show win1_7.index _ (0 : Fin 2) * 3000 ≤ (i 0).val ∧ (i 0).val < win1_7.index _ (0 : Fin 2) * 3000 + 3000; rw [r7a]; show (i 0).val / 3000 * 3000 ≤ (i 0).val ∧ (i 0).val < (i 0).val / 3000 * 3000 + 3000; omega
  | ⟨1, _⟩ => show win1_7.index _ (1 : Fin 2) * 64 ≤ (i 1).val ∧ (i 1).val < win1_7.index _ (1 : Fin 2) * 64 + 64; rw [r7b]; omega

theorem mem_blk1_8 (t : Fin cfg1.N) (i : S150000x64.Idx) :
    i ∈ ((cfg1.win 8).blk t).view.set ↔ ∀ a : Fin 2, win1_8.index t a * S3000x64.size a ≤ (i a).val ∧ (i a).val < win1_8.index t a * S3000x64.size a + S3000x64.size a := by
  show i ∈ ((View.whole main_v79_1).slice (win1_8.rect t)).set ↔ _
  rw [View.set_slice_whole, Rect.mem_set_unit]
  exact Iff.rfl

/-- The fifty blocks tile the array: row r lies in point r / 3000's block. -/
theorem cover1_8' (i : S150000x64.Idx) :
    ∃ t : Fin cfg1.N, (cfg1.win 8).flush t = true ∧ i ∈ ((cfg1.win 8).blk t).view.set := by
  have hi0 : (i 0).val < 150000 := (i 0).isLt
  have hi1 : (i 1).val < 64 := (i 1).isLt
  have hN : cfg1.N = 50 := N_1
  refine ⟨⟨(i 0).val / 3000, by omega⟩, flush1_8 _, ?_⟩
  rw [mem_blk1_8]
  obtain ⟨r0a, r0b, r1a, r1b, r2a, r2b, r7a, r7b, r8a, r8b, c3a, c3b, c4a, c4b, c5a, c5b, c6a, c6b⟩ := idx_facts1 ⟨(i 0).val / 3000, by omega⟩
  intro a
  match a with
  | ⟨0, _⟩ => show win1_8.index _ (0 : Fin 2) * 3000 ≤ (i 0).val ∧ (i 0).val < win1_8.index _ (0 : Fin 2) * 3000 + 3000; rw [r8a]; show (i 0).val / 3000 * 3000 ≤ (i 0).val ∧ (i 0).val < (i 0).val / 3000 * 3000 + 3000; omega
  | ⟨1, _⟩ => show win1_8.index _ (1 : Fin 2) * 64 ≤ (i 1).val ∧ (i 1).val < win1_8.index _ (1 : Fin 2) * 64 + 64; rw [r8b]; omega

/-- After the launch, output 0 holds the whole-array function of the launch's input arrays. -/
theorem final1_7 (c : Dev nD) : (dat1 V c).arrAt 7 cfg1.N =
    embOut (V c (Pipeline.arrRef spec1 0)) (V c (Pipeline.arrRef spec1 1)) (V c (Pipeline.arrRef spec1 3))
      (V c (Pipeline.arrRef spec1 4)) (V c (Pipeline.arrRef spec1 5)) (V c (Pipeline.arrRef spec1 6)) :=
  (dat1 V c).arrAt_eq_of_cover 7 _ (fun t _ => flushed1_7_eq V c t) (cover1_7')

/-- After the launch, output 1 holds the whole-array function of the launch's input arrays. -/
theorem final1_8 (c : Dev nD) : (dat1 V c).arrAt 8 cfg1.N =
    accOut (V c (Pipeline.arrRef spec1 0)) (V c (Pipeline.arrRef spec1 1)) (V c (Pipeline.arrRef spec1 2)) (V c (Pipeline.arrRef spec1 3))
      (V c (Pipeline.arrRef spec1 4)) (V c (Pipeline.arrRef spec1 5)) (V c (Pipeline.arrRef spec1 6)) :=
  (dat1 V c).arrAt_eq_of_cover 8 _ (fun t _ => flushed1_8_eq V c t) (cover1_8')

/-! ## Launch 2 -/

/-- The printed index maps, decided over the grid: the row windows move with the point, the others stay. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_7.index t (0 : Fin 2) = t.val ∧ win2_7.index t (1 : Fin 2) = 0
    ∧ win2_8.index t (0 : Fin 2) = t.val ∧ win2_8.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

theorem emb2_0 (t : Fin cfg2.N) (p : Fin 3000) (k : Fin 64) :
    ((cfg2.win 0).blk t).view.emb (ix2 p k) = (ix2 (n0 := 150000) ⟨t.val * 3000 + p.val, by have := lt_of_lt_of_eq t.isLt N_2; omega⟩ k) := by
  obtain ⟨r0a, r0b, r1a, r1b, r2a, r2b, r7a, r7b, r8a, r8b, c3a, c3b, c4a, c4b, c5a, c5b, c6a, c6b⟩ := idx_facts2 t
  funext a; apply Fin.ext
  match a with
  | ⟨0, _⟩ => show win2_0.index t (0 : Fin 2) * 3000 + 1 * p.val = t.val * 3000 + p.val; omega
  | ⟨1, _⟩ => show win2_0.index t (1 : Fin 2) * 64 + 1 * k.val = k.val; omega
theorem emb2_1 (t : Fin cfg2.N) (p : Fin 3000) (k : Fin 64) :
    ((cfg2.win 1).blk t).view.emb (ix2 p k) = (ix2 (n0 := 150000) ⟨t.val * 3000 + p.val, by have := lt_of_lt_of_eq t.isLt N_2; omega⟩ k) := by
  obtain ⟨r0a, r0b, r1a, r1b, r2a, r2b, r7a, r7b, r8a, r8b, c3a, c3b, c4a, c4b, c5a, c5b, c6a, c6b⟩ := idx_facts2 t
  funext a; apply Fin.ext
  match a with
  | ⟨0, _⟩ => show win2_1.index t (0 : Fin 2) * 3000 + 1 * p.val = t.val * 3000 + p.val; omega
  | ⟨1, _⟩ => show win2_1.index t (1 : Fin 2) * 64 + 1 * k.val = k.val; omega
theorem emb2_2 (t : Fin cfg2.N) (p : Fin 3000) (k : Fin 64) :
    ((cfg2.win 2).blk t).view.emb (ix2 p k) = (ix2 (n0 := 150000) ⟨t.val * 3000 + p.val, by have := lt_of_lt_of_eq t.isLt N_2; omega⟩ k) := by
  obtain ⟨r0a, r0b, r1a, r1b, r2a, r2b, r7a, r7b, r8a, r8b, c3a, c3b, c4a, c4b, c5a, c5b, c6a, c6b⟩ := idx_facts2 t
  funext a; apply Fin.ext
  match a with
  | ⟨0, _⟩ => show win2_2.index t (0 : Fin 2) * 3000 + 1 * p.val = t.val * 3000 + p.val; omega
  | ⟨1, _⟩ => show win2_2.index t (1 : Fin 2) * 64 + 1 * k.val = k.val; omega
theorem emb2_7 (t : Fin cfg2.N) (p : Fin 3000) (k : Fin 64) :
    ((cfg2.win 7).blk t).view.emb (ix2 p k) = (ix2 (n0 := 150000) ⟨t.val * 3000 + p.val, by have := lt_of_lt_of_eq t.isLt N_2; omega⟩ k) := by
  obtain ⟨r0a, r0b, r1a, r1b, r2a, r2b, r7a, r7b, r8a, r8b, c3a, c3b, c4a, c4b, c5a, c5b, c6a, c6b⟩ := idx_facts2 t
  funext a; apply Fin.ext
  match a with
  | ⟨0, _⟩ => show win2_7.index t (0 : Fin 2) * 3000 + 1 * p.val = t.val * 3000 + p.val; omega
  | ⟨1, _⟩ => show win2_7.index t (1 : Fin 2) * 64 + 1 * k.val = k.val; omega
theorem emb2_8 (t : Fin cfg2.N) (p : Fin 3000) (k : Fin 64) :
    ((cfg2.win 8).blk t).view.emb (ix2 p k) = (ix2 (n0 := 150000) ⟨t.val * 3000 + p.val, by have := lt_of_lt_of_eq t.isLt N_2; omega⟩ k) := by
  obtain ⟨r0a, r0b, r1a, r1b, r2a, r2b, r7a, r7b, r8a, r8b, c3a, c3b, c4a, c4b, c5a, c5b, c6a, c6b⟩ := idx_facts2 t
  funext a; apply Fin.ext
  match a with
  | ⟨0, _⟩ => show win2_8.index t (0 : Fin 2) * 3000 + 1 * p.val = t.val * 3000 + p.val; omega
  | ⟨1, _⟩ => show win2_8.index t (1 : Fin 2) * 64 + 1 * k.val = k.val; omega
theorem emb2_3 (t : Fin cfg2.N) (k : Fin 64) (q' : Fin 64) :
    ((cfg2.win 3).blk t).view.emb (ix2 k q') = (ix2 k q') := by
  obtain ⟨r0a, r0b, r1a, r1b, r2a, r2b, r7a, r7b, r8a, r8b, c3a, c3b, c4a, c4b, c5a, c5b, c6a, c6b⟩ := idx_facts2 t
  funext a; apply Fin.ext
  match a with
  | ⟨0, _⟩ => show win2_3.index t (0 : Fin 2) * 64 + 1 * k.val = k.val; omega
  | ⟨1, _⟩ => show win2_3.index t (1 : Fin 2) * 64 + 1 * q'.val = q'.val; omega
theorem emb2_4 (t : Fin cfg2.N) (k : Fin 1) (q' : Fin 64) :
    ((cfg2.win 4).blk t).view.emb (ix2 k q') = (ix2 k q') := by
  obtain ⟨r0a, r0b, r1a, r1b, r2a, r2b, r7a, r7b, r8a, r8b, c3a, c3b, c4a, c4b, c5a, c5b, c6a, c6b⟩ := idx_facts2 t
  funext a; apply Fin.ext
  match a with
  | ⟨0, _⟩ => show win2_4.index t (0 : Fin 2) * 1 + 1 * k.val = k.val; omega
  | ⟨1, _⟩ => show win2_4.index t (1 : Fin 2) * 64 + 1 * q'.val = q'.val; omega
theorem emb2_5 (t : Fin cfg2.N) (k : Fin 64) (q' : Fin 64) :
    ((cfg2.win 5).blk t).view.emb (ix2 k q') = (ix2 k q') := by
  obtain ⟨r0a, r0b, r1a, r1b, r2a, r2b, r7a, r7b, r8a, r8b, c3a, c3b, c4a, c4b, c5a, c5b, c6a, c6b⟩ := idx_facts2 t
  funext a; apply Fin.ext
  match a with
  | ⟨0, _⟩ => show win2_5.index t (0 : Fin 2) * 64 + 1 * k.val = k.val; omega
  | ⟨1, _⟩ => show win2_5.index t (1 : Fin 2) * 64 + 1 * q'.val = q'.val; omega
theorem emb2_6 (t : Fin cfg2.N) (k : Fin 1) (q' : Fin 64) :
    ((cfg2.win 6).blk t).view.emb (ix2 k q') = (ix2 k q') := by
  obtain ⟨r0a, r0b, r1a, r1b, r2a, r2b, r7a, r7b, r8a, r8b, c3a, c3b, c4a, c4b, c5a, c5b, c6a, c6b⟩ := idx_facts2 t
  funext a; apply Fin.ext
  match a with
  | ⟨0, _⟩ => show win2_6.index t (0 : Fin 2) * 1 + 1 * k.val = k.val; omega
  | ⟨1, _⟩ => show win2_6.index t (1 : Fin 2) * 64 + 1 * q'.val = q'.val; omega

set_option maxHeartbeats 1000000 in
/-- What point `t` writes back into output 0: block `t` of the whole-array function of the launch's input arrays. -/
theorem flushed2_7_eq (c : Dev nD) (t : Fin cfg2.N) :
    (dat2 V c).flushed 7 t = ((cfg2.win 7).blk t).view.read (Elt Ideal)
      (embOut (V c (Pipeline.arrRef spec2 0)) (V c (Pipeline.arrRef spec2 1)) (V c (Pipeline.arrRef spec2 3))
        (V c (Pipeline.arrRef spec2 4)) (V c (Pipeline.arrRef spec2 5)) (V c (Pipeline.arrRef spec2 6))) := by
  show (cfg2.win 7).cut (grid2.coords t) ((dat2 V c).after 7 t) = _
  rw [after2_7]
  funext j
  obtain ⟨p, q, rfl⟩ : ∃ (p : Fin 3000) (q : Fin 64), j = ix2 p q := ⟨j 0, j 1, eq_ix2 j⟩
  refine (out2_7_apply (iblk2 V c 0 t) (iblk2 V c 1 t) (iblk2 V c 2 t) (iblk2 V c 3 t) (iblk2 V c 4 t)
    (iblk2 V c 5 t) (iblk2 V c 6 t) p q).trans ?_
  show newEmb (fun k => V c (Pipeline.arrRef spec2 0) (((cfg2.win 0).blk t).view.emb (ix2 p k)))
      (fun k => V c (Pipeline.arrRef spec2 1) (((cfg2.win 1).blk t).view.emb (ix2 p k)))
      (fun k q' => V c (Pipeline.arrRef spec2 3) (((cfg2.win 3).blk t).view.emb (ix2 k q')))
      (fun k q' => V c (Pipeline.arrRef spec2 5) (((cfg2.win 5).blk t).view.emb (ix2 k q')))
      (fun q' => V c (Pipeline.arrRef spec2 4) (((cfg2.win 4).blk t).view.emb (ix2 0 q')))
      (fun q' => V c (Pipeline.arrRef spec2 6) (((cfg2.win 6).blk t).view.emb (ix2 0 q'))) q
    = embOut (V c (Pipeline.arrRef spec2 0)) (V c (Pipeline.arrRef spec2 1)) (V c (Pipeline.arrRef spec2 3)) (V c (Pipeline.arrRef spec2 4)) (V c (Pipeline.arrRef spec2 5)) (V c (Pipeline.arrRef spec2 6))
        (((cfg2.win 7).blk t).view.emb (ix2 p q))
  rw [emb2_7 t p q]
  refine (newEmb_congr (funext fun k => congrArg (V c (Pipeline.arrRef spec2 0)) (emb2_0 t p k)) (funext fun k => congrArg (V c (Pipeline.arrRef spec2 1)) (emb2_1 t p k))
    (funext fun k => funext fun q' => congrArg (V c (Pipeline.arrRef spec2 3)) (emb2_3 t k q'))
    (funext fun k => funext fun q' => congrArg (V c (Pipeline.arrRef spec2 5)) (emb2_5 t k q'))
    (funext fun q' => congrArg (V c (Pipeline.arrRef spec2 4)) (emb2_4 t 0 q'))
    (funext fun q' => congrArg (V c (Pipeline.arrRef spec2 6)) (emb2_6 t 0 q')) q).trans ?_
  unfold embOut
  rfl

set_option maxHeartbeats 1000000 in
/-- What point `t` writes back into output 1: block `t` of the whole-array function of the launch's input arrays. -/
theorem flushed2_8_eq (c : Dev nD) (t : Fin cfg2.N) :
    (dat2 V c).flushed 8 t = ((cfg2.win 8).blk t).view.read (Elt Ideal)
      (accOut (V c (Pipeline.arrRef spec2 0)) (V c (Pipeline.arrRef spec2 1)) (V c (Pipeline.arrRef spec2 2)) (V c (Pipeline.arrRef spec2 3))
        (V c (Pipeline.arrRef spec2 4)) (V c (Pipeline.arrRef spec2 5)) (V c (Pipeline.arrRef spec2 6))) := by
  show (cfg2.win 8).cut (grid2.coords t) ((dat2 V c).after 8 t) = _
  rw [after2_8]
  funext j
  obtain ⟨p, q, rfl⟩ : ∃ (p : Fin 3000) (q : Fin 64), j = ix2 p q := ⟨j 0, j 1, eq_ix2 j⟩
  refine (out2_8_apply (iblk2 V c 0 t) (iblk2 V c 1 t) (iblk2 V c 2 t) (iblk2 V c 3 t) (iblk2 V c 4 t)
    (iblk2 V c 5 t) (iblk2 V c 6 t) p q).trans ?_
  show newAcc (fun k => V c (Pipeline.arrRef spec2 0) (((cfg2.win 0).blk t).view.emb (ix2 p k)))
      (fun k => V c (Pipeline.arrRef spec2 1) (((cfg2.win 1).blk t).view.emb (ix2 p k)))
      (fun k => V c (Pipeline.arrRef spec2 2) (((cfg2.win 2).blk t).view.emb (ix2 p k)))
      (fun k q' => V c (Pipeline.arrRef spec2 3) (((cfg2.win 3).blk t).view.emb (ix2 k q')))
      (fun k q' => V c (Pipeline.arrRef spec2 5) (((cfg2.win 5).blk t).view.emb (ix2 k q')))
      (fun q' => V c (Pipeline.arrRef spec2 4) (((cfg2.win 4).blk t).view.emb (ix2 0 q')))
      (fun q' => V c (Pipeline.arrRef spec2 6) (((cfg2.win 6).blk t).view.emb (ix2 0 q'))) q
    = accOut (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))
        (((cfg2.win 8).blk t).view.emb (ix2 p q))
  rw [emb2_8 t p q]
  refine (newAcc_congr (funext fun k => congrArg (V c (Pipeline.arrRef spec2 0)) (emb2_0 t p k)) (funext fun k => congrArg (V c (Pipeline.arrRef spec2 1)) (emb2_1 t p k)) (funext fun k => congrArg (V c (Pipeline.arrRef spec2 2)) (emb2_2 t p k))
    (funext fun k => funext fun q' => congrArg (V c (Pipeline.arrRef spec2 3)) (emb2_3 t k q'))
    (funext fun k => funext fun q' => congrArg (V c (Pipeline.arrRef spec2 5)) (emb2_5 t k q'))
    (funext fun q' => congrArg (V c (Pipeline.arrRef spec2 4)) (emb2_4 t 0 q'))
    (funext fun q' => congrArg (V c (Pipeline.arrRef spec2 6)) (emb2_6 t 0 q')) q).trans ?_
  unfold accOut
  rfl

theorem mem_blk2_7 (t : Fin cfg2.N) (i : S150000x64.Idx) :
    i ∈ ((cfg2.win 7).blk t).view.set ↔ ∀ a : Fin 2, win2_7.index t a * S3000x64.size a ≤ (i a).val ∧ (i a).val < win2_7.index t a * S3000x64.size a + S3000x64.size a := by
  show i ∈ ((View.whole main_v101_0).slice (win2_7.rect t)).set ↔ _
  rw [View.set_slice_whole, Rect.mem_set_unit]
  exact Iff.rfl

/-- The fifty blocks tile the array: row r lies in point r / 3000's block. -/
theorem cover2_7' (i : S150000x64.Idx) :
    ∃ t : Fin cfg2.N, (cfg2.win 7).flush t = true ∧ i ∈ ((cfg2.win 7).blk t).view.set := by
  have hi0 : (i 0).val < 150000 := (i 0).isLt
  have hi1 : (i 1).val < 64 := (i 1).isLt
  have hN : cfg2.N = 50 := N_2
  refine ⟨⟨(i 0).val / 3000, by omega⟩, flush2_7 _, ?_⟩
  rw [mem_blk2_7]
  obtain ⟨r0a, r0b, r1a, r1b, r2a, r2b, r7a, r7b, r8a, r8b, c3a, c3b, c4a, c4b, c5a, c5b, c6a, c6b⟩ := idx_facts2 ⟨(i 0).val / 3000, by omega⟩
  intro a
  match a with
  | ⟨0, _⟩ => show win2_7.index _ (0 : Fin 2) * 3000 ≤ (i 0).val ∧ (i 0).val < win2_7.index _ (0 : Fin 2) * 3000 + 3000; rw [r7a]; show (i 0).val / 3000 * 3000 ≤ (i 0).val ∧ (i 0).val < (i 0).val / 3000 * 3000 + 3000; omega
  | ⟨1, _⟩ => show win2_7.index _ (1 : Fin 2) * 64 ≤ (i 1).val ∧ (i 1).val < win2_7.index _ (1 : Fin 2) * 64 + 64; rw [r7b]; omega

theorem mem_blk2_8 (t : Fin cfg2.N) (i : S150000x64.Idx) :
    i ∈ ((cfg2.win 8).blk t).view.set ↔ ∀ a : Fin 2, win2_8.index t a * S3000x64.size a ≤ (i a).val ∧ (i a).val < win2_8.index t a * S3000x64.size a + S3000x64.size a := by
  show i ∈ ((View.whole main_v101_1).slice (win2_8.rect t)).set ↔ _
  rw [View.set_slice_whole, Rect.mem_set_unit]
  exact Iff.rfl

/-- The fifty blocks tile the array: row r lies in point r / 3000's block. -/
theorem cover2_8' (i : S150000x64.Idx) :
    ∃ t : Fin cfg2.N, (cfg2.win 8).flush t = true ∧ i ∈ ((cfg2.win 8).blk t).view.set := by
  have hi0 : (i 0).val < 150000 := (i 0).isLt
  have hi1 : (i 1).val < 64 := (i 1).isLt
  have hN : cfg2.N = 50 := N_2
  refine ⟨⟨(i 0).val / 3000, by omega⟩, flush2_8 _, ?_⟩
  rw [mem_blk2_8]
  obtain ⟨r0a, r0b, r1a, r1b, r2a, r2b, r7a, r7b, r8a, r8b, c3a, c3b, c4a, c4b, c5a, c5b, c6a, c6b⟩ := idx_facts2 ⟨(i 0).val / 3000, by omega⟩
  intro a
  match a with
  | ⟨0, _⟩ => show win2_8.index _ (0 : Fin 2) * 3000 ≤ (i 0).val ∧ (i 0).val < win2_8.index _ (0 : Fin 2) * 3000 + 3000; rw [r8a]; show (i 0).val / 3000 * 3000 ≤ (i 0).val ∧ (i 0).val < (i 0).val / 3000 * 3000 + 3000; omega
  | ⟨1, _⟩ => show win2_8.index _ (1 : Fin 2) * 64 ≤ (i 1).val ∧ (i 1).val < win2_8.index _ (1 : Fin 2) * 64 + 64; rw [r8b]; omega

/-- After the launch, output 0 holds the whole-array function of the launch's input arrays. -/
theorem final2_7 (c : Dev nD) : (dat2 V c).arrAt 7 cfg2.N =
    embOut (V c (Pipeline.arrRef spec2 0)) (V c (Pipeline.arrRef spec2 1)) (V c (Pipeline.arrRef spec2 3))
      (V c (Pipeline.arrRef spec2 4)) (V c (Pipeline.arrRef spec2 5)) (V c (Pipeline.arrRef spec2 6)) :=
  (dat2 V c).arrAt_eq_of_cover 7 _ (fun t _ => flushed2_7_eq V c t) (cover2_7')

/-- After the launch, output 1 holds the whole-array function of the launch's input arrays. -/
theorem final2_8 (c : Dev nD) : (dat2 V c).arrAt 8 cfg2.N =
    accOut (V c (Pipeline.arrRef spec2 0)) (V c (Pipeline.arrRef spec2 1)) (V c (Pipeline.arrRef spec2 2)) (V c (Pipeline.arrRef spec2 3))
      (V c (Pipeline.arrRef spec2 4)) (V c (Pipeline.arrRef spec2 5)) (V c (Pipeline.arrRef spec2 6)) :=
  (dat2 V c).arrAt_eq_of_cover 8 _ (fun t _ => flushed2_8_eq V c t) (cover2_8')

end Cert.KernelIdeal.Hand

end
-- ==== Proof.LibDotNN.lean ====
/-
  A reusable lemma: a host matrix product read at an entry.

  A `dot_general` of an [M, K] operand by a [K, N] operand — contracting axis 1 of the left with axis 0 of the right, no
  batch axes — read over the extended reals at the output entry (p, q) is the inner product of row p of the left operand
  with column q of the right one:  (L · R)[p, q] = Σ_{k < K} L[p, k] · R[k, q].
  Generic in the extents M, K, N and in the operands' float formats; the dimension record may be any one that equals the
  plain M×K by K×N record (a printed program's own record does, by unfolding).
-/
import proofs.«146559_j69123203662125_1_alg».proof.Proof.LibMatmulNN
import Idealize.ShloMosaic.PureOps.Ideal.Laws
import Idealize.ShloMosaic.Lib.ValueIdx

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    Host.dotGeneral D prec lhs rhs (ix2 p q) = ∑ k : Fin K, lhs (ix2 p k) * rhs (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [MatmulNN.lhsIdx_plain, MatmulNN.rhsIdx_plain]

end Cert.DotNN

end
-- ==== Proof.LibBroadcastRows.lean ====
/-
  Reusable lemmas: how a host program repeats a vector down the rows of a matrix, read at an entry.

  jnp broadcasts a vector [b] against a matrix [M, b] in two steps: the vector viewed as one row, [b] -> [1, b]
  (`broadcast_in_dim` with dims [1]), and that row repeated down the M rows, [1, b] -> [M, b] (dims [0, 1]).
  At (p, c) the result is the vector's entry c, whatever the row p. Generic in M, b and in the element type.
-/
import Idealize.ShloMosaic.Lib.Pipeline.Value
import Idealize.ShloMosaic.Lib.ValueIdx

noncomputable section

namespace Cert.BroadcastRows

open Idealize.ShloMosaic Idealize.ShloMosaic.ValueIdx

variable {α : Type} {M b : ℕ}

/-- One row repeated down M rows reads, at (p, c), the row's entry c. -/
theorem row_apply (v : (⟨2, ![1, b]⟩ : Shape).Idx → α)
    (h : (⟨2, ![1, b]⟩ : Shape).BroadcastsInDim ⟨2, ![M, b]⟩ ![0, 1]) (p : Fin M) (c : Fin b) :
    broadcastInDim ⟨2, ![M, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector viewed as one row reads, at (u, c), the vector's entry c. -/
theorem unit_apply (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end Cert.BroadcastRows

end
-- ==== Proof.LibHostBroadcasts.lean ====
/-
  Reusable lemmas: how a host program spreads a scalar, a vector or a column over a larger array, read at an entry.

  jnp lowers broadcasting to `broadcast_in_dim` with an explicit map from the operand's axes to the result's:
    a scalar [] to any shape (no axes mapped):      every entry is the scalar;
    a vector [T] to a column [T, 1] (dims [0]):     entry (e, u) is the vector's entry e;
    a column [T, 1] to a matrix [T, C] (dims [0,1]): entry (e, c) is the column's entry (e, 0).
  Generic in the extents and in the element type.
-/
import Idealize.ShloMosaic.Lib.Pipeline.Value
import Idealize.ShloMosaic.Lib.ValueIdx

noncomputable section

namespace Cert.HostBroadcasts

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector viewed as a column reads, at (e, u), the vector's entry e. -/
theorem col_apply {T : ℕ} (v : (⟨1, ![T]⟩ : Shape).Idx → α)
    (h : (⟨1, ![T]⟩ : Shape).BroadcastsInDim ⟨2, ![T, 1]⟩ ![0]) (e : Fin T) (u : Fin 1) :
    broadcastInDim ⟨2, ![T, 1]⟩ ![0] h v (ix2 e u) = v (ix1 e) := by
  refine broadcastInDim_apply ![0] h v (ix2 e u) (ix1 e) fun ax => ?_
  match ax with
  | ⟨0, _⟩ =>
    show e.val = if T = 1 then 0 else e.val
    split
    · have := e.isLt; omega
    · rfl

/-- A column repeated along the rows' entries reads, at (e, c), the column's entry (e, 0). -/
theorem col_rows_apply {T C : ℕ} (v : (⟨2, ![T, 1]⟩ : Shape).Idx → α)
    (h : (⟨2, ![T, 1]⟩ : Shape).BroadcastsInDim ⟨2, ![T, C]⟩ ![0, 1]) (e : Fin T) (c : Fin C) :
    broadcastInDim ⟨2, ![T, C]⟩ ![0, 1] h v (ix2 e c) = v (ix2 e (0 : Fin 1)) := by
  refine broadcastInDim_apply ![0, 1] h v (ix2 e c) (ix2 e (0 : Fin 1)) fun ax => ?_
  match ax with
  | ⟨0, _⟩ =>
    show e.val = if T = 1 then 0 else e.val
    split
    · have := e.isLt; omega
    · rfl
  | ⟨1, _⟩ => rfl

end Cert.HostBroadcasts

end
-- ==== Proof.RefLayerValue.lean ====
/- One layer of the reference read at an entry.

   Over the extended reals, row r and column q of a layer's new embeddings are the row-wise layer of LayerSpec at the
   rows r of the propagated and the current embeddings: the two products read as inner products of the row with a
   column of the transposed weight, the bias repeated down the rows read as its entry, the rectifier and the sums read
   entry by entry, and the norm's reduction over the columns read as the sum over the row. -/
import proofs.«146559_j69123203662125_1_alg».proof.Proof.RefRun
import proofs.«146559_j69123203662125_1_alg».proof.Proof.LayerSpec
import proofs.«146559_j69123203662125_1_alg».proof.Proof.LibDotNN
import proofs.«146559_j69123203662125_1_alg».proof.Proof.LibBroadcastRows
import proofs.«146559_j69123203662125_1_alg».proof.Proof.LibHostBroadcasts
import Idealize.ShloMosaic.PureOps.Ideal.Laws
import Idealize.ShloMosaic.Lib.ValueIdx
import Idealize.ShloMosaic.Lib.Pipeline.Value

noncomputable section

namespace Cert.ReferenceIdeal.RefRun

open Cert.ReferenceIdeal Cert.ReferenceIdeal.Gen Idealize.ShloMosaic Idealize.ShloMosaic.ValueIdx

/-- The transposed weight at (input k, output q) is the stack's entry (l, q, k). -/
theorem weightT_apply (off : Fin 3 → ℕ) (h : S3x64x64.Slices off S1x64x64) (W : FVec Ideal S3x64x64 .f32) (l : Fin 3)
    (h0 : off 0 = l.val) (h1 : off 1 = 0) (h2 : off 2 = 0) (k q : Fin 64) :
    weightT (F := Ideal) off h W (ix2 k q) = W (ix3 l q k) := by
  unfold weightT
  refine (transpose_apply [1, 0] _ transposes_S64x64_S64x64_1_0 (ix2 k q) (ix2 q k) fun b => ?_).trans ?_
  · match b with
    | ⟨0, _⟩ => rfl
    | ⟨1, _⟩ => rfl
  refine (shapeCast_apply _ shapeCasts_S1x64x64_S64x64 (ix2 q k) (ix3 (0 : Fin 1) q k) ?_).trans ?_
  · rw [Shape.rowMajor_val_three, Shape.rowMajor_val_two]
    show ((0 : ℕ) * 64 + q.val) * 64 + k.val = q.val * 64 + k.val
    omega
  refine extractStridedSlice_apply off W h (ix3 (0 : Fin 1) q k) (ix3 l q k) fun a => ?_
  match a with
  | ⟨0, _⟩ => show l.val = off 0 + 0; omega
  | ⟨1, _⟩ => show q.val = off 1 + q.val; omega
  | ⟨2, _⟩ => show k.val = off 2 + k.val; omega

/-- The bias repeated down the rows reads, at (r, q), the stack's entry (l, q). -/
theorem biasRows_apply (off : Fin 2 → ℕ) (h : S3x64.Slices off S1x64) (b : FVec Ideal S3x64 .f32) (l : Fin 3)
    (h0 : off 0 = l.val) (h1 : off 1 = 0) (r : Fin 150000) (q : Fin 64) :
    biasRows (F := Ideal) off h b (ix2 r q) = b (ix2 l q) := by
  unfold biasRows
  refine (Cert.BroadcastRows.row_apply _ bcast_S1x64_S150000x64_0_1 r q).trans ?_
  refine (Cert.BroadcastRows.unit_apply _ bcast_S64_S1x64_1 (0 : Fin 1) q).trans ?_
  refine (shapeCast_apply _ shapeCasts_S1x64_S64 (ix1 q) (ix2 (0 : Fin 1) q) ?_).trans ?_
  · rw [Shape.rowMajor_val_two, Shape.rowMajor_val_one]
    show (0 : ℕ) * 64 + q.val = q.val
    omega
  refine extractStridedSlice_apply off b h (ix2 (0 : Fin 1) q) (ix2 l q) fun a => ?_
  match a with
  | ⟨0, _⟩ => show l.val = off 0 + 0; omega
  | ⟨1, _⟩ => show q.val = off 1 + q.val; omega

/-- `X · Wᵀ + b` at (r, q): the row-wise affine map of row r. -/
theorem affine_apply (offW : Fin 3 → ℕ) (offb : Fin 2 → ℕ) (hW : S3x64x64.Slices offW S1x64x64) (hb : S3x64.Slices offb S1x64)
    (X : FVec Ideal S150000x64 .f32) (W : FVec Ideal S3x64x64 .f32) (b : FVec Ideal S3x64 .f32) (l : Fin 3)
    (hW0 : offW 0 = l.val) (hW1 : offW 1 = 0) (hW2 : offW 2 = 0) (hb0 : offb 0 = l.val) (hb1 : offb 1 = 0)
    (r : Fin 150000) (q : Fin 64) :
    affine (F := Ideal) offW offb hW hb X W b (ix2 r q)
      = Cert.LayerSpec.lin (fun k => X (ix2 r k)) (fun k q' => W (ix3 l q' k)) (fun q' => b (ix2 l q')) q := by
  unfold affine Cert.LayerSpec.lin
  show Host.dotGeneral dot_S150000x64_S64x64_S150000x64_1_0_0_1_n_n none X (weightT offW hW W) (ix2 r q)
      + biasRows offb hb b (ix2 r q) = (∑ k : Fin 64, X (ix2 r k) * W (ix3 l q k)) + b (ix2 l q)
  rw [Cert.DotNN.dotGeneral_apply dot_S150000x64_S64x64_S150000x64_1_0_0_1_n_n rfl none X (weightT offW hW W) r q,
    biasRows_apply offb hb b l hb0 hb1 r q]
  congr 1
  exact Finset.sum_congr rfl fun k _ => by rw [weightT_apply offW hW W l hW0 hW1 hW2 k q]

/-- The leaky rectifier at an entry is the scalar one of the entry. -/
theorem leakyRelu_apply (x : FVec Ideal S150000x64 .f32) (j : S150000x64.Idx) :
    leakyRelu (F := Ideal) x (constant S_ .f32 0x3E4CCCCD#32) j = Cert.LayerSpec.act (x j) := rfl

/-- The sum of squares along row r. -/
theorem rowSumSq_apply (x : FVec Ideal S150000x64 .f32) (r : Fin 150000) :
    Host.reduceAdd (F := Ideal) (mulf x x) (constant S_ .f32 0x00000000#32) reducesTo_S150000x64_S150000_d1 h_S_ (ix1 r)
      = ∑ q : Fin 64, x (ix2 r q) * x (ix2 r q) := by
  have hR : S150000x64.Reduces [1] S150000 := by decide
  unfold Host.reduceAdd
  show Ideal.hostReduceAdd reducesTo_S150000x64_S150000_d1 (mulf x x) (Ideal.ofBits .f32 0x00000000#32) (ix1 r) = _
  rw [Ideal.hostReduceAdd_single reducesTo_S150000x64_S150000_d1 hR, Ideal.ofBits_zero_f32, zero_add]
  show ∑ k : Fin 64, (mulf x x) (hR.lift (ix1 r) k) = _
  refine Finset.sum_congr rfl fun k _ => ?_
  have hk : hR.lift (ix1 r) k = ix2 r k := funext fun c => Fin.ext (by
    match c with
    | ⟨0, _⟩ => rfl
    | ⟨1, _⟩ => rfl)
  rw [hk]
  rfl

/-- The host's quotient, root and maximum at an entry are the scalar ones of the entries. -/
theorem hostDivf_apply {s : Shape} (x y : FVec Ideal s .f32) (i : s.Idx) :
    Host.divf x y i = FloatOps.divf (F := Ideal) (x i) (y i) := rfl
theorem hostSqrt_apply {s : Shape} (x : FVec Ideal s .f32) (i : s.Idx) :
    Host.sqrt x i = FloatOps.sqrt (F := Ideal) (x i) := rfl
theorem maximumf_apply' {s : Shape} (x y : FVec Ideal s .f32) (i : s.Idx) :
    maximumf x y i = FloatOps.maximumf (F := Ideal) (x i) (y i) := rfl

/-- A row divided by its norm, at (r, q). -/
theorem l2normalize_apply (x : FVec Ideal S150000x64 .f32) (r : Fin 150000) (q : Fin 64) :
    l2normalize (F := Ideal) x (ix2 r q)
      = FloatOps.divf (F := Ideal) (x (ix2 r q)) (Cert.LayerSpec.norm fun q' => x (ix2 r q')) := by
  unfold l2normalize Cert.LayerSpec.norm
  rw [hostDivf_apply]
  refine congrArg (FloatOps.divf (F := Ideal) (x (ix2 r q))) ?_
  refine (Cert.HostBroadcasts.col_rows_apply _ bcast_S150000x1_S150000x64_0_1 r q).trans ?_
  rw [maximumf_apply', hostSqrt_apply, Cert.HostBroadcasts.col_apply _ bcast_S150000_S150000x1_0 r (0 : Fin 1),
    rowSumSq_apply x r, Cert.HostBroadcasts.scalar_apply]
  rfl

/-- The row before normalisation, at (r, q'). -/
theorem preRow_apply (offW : Fin 3 → ℕ) (offb : Fin 2 → ℕ) (hW : S3x64x64.Slices offW S1x64x64) (hb : S3x64.Slices offb S1x64)
    (l : Fin 3) (hW0 : offW 0 = l.val) (hW1 : offW 1 = 0) (hW2 : offW 2 = 0) (hb0 : offb 0 = l.val) (hb1 : offb 1 = 0)
    (g emb : FVec Ideal S150000x64 .f32) (Wgc : FVec Ideal S3x64x64 .f32) (bgc : FVec Ideal S3x64 .f32)
    (Wbi : FVec Ideal S3x64x64 .f32) (bbi : FVec Ideal S3x64 .f32) (r : Fin 150000) (q : Fin 64) :
    addf (leakyRelu (affine (F := Ideal) offW offb hW hb g Wgc bgc) (constant S_ .f32 0x3E4CCCCD#32))
        (leakyRelu (affine (F := Ideal) offW offb hW hb (mulf emb g) Wbi bbi) (constant S_ .f32 0x3E4CCCCD#32)) (ix2 r q)
      = Cert.LayerSpec.pre (fun k => g (ix2 r k)) (fun k => emb (ix2 r k)) (fun k q' => Wgc (ix3 l q' k))
          (fun k q' => Wbi (ix3 l q' k)) (fun q' => bgc (ix2 l q')) (fun q' => bbi (ix2 l q')) q := by
  unfold Cert.LayerSpec.pre
  rw [addf_apply, leakyRelu_apply, leakyRelu_apply,
    affine_apply offW offb hW hb g Wgc bgc l hW0 hW1 hW2 hb0 hb1 r q,
    affine_apply offW offb hW hb (mulf emb g) Wbi bbi l hW0 hW1 hW2 hb0 hb1 r q]
  rfl

/-- A layer's new embeddings at (r, q): the row-wise layer of row r. -/
theorem layerEmb_apply (offW : Fin 3 → ℕ) (offb : Fin 2 → ℕ) (hW : S3x64x64.Slices offW S1x64x64) (hb : S3x64.Slices offb S1x64)
    (l : Fin 3) (hW0 : offW 0 = l.val) (hW1 : offW 1 = 0) (hW2 : offW 2 = 0) (hb0 : offb 0 = l.val) (hb1 : offb 1 = 0)
    (g emb : FVec Ideal S150000x64 .f32) (Wgc : FVec Ideal S3x64x64 .f32) (bgc : FVec Ideal S3x64 .f32)
    (Wbi : FVec Ideal S3x64x64 .f32) (bbi : FVec Ideal S3x64 .f32) (r : Fin 150000) (q : Fin 64) :
    layerEmb (F := Ideal) offW offb hW hb g emb Wgc bgc Wbi bbi (ix2 r q)
      = Cert.LayerSpec.newEmb (fun k => g (ix2 r k)) (fun k => emb (ix2 r k)) (fun k q' => Wgc (ix3 l q' k))
          (fun k q' => Wbi (ix3 l q' k)) (fun q' => bgc (ix2 l q')) (fun q' => bbi (ix2 l q')) q := by
  unfold layerEmb Cert.LayerSpec.newEmb
  rw [l2normalize_apply, preRow_apply offW offb hW hb l hW0 hW1 hW2 hb0 hb1 g emb Wgc bgc Wbi bbi r q]
  refine congrArg (fun s => FloatOps.divf (F := Ideal) _ (Cert.LayerSpec.norm s)) ?_
  exact funext fun q' => preRow_apply offW offb hW hb l hW0 hW1 hW2 hb0 hb1 g emb Wgc bgc Wbi bbi r q'

/-- Layer 0's new embeddings at (r, q). -/
theorem layer0_fst_apply (g emb acc : FVec Ideal S150000x64 .f32) (Wgc : FVec Ideal S3x64x64 .f32)
    (bgc : FVec Ideal S3x64 .f32) (Wbi : FVec Ideal S3x64x64 .f32) (bbi : FVec Ideal S3x64 .f32) (r : Fin 150000) (q : Fin 64) :
    (layer0 (F := Ideal) g emb acc Wgc bgc Wbi bbi).1 (ix2 r q)
      = Cert.LayerSpec.newEmb (fun k => g (ix2 r k)) (fun k => emb (ix2 r k)) (fun k q' => Wgc (ix3 0 q' k)) (fun k q' => Wbi (ix3 0 q' k))
          (fun q' => bgc (ix2 0 q')) (fun q' => bbi (ix2 0 q')) q :=
  layerEmb_apply ![0, 0, 0] ![0, 0] slices_S3x64x64_S1x64x64_0_0_0 slices_S3x64_S1x64_0_0 0 rfl rfl rfl rfl rfl
    g emb Wgc bgc Wbi bbi r q

/-- Layer 0's running sum at (r, q). -/
theorem layer0_snd_apply (g emb acc : FVec Ideal S150000x64 .f32) (Wgc : FVec Ideal S3x64x64 .f32)
    (bgc : FVec Ideal S3x64 .f32) (Wbi : FVec Ideal S3x64x64 .f32) (bbi : FVec Ideal S3x64 .f32) (r : Fin 150000) (q : Fin 64) :
    (layer0 (F := Ideal) g emb acc Wgc bgc Wbi bbi).2 (ix2 r q)
      = Cert.LayerSpec.newAcc (fun k => g (ix2 r k)) (fun k => emb (ix2 r k)) (fun k => acc (ix2 r k)) (fun k q' => Wgc (ix3 0 q' k)) (fun k q' => Wbi (ix3 0 q' k))
          (fun q' => bgc (ix2 0 q')) (fun q' => bbi (ix2 0 q')) q := by
  unfold Cert.LayerSpec.newAcc
  rw [← layer0_fst_apply g emb acc Wgc bgc Wbi bbi r q]
  rfl

/-- Layer 1's new embeddings at (r, q). -/
theorem layer1_fst_apply (g emb acc : FVec Ideal S150000x64 .f32) (Wgc : FVec Ideal S3x64x64 .f32)
    (bgc : FVec Ideal S3x64 .f32) (Wbi : FVec Ideal S3x64x64 .f32) (bbi : FVec Ideal S3x64 .f32) (r : Fin 150000) (q : Fin 64) :
    (layer1 (F := Ideal) g emb acc Wgc bgc Wbi bbi).1 (ix2 r q)
      = Cert.LayerSpec.newEmb (fun k => g (ix2 r k)) (fun k => emb (ix2 r k)) (fun k q' => Wgc (ix3 1 q' k)) (fun k q' => Wbi (ix3 1 q' k))
          (fun q' => bgc (ix2 1 q')) (fun q' => bbi (ix2 1 q')) q :=
  layerEmb_apply ![1, 0, 0] ![1, 0] slices_S3x64x64_S1x64x64_1_0_0 slices_S3x64_S1x64_1_0 1 rfl rfl rfl rfl rfl
    g emb Wgc bgc Wbi bbi r q

/-- Layer 1's running sum at (r, q). -/
theorem layer1_snd_apply (g emb acc : FVec Ideal S150000x64 .f32) (Wgc : FVec Ideal S3x64x64 .f32)
    (bgc : FVec Ideal S3x64 .f32) (Wbi : FVec Ideal S3x64x64 .f32) (bbi : FVec Ideal S3x64 .f32) (r : Fin 150000) (q : Fin 64) :
    (layer1 (F := Ideal) g emb acc Wgc bgc Wbi bbi).2 (ix2 r q)
      = Cert.LayerSpec.newAcc (fun k => g (ix2 r k)) (fun k => emb (ix2 r k)) (fun k => acc (ix2 r k)) (fun k q' => Wgc (ix3 1 q' k)) (fun k q' => Wbi (ix3 1 q' k))
          (fun q' => bgc (ix2 1 q')) (fun q' => bbi (ix2 1 q')) q := by
  unfold Cert.LayerSpec.newAcc
  rw [← layer1_fst_apply g emb acc Wgc bgc Wbi bbi r q]
  rfl

/-- Layer 2's new embeddings at (r, q). -/
theorem layer2_fst_apply (g emb acc : FVec Ideal S150000x64 .f32) (Wgc : FVec Ideal S3x64x64 .f32)
    (bgc : FVec Ideal S3x64 .f32) (Wbi : FVec Ideal S3x64x64 .f32) (bbi : FVec Ideal S3x64 .f32) (r : Fin 150000) (q : Fin 64) :
    (layer2 (F := Ideal) g emb acc Wgc bgc Wbi bbi).1 (ix2 r q)
      = Cert.LayerSpec.newEmb (fun k => g (ix2 r k)) (fun k => emb (ix2 r k)) (fun k q' => Wgc (ix3 2 q' k)) (fun k q' => Wbi (ix3 2 q' k))
          (fun q' => bgc (ix2 2 q')) (fun q' => bbi (ix2 2 q')) q :=
  layerEmb_apply ![2, 0, 0] ![2, 0] slices_S3x64x64_S1x64x64_2_0_0 slices_S3x64_S1x64_2_0 2 rfl rfl rfl rfl rfl
    g emb Wgc bgc Wbi bbi r q

/-- Layer 2's running sum at (r, q). -/
theorem layer2_snd_apply (g emb acc : FVec Ideal S150000x64 .f32) (Wgc : FVec Ideal S3x64x64 .f32)
    (bgc : FVec Ideal S3x64 .f32) (Wbi : FVec Ideal S3x64x64 .f32) (bbi : FVec Ideal S3x64 .f32) (r : Fin 150000) (q : Fin 64) :
    (layer2 (F := Ideal) g emb acc Wgc bgc Wbi bbi).2 (ix2 r q)
      = Cert.LayerSpec.newAcc (fun k => g (ix2 r k)) (fun k => emb (ix2 r k)) (fun k => acc (ix2 r k)) (fun k q' => Wgc (ix3 2 q' k)) (fun k q' => Wbi (ix3 2 q' k))
          (fun q' => bgc (ix2 2 q')) (fun q' => bbi (ix2 2 q')) q := by
  unfold Cert.LayerSpec.newAcc
  rw [← layer2_fst_apply g emb acc Wgc bgc Wbi bbi r q]
  rfl

end Cert.ReferenceIdeal.RefRun

end
-- ==== Proof.KIValue.lean ====
/- The kernel program's two results, over the extended reals, as the reference's named terms of the arguments.

   The fold through the program is read boundary by boundary: after the first stretch of host operations the buffers
   hold the edge lists, the coefficients, the joined table, the first sparse product and the stacks with layer 0's
   slabs; each launch leaves in its two outputs the whole-array layer of its inputs, which over a layer's slabs of the
   transposed stacks is the reference's layer; each later stretch leaves the next sparse product and the next slabs
   and keeps what the later stages read; the last stretch takes the mean's two slices. -/
import proofs.«146559_j69123203662125_1_alg».proof.Proof.KIFrame
import proofs.«146559_j69123203662125_1_alg».proof.Proof.KIHost
import proofs.«146559_j69123203662125_1_alg».proof.Proof.KIFinal
import proofs.«146559_j69123203662125_1_alg».proof.Proof.RefLayerValue
import proofs.«146559_j69123203662125_1_alg».proof.Proof.LayerSpec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.LayerSpec
open Cert.ReferenceIdeal.RefRun (rows cols coef emb0 spmm outU outI layer0 layer1 layer2 out1 out2 out3 refU refI)

/-! ## The launches' whole-array functions as the reference's layers -/

/-- Launch 0's first output, over layer 0's slabs of the stacks, is the reference's layer 0: the new embeddings. -/
theorem bridge0_fst (g e a : FVec Ideal S150000x64 .f32) (Wgc : FVec Ideal S3x64x64 .f32) (bgc : FVec Ideal S3x64 .f32)
    (Wbi : FVec Ideal S3x64x64 .f32) (bbi : FVec Ideal S3x64 .f32) :
    embOut g e (wSlab ![0, 0, 0] slices_S3x64x64_S1x64x64_0_0_0 (wStack Wgc)) (bSlab ![0, 0, 0] slices_S3x1x64_S1x1x64_0_0_0 (bStack bgc))
        (wSlab ![0, 0, 0] slices_S3x64x64_S1x64x64_0_0_0 (wStack Wbi)) (bSlab ![0, 0, 0] slices_S3x1x64_S1x1x64_0_0_0 (bStack bbi))
      = (layer0 (F := Ideal) g e a Wgc bgc Wbi bbi).1 := by
  funext i
  obtain ⟨r, q, rfl⟩ : ∃ (r : Fin 150000) (q : Fin 64), i = ix2 r q := ⟨i 0, i 1, eq_ix2 i⟩
  rw [Cert.ReferenceIdeal.RefRun.layer0_fst_apply g e a Wgc bgc Wbi bbi r q]
  have hw3 : (fun (k q' : Fin 64) => wSlab ![0, 0, 0] slices_S3x64x64_S1x64x64_0_0_0 (wStack (F := Ideal) Wgc) (ix2 k q')) = fun k q' => Wgc (ix3 0 q' k) :=
    funext fun k => funext fun q' => wSlab0_apply Wgc k q'
  have hw5 : (fun (k q' : Fin 64) => wSlab ![0, 0, 0] slices_S3x64x64_S1x64x64_0_0_0 (wStack (F := Ideal) Wbi) (ix2 k q')) = fun k q' => Wbi (ix3 0 q' k) :=
    funext fun k => funext fun q' => wSlab0_apply Wbi k q'
  have hb4 : (fun (q' : Fin 64) => bSlab ![0, 0, 0] slices_S3x1x64_S1x1x64_0_0_0 (bStack (F := Ideal) bgc) (ix2 (0 : Fin 1) q')) = fun q' => bgc (ix2 0 q') :=
    funext fun q' => bSlab0_apply bgc q'
  have hb6 : (fun (q' : Fin 64) => bSlab ![0, 0, 0] slices_S3x1x64_S1x1x64_0_0_0 (bStack (F := Ideal) bbi) (ix2 (0 : Fin 1) q')) = fun q' => bbi (ix2 0 q') :=
    funext fun q' => bSlab0_apply bbi q'
  show newEmb (fun k => g (ix2 r k)) (fun k => e (ix2 r k))
      (fun (k q' : Fin 64) => wSlab ![0, 0, 0] slices_S3x64x64_S1x64x64_0_0_0 (wStack (F := Ideal) Wgc) (ix2 k q'))
      (fun (k q' : Fin 64) => wSlab ![0, 0, 0] slices_S3x64x64_S1x64x64_0_0_0 (wStack (F := Ideal) Wbi) (ix2 k q'))
      (fun (q' : Fin 64) => bSlab ![0, 0, 0] slices_S3x1x64_S1x1x64_0_0_0 (bStack (F := Ideal) bgc) (ix2 (0 : Fin 1) q'))
      (fun (q' : Fin 64) => bSlab ![0, 0, 0] slices_S3x1x64_S1x1x64_0_0_0 (bStack (F := Ideal) bbi) (ix2 (0 : Fin 1) q')) q = _
  rw [hw3, hw5, hb4, hb6]

/-- Launch 0's second output is the reference's layer 0: the running sum. -/
theorem bridge0_snd (g e a : FVec Ideal S150000x64 .f32) (Wgc : FVec Ideal S3x64x64 .f32) (bgc : FVec Ideal S3x64 .f32)
    (Wbi : FVec Ideal S3x64x64 .f32) (bbi : FVec Ideal S3x64 .f32) :
    accOut g e a (wSlab ![0, 0, 0] slices_S3x64x64_S1x64x64_0_0_0 (wStack Wgc)) (bSlab ![0, 0, 0] slices_S3x1x64_S1x1x64_0_0_0 (bStack bgc))
        (wSlab ![0, 0, 0] slices_S3x64x64_S1x64x64_0_0_0 (wStack Wbi)) (bSlab ![0, 0, 0] slices_S3x1x64_S1x1x64_0_0_0 (bStack bbi))
      = (layer0 (F := Ideal) g e a Wgc bgc Wbi bbi).2 := by
  funext i
  obtain ⟨r, q, rfl⟩ : ∃ (r : Fin 150000) (q : Fin 64), i = ix2 r q := ⟨i 0, i 1, eq_ix2 i⟩
  rw [Cert.ReferenceIdeal.RefRun.layer0_snd_apply g e a Wgc bgc Wbi bbi r q]
  have hw3 : (fun (k q' : Fin 64) => wSlab ![0, 0, 0] slices_S3x64x64_S1x64x64_0_0_0 (wStack (F := Ideal) Wgc) (ix2 k q')) = fun k q' => Wgc (ix3 0 q' k) :=
    funext fun k => funext fun q' => wSlab0_apply Wgc k q'
  have hw5 : (fun (k q' : Fin 64) => wSlab ![0, 0, 0] slices_S3x64x64_S1x64x64_0_0_0 (wStack (F := Ideal) Wbi) (ix2 k q')) = fun k q' => Wbi (ix3 0 q' k) :=
    funext fun k => funext fun q' => wSlab0_apply Wbi k q'
  have hb4 : (fun (q' : Fin 64) => bSlab ![0, 0, 0] slices_S3x1x64_S1x1x64_0_0_0 (bStack (F := Ideal) bgc) (ix2 (0 : Fin 1) q')) = fun q' => bgc (ix2 0 q') :=
    funext fun q' => bSlab0_apply bgc q'
  have hb6 : (fun (q' : Fin 64) => bSlab ![0, 0, 0] slices_S3x1x64_S1x1x64_0_0_0 (bStack (F := Ideal) bbi) (ix2 (0 : Fin 1) q')) = fun q' => bbi (ix2 0 q') :=
    funext fun q' => bSlab0_apply bbi q'
  show newAcc (fun k => g (ix2 r k)) (fun k => e (ix2 r k)) (fun k => a (ix2 r k))
      (fun (k q' : Fin 64) => wSlab ![0, 0, 0] slices_S3x64x64_S1x64x64_0_0_0 (wStack (F := Ideal) Wgc) (ix2 k q'))
      (fun (k q' : Fin 64) => wSlab ![0, 0, 0] slices_S3x64x64_S1x64x64_0_0_0 (wStack (F := Ideal) Wbi) (ix2 k q'))
      (fun (q' : Fin 64) => bSlab ![0, 0, 0] slices_S3x1x64_S1x1x64_0_0_0 (bStack (F := Ideal) bgc) (ix2 (0 : Fin 1) q'))
      (fun (q' : Fin 64) => bSlab ![0, 0, 0] slices_S3x1x64_S1x1x64_0_0_0 (bStack (F := Ideal) bbi) (ix2 (0 : Fin 1) q')) q = _
  rw [hw3, hw5, hb4, hb6]

/-- Launch 1's first output, over layer 1's slabs of the stacks, is the reference's layer 1: the new embeddings. -/
theorem bridge1_fst (g e a : FVec Ideal S150000x64 .f32) (Wgc : FVec Ideal S3x64x64 .f32) (bgc : FVec Ideal S3x64 .f32)
    (Wbi : FVec Ideal S3x64x64 .f32) (bbi : FVec Ideal S3x64 .f32) :
    embOut g e (wSlab ![1, 0, 0] slices_S3x64x64_S1x64x64_1_0_0 (wStack Wgc)) (bSlab ![1, 0, 0] slices_S3x1x64_S1x1x64_1_0_0 (bStack bgc))
        (wSlab ![1, 0, 0] slices_S3x64x64_S1x64x64_1_0_0 (wStack Wbi)) (bSlab ![1, 0, 0] slices_S3x1x64_S1x1x64_1_0_0 (bStack bbi))
      = (layer1 (F := Ideal) g e a Wgc bgc Wbi bbi).1 := by
  funext i
  obtain ⟨r, q, rfl⟩ : ∃ (r : Fin 150000) (q : Fin 64), i = ix2 r q := ⟨i 0, i 1, eq_ix2 i⟩
  rw [Cert.ReferenceIdeal.RefRun.layer1_fst_apply g e a Wgc bgc Wbi bbi r q]
  have hw3 : (fun (k q' : Fin 64) => wSlab ![1, 0, 0] slices_S3x64x64_S1x64x64_1_0_0 (wStack (F := Ideal) Wgc) (ix2 k q')) = fun k q' => Wgc (ix3 1 q' k) :=
    funext fun k => funext fun q' => wSlab1_apply Wgc k q'
  have hw5 : (fun (k q' : Fin 64) => wSlab ![1, 0, 0] slices_S3x64x64_S1x64x64_1_0_0 (wStack (F := Ideal) Wbi) (ix2 k q')) = fun k q' => Wbi (ix3 1 q' k) :=
    funext fun k => funext fun q' => wSlab1_apply Wbi k q'
  have hb4 : (fun (q' : Fin 64) => bSlab ![1, 0, 0] slices_S3x1x64_S1x1x64_1_0_0 (bStack (F := Ideal) bgc) (ix2 (0 : Fin 1) q')) = fun q' => bgc (ix2 1 q') :=
    funext fun q' => bSlab1_apply bgc q'
  have hb6 : (fun (q' : Fin 64) => bSlab ![1, 0, 0] slices_S3x1x64_S1x1x64_1_0_0 (bStack (F := Ideal) bbi) (ix2 (0 : Fin 1) q')) = fun q' => bbi (ix2 1 q') :=
    funext fun q' => bSlab1_apply bbi q'
  show newEmb (fun k => g (ix2 r k)) (fun k => e (ix2 r k))
      (fun (k q' : Fin 64) => wSlab ![1, 0, 0] slices_S3x64x64_S1x64x64_1_0_0 (wStack (F := Ideal) Wgc) (ix2 k q'))
      (fun (k q' : Fin 64) => wSlab ![1, 0, 0] slices_S3x64x64_S1x64x64_1_0_0 (wStack (F := Ideal) Wbi) (ix2 k q'))
      (fun (q' : Fin 64) => bSlab ![1, 0, 0] slices_S3x1x64_S1x1x64_1_0_0 (bStack (F := Ideal) bgc) (ix2 (0 : Fin 1) q'))
      (fun (q' : Fin 64) => bSlab ![1, 0, 0] slices_S3x1x64_S1x1x64_1_0_0 (bStack (F := Ideal) bbi) (ix2 (0 : Fin 1) q')) q = _
  rw [hw3, hw5, hb4, hb6]

/-- Launch 1's second output is the reference's layer 1: the running sum. -/
theorem bridge1_snd (g e a : FVec Ideal S150000x64 .f32) (Wgc : FVec Ideal S3x64x64 .f32) (bgc : FVec Ideal S3x64 .f32)
    (Wbi : FVec Ideal S3x64x64 .f32) (bbi : FVec Ideal S3x64 .f32) :
    accOut g e a (wSlab ![1, 0, 0] slices_S3x64x64_S1x64x64_1_0_0 (wStack Wgc)) (bSlab ![1, 0, 0] slices_S3x1x64_S1x1x64_1_0_0 (bStack bgc))
        (wSlab ![1, 0, 0] slices_S3x64x64_S1x64x64_1_0_0 (wStack Wbi)) (bSlab ![1, 0, 0] slices_S3x1x64_S1x1x64_1_0_0 (bStack bbi))
      = (layer1 (F := Ideal) g e a Wgc bgc Wbi bbi).2 := by
  funext i
  obtain ⟨r, q, rfl⟩ : ∃ (r : Fin 150000) (q : Fin 64), i = ix2 r q := ⟨i 0, i 1, eq_ix2 i⟩
  rw [Cert.ReferenceIdeal.RefRun.layer1_snd_apply g e a Wgc bgc Wbi bbi r q]
  have hw3 : (fun (k q' : Fin 64) => wSlab ![1, 0, 0] slices_S3x64x64_S1x64x64_1_0_0 (wStack (F := Ideal) Wgc) (ix2 k q')) = fun k q' => Wgc (ix3 1 q' k) :=
    funext fun k => funext fun q' => wSlab1_apply Wgc k q'
  have hw5 : (fun (k q' : Fin 64) => wSlab ![1, 0, 0] slices_S3x64x64_S1x64x64_1_0_0 (wStack (F := Ideal) Wbi) (ix2 k q')) = fun k q' => Wbi (ix3 1 q' k) :=
    funext fun k => funext fun q' => wSlab1_apply Wbi k q'
  have hb4 : (fun (q' : Fin 64) => bSlab ![1, 0, 0] slices_S3x1x64_S1x1x64_1_0_0 (bStack (F := Ideal) bgc) (ix2 (0 : Fin 1) q')) = fun q' => bgc (ix2 1 q') :=
    funext fun q' => bSlab1_apply bgc q'
  have hb6 : (fun (q' : Fin 64) => bSlab ![1, 0, 0] slices_S3x1x64_S1x1x64_1_0_0 (bStack (F := Ideal) bbi) (ix2 (0 : Fin 1) q')) = fun q' => bbi (ix2 1 q') :=
    funext fun q' => bSlab1_apply bbi q'
  show newAcc (fun k => g (ix2 r k)) (fun k => e (ix2 r k)) (fun k => a (ix2 r k))
      (fun (k q' : Fin 64) => wSlab ![1, 0, 0] slices_S3x64x64_S1x64x64_1_0_0 (wStack (F := Ideal) Wgc) (ix2 k q'))
      (fun (k q' : Fin 64) => wSlab ![1, 0, 0] slices_S3x64x64_S1x64x64_1_0_0 (wStack (F := Ideal) Wbi) (ix2 k q'))
      (fun (q' : Fin 64) => bSlab ![1, 0, 0] slices_S3x1x64_S1x1x64_1_0_0 (bStack (F := Ideal) bgc) (ix2 (0 : Fin 1) q'))
      (fun (q' : Fin 64) => bSlab ![1, 0, 0] slices_S3x1x64_S1x1x64_1_0_0 (bStack (F := Ideal) bbi) (ix2 (0 : Fin 1) q')) q = _
  rw [hw3, hw5, hb4, hb6]

/-- Launch 2's first output, over layer 2's slabs of the stacks, is the reference's layer 2: the new embeddings. -/
theorem bridge2_fst (g e a : FVec Ideal S150000x64 .f32) (Wgc : FVec Ideal S3x64x64 .f32) (bgc : FVec Ideal S3x64 .f32)
    (Wbi : FVec Ideal S3x64x64 .f32) (bbi : FVec Ideal S3x64 .f32) :
    embOut g e (wSlab ![2, 0, 0] slices_S3x64x64_S1x64x64_2_0_0 (wStack Wgc)) (bSlab ![2, 0, 0] slices_S3x1x64_S1x1x64_2_0_0 (bStack bgc))
        (wSlab ![2, 0, 0] slices_S3x64x64_S1x64x64_2_0_0 (wStack Wbi)) (bSlab ![2, 0, 0] slices_S3x1x64_S1x1x64_2_0_0 (bStack bbi))
      = (layer2 (F := Ideal) g e a Wgc bgc Wbi bbi).1 := by
  funext i
  obtain ⟨r, q, rfl⟩ : ∃ (r : Fin 150000) (q : Fin 64), i = ix2 r q := ⟨i 0, i 1, eq_ix2 i⟩
  rw [Cert.ReferenceIdeal.RefRun.layer2_fst_apply g e a Wgc bgc Wbi bbi r q]
  have hw3 : (fun (k q' : Fin 64) => wSlab ![2, 0, 0] slices_S3x64x64_S1x64x64_2_0_0 (wStack (F := Ideal) Wgc) (ix2 k q')) = fun k q' => Wgc (ix3 2 q' k) :=
    funext fun k => funext fun q' => wSlab2_apply Wgc k q'
  have hw5 : (fun (k q' : Fin 64) => wSlab ![2, 0, 0] slices_S3x64x64_S1x64x64_2_0_0 (wStack (F := Ideal) Wbi) (ix2 k q')) = fun k q' => Wbi (ix3 2 q' k) :=
    funext fun k => funext fun q' => wSlab2_apply Wbi k q'
  have hb4 : (fun (q' : Fin 64) => bSlab ![2, 0, 0] slices_S3x1x64_S1x1x64_2_0_0 (bStack (F := Ideal) bgc) (ix2 (0 : Fin 1) q')) = fun q' => bgc (ix2 2 q') :=
    funext fun q' => bSlab2_apply bgc q'
  have hb6 : (fun (q' : Fin 64) => bSlab ![2, 0, 0] slices_S3x1x64_S1x1x64_2_0_0 (bStack (F := Ideal) bbi) (ix2 (0 : Fin 1) q')) = fun q' => bbi (ix2 2 q') :=
    funext fun q' => bSlab2_apply bbi q'
  show newEmb (fun k => g (ix2 r k)) (fun k => e (ix2 r k))
      (fun (k q' : Fin 64) => wSlab ![2, 0, 0] slices_S3x64x64_S1x64x64_2_0_0 (wStack (F := Ideal) Wgc) (ix2 k q'))
      (fun (k q' : Fin 64) => wSlab ![2, 0, 0] slices_S3x64x64_S1x64x64_2_0_0 (wStack (F := Ideal) Wbi) (ix2 k q'))
      (fun (q' : Fin 64) => bSlab ![2, 0, 0] slices_S3x1x64_S1x1x64_2_0_0 (bStack (F := Ideal) bgc) (ix2 (0 : Fin 1) q'))
      (fun (q' : Fin 64) => bSlab ![2, 0, 0] slices_S3x1x64_S1x1x64_2_0_0 (bStack (F := Ideal) bbi) (ix2 (0 : Fin 1) q')) q = _
  rw [hw3, hw5, hb4, hb6]

/-- Launch 2's second output is the reference's layer 2: the running sum. -/
theorem bridge2_snd (g e a : FVec Ideal S150000x64 .f32) (Wgc : FVec Ideal S3x64x64 .f32) (bgc : FVec Ideal S3x64 .f32)
    (Wbi : FVec Ideal S3x64x64 .f32) (bbi : FVec Ideal S3x64 .f32) :
    accOut g e a (wSlab ![2, 0, 0] slices_S3x64x64_S1x64x64_2_0_0 (wStack Wgc)) (bSlab ![2, 0, 0] slices_S3x1x64_S1x1x64_2_0_0 (bStack bgc))
        (wSlab ![2, 0, 0] slices_S3x64x64_S1x64x64_2_0_0 (wStack Wbi)) (bSlab ![2, 0, 0] slices_S3x1x64_S1x1x64_2_0_0 (bStack bbi))
      = (layer2 (F := Ideal) g e a Wgc bgc Wbi bbi).2 := by
  funext i
  obtain ⟨r, q, rfl⟩ : ∃ (r : Fin 150000) (q : Fin 64), i = ix2 r q := ⟨i 0, i 1, eq_ix2 i⟩
  rw [Cert.ReferenceIdeal.RefRun.layer2_snd_apply g e a Wgc bgc Wbi bbi r q]
  have hw3 : (fun (k q' : Fin 64) => wSlab ![2, 0, 0] slices_S3x64x64_S1x64x64_2_0_0 (wStack (F := Ideal) Wgc) (ix2 k q')) = fun k q' => Wgc (ix3 2 q' k) :=
    funext fun k => funext fun q' => wSlab2_apply Wgc k q'
  have hw5 : (fun (k q' : Fin 64) => wSlab ![2, 0, 0] slices_S3x64x64_S1x64x64_2_0_0 (wStack (F := Ideal) Wbi) (ix2 k q')) = fun k q' => Wbi (ix3 2 q' k) :=
    funext fun k => funext fun q' => wSlab2_apply Wbi k q'
  have hb4 : (fun (q' : Fin 64) => bSlab ![2, 0, 0] slices_S3x1x64_S1x1x64_2_0_0 (bStack (F := Ideal) bgc) (ix2 (0 : Fin 1) q')) = fun q' => bgc (ix2 2 q') :=
    funext fun q' => bSlab2_apply bgc q'
  have hb6 : (fun (q' : Fin 64) => bSlab ![2, 0, 0] slices_S3x1x64_S1x1x64_2_0_0 (bStack (F := Ideal) bbi) (ix2 (0 : Fin 1) q')) = fun q' => bbi (ix2 2 q') :=
    funext fun q' => bSlab2_apply bbi q'
  show newAcc (fun k => g (ix2 r k)) (fun k => e (ix2 r k)) (fun k => a (ix2 r k))
      (fun (k q' : Fin 64) => wSlab ![2, 0, 0] slices_S3x64x64_S1x64x64_2_0_0 (wStack (F := Ideal) Wgc) (ix2 k q'))
      (fun (k q' : Fin 64) => wSlab ![2, 0, 0] slices_S3x64x64_S1x64x64_2_0_0 (wStack (F := Ideal) Wbi) (ix2 k q'))
      (fun (q' : Fin 64) => bSlab ![2, 0, 0] slices_S3x1x64_S1x1x64_2_0_0 (bStack (F := Ideal) bgc) (ix2 (0 : Fin 1) q'))
      (fun (q' : Fin 64) => bSlab ![2, 0, 0] slices_S3x1x64_S1x1x64_2_0_0 (bStack (F := Ideal) bbi) (ix2 (0 : Fin 1) q')) q = _
  rw [hw3, hw5, hb4, hb6]

/-! ## The fold through the program, boundary by boundary, in the reference's named values -/

section Value

variable (m : (ℓ : Loc nD τ sig) → Buf (Elt Ideal) ℓ) (ρ : Dev nD → PrngReg) (c : Dev nD)

/-- The arguments at launch. -/
abbrev a0 : FVec Ideal S100000x64 .f32 := m ((c : Thread nD τ).loc main_arg0)
abbrev a1 : FVec Ideal S50000x64 .f32 := m ((c : Thread nD τ).loc main_arg1)
abbrev a2 : FVec Ideal S3x64x64 .f32 := m ((c : Thread nD τ).loc main_arg2)
abbrev a3 : FVec Ideal S3x64 .f32 := m ((c : Thread nD τ).loc main_arg3)
abbrev a4 : FVec Ideal S3x64x64 .f32 := m ((c : Thread nD τ).loc main_arg4)
abbrev a5 : FVec Ideal S3x64 .f32 := m ((c : Thread nD τ).loc main_arg5)
abbrev a6 : IVec S2000000 32 := m ((c : Thread nD τ).loc main_arg6)
abbrev a7 : IVec S2000000 32 := m ((c : Thread nD τ).loc main_arg7)

/-- The edge lists, the coefficients and the joined table of the arguments. -/
def vR : IVec S4150000 32 := rows (a6 m c) (a7 m c)
def vC : IVec S4150000 32 := cols (a6 m c) (a7 m c)
def vK : FVec Ideal S4150000 .f32 := coef (F := Ideal) (vR m c) (vC m c)
def vE : FVec Ideal S150000x64 .f32 := emb0 (a0 m c) (a1 m c)
/-- The three layers' outputs of the arguments. -/
def o1 : FVec Ideal S150000x64 .f32 × FVec Ideal S150000x64 .f32 := out1 (a0 m c) (a1 m c) (a2 m c) (a3 m c) (a4 m c) (a5 m c) (a6 m c) (a7 m c)
def o2 : FVec Ideal S150000x64 .f32 × FVec Ideal S150000x64 .f32 := out2 (a0 m c) (a1 m c) (a2 m c) (a3 m c) (a4 m c) (a5 m c) (a6 m c) (a7 m c)
def o3 : FVec Ideal S150000x64 .f32 × FVec Ideal S150000x64 .f32 := out3 (a0 m c) (a1 m c) (a2 m c) (a3 m c) (a4 m c) (a5 m c) (a6 m c) (a7 m c)

theorem o1_eq : o1 m c = layer0 (spmm (vR m c) (vC m c) (vK m c) (vE m c)) (vE m c) (vE m c) (a2 m c) (a3 m c) (a4 m c) (a5 m c) := rfl
theorem o2_eq : o2 m c = layer1 (spmm (vR m c) (vC m c) (vK m c) (o1 m c).1) (o1 m c).1 (o1 m c).2 (a2 m c) (a3 m c) (a4 m c) (a5 m c) := rfl
theorem o3_eq : o3 m c = layer2 (spmm (vR m c) (vC m c) (vK m c) (o2 m c).1) (o2 m c).1 (o2 m c).2 (a2 m c) (a3 m c) (a4 m c) (a5 m c) := rfl

/-! ### After the first stretch -/
theorem W1_v3 : W1 m ρ c (Proc.devRef .tc main_v3 : DevRef τ sig) = vR m c := h0_v3 (W0 m ρ c)
theorem W1_v6 : W1 m ρ c (Proc.devRef .tc main_v6 : DevRef τ sig) = vC m c := h0_v6 (W0 m ρ c)
theorem W1_v28 : W1 m ρ c (Proc.devRef .tc main_v28 : DevRef τ sig) = vK m c := h0_v28 (W0 m ρ c)
theorem W1_v31 : W1 m ρ c (Proc.devRef .tc main_v31 : DevRef τ sig) = wStack (a2 m c) := h0_v31 (W0 m ρ c)
theorem W1_v33 : W1 m ρ c (Proc.devRef .tc main_v33 : DevRef τ sig) = wStack (a4 m c) := h0_v33 (W0 m ρ c)
theorem W1_v34 : W1 m ρ c (Proc.devRef .tc main_v34 : DevRef τ sig) = bStack (a3 m c) := h0_v34 (W0 m ρ c)
theorem W1_v35 : W1 m ρ c (Proc.devRef .tc main_v35 : DevRef τ sig) = bStack (a5 m c) := h0_v35 (W0 m ρ c)
theorem W1_v29 : W1 m ρ c (Proc.devRef .tc main_v29 : DevRef τ sig) = vE m c := h0_v29 (W0 m ρ c)
theorem W1_v48 : W1 m ρ c (Proc.devRef .tc main_v48 : DevRef τ sig) = spmm (vR m c) (vC m c) (vK m c) (vE m c) := h0_v48 (W0 m ρ c)
theorem W1_v50 : W1 m ρ c (Proc.devRef .tc main_v50 : DevRef τ sig) = wSlab ![0, 0, 0] slices_S3x64x64_S1x64x64_0_0_0 (wStack (a2 m c)) := h0_v50 (W0 m ρ c)
theorem W1_v52 : W1 m ρ c (Proc.devRef .tc main_v52 : DevRef τ sig) = bSlab ![0, 0, 0] slices_S3x1x64_S1x1x64_0_0_0 (bStack (a3 m c)) := h0_v52 (W0 m ρ c)
theorem W1_v54 : W1 m ρ c (Proc.devRef .tc main_v54 : DevRef τ sig) = wSlab ![0, 0, 0] slices_S3x64x64_S1x64x64_0_0_0 (wStack (a4 m c)) := h0_v54 (W0 m ρ c)
theorem W1_v56 : W1 m ρ c (Proc.devRef .tc main_v56 : DevRef τ sig) = bSlab ![0, 0, 0] slices_S3x1x64_S1x1x64_0_0_0 (bStack (a5 m c)) := h0_v56 (W0 m ρ c)

/-! ### After launch 0 -/
theorem W2_v57_0 : W2 m ρ c (Proc.devRef .tc main_v57_0 : DevRef τ sig) = (o1 m c).1 :=
  (W2_out m ρ c 0).trans <| (final0_7 (V1 m ρ) c).trans <| by
    show embOut (W1 m ρ c (Proc.devRef .tc main_v48 : DevRef τ sig)) (W1 m ρ c (Proc.devRef .tc main_v29 : DevRef τ sig)) (W1 m ρ c (Proc.devRef .tc main_v50 : DevRef τ sig))
      (W1 m ρ c (Proc.devRef .tc main_v52 : DevRef τ sig)) (W1 m ρ c (Proc.devRef .tc main_v54 : DevRef τ sig)) (W1 m ρ c (Proc.devRef .tc main_v56 : DevRef τ sig)) = _
    rw [W1_v48, W1_v29, W1_v50, W1_v52, W1_v54, W1_v56, o1_eq]
    exact bridge0_fst _ _ _ _ _ _ _
theorem W2_v57_1 : W2 m ρ c (Proc.devRef .tc main_v57_1 : DevRef τ sig) = (o1 m c).2 :=
  (W2_out m ρ c 1).trans <| (final0_8 (V1 m ρ) c).trans <| by
    show accOut (W1 m ρ c (Proc.devRef .tc main_v48 : DevRef τ sig)) (W1 m ρ c (Proc.devRef .tc main_v29 : DevRef τ sig)) (W1 m ρ c (Proc.devRef .tc main_v29 : DevRef τ sig)) (W1 m ρ c (Proc.devRef .tc main_v50 : DevRef τ sig))
      (W1 m ρ c (Proc.devRef .tc main_v52 : DevRef τ sig)) (W1 m ρ c (Proc.devRef .tc main_v54 : DevRef τ sig)) (W1 m ρ c (Proc.devRef .tc main_v56 : DevRef τ sig)) = _
    rw [W1_v48, W1_v29, W1_v50, W1_v52, W1_v54, W1_v56, o1_eq]
    exact bridge0_snd _ _ _ _ _ _ _
theorem W2_v3 : W2 m ρ c (Proc.devRef .tc main_v3 : DevRef τ sig) = vR m c := (W2_of_ne m ρ c main_v3 (by decide)).trans (W1_v3 m ρ c)
theorem W2_v6 : W2 m ρ c (Proc.devRef .tc main_v6 : DevRef τ sig) = vC m c := (W2_of_ne m ρ c main_v6 (by decide)).trans (W1_v6 m ρ c)
theorem W2_v28 : W2 m ρ c (Proc.devRef .tc main_v28 : DevRef τ sig) = vK m c := (W2_of_ne m ρ c main_v28 (by decide)).trans (W1_v28 m ρ c)
theorem W2_v31 : W2 m ρ c (Proc.devRef .tc main_v31 : DevRef τ sig) = wStack (a2 m c) := (W2_of_ne m ρ c main_v31 (by decide)).trans (W1_v31 m ρ c)
theorem W2_v33 : W2 m ρ c (Proc.devRef .tc main_v33 : DevRef τ sig) = wStack (a4 m c) := (W2_of_ne m ρ c main_v33 (by decide)).trans (W1_v33 m ρ c)
theorem W2_v34 : W2 m ρ c (Proc.devRef .tc main_v34 : DevRef τ sig) = bStack (a3 m c) := (W2_of_ne m ρ c main_v34 (by decide)).trans (W1_v34 m ρ c)
theorem W2_v35 : W2 m ρ c (Proc.devRef .tc main_v35 : DevRef τ sig) = bStack (a5 m c) := (W2_of_ne m ρ c main_v35 (by decide)).trans (W1_v35 m ρ c)

/-! ### After stretch 1 -/
theorem W3_v3 : W3 m ρ c (Proc.devRef .tc main_v3 : DevRef τ sig) = vR m c := (h1_kept (W2 m ρ c) (r := main_v3) (by decide)).trans (W2_v3 m ρ c)
theorem W3_v6 : W3 m ρ c (Proc.devRef .tc main_v6 : DevRef τ sig) = vC m c := (h1_kept (W2 m ρ c) (r := main_v6) (by decide)).trans (W2_v6 m ρ c)
theorem W3_v28 : W3 m ρ c (Proc.devRef .tc main_v28 : DevRef τ sig) = vK m c := (h1_kept (W2 m ρ c) (r := main_v28) (by decide)).trans (W2_v28 m ρ c)
theorem W3_v31 : W3 m ρ c (Proc.devRef .tc main_v31 : DevRef τ sig) = wStack (a2 m c) := (h1_kept (W2 m ρ c) (r := main_v31) (by decide)).trans (W2_v31 m ρ c)
theorem W3_v33 : W3 m ρ c (Proc.devRef .tc main_v33 : DevRef τ sig) = wStack (a4 m c) := (h1_kept (W2 m ρ c) (r := main_v33) (by decide)).trans (W2_v33 m ρ c)
theorem W3_v34 : W3 m ρ c (Proc.devRef .tc main_v34 : DevRef τ sig) = bStack (a3 m c) := (h1_kept (W2 m ρ c) (r := main_v34) (by decide)).trans (W2_v34 m ρ c)
theorem W3_v35 : W3 m ρ c (Proc.devRef .tc main_v35 : DevRef τ sig) = bStack (a5 m c) := (h1_kept (W2 m ρ c) (r := main_v35) (by decide)).trans (W2_v35 m ρ c)
theorem W3_v57_0 : W3 m ρ c (Proc.devRef .tc main_v57_0 : DevRef τ sig) = (o1 m c).1 := (h1_kept (W2 m ρ c) (r := main_v57_0) (by decide)).trans (W2_v57_0 m ρ c)
theorem W3_v57_1 : W3 m ρ c (Proc.devRef .tc main_v57_1 : DevRef τ sig) = (o1 m c).2 := (h1_kept (W2 m ρ c) (r := main_v57_1) (by decide)).trans (W2_v57_1 m ρ c)
theorem W3_v70 : W3 m ρ c (Proc.devRef .tc main_v70 : DevRef τ sig) = spmm (vR m c) (vC m c) (vK m c) (o1 m c).1 :=
  (h1_v70 (W2 m ρ c)).trans (by rw [W2_v3, W2_v6, W2_v28, W2_v57_0])
theorem W3_v72 : W3 m ρ c (Proc.devRef .tc main_v72 : DevRef τ sig) = wSlab ![1, 0, 0] slices_S3x64x64_S1x64x64_1_0_0 (wStack (a2 m c)) := (h1_v72 (W2 m ρ c)).trans (by rw [W2_v31])
theorem W3_v74 : W3 m ρ c (Proc.devRef .tc main_v74 : DevRef τ sig) = bSlab ![1, 0, 0] slices_S3x1x64_S1x1x64_1_0_0 (bStack (a3 m c)) := (h1_v74 (W2 m ρ c)).trans (by rw [W2_v34])
theorem W3_v76 : W3 m ρ c (Proc.devRef .tc main_v76 : DevRef τ sig) = wSlab ![1, 0, 0] slices_S3x64x64_S1x64x64_1_0_0 (wStack (a4 m c)) := (h1_v76 (W2 m ρ c)).trans (by rw [W2_v33])
theorem W3_v78 : W3 m ρ c (Proc.devRef .tc main_v78 : DevRef τ sig) = bSlab ![1, 0, 0] slices_S3x1x64_S1x1x64_1_0_0 (bStack (a5 m c)) := (h1_v78 (W2 m ρ c)).trans (by rw [W2_v35])

/-! ### After launch 1 -/
theorem W4_v79_0 : W4 m ρ c (Proc.devRef .tc main_v79_0 : DevRef τ sig) = (o2 m c).1 :=
  (W4_arr m ρ c 7).trans <| (final1_7 (V3 m ρ) c).trans <| by
    show embOut (W3 m ρ c (Proc.devRef .tc main_v70 : DevRef τ sig)) (W3 m ρ c (Proc.devRef .tc main_v57_0 : DevRef τ sig)) (W3 m ρ c (Proc.devRef .tc main_v72 : DevRef τ sig))
      (W3 m ρ c (Proc.devRef .tc main_v74 : DevRef τ sig)) (W3 m ρ c (Proc.devRef .tc main_v76 : DevRef τ sig)) (W3 m ρ c (Proc.devRef .tc main_v78 : DevRef τ sig)) = _
    rw [W3_v70, W3_v57_0, W3_v72, W3_v74, W3_v76, W3_v78, o2_eq]
    exact bridge1_fst _ _ _ _ _ _ _
theorem W4_v79_1 : W4 m ρ c (Proc.devRef .tc main_v79_1 : DevRef τ sig) = (o2 m c).2 :=
  (W4_arr m ρ c 8).trans <| (final1_8 (V3 m ρ) c).trans <| by
    show accOut (W3 m ρ c (Proc.devRef .tc main_v70 : DevRef τ sig)) (W3 m ρ c (Proc.devRef .tc main_v57_0 : DevRef τ sig)) (W3 m ρ c (Proc.devRef .tc main_v57_1 : DevRef τ sig)) (W3 m ρ c (Proc.devRef .tc main_v72 : DevRef τ sig))
      (W3 m ρ c (Proc.devRef .tc main_v74 : DevRef τ sig)) (W3 m ρ c (Proc.devRef .tc main_v76 : DevRef τ sig)) (W3 m ρ c (Proc.devRef .tc main_v78 : DevRef τ sig)) = _
    rw [W3_v70, W3_v57_0, W3_v57_1, W3_v72, W3_v74, W3_v76, W3_v78, o2_eq]
    exact bridge1_snd _ _ _ _ _ _ _
theorem W4_v3 : W4 m ρ c (Proc.devRef .tc main_v3 : DevRef τ sig) = vR m c := (W4_of_ne m ρ c main_v3 (by decide)).trans (W3_v3 m ρ c)
theorem W4_v6 : W4 m ρ c (Proc.devRef .tc main_v6 : DevRef τ sig) = vC m c := (W4_of_ne m ρ c main_v6 (by decide)).trans (W3_v6 m ρ c)
theorem W4_v28 : W4 m ρ c (Proc.devRef .tc main_v28 : DevRef τ sig) = vK m c := (W4_of_ne m ρ c main_v28 (by decide)).trans (W3_v28 m ρ c)
theorem W4_v31 : W4 m ρ c (Proc.devRef .tc main_v31 : DevRef τ sig) = wStack (a2 m c) := (W4_of_ne m ρ c main_v31 (by decide)).trans (W3_v31 m ρ c)
theorem W4_v33 : W4 m ρ c (Proc.devRef .tc main_v33 : DevRef τ sig) = wStack (a4 m c) := (W4_of_ne m ρ c main_v33 (by decide)).trans (W3_v33 m ρ c)
theorem W4_v34 : W4 m ρ c (Proc.devRef .tc main_v34 : DevRef τ sig) = bStack (a3 m c) := (W4_of_ne m ρ c main_v34 (by decide)).trans (W3_v34 m ρ c)
theorem W4_v35 : W4 m ρ c (Proc.devRef .tc main_v35 : DevRef τ sig) = bStack (a5 m c) := (W4_of_ne m ρ c main_v35 (by decide)).trans (W3_v35 m ρ c)

/-! ### After stretch 2 -/
theorem W5_v3 : W5 m ρ c (Proc.devRef .tc main_v3 : DevRef τ sig) = vR m c := (h2_kept (W4 m ρ c) (r := main_v3) (by decide)).trans (W4_v3 m ρ c)
theorem W5_v6 : W5 m ρ c (Proc.devRef .tc main_v6 : DevRef τ sig) = vC m c := (h2_kept (W4 m ρ c) (r := main_v6) (by decide)).trans (W4_v6 m ρ c)
theorem W5_v28 : W5 m ρ c (Proc.devRef .tc main_v28 : DevRef τ sig) = vK m c := (h2_kept (W4 m ρ c) (r := main_v28) (by decide)).trans (W4_v28 m ρ c)
theorem W5_v31 : W5 m ρ c (Proc.devRef .tc main_v31 : DevRef τ sig) = wStack (a2 m c) := (h2_kept (W4 m ρ c) (r := main_v31) (by decide)).trans (W4_v31 m ρ c)
theorem W5_v33 : W5 m ρ c (Proc.devRef .tc main_v33 : DevRef τ sig) = wStack (a4 m c) := (h2_kept (W4 m ρ c) (r := main_v33) (by decide)).trans (W4_v33 m ρ c)
theorem W5_v34 : W5 m ρ c (Proc.devRef .tc main_v34 : DevRef τ sig) = bStack (a3 m c) := (h2_kept (W4 m ρ c) (r := main_v34) (by decide)).trans (W4_v34 m ρ c)
theorem W5_v35 : W5 m ρ c (Proc.devRef .tc main_v35 : DevRef τ sig) = bStack (a5 m c) := (h2_kept (W4 m ρ c) (r := main_v35) (by decide)).trans (W4_v35 m ρ c)
theorem W5_v79_0 : W5 m ρ c (Proc.devRef .tc main_v79_0 : DevRef τ sig) = (o2 m c).1 := (h2_kept (W4 m ρ c) (r := main_v79_0) (by decide)).trans (W4_v79_0 m ρ c)
theorem W5_v79_1 : W5 m ρ c (Proc.devRef .tc main_v79_1 : DevRef τ sig) = (o2 m c).2 := (h2_kept (W4 m ρ c) (r := main_v79_1) (by decide)).trans (W4_v79_1 m ρ c)
theorem W5_v92 : W5 m ρ c (Proc.devRef .tc main_v92 : DevRef τ sig) = spmm (vR m c) (vC m c) (vK m c) (o2 m c).1 :=
  (h2_v92 (W4 m ρ c)).trans (by rw [W4_v3, W4_v6, W4_v28, W4_v79_0])
theorem W5_v94 : W5 m ρ c (Proc.devRef .tc main_v94 : DevRef τ sig) = wSlab ![2, 0, 0] slices_S3x64x64_S1x64x64_2_0_0 (wStack (a2 m c)) := (h2_v94 (W4 m ρ c)).trans (by rw [W4_v31])
theorem W5_v96 : W5 m ρ c (Proc.devRef .tc main_v96 : DevRef τ sig) = bSlab ![2, 0, 0] slices_S3x1x64_S1x1x64_2_0_0 (bStack (a3 m c)) := (h2_v96 (W4 m ρ c)).trans (by rw [W4_v34])
theorem W5_v98 : W5 m ρ c (Proc.devRef .tc main_v98 : DevRef τ sig) = wSlab ![2, 0, 0] slices_S3x64x64_S1x64x64_2_0_0 (wStack (a4 m c)) := (h2_v98 (W4 m ρ c)).trans (by rw [W4_v33])
theorem W5_v100 : W5 m ρ c (Proc.devRef .tc main_v100 : DevRef τ sig) = bSlab ![2, 0, 0] slices_S3x1x64_S1x1x64_2_0_0 (bStack (a5 m c)) := (h2_v100 (W4 m ρ c)).trans (by rw [W4_v35])

/-! ### After launch 2 -/
theorem W6_v101_1 : W6 m ρ c (Proc.devRef .tc main_v101_1 : DevRef τ sig) = (o3 m c).2 :=
  (W6_arr m ρ c 8).trans <| (final2_8 (V5 m ρ) c).trans <| by
    show accOut (W5 m ρ c (Proc.devRef .tc main_v92 : DevRef τ sig)) (W5 m ρ c (Proc.devRef .tc main_v79_0 : DevRef τ sig)) (W5 m ρ c (Proc.devRef .tc main_v79_1 : DevRef τ sig)) (W5 m ρ c (Proc.devRef .tc main_v94 : DevRef τ sig))
      (W5 m ρ c (Proc.devRef .tc main_v96 : DevRef τ sig)) (W5 m ρ c (Proc.devRef .tc main_v98 : DevRef τ sig)) (W5 m ρ c (Proc.devRef .tc main_v100 : DevRef τ sig)) = _
    rw [W5_v92, W5_v79_0, W5_v79_1, W5_v94, W5_v96, W5_v98, W5_v100, o3_eq]
    exact bridge2_snd _ _ _ _ _ _ _

/-! ### The end of the program -/

/-- The first result buffer at the end of the fold: the reference's users' embeddings of the arguments. -/
theorem value_v104 : W7 m ρ c (Proc.devRef .tc main_v104 : DevRef τ sig)
    = Cert.ReferenceIdeal.RefRun.refU (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (h3_v104 (W6 m ρ c)).trans (by rw [W6_v101_1]; rfl)

/-- The second result buffer at the end of the fold: the reference's items' embeddings of the arguments. -/
theorem value_v105 : W7 m ρ c (Proc.devRef .tc main_v105 : DevRef τ sig)
    = Cert.ReferenceIdeal.RefRun.refI (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (h3_v105 (W6 m ρ c)).trans (by rw [W6_v101_1]; rfl)

end Value

/-- From any memory with zero counters every weakly fair execution of the program terminates with the two results at
    the reference's named terms of the arguments' launch contents, the arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v104)
          = Cert.ReferenceIdeal.RefRun.refU (F := Ideal) (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
      ∧ r.2.mem ((c.tc : Thread nD τ).loc main_v105)
          = Cert.ReferenceIdeal.RefRun.refI (F := Ideal) (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(h c _ (mem_uc main_v104 (by decide))).trans (value_v104 m ρ c),
     (h c _ (mem_uc main_v105 (by decide))).trans (value_v105 m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c)⟩) (run_all m ρ)

end Cert.KernelIdeal.Hand

end
-- ==== Proof.lean ====
/-
  The claim: the three programs run to the end leaving their arguments unchanged, and the idealized kernel program and
  the idealized reference compute the same two arrays.

  Both programs build the edge list of the symmetric user–item graph with self loops and the normalisation coefficient
  of every edge by the same host operations, and both propagate the embeddings three times: a sparse product with the
  normalised adjacency, then a dense layer on every node's row (two affine maps, one of the propagated row and one of
  its entrywise product with the current row, each through the leaky rectifier, added, and divided by the row's
  Euclidean norm kept above a small positive word), the layer's output added to a running sum; at the end the sum is
  divided by four and split into the users' and the items' rows. The reference applies the dense layer to the whole
  array by host operations; the kernel program applies it to blocks of 3000 rows in a launch of fifty points. A row
  of the layer's output depends only on the same row of its inputs, so the blocks written back are the blocks of the
  whole-array result; the matrix products are the same sums over the extended reals (the kernel transposes the weights
  once on the host and reads them in a narrower format, which changes nothing at the exact instance). No law beyond
  the identity of these sums is used, so the finiteness of the inputs is never opened.
-/
import proofs.«146559_j69123203662125_1_alg».proof.Defs
import proofs.«146559_j69123203662125_1_alg».proof.Proof.Gen.Kernel
import proofs.«146559_j69123203662125_1_alg».proof.Proof.Gen.KernelIdeal
import proofs.«146559_j69123203662125_1_alg».proof.Proof.Gen.ReferenceIdeal
import proofs.«146559_j69123203662125_1_alg».proof.Proof.Gen.Pre_finite_inputs
import proofs.«146559_j69123203662125_1_alg».proof.Proof.KFrame
import proofs.«146559_j69123203662125_1_alg».proof.Proof.KIFrame
import proofs.«146559_j69123203662125_1_alg».proof.Proof.KIValue
import proofs.«146559_j69123203662125_1_alg».proof.Proof.RefRun

noncomputable section

namespace Cert.Proof

open Idealize.ShloMosaic Idealize.ShloMosaic.TcCoe Idealize.SL.Sem

/-- The two idealized programs end with equal results: both at the reference's stages of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.RefRun.refU (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.RefRun.refI (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Hand.run_value m ρ, ?_⟩
  refine (θ_run Cert.ReferenceIdeal.defs _ _).mono (fun r h c => ?_) (Cert.ReferenceIdeal.RefRun.run_res (F := Ideal) m' ρ')
  obtain ⟨h0, h1, h2, h3, h4, h5, h6, h7⟩ := hagree c
  obtain ⟨hu, hi, hargs⟩ := h c
  refine ⟨hu.trans ?_, hi.trans ?_, hargs⟩
  · rw [h0, h1, h2, h3, h4, h5, h6, h7]
  · rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  Cert.ReferenceIdeal.RefRun.frame_ri,
  trivial,
  algebraic⟩

end Cert.Proof

end
